-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8 : Shape := ⟨2, ![1024, 8]⟩
abbrev S1024x32 : Shape := ⟨2, ![1024, 32]⟩
abbrev S1024x4 : Shape := ⟨2, ![1024, 4]⟩
abbrev S256x17x3 : Shape := ⟨3, ![256, 17, 3]⟩
abbrev S1024x17x56x56 : Shape := ⟨4, ![1024, 17, 56, 56]⟩
abbrev S1024 : Shape := ⟨1, ![1024]⟩
abbrev S_ : Shape := ⟨0, ![]⟩

class Facts : Prop where
  bcast_S_S1024x8 : S_.BroadcastsInDim S1024x8 (![] : Fin 0 → Fin S1024x8.rank)
  reducesTo_S1024x8_S_d0_1 : S1024x8.ReducesTo [0, 1] S_
  h_S_ : 0 < S_.numel
  bcast_S_S1024x32 : S_.BroadcastsInDim S1024x32 (![] : Fin 0 → Fin S1024x32.rank)
  reducesTo_S1024x32_S_d0_1 : S1024x32.ReducesTo [0, 1] S_
  bcast_S_S1024x4 : S_.BroadcastsInDim S1024x4 (![] : Fin 0 → Fin S1024x4.rank)
  reducesTo_S1024x4_S_d0_1 : S1024x4.ReducesTo [0, 1] S_
  bcast_S_S256x17x3 : S_.BroadcastsInDim S256x17x3 (![] : Fin 0 → Fin S256x17x3.rank)
  reducesTo_S256x17x3_S_d0_1_2 : S256x17x3.ReducesTo [0, 1, 2] S_
  bcast_S_S1024x17x56x56 : S_.BroadcastsInDim S1024x17x56x56 (![] : Fin 0 → Fin S1024x17x56x56.rank)
  reducesTo_S1024x17x56x56_S_d0_1_2_3 : S1024x17x56x56.ReducesTo [0, 1, 2, 3] S_

variable [Facts]

def fn_part1 {F : FTy → Type} [FloatOps F] (main_arg4 : FVec F S256x17x3 .f32) (main_arg5 : FVec F S1024x17x56x56 .f32) (main_v13 : IVec S_ 1) (main_v16 : IVec S1024x4 1) : IVec S_ 1 :=
  let main_c_5 : IVec S_ 1 := constantI S_ 1 1#1
  let main_v17 : IVec S_ 1 := (fun x v => Host.reduce IntOp.andi x v reducesTo_S1024x4_S_d0_1 h_S_) main_v16 main_c_5
  let main_v18 : IVec S_ 1 := andi main_v13 main_v17
  let main_v19 : FVec F S256x17x3 .f32 := Host.absf main_arg4
  let main_cst_6 : FVec F S_ .f32 := constant S_ .f32 0x7F800000#32
  let main_v20 : FVec F S256x17x3 .f32 := broadcastInDim S256x17x3 ![] bcast_S_S256x17x3 main_cst_6
  let main_v21 : IVec S256x17x3 1 := cmpf .olt main_v19 main_v20
  let main_c_7 : IVec S_ 1 := constantI S_ 1 1#1
  let main_v22 : IVec S_ 1 := (fun x v => Host.reduce IntOp.andi x v reducesTo_S256x17x3_S_d0_1_2 h_S_) main_v21 main_c_7
  let main_v23 : IVec S_ 1 := andi main_v18 main_v22
  let main_v24 : FVec F S1024x17x56x56 .f32 := Host.absf main_arg5
  let main_cst_8 : FVec F S_ .f32 := constant S_ .f32 0x7F800000#32
  let main_v25 : FVec F S1024x17x56x56 .f32 := broadcastInDim S1024x17x56x56 ![] bcast_S_S1024x17x56x56 main_cst_8
  let main_v26 : IVec S1024x17x56x56 1 := cmpf .olt main_v24 main_v25
  let main_c_9 : IVec S_ 1 := constantI S_ 1 1#1
  let main_v27 : IVec S_ 1 := (fun x v => Host.reduce IntOp.andi x v reducesTo_S1024x17x56x56_S_d0_1_2_3 h_S_) main_v26 main_c_9
  let main_v28 : IVec S_ 1 := andi main_v23 main_v27
  main_v28

def fn {F : FTy → Type} [FloatOps F] (main_arg0 : FVec F S1024x8 .f32) (main_arg1 : FVec F S1024x32 .f32) (main_arg2 : FVec F S1024x4 .f32) (main_arg3 : FVec F S1024x4 .f32) (main_arg4 : FVec F S256x17x3 .f32) (main_arg5 : FVec F S1024x17x56x56 .f32) (main_arg6 : IVec S1024 32) (main_arg7 : IVec S1024 32) : IVec S_ 1 :=
  let main_v0 : FVec F S1024x8 .f32 := Host.absf main_arg0
  let main_cst : FVec F S_ .f32 := constant S_ .f32 0x7F800000#32
  let main_v1 : FVec F S1024x8 .f32 := broadcastInDim S1024x8 ![] bcast_S_S1024x8 main_cst
  let main_v2 : IVec S1024x8 1 := cmpf .olt main_v0 main_v1
  let main_c : IVec S_ 1 := constantI S_ 1 1#1
  let main_v3 : IVec S_ 1 := (fun x v => Host.reduce IntOp.andi x v reducesTo_S1024x8_S_d0_1 h_S_) main_v2 main_c
  let main_v4 : FVec F S1024x32 .f32 := Host.absf main_arg1
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  let main_v8 : IVec S_ 1 := andi main_v3 main_v7
  let main_v9 : FVec F S1024x4 .f32 := Host.absf main_arg2
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_v14 : FVec F S1024x4 .f32 := Host.absf main_arg3
  let main_cst_4 : FVec F S_ .f32 := constant S_ .f32 0x7F800000#32
  let main_v15 : FVec F S1024x4 .f32 := broadcastInDim S1024x4 ![] bcast_S_S1024x4 main_cst_4
  let main_v16 : IVec S1024x4 1 := cmpf .olt main_v14 main_v15
  fn_part1 (F := F) main_arg4 main_arg5 main_v13 main_v16
-- ==== Kernel.lean ====
abbrev S1024x8 : Shape := ⟨2, ![1024, 8]⟩
abbrev S1024x32 : Shape := ⟨2, ![1024, 32]⟩
abbrev S1024x4 : Shape := ⟨2, ![1024, 4]⟩
abbrev S256x17x3 : Shape := ⟨3, ![256, 17, 3]⟩
abbrev S1024x17x56x56 : Shape := ⟨4, ![1024, 17, 56, 56]⟩
abbrev S1024 : Shape := ⟨1, ![1024]⟩
abbrev S_ : Shape := ⟨0, ![]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x8x4 : Shape := ⟨3, ![1024, 8, 4]⟩
abbrev S1024x1x4 : Shape := ⟨3, ![1024, 1, 4]⟩
abbrev S1024x17x3 : Shape := ⟨3, ![1024, 17, 3]⟩
abbrev S1024x17x1 : Shape := ⟨3, ![1024, 17, 1]⟩
abbrev S1024x17 : Shape := ⟨2, ![1024, 17]⟩
abbrev S17408x3136 : Shape := ⟨2, ![17408, 3136]⟩
abbrev S17408x1 : Shape := ⟨2, ![17408, 1]⟩
abbrev S1x1 : Shape := ⟨2, ![1, 1]⟩
abbrev S256x3136 : Shape := ⟨2, ![256, 3136]⟩
abbrev S256x1 : Shape := ⟨2, ![256, 1]⟩
abbrev S256 : Shape := ⟨1, ![256]⟩
abbrev S3 : Shape := ⟨1, ![3]⟩

abbrev nBuf : Space → Nat
  | .hbm => 212
  | .vmem => 8
  | .smem => 0
  | _ => 0

abbrev hbmTy0_0 (i : Nat) : BufTy := match i % 128 with
  | 0 => ⟨S1024x8, .f32⟩
  | 1 => ⟨S1024x32, .f32⟩
  | 2 => ⟨S1024x4, .f32⟩
  | 3 => ⟨S1024x4, .f32⟩
  | 4 => ⟨S256x17x3, .f32⟩
  | 5 => ⟨S1024x17x56x56, .f32⟩
  | 6 => ⟨S1024, .i32⟩
  | 7 => ⟨S1024, .i32⟩
  | 8 => ⟨S_, .i32⟩
  | 9 => ⟨S1024, .i32⟩
  | 10 => ⟨S1024, .i1⟩
  | 11 => ⟨S_, .f32⟩
  | 12 => ⟨S1024, .f32⟩
  | 13 => ⟨S_, .f32⟩
  | 14 => ⟨S1024, .f32⟩
  | 15 => ⟨S1024, .f32⟩
  | 16 => ⟨S1024x1, .f32⟩
  | 17 => ⟨S1024x8, .f32⟩
  | 18 => ⟨S1024x8, .f32⟩
  | 19 => ⟨S1024x8, .f32⟩
  | 20 => ⟨S_, .f32⟩
  | 21 => ⟨S1024, .f32⟩
  | 22 => ⟨S1024x1, .f32⟩
  | 23 => ⟨S1024x1, .f32⟩
  | 24 => ⟨S1024x8, .f32⟩
  | 25 => ⟨S1024x8, .f32⟩
  | 26 => ⟨S1024x1, .i32⟩
  | 27 => ⟨S_, .i32⟩
  | 28 => ⟨S1024x1, .i32⟩
  | 29 => ⟨S1024x1, .i1⟩
  | 30 => ⟨S_, .i32⟩
  | 31 => ⟨S1024x1, .i32⟩
  | 32 => ⟨S1024x1, .i32⟩
  | 33 => ⟨S1024x1, .i32⟩
  | 34 => ⟨S1024x1x1, .i32⟩
  | 35 => ⟨S1, .i32⟩
  | 36 => ⟨S_, .i32⟩
  | 37 => ⟨S1024x1x1, .i32⟩
  | 38 => ⟨S1024x1x1, .i1⟩
  | 39 => ⟨S1x1x1, .i32⟩
  | 40 => ⟨S1024x1x1, .i32⟩
  | 41 => ⟨S1024x1x1, .i1⟩
  | 42 => ⟨S1024x1x1, .i1⟩
  | 43 => ⟨S_, .i1⟩
  | 44 => ⟨S1024x1, .i1⟩
  | 45 => ⟨S1024x1, .f32⟩
  | 46 => ⟨S_, .f32⟩
  | 47 => ⟨S1024x1, .f32⟩
  | 48 => ⟨S1024x1, .f32⟩
  | 49 => ⟨S1024, .f32⟩
  | 50 => ⟨S1024, .f32⟩
  | 51 => ⟨S1024, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S1024, .f32⟩
  | 59 => ⟨S1024, .f32⟩
  | 60 => ⟨S_, .f32⟩
  | 61 => ⟨S_, .f32⟩
  | 62 => ⟨S_, .f32⟩
  | 63 => ⟨S_, .i32⟩
  | 64 => ⟨S1024, .i32⟩
  | 65 => ⟨S1024, .i1⟩
  | 66 => ⟨S1024x8x4, .f32⟩
  | 67 => ⟨S1024x1x1, .i32⟩
  | 68 => ⟨S_, .i32⟩
  | 69 => ⟨S1024x1x1, .i32⟩
  | 70 => ⟨S1024x1x1, .i1⟩
  | 71 => ⟨S_, .i32⟩
  | 72 => ⟨S1024x1x1, .i32⟩
  | 73 => ⟨S1024x1x1, .i32⟩
  | 74 => ⟨S1024x1x1, .i32⟩
  | 75 => ⟨S1, .i32⟩
  | 76 => ⟨S_, .i32⟩
  | 77 => ⟨S1024x1x1, .i32⟩
  | 78 => ⟨S1024x1x1, .i1⟩
  | 79 => ⟨S1x1x1, .i32⟩
  | 80 => ⟨S1024x1x1, .i32⟩
  | 81 => ⟨S1024x1x1, .i1⟩
  | 82 => ⟨S1024x1x1, .i1⟩
  | 83 => ⟨S_, .i1⟩
  | 84 => ⟨S1024x1, .i1⟩
  | 85 => ⟨S1024x1x4, .f32⟩
  | 86 => ⟨S1024x1x4, .i1⟩
  | 87 => ⟨S_, .f32⟩
  | 88 => ⟨S1024x1x4, .f32⟩
  | 89 => ⟨S1024x1x4, .f32⟩
  | 90 => ⟨S1024x4, .f32⟩
  | 91 => ⟨S1024x4, .f32⟩
  | 92 => ⟨S1024x4, .f32⟩
  | 93 => ⟨S_, .f32⟩
  | 94 => ⟨S1024x4, .f32⟩
  | 95 => ⟨S1024x4, .i1⟩
  | 96 => ⟨S_, .f32⟩
  | 97 => ⟨S1024x4, .f32⟩
  | 98 => ⟨S1024x4, .f32⟩
  | 99 => ⟨S1024x4, .f32⟩
  | 100 => ⟨S_, .f32⟩
  | 101 => ⟨S1024x4, .f32⟩
  | 102 => ⟨S1024x4, .f32⟩
  | 103 => ⟨S_, .f32⟩
  | 104 => ⟨S1024x4, .f32⟩
  | 105 => ⟨S1024x4, .f32⟩
  | 106 => ⟨S1024x4, .f32⟩
  | 107 => ⟨S1024x1, .i1⟩
  | 108 => ⟨S_, .f32⟩
  | 109 => ⟨S_, .f32⟩
  | 110 => ⟨S1024x4, .i1⟩
  | 111 => ⟨S1024x4, .f32⟩
  | 112 => ⟨S1024x4, .f32⟩
  | 113 => ⟨S_, .f32⟩
  | 114 => ⟨S_, .f32⟩
  | 115 => ⟨S_, .f32⟩
  | 116 => ⟨S_, .f32⟩
  | 117 => ⟨S_, .i32⟩
  | 118 => ⟨S1024, .i32⟩
  | 119 => ⟨S1024, .i1⟩
  | 120 => ⟨S_, .i32⟩
  | 121 => ⟨S1024, .i32⟩
  | 122 => ⟨S1024, .i32⟩
  | 123 => ⟨S1024, .i32⟩
  | 124 => ⟨S1024x1, .i32⟩
  | 125 => ⟨S1024x17x3, .f32⟩
  | 126 => ⟨S1024x1, .f32⟩
  | 127 => ⟨S1024x1, .f32⟩
  | _ => ⟨S1024x8, .f32⟩

abbrev hbmTy0_1 (i : Nat) : BufTy := match i % 128 with
  | 0 => ⟨S1024x1, .f32⟩
  | 1 => ⟨S1024x1, .f32⟩
  | 2 => ⟨S1024x1, .f32⟩
  | 3 => ⟨S_, .f32⟩
  | 4 => ⟨S1024x1, .f32⟩
  | 5 => ⟨S1024x1, .f32⟩
  | 6 => ⟨S1024x1, .f32⟩
  | 7 => ⟨S1024x1, .f32⟩
  | 8 => ⟨S1024x1, .f32⟩
  | 9 => ⟨S_, .f32⟩
  | 10 => ⟨S1024x1, .f32⟩
  | 11 => ⟨S1024x1, .f32⟩
  | 12 => ⟨S1024x17x1, .f32⟩
  | 13 => ⟨S1024x17, .f32⟩
  | 14 => ⟨S1024x17x1, .f32⟩
  | 15 => ⟨S1024x17, .f32⟩
  | 16 => ⟨S1024x17x1, .f32⟩
  | 17 => ⟨S1024x17, .f32⟩
  | 18 => ⟨S1024x17, .f32⟩
  | 19 => ⟨S1024x17, .f32⟩
  | 20 => ⟨S1024x17, .f32⟩
  | 21 => ⟨S1024x17, .f32⟩
  | 22 => ⟨S1024x17, .f32⟩
  | 23 => ⟨S1024x17, .i32⟩
  | 24 => ⟨S1024x17, .f32⟩
  | 25 => ⟨S1024x17, .f32⟩
  | 26 => ⟨S1024x17, .f32⟩
  | 27 => ⟨S1024x17, .f32⟩
  | 28 => ⟨S1024x17, .f32⟩
  | 29 => ⟨S1024x17, .i32⟩
  | 30 => ⟨S1024x1, .f32⟩
  | 31 => ⟨S1024x17, .f32⟩
  | 32 => ⟨S1024x17, .i1⟩
  | 33 => ⟨S_, .i32⟩
  | 34 => ⟨S_, .i32⟩
  | 35 => ⟨S1024x17, .i32⟩
  | 36 => ⟨S1024x17, .i32⟩
  | 37 => ⟨S1024x1, .f32⟩
  | 38 => ⟨S1024x17, .f32⟩
  | 39 => ⟨S1024x17, .i1⟩
  | 40 => ⟨S_, .i32⟩
  | 41 => ⟨S_, .i32⟩
  | 42 => ⟨S1024x17, .i32⟩
  | 43 => ⟨S1024x17, .i32⟩
  | 44 => ⟨S_, .i32⟩
  | 45 => ⟨S1024x17, .i32⟩
  | 46 => ⟨S1024x17, .i1⟩
  | 47 => ⟨S_, .i32⟩
  | 48 => ⟨S1024x17, .i32⟩
  | 49 => ⟨S1024x17, .i1⟩
  | 50 => ⟨S1024x17, .i1⟩
  | 51 => ⟨S_, .i32⟩
  | 52 => ⟨S1024x17, .i32⟩
  | 53 => ⟨S1024x17, .i1⟩
  | 54 => ⟨S1024x17, .i1⟩
  | 55 => ⟨S_, .i32⟩
  | 56 => ⟨S1024x17, .i32⟩
  | 57 => ⟨S1024x17, .i1⟩
  | 58 => ⟨S1024x17, .i1⟩
  | 59 => ⟨S_, .f32⟩
  | 60 => ⟨S1024x17, .f32⟩
  | 61 => ⟨S1024x17, .i1⟩
  | 62 => ⟨S1024x17, .i1⟩
  | 63 => ⟨S_, .i32⟩
  | 64 => ⟨S1024x17, .i32⟩
  | 65 => ⟨S1024x17, .i32⟩
  | 66 => ⟨S1024x17, .i32⟩
  | 67 => ⟨S1024x17, .i32⟩
  | 68 => ⟨S1024x17, .i32⟩
  | 69 => ⟨S17408x3136, .f32⟩
  | 70 => ⟨S17408x1, .i32⟩
  | 71 => ⟨S17408x1, .i1⟩
  | 72 => ⟨S17408x1, .f32⟩
  | 73 => ⟨S1x1, .f32⟩
  | 74 => ⟨S1x1, .f32⟩
  | 75 => ⟨S_, .f32⟩
  | 76 => ⟨S_, .f32⟩
  | 77 => ⟨S_, .f32⟩
  | 78 => ⟨S_, .f32⟩
  | 79 => ⟨S_, .f32⟩
  | 80 => ⟨S1, .f32⟩
  | 81 => ⟨S1, .f32⟩
  | 82 => ⟨S1, .f32⟩
  | 83 => ⟨S3, .f32⟩
  | _ => ⟨S1024x8, .f32⟩

abbrev hbmTy (i : Nat) : BufTy := match i / 128 with
  | 0 => hbmTy0_0 i
  | 1 => hbmTy0_1 i
  | _ => ⟨S1024x8, .f32⟩

abbrev bufTy : (tb : Table) → Fin (tcTables nBuf tb) → BufTy
  | .hbm, ⟨i, _⟩ => hbmTy i
  | .local _ .vmem, ⟨0, _⟩ => ⟨S256x3136, .f32⟩
  | .local _ .vmem, ⟨1, _⟩ => ⟨S256x3136, .f32⟩
  | .local _ .vmem, ⟨2, _⟩ => ⟨S256x1, .i32⟩
  | .local _ .vmem, ⟨3, _⟩ => ⟨S256x1, .i32⟩
  | .local _ .vmem, ⟨4, _⟩ => ⟨S256x1, .f32⟩
  | .local _ .vmem, ⟨5, _⟩ => ⟨S256x1, .f32⟩
  | .local _ .vmem, ⟨6, _⟩ => ⟨S1x1, .f32⟩
  | .local _ .vmem, ⟨7, _⟩ => ⟨S1x1, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v2 : Ref sig .tc := ⟨.hbm, 25, rfl⟩
abbrev main_v3 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_cst : Ref sig .tc := ⟨.hbm, 52, rfl⟩
abbrev main_v8 : Ref sig .tc := ⟨.hbm, 53, rfl⟩
abbrev main_cst_0 : Ref sig .tc := ⟨.hbm, 54, rfl⟩
abbrev main_v9 : Ref sig .tc := ⟨.hbm, 55, rfl⟩
abbrev main_cst_1 : Ref sig .tc := ⟨.hbm, 56, rfl⟩
abbrev main_call2_v0 : Ref sig .tc := ⟨.hbm, 57, rfl⟩
abbrev main_call2_v1 : Ref sig .tc := ⟨.hbm, 58, rfl⟩
abbrev main_v10 : Ref sig .tc := ⟨.hbm, 59, rfl⟩
abbrev main_cst_2 : Ref sig .tc := ⟨.hbm, 60, rfl⟩
abbrev main_v11 : Ref sig .tc := ⟨.hbm, 61, rfl⟩
abbrev main_v12 : Ref sig .tc := ⟨.hbm, 62, rfl⟩
abbrev main_c_3 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_c_1 : Ref sig .tc := ⟨.hbm, 75, rfl⟩
abbrev main_call3_c_2 : Ref sig .tc := ⟨.hbm, 76, rfl⟩
abbrev main_call3_v5 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_c_3 : Ref sig .tc := ⟨.hbm, 83, rfl⟩
abbrev main_call3_v11 : Ref sig .tc := ⟨.hbm, 84, rfl⟩
abbrev main_call3_v12 : Ref sig .tc := ⟨.hbm, 85, rfl⟩
abbrev main_call3_v13 : Ref sig .tc := ⟨.hbm, 86, rfl⟩
abbrev main_call3_cst : Ref sig .tc := ⟨.hbm, 87, rfl⟩
abbrev main_call3_v14 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_cst_4 : Ref sig .tc := ⟨.hbm, 93, rfl⟩
abbrev main_v21 : Ref sig .tc := ⟨.hbm, 94, rfl⟩
abbrev main_v22 : Ref sig .tc := ⟨.hbm, 95, rfl⟩
abbrev main_cst_5 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_cst_6 : Ref sig .tc := ⟨.hbm, 100, rfl⟩
abbrev main_v26 : Ref sig .tc := ⟨.hbm, 101, rfl⟩
abbrev main_v27 : Ref sig .tc := ⟨.hbm, 102, rfl⟩
abbrev main_cst_7 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_cst_8 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_v32 : Ref sig .tc := ⟨.hbm, 112, rfl⟩
abbrev main_cst_9 : Ref sig .tc := ⟨.hbm, 113, rfl⟩
abbrev main_v33 : Ref sig .tc := ⟨.hbm, 114, rfl⟩
abbrev main_cst_10 : Ref sig .tc := ⟨.hbm, 115, rfl⟩
abbrev main_v34 : Ref sig .tc := ⟨.hbm, 116, rfl⟩
abbrev main_c_11 : Ref sig .tc := ⟨.hbm, 117, rfl⟩
abbrev main_v35 : Ref sig .tc := ⟨.hbm, 118, rfl⟩
abbrev main_v36 : Ref sig .tc := ⟨.hbm, 119, rfl⟩
abbrev main_c_12 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_cst_13 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_cst_14 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_c_15 : Ref sig .tc := ⟨.hbm, 161, rfl⟩
abbrev main_call6_v0 : Ref sig .tc := ⟨.hbm, 162, rfl⟩
abbrev main_call6_v1 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_c_16 : Ref sig .tc := ⟨.hbm, 168, rfl⟩
abbrev main_call7_v0 : Ref sig .tc := ⟨.hbm, 169, rfl⟩
abbrev main_call7_v1 : Ref sig .tc := ⟨.hbm, 170, rfl⟩
abbrev main_v79 : Ref sig .tc := ⟨.hbm, 171, rfl⟩
abbrev main_c_17 : Ref sig .tc := ⟨.hbm, 172, rfl⟩
abbrev main_v80 : Ref sig .tc := ⟨.hbm, 173, rfl⟩
abbrev main_v81 : Ref sig .tc := ⟨.hbm, 174, rfl⟩
abbrev main_c_18 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_c_19 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_c_20 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_cst_21 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_c_22 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_v103_0 : Ref sig .tc := ⟨.hbm, 201, rfl⟩
abbrev main_v103_1 : Ref sig .tc := ⟨.hbm, 202, rfl⟩
abbrev main_v104 : Ref sig .tc := ⟨.hbm, 203, rfl⟩
abbrev main_v105 : Ref sig .tc := ⟨.hbm, 204, rfl⟩
abbrev main_cst_23 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S1024 : S_.BroadcastsInDim S1024 (![] : Fin 0 → Fin S1024.rank)
  reducesTo_S1024x8_S1024_d1 : S1024x8.ReducesTo [1] S1024
  h_S_ : 0 < S_.numel
  bcast_S1024_S1024x1_0 : S1024.BroadcastsInDim S1024x1 (![0] : Fin 1 → Fin S1024x1.rank)
  bcast_S1024x1_S1024x8_0_1 : S1024x1.BroadcastsInDim S1024x8 (![0, 1] : Fin 2 → Fin S1024x8.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  reducesTo_S1024_S_d0 : S1024.ReducesTo [0] S_
  shapeCasts_S1024x32_S1024x8x4 : S1024x32.ShapeCasts S1024x8x4
  bcast_S1024_S1024x1x1_0 : S1024.BroadcastsInDim S1024x1x1 (![0] : Fin 1 → Fin S1024x1x1.rank)
  bcast_S1024x1_S1024x1x4_0_1 : S1024x1.BroadcastsInDim S1024x1x4 (![0, 1] : Fin 2 → Fin S1024x1x4.rank)
  bcast_S_S1024x1x4 : S_.BroadcastsInDim S1024x1x4 (![] : Fin 0 → Fin S1024x1x4.rank)
  shapeCasts_S1024x1x4_S1024x4 : S1024x1x4.ShapeCasts S1024x4
  bcast_S_S1024x4 : S_.BroadcastsInDim S1024x4 (![] : Fin 0 → Fin S1024x4.rank)
  bcast_S1024x1_S1024x4_0_1 : S1024x1.BroadcastsInDim S1024x4 (![0, 1] : Fin 2 → Fin S1024x4.rank)
  reducesTo_S1024x4_S_d0_1 : S1024x4.ReducesTo [0, 1] S_
  slices_S1024x4_S1024x1_0_0 : S1024x4.Slices ![0, 0] S1024x1
  slices_S1024x4_S1024x1_0_1 : S1024x4.Slices ![0, 1] S1024x1
  slices_S1024x4_S1024x1_0_2 : S1024x4.Slices ![0, 2] S1024x1
  slices_S1024x4_S1024x1_0_3 : S1024x4.Slices ![0, 3] S1024x1
  slices_S1024x17x3_S1024x17x1_0_0_0 : S1024x17x3.Slices ![0, 0, 0] S1024x17x1
  shapeCasts_S1024x17x1_S1024x17 : S1024x17x1.ShapeCasts S1024x17
  slices_S1024x17x3_S1024x17x1_0_0_1 : S1024x17x3.Slices ![0, 0, 1] S1024x17x1
  slices_S1024x17x3_S1024x17x1_0_0_2 : S1024x17x3.Slices ![0, 0, 2] S1024x17x1
  bcast_S1024x1_S1024x17_0_1 : S1024x1.BroadcastsInDim S1024x17 (![0, 1] : Fin 2 → Fin S1024x17.rank)
  bcast_S_S1024x17 : S_.BroadcastsInDim S1024x17 (![] : Fin 0 → Fin S1024x17.rank)
  natLt_1_32 : 1 < 32
  shapeCasts_S1024x17x56x56_S17408x3136 : S1024x17x56x56.ShapeCasts S17408x3136
  shapeCasts_S1024x17_S17408x1 : S1024x17.ShapeCasts S17408x1
  inb_S1x1_S1x1_0_0 : ∀ a, (![0, 0] : Fin 2 → Nat) a + S1x1.size a ≤ S1x1.size a
  h_S1x1 : 0 < S1x1.numel
  inb_S256x3136_S256x3136_0_0 : ∀ a, (![0, 0] : Fin 2 → Nat) a + S256x3136.size a ≤ S256x3136.size a
  h_S256x3136 : 0 < S256x3136.numel
  shapeCasts_S256x3136_S256x3136 : S256x3136.ShapeCasts S256x3136
  reduces_S256x3136_S256 : S256x3136.Reduces [1] S256
  shapeCasts_S256_S256x1 : S256.ShapeCasts S256x1
  broadcasts_S256x1_S256x3136 : S256x1.Broadcasts S256x3136
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x3136_d1_w32 : S256x3136.Iotas .tc 32 [1]
  shapeCasts_S1x1_S1x1 : S1x1.ShapeCasts S1x1
  reduces_S256x1_S1 : S256x1.Reduces [0] S1
  shapeCasts_S1_S1x1 : S1.ShapeCasts S1x1
  shapeCasts_S1x1_S_ : S1x1.ShapeCasts S_
  bcast_S_S1 : S_.BroadcastsInDim S1 (![] : Fin 0 → Fin S1.rank)
  concatenates_S1_S1_S1_S3_d0 : Shape.Concatenates [S1, S1, S1] S3 0
  gather_S1024x8_S1024x1x1_S1024x1_n_1_0_0_1_2_11_wf : GatherDims.WF S1024x8 S1024x1x1 S1024x1 [] [1] [0] [1] [0] 2 ![1, 1]
  gather_S1024x8x4_S1024x1x1_S1024x1x4_2_1_0_0_1_2_114_wf : GatherDims.WF S1024x8x4 S1024x1x1 S1024x1x4 [2] [1] [0] [1] [0] 2 ![1, 1, 4]
  gather_S256x17x3_S1024x1_S1024x17x3_12_0_n_n_0_1_1173_wf : GatherDims.WF S256x17x3 S1024x1 S1024x17x3 [1, 2] [0] [] [0] [] 1 ![1, 17, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3136.size a ≤ S17408x3136.size a
  hwx0_0 : ∀ i : grid0.Coords, EltTy.bits .f32 = 32 ∨ (Rect.block (s := S17408x3136) S256x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S17408x1.size a
  hwx0_1 : ∀ i : grid0.Coords, EltTy.bits .i32 = 32 ∨ (Rect.block (s := S17408x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S17408x1.size a
  hwx0_2 : ∀ i : grid0.Coords, EltTy.bits .f32 = 32 ∨ (Rect.block (s := S17408x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S1024x8_S1024x1x1_S1024x1_n_1_0_0_1_2_11 : GatherDims S1024x8 S1024x1x1 S1024x1 where
  offsetDims := []
  collapsedSliceDims := [1]
  operandBatchingDims := [0]
  startIndicesBatchingDims := [0]
  startIndexMap := [1]
  indexVectorDim := 2
  sliceSizes := ![1, 1]
  wf := gather_S1024x8_S1024x1x1_S1024x1_n_1_0_0_1_2_11_wf
def gather_S1024x8x4_S1024x1x1_S1024x1x4_2_1_0_0_1_2_114 : GatherDims S1024x8x4 S1024x1x1 S1024x1x4 where
  offsetDims := [2]
  collapsedSliceDims := [1]
  operandBatchingDims := [0]
  startIndicesBatchingDims := [0]
  startIndexMap := [1]
  indexVectorDim := 2
  sliceSizes := ![1, 1, 4]
  wf := gather_S1024x8x4_S1024x1x1_S1024x1x4_2_1_0_0_1_2_114_wf
def gather_S256x17x3_S1024x1_S1024x17x3_12_0_n_n_0_1_1173 : GatherDims S256x17x3 S1024x1 S1024x17x3 where
  offsetDims := [1, 2]
  collapsedSliceDims := [0]
  operandBatchingDims := []
  startIndicesBatchingDims := []
  startIndexMap := [0]
  indexVectorDim := 1
  sliceSizes := ![1, 17, 3]
  wf := gather_S256x17x3_S1024x1_S1024x17x3_12_0_n_n_0_1_1173_wf

abbrev win0_0 : Pipeline.Window sig grid0 :=
  Pipeline.Window.ofSpec (Memref.whole main_v99) S256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v100) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v102) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v103_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v103_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x8 : Shape := ⟨2, ![1024, 8]⟩
abbrev S1024x32 : Shape := ⟨2, ![1024, 32]⟩
abbrev S1024x4 : Shape := ⟨2, ![1024, 4]⟩
abbrev S256x17x3 : Shape := ⟨3, ![256, 17, 3]⟩
abbrev S1024x17x56x56 : Shape := ⟨4, ![1024, 17, 56, 56]⟩
abbrev S1024 : Shape := ⟨1, ![1024]⟩
abbrev S_ : Shape := ⟨0, ![]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1024x8x4 : Shape := ⟨3, ![1024, 8, 4]⟩
abbrev S1024x1x4 : Shape := ⟨3, ![1024, 1, 4]⟩
abbrev S1024x17x3 : Shape := ⟨3, ![1024, 17, 3]⟩
abbrev S1024x17x1 : Shape := ⟨3, ![1024, 17, 1]⟩
abbrev S1024x17 : Shape := ⟨2, ![1024, 17]⟩
abbrev S17408x3136 : Shape := ⟨2, ![17408, 3136]⟩
abbrev S17408 : Shape := ⟨1, ![17408]⟩
abbrev S17408x1 : Shape := ⟨2, ![17408, 1]⟩
abbrev S17408x1x1 : Shape := ⟨3, ![17408, 1, 1]⟩
abbrev S3 : Shape := ⟨1, ![3]⟩

abbrev nBuf : Space → Nat
  | .hbm => 256
  | .vmem => 0
  | .smem => 0
  | _ => 0

abbrev hbmTy0_0 (i : Nat) : BufTy := match i % 128 with
  | 0 => ⟨S1024x8, .f32⟩
  | 1 => ⟨S1024x32, .f32⟩
  | 2 => ⟨S1024x4, .f32⟩
  | 3 => ⟨S1024x4, .f32⟩
  | 4 => ⟨S256x17x3, .f32⟩
  | 5 => ⟨S1024x17x56x56, .f32⟩
  | 6 => ⟨S1024, .i32⟩
  | 7 => ⟨S1024, .i32⟩
  | 8 => ⟨S_, .i32⟩
  | 9 => ⟨S1024, .i32⟩
  | 10 => ⟨S1024, .i1⟩
  | 11 => ⟨S_, .f32⟩
  | 12 => ⟨S1024, .f32⟩
  | 13 => ⟨S_, .f32⟩
  | 14 => ⟨S1024, .f32⟩
  | 15 => ⟨S1024, .f32⟩
  | 16 => ⟨S1024x1, .f32⟩
  | 17 => ⟨S1024x8, .f32⟩
  | 18 => ⟨S1024x8, .f32⟩
  | 19 => ⟨S1024x8, .f32⟩
  | 20 => ⟨S_, .f32⟩
  | 21 => ⟨S1024, .f32⟩
  | 22 => ⟨S1024x1, .f32⟩
  | 23 => ⟨S1024x1, .f32⟩
  | 24 => ⟨S1024x8, .f32⟩
  | 25 => ⟨S1024x8, .f32⟩
  | 26 => ⟨S1024x1, .i32⟩
  | 27 => ⟨S_, .i32⟩
  | 28 => ⟨S1024x1, .i32⟩
  | 29 => ⟨S1024x1, .i1⟩
  | 30 => ⟨S_, .i32⟩
  | 31 => ⟨S1024x1, .i32⟩
  | 32 => ⟨S1024x1, .i32⟩
  | 33 => ⟨S1024x1, .i32⟩
  | 34 => ⟨S1024x1x1, .i32⟩
  | 35 => ⟨S1, .i32⟩
  | 36 => ⟨S_, .i32⟩
  | 37 => ⟨S1024x1x1, .i32⟩
  | 38 => ⟨S1024x1x1, .i1⟩
  | 39 => ⟨S1x1x1, .i32⟩
  | 40 => ⟨S1024x1x1, .i32⟩
  | 41 => ⟨S1024x1x1, .i1⟩
  | 42 => ⟨S1024x1x1, .i1⟩
  | 43 => ⟨S_, .i1⟩
  | 44 => ⟨S1024x1, .i1⟩
  | 45 => ⟨S1024x1, .f32⟩
  | 46 => ⟨S_, .f32⟩
  | 47 => ⟨S1024x1, .f32⟩
  | 48 => ⟨S1024x1, .f32⟩
  | 49 => ⟨S1024, .f32⟩
  | 50 => ⟨S1024, .f32⟩
  | 51 => ⟨S1024, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S1024, .f32⟩
  | 59 => ⟨S1024, .f32⟩
  | 60 => ⟨S_, .f32⟩
  | 61 => ⟨S_, .f32⟩
  | 62 => ⟨S_, .f32⟩
  | 63 => ⟨S_, .i32⟩
  | 64 => ⟨S1024, .i32⟩
  | 65 => ⟨S1024, .i1⟩
  | 66 => ⟨S1024x8x4, .f32⟩
  | 67 => ⟨S1024x1x1, .i32⟩
  | 68 => ⟨S_, .i32⟩
  | 69 => ⟨S1024x1x1, .i32⟩
  | 70 => ⟨S1024x1x1, .i1⟩
  | 71 => ⟨S_, .i32⟩
  | 72 => ⟨S1024x1x1, .i32⟩
  | 73 => ⟨S1024x1x1, .i32⟩
  | 74 => ⟨S1024x1x1, .i32⟩
  | 75 => ⟨S1, .i32⟩
  | 76 => ⟨S_, .i32⟩
  | 77 => ⟨S1024x1x1, .i32⟩
  | 78 => ⟨S1024x1x1, .i1⟩
  | 79 => ⟨S1x1x1, .i32⟩
  | 80 => ⟨S1024x1x1, .i32⟩
  | 81 => ⟨S1024x1x1, .i1⟩
  | 82 => ⟨S1024x1x1, .i1⟩
  | 83 => ⟨S_, .i1⟩
  | 84 => ⟨S1024x1, .i1⟩
  | 85 => ⟨S1024x1x4, .f32⟩
  | 86 => ⟨S1024x1x4, .i1⟩
  | 87 => ⟨S_, .f32⟩
  | 88 => ⟨S1024x1x4, .f32⟩
  | 89 => ⟨S1024x1x4, .f32⟩
  | 90 => ⟨S1024x4, .f32⟩
  | 91 => ⟨S1024x4, .f32⟩
  | 92 => ⟨S1024x4, .f32⟩
  | 93 => ⟨S_, .f32⟩
  | 94 => ⟨S1024x4, .f32⟩
  | 95 => ⟨S1024x4, .i1⟩
  | 96 => ⟨S_, .f32⟩
  | 97 => ⟨S1024x4, .f32⟩
  | 98 => ⟨S1024x4, .f32⟩
  | 99 => ⟨S1024x4, .f32⟩
  | 100 => ⟨S_, .f32⟩
  | 101 => ⟨S1024x4, .f32⟩
  | 102 => ⟨S1024x4, .f32⟩
  | 103 => ⟨S_, .f32⟩
  | 104 => ⟨S1024x4, .f32⟩
  | 105 => ⟨S1024x4, .f32⟩
  | 106 => ⟨S1024x4, .f32⟩
  | 107 => ⟨S1024x1, .i1⟩
  | 108 => ⟨S_, .f32⟩
  | 109 => ⟨S_, .f32⟩
  | 110 => ⟨S1024x4, .i1⟩
  | 111 => ⟨S1024x4, .f32⟩
  | 112 => ⟨S1024x4, .f32⟩
  | 113 => ⟨S_, .f32⟩
  | 114 => ⟨S_, .f32⟩
  | 115 => ⟨S_, .f32⟩
  | 116 => ⟨S_, .f32⟩
  | 117 => ⟨S_, .i32⟩
  | 118 => ⟨S1024, .i32⟩
  | 119 => ⟨S1024, .i1⟩
  | 120 => ⟨S_, .i32⟩
  | 121 => ⟨S1024, .i32⟩
  | 122 => ⟨S1024, .i32⟩
  | 123 => ⟨S1024, .i32⟩
  | 124 => ⟨S1024x1, .i32⟩
  | 125 => ⟨S1024x17x3, .f32⟩
  | 126 => ⟨S1024x1, .f32⟩
  | 127 => ⟨S1024x1, .f32⟩
  | _ => ⟨S1024x8, .f32⟩

abbrev hbmTy0_1 (i : Nat) : BufTy := match i % 128 with
  | 0 => ⟨S1024x1, .f32⟩
  | 1 => ⟨S1024x1, .f32⟩
  | 2 => ⟨S1024x1, .f32⟩
  | 3 => ⟨S_, .f32⟩
  | 4 => ⟨S1024x1, .f32⟩
  | 5 => ⟨S1024x1, .f32⟩
  | 6 => ⟨S1024x1, .f32⟩
  | 7 => ⟨S1024x1, .f32⟩
  | 8 => ⟨S1024x1, .f32⟩
  | 9 => ⟨S_, .f32⟩
  | 10 => ⟨S1024x1, .f32⟩
  | 11 => ⟨S1024x1, .f32⟩
  | 12 => ⟨S1024x17x1, .f32⟩
  | 13 => ⟨S1024x17, .f32⟩
  | 14 => ⟨S1024x17x1, .f32⟩
  | 15 => ⟨S1024x17, .f32⟩
  | 16 => ⟨S1024x17x1, .f32⟩
  | 17 => ⟨S1024x17, .f32⟩
  | 18 => ⟨S1024x17, .f32⟩
  | 19 => ⟨S1024x17, .f32⟩
  | 20 => ⟨S1024x17, .f32⟩
  | 21 => ⟨S1024x17, .f32⟩
  | 22 => ⟨S1024x17, .f32⟩
  | 23 => ⟨S1024x17, .i32⟩
  | 24 => ⟨S1024x17, .f32⟩
  | 25 => ⟨S1024x17, .f32⟩
  | 26 => ⟨S1024x17, .f32⟩
  | 27 => ⟨S1024x17, .f32⟩
  | 28 => ⟨S1024x17, .f32⟩
  | 29 => ⟨S1024x17, .i32⟩
  | 30 => ⟨S1024x1, .f32⟩
  | 31 => ⟨S1024x17, .f32⟩
  | 32 => ⟨S1024x17, .i1⟩
  | 33 => ⟨S_, .i32⟩
  | 34 => ⟨S_, .i32⟩
  | 35 => ⟨S1024x17, .i32⟩
  | 36 => ⟨S1024x17, .i32⟩
  | 37 => ⟨S1024x1, .f32⟩
  | 38 => ⟨S1024x17, .f32⟩
  | 39 => ⟨S1024x17, .i1⟩
  | 40 => ⟨S_, .i32⟩
  | 41 => ⟨S_, .i32⟩
  | 42 => ⟨S1024x17, .i32⟩
  | 43 => ⟨S1024x17, .i32⟩
  | 44 => ⟨S_, .i32⟩
  | 45 => ⟨S1024x17, .i32⟩
  | 46 => ⟨S1024x17, .i1⟩
  | 47 => ⟨S_, .i32⟩
  | 48 => ⟨S1024x17, .i32⟩
  | 49 => ⟨S1024x17, .i1⟩
  | 50 => ⟨S1024x17, .i1⟩
  | 51 => ⟨S_, .i32⟩
  | 52 => ⟨S1024x17, .i32⟩
  | 53 => ⟨S1024x17, .i1⟩
  | 54 => ⟨S1024x17, .i1⟩
  | 55 => ⟨S_, .i32⟩
  | 56 => ⟨S1024x17, .i32⟩
  | 57 => ⟨S1024x17, .i1⟩
  | 58 => ⟨S1024x17, .i1⟩
  | 59 => ⟨S_, .f32⟩
  | 60 => ⟨S1024x17, .f32⟩
  | 61 => ⟨S1024x17, .i1⟩
  | 62 => ⟨S1024x17, .i1⟩
  | 63 => ⟨S_, .i32⟩
  | 64 => ⟨S1024x17, .i32⟩
  | 65 => ⟨S1024x17, .i32⟩
  | 66 => ⟨S1024x17, .i32⟩
  | 67 => ⟨S1024x17, .i32⟩
  | 68 => ⟨S1024x17, .i32⟩
  | 69 => ⟨S17408x3136, .f32⟩
  | 70 => ⟨S17408, .i32⟩
  | 71 => ⟨S17408, .i1⟩
  | 72 => ⟨S_, .f32⟩
  | 73 => ⟨S17408, .f32⟩
  | 74 => ⟨S_, .f32⟩
  | 75 => ⟨S17408, .f32⟩
  | 76 => ⟨S17408, .f32⟩
  | 77 => ⟨S17408x1, .f32⟩
  | 78 => ⟨S17408x3136, .f32⟩
  | 79 => ⟨S17408x3136, .f32⟩
  | 80 => ⟨S17408x3136, .f32⟩
  | 81 => ⟨S_, .f32⟩
  | 82 => ⟨S17408, .f32⟩
  | 83 => ⟨S17408x1, .f32⟩
  | 84 => ⟨S17408x1, .f32⟩
  | 85 => ⟨S17408x3136, .f32⟩
  | 86 => ⟨S17408x3136, .f32⟩
  | 87 => ⟨S17408x1, .i32⟩
  | 88 => ⟨S_, .i32⟩
  | 89 => ⟨S17408x1, .i32⟩
  | 90 => ⟨S17408x1, .i1⟩
  | 91 => ⟨S_, .i32⟩
  | 92 => ⟨S17408x1, .i32⟩
  | 93 => ⟨S17408x1, .i32⟩
  | 94 => ⟨S17408x1, .i32⟩
  | 95 => ⟨S17408x1x1, .i32⟩
  | 96 => ⟨S1, .i32⟩
  | 97 => ⟨S_, .i32⟩
  | 98 => ⟨S17408x1x1, .i32⟩
  | 99 => ⟨S17408x1x1, .i1⟩
  | 100 => ⟨S1x1x1, .i32⟩
  | 101 => ⟨S17408x1x1, .i32⟩
  | 102 => ⟨S17408x1x1, .i1⟩
  | 103 => ⟨S17408x1x1, .i1⟩
  | 104 => ⟨S_, .i1⟩
  | 105 => ⟨S17408x1, .i1⟩
  | 106 => ⟨S17408x1, .f32⟩
  | 107 => ⟨S_, .f32⟩
  | 108 => ⟨S17408x1, .f32⟩
  | 109 => ⟨S17408x1, .f32⟩
  | 110 => ⟨S17408, .f32⟩
  | 111 => ⟨S17408, .f32⟩
  | 112 => ⟨S17408, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S17408, .f32⟩
  | 120 => ⟨S17408, .f32⟩
  | 121 => ⟨S_, .f32⟩
  | 122 => ⟨S_, .f32⟩
  | 123 => ⟨S_, .f32⟩
  | 124 => ⟨S1, .f32⟩
  | 125 => ⟨S1, .f32⟩
  | 126 => ⟨S1, .f32⟩
  | 127 => ⟨S3, .f32⟩
  | _ => ⟨S1024x8, .f32⟩

abbrev hbmTy (i : Nat) : BufTy := match i / 128 with
  | 0 => hbmTy0_0 i
  | 1 => hbmTy0_1 i
  | _ => ⟨S1024x8, .f32⟩

abbrev bufTy : (tb : Table) → Fin (tcTables nBuf tb) → BufTy
  | .hbm, ⟨i, _⟩ => hbmTy i
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v2 : Ref sig .tc := ⟨.hbm, 25, rfl⟩
abbrev main_v3 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_cst : Ref sig .tc := ⟨.hbm, 52, rfl⟩
abbrev main_v8 : Ref sig .tc := ⟨.hbm, 53, rfl⟩
abbrev main_cst_0 : Ref sig .tc := ⟨.hbm, 54, rfl⟩
abbrev main_v9 : Ref sig .tc := ⟨.hbm, 55, rfl⟩
abbrev main_cst_1 : Ref sig .tc := ⟨.hbm, 56, rfl⟩
abbrev main_call2_v0 : Ref sig .tc := ⟨.hbm, 57, rfl⟩
abbrev main_call2_v1 : Ref sig .tc := ⟨.hbm, 58, rfl⟩
abbrev main_v10 : Ref sig .tc := ⟨.hbm, 59, rfl⟩
abbrev main_cst_2 : Ref sig .tc := ⟨.hbm, 60, rfl⟩
abbrev main_v11 : Ref sig .tc := ⟨.hbm, 61, rfl⟩
abbrev main_v12 : Ref sig .tc := ⟨.hbm, 62, rfl⟩
abbrev main_c_3 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_c_1 : Ref sig .tc := ⟨.hbm, 75, rfl⟩
abbrev main_call3_c_2 : Ref sig .tc := ⟨.hbm, 76, rfl⟩
abbrev main_call3_v5 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_c_3 : Ref sig .tc := ⟨.hbm, 83, rfl⟩
abbrev main_call3_v11 : Ref sig .tc := ⟨.hbm, 84, rfl⟩
abbrev main_call3_v12 : Ref sig .tc := ⟨.hbm, 85, rfl⟩
abbrev main_call3_v13 : Ref sig .tc := ⟨.hbm, 86, rfl⟩
abbrev main_call3_cst : Ref sig .tc := ⟨.hbm, 87, rfl⟩
abbrev main_call3_v14 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_cst_4 : Ref sig .tc := ⟨.hbm, 93, rfl⟩
abbrev main_v21 : Ref sig .tc := ⟨.hbm, 94, rfl⟩
abbrev main_v22 : Ref sig .tc := ⟨.hbm, 95, rfl⟩
abbrev main_cst_5 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_cst_6 : Ref sig .tc := ⟨.hbm, 100, rfl⟩
abbrev main_v26 : Ref sig .tc := ⟨.hbm, 101, rfl⟩
abbrev main_v27 : Ref sig .tc := ⟨.hbm, 102, rfl⟩
abbrev main_cst_7 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_cst_8 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_v32 : Ref sig .tc := ⟨.hbm, 112, rfl⟩
abbrev main_cst_9 : Ref sig .tc := ⟨.hbm, 113, rfl⟩
abbrev main_v33 : Ref sig .tc := ⟨.hbm, 114, rfl⟩
abbrev main_cst_10 : Ref sig .tc := ⟨.hbm, 115, rfl⟩
abbrev main_v34 : Ref sig .tc := ⟨.hbm, 116, rfl⟩
abbrev main_c_11 : Ref sig .tc := ⟨.hbm, 117, rfl⟩
abbrev main_v35 : Ref sig .tc := ⟨.hbm, 118, rfl⟩
abbrev main_v36 : Ref sig .tc := ⟨.hbm, 119, rfl⟩
abbrev main_c_12 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_cst_13 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_cst_14 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_c_15 : Ref sig .tc := ⟨.hbm, 161, rfl⟩
abbrev main_call6_v0 : Ref sig .tc := ⟨.hbm, 162, rfl⟩
abbrev main_call6_v1 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_c_16 : Ref sig .tc := ⟨.hbm, 168, rfl⟩
abbrev main_call7_v0 : Ref sig .tc := ⟨.hbm, 169, rfl⟩
abbrev main_call7_v1 : Ref sig .tc := ⟨.hbm, 170, rfl⟩
abbrev main_v79 : Ref sig .tc := ⟨.hbm, 171, rfl⟩
abbrev main_c_17 : Ref sig .tc := ⟨.hbm, 172, rfl⟩
abbrev main_v80 : Ref sig .tc := ⟨.hbm, 173, rfl⟩
abbrev main_v81 : Ref sig .tc := ⟨.hbm, 174, rfl⟩
abbrev main_c_18 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_c_19 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_c_20 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_cst_21 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_c_22 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_call8_cst : Ref sig .tc := ⟨.hbm, 200, rfl⟩
abbrev main_call8_v0 : Ref sig .tc := ⟨.hbm, 201, rfl⟩
abbrev main_call8_cst_0 : Ref sig .tc := ⟨.hbm, 202, rfl⟩
abbrev main_call8_v1 : Ref sig .tc := ⟨.hbm, 203, rfl⟩
abbrev main_call8_v2 : Ref sig .tc := ⟨.hbm, 204, rfl⟩
abbrev main_call8_v3 : Ref sig .tc := ⟨.hbm, 205, rfl⟩
abbrev main_call8_v4 : Ref sig .tc := ⟨.hbm, 206, rfl⟩
abbrev main_call8_v5 : Ref sig .tc := ⟨.hbm, 207, rfl⟩
abbrev main_call8_v6 : Ref sig .tc := ⟨.hbm, 208, rfl⟩
abbrev main_call8_cst_1 : Ref sig .tc := ⟨.hbm, 209, rfl⟩
abbrev main_call8_v7 : Ref sig .tc := ⟨.hbm, 210, rfl⟩
abbrev main_call8_v8 : Ref sig .tc := ⟨.hbm, 211, rfl⟩
abbrev main_call8_v9 : Ref sig .tc := ⟨.hbm, 212, rfl⟩
abbrev main_call8_v10 : Ref sig .tc := ⟨.hbm, 213, rfl⟩
abbrev main_v102 : Ref sig .tc := ⟨.hbm, 214, rfl⟩
abbrev main_v103 : Ref sig .tc := ⟨.hbm, 215, rfl⟩
abbrev main_call9_c : Ref sig .tc := ⟨.hbm, 216, rfl⟩
abbrev main_call9_v0 : Ref sig .tc := ⟨.hbm, 217, rfl⟩
abbrev main_call9_v1 : Ref sig .tc := ⟨.hbm, 218, rfl⟩
abbrev main_call9_c_0 : Ref sig .tc := ⟨.hbm, 219, rfl⟩
abbrev main_call9_v2 : Ref sig .tc := ⟨.hbm, 220, rfl⟩
abbrev main_call9_v3 : Ref sig .tc := ⟨.hbm, 221, rfl⟩
abbrev main_call9_v4 : Ref sig .tc := ⟨.hbm, 222, rfl⟩
abbrev main_call9_v5 : Ref sig .tc := ⟨.hbm, 223, rfl⟩
abbrev main_call9_c_1 : Ref sig .tc := ⟨.hbm, 224, rfl⟩
abbrev main_call9_c_2 : Ref sig .tc := ⟨.hbm, 225, rfl⟩
abbrev main_call9_v6 : Ref sig .tc := ⟨.hbm, 226, rfl⟩
abbrev main_call9_v7 : Ref sig .tc := ⟨.hbm, 227, rfl⟩
abbrev main_call9_v8 : Ref sig .tc := ⟨.hbm, 228, rfl⟩
abbrev main_call9_v9 : Ref sig .tc := ⟨.hbm, 229, rfl⟩
abbrev main_call9_v10 : Ref sig .tc := ⟨.hbm, 230, rfl⟩
abbrev main_call9_v11 : Ref sig .tc := ⟨.hbm, 231, rfl⟩
abbrev main_call9_c_3 : Ref sig .tc := ⟨.hbm, 232, rfl⟩
abbrev main_call9_v12 : Ref sig .tc := ⟨.hbm, 233, rfl⟩
abbrev main_call9_v13 : Ref sig .tc := ⟨.hbm, 234, rfl⟩
abbrev main_call9_cst : Ref sig .tc := ⟨.hbm, 235, rfl⟩
abbrev main_call9_v14 : Ref sig .tc := ⟨.hbm, 236, rfl⟩
abbrev main_v104 : Ref sig .tc := ⟨.hbm, 237, rfl⟩
abbrev main_v105 : Ref sig .tc := ⟨.hbm, 238, rfl⟩
abbrev main_v106 : Ref sig .tc := ⟨.hbm, 239, rfl⟩
abbrev main_v107 : Ref sig .tc := ⟨.hbm, 240, rfl⟩
abbrev main_cst_23 : Ref sig .tc := ⟨.hbm, 241, rfl⟩
abbrev main_v108 : Ref sig .tc := ⟨.hbm, 242, rfl⟩
abbrev main_cst_24 : Ref sig .tc := ⟨.hbm, 243, rfl⟩
abbrev main_v109 : Ref sig .tc := ⟨.hbm, 244, rfl⟩
abbrev main_cst_25 : Ref sig .tc := ⟨.hbm, 245, rfl⟩
abbrev main_call10_v0 : Ref sig .tc := ⟨.hbm, 246, rfl⟩
abbrev main_call10_v1 : Ref sig .tc := ⟨.hbm, 247, rfl⟩
abbrev main_v110 : Ref sig .tc := ⟨.hbm, 248, rfl⟩
abbrev main_cst_26 : Ref sig .tc := ⟨.hbm, 249, rfl⟩
abbrev main_v111 : Ref sig .tc := ⟨.hbm, 250, rfl⟩
abbrev main_v112 : Ref sig .tc := ⟨.hbm, 251, rfl⟩
abbrev main_v113 : Ref sig .tc := ⟨.hbm, 252, rfl⟩
abbrev main_v114 : Ref sig .tc := ⟨.hbm, 253, rfl⟩
abbrev main_v115 : Ref sig .tc := ⟨.hbm, 254, rfl⟩
abbrev main_v116 : Ref sig .tc := ⟨.hbm, 255, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  reducesTo_S1024x8_S1024_d1 : S1024x8.ReducesTo [1] S1024
  h_S_ : 0 < S_.numel
  bcast_S1024_S1024x1_0 : S1024.BroadcastsInDim S1024x1 (![0] : Fin 1 → Fin S1024x1.rank)
  bcast_S1024x1_S1024x8_0_1 : S1024x1.BroadcastsInDim S1024x8 (![0, 1] : Fin 2 → Fin S1024x8.rank)
  bcast_S_S1024x1 : S_.BroadcastsInDim S1024x1 (![] : Fin 0 → Fin S1024x1.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  reducesTo_S1024_S_d0 : S1024.ReducesTo [0] S_
  shapeCasts_S1024x32_S1024x8x4 : S1024x32.ShapeCasts S1024x8x4
  bcast_S1024_S1024x1x1_0 : S1024.BroadcastsInDim S1024x1x1 (![0] : Fin 1 → Fin S1024x1x1.rank)
  bcast_S1024x1_S1024x1x4_0_1 : S1024x1.BroadcastsInDim S1024x1x4 (![0, 1] : Fin 2 → Fin S1024x1x4.rank)
  bcast_S_S1024x1x4 : S_.BroadcastsInDim S1024x1x4 (![] : Fin 0 → Fin S1024x1x4.rank)
  shapeCasts_S1024x1x4_S1024x4 : S1024x1x4.ShapeCasts S1024x4
  bcast_S_S1024x4 : S_.BroadcastsInDim S1024x4 (![] : Fin 0 → Fin S1024x4.rank)
  bcast_S1024x1_S1024x4_0_1 : S1024x1.BroadcastsInDim S1024x4 (![0, 1] : Fin 2 → Fin S1024x4.rank)
  reducesTo_S1024x4_S_d0_1 : S1024x4.ReducesTo [0, 1] S_
  slices_S1024x4_S1024x1_0_0 : S1024x4.Slices ![0, 0] S1024x1
  slices_S1024x4_S1024x1_0_1 : S1024x4.Slices ![0, 1] S1024x1
  slices_S1024x4_S1024x1_0_2 : S1024x4.Slices ![0, 2] S1024x1
  slices_S1024x4_S1024x1_0_3 : S1024x4.Slices ![0, 3] S1024x1
  slices_S1024x17x3_S1024x17x1_0_0_0 : S1024x17x3.Slices ![0, 0, 0] S1024x17x1
  shapeCasts_S1024x17x1_S1024x17 : S1024x17x1.ShapeCasts S1024x17
  slices_S1024x17x3_S1024x17x1_0_0_1 : S1024x17x3.Slices ![0, 0, 1] S1024x17x1
  slices_S1024x17x3_S1024x17x1_0_0_2 : S1024x17x3.Slices ![0, 0, 2] S1024x17x1
  bcast_S1024x1_S1024x17_0_1 : S1024x1.BroadcastsInDim S1024x17 (![0, 1] : Fin 2 → Fin S1024x17.rank)
  bcast_S_S1024x17 : S_.BroadcastsInDim S1024x17 (![] : Fin 0 → Fin S1024x17.rank)
  natLt_1_32 : 1 < 32
  shapeCasts_S1024x17x56x56_S17408x3136 : S1024x17x56x56.ShapeCasts S17408x3136
  shapeCasts_S1024x17_S17408 : S1024x17.ShapeCasts S17408
  reducesTo_S17408x3136_S17408_d1 : S17408x3136.ReducesTo [1] S17408
  bcast_S_S17408 : S_.BroadcastsInDim S17408 (![] : Fin 0 → Fin S17408.rank)
  bcast_S17408_S17408x1_0 : S17408.BroadcastsInDim S17408x1 (![0] : Fin 1 → Fin S17408x1.rank)
  bcast_S17408x1_S17408x3136_0_1 : S17408x1.BroadcastsInDim S17408x3136 (![0, 1] : Fin 2 → Fin S17408x3136.rank)
  bcast_S_S17408x1 : S_.BroadcastsInDim S17408x1 (![] : Fin 0 → Fin S17408x1.rank)
  shapeCasts_S17408x1_S17408x1x1 : S17408x1.ShapeCasts S17408x1x1
  bcast_S_S17408x1x1 : S_.BroadcastsInDim S17408x1x1 (![] : Fin 0 → Fin S17408x1x1.rank)
  bcast_S1x1x1_S17408x1x1_0_1_2 : S1x1x1.BroadcastsInDim S17408x1x1 (![0, 1, 2] : Fin 3 → Fin S17408x1x1.rank)
  reducesTo_S17408x1x1_S17408x1_d2 : S17408x1x1.ReducesTo [2] S17408x1
  shapeCasts_S17408x1_S17408 : S17408x1.ShapeCasts S17408
  reducesTo_S17408_S_d0 : S17408.ReducesTo [0] S_
  bcast_S_S1 : S_.BroadcastsInDim S1 (![] : Fin 0 → Fin S1.rank)
  concatenates_S1_S1_S1_S3_d0 : Shape.Concatenates [S1, S1, S1] S3 0
  gather_S1024x8_S1024x1x1_S1024x1_n_1_0_0_1_2_11_wf : GatherDims.WF S1024x8 S1024x1x1 S1024x1 [] [1] [0] [1] [0] 2 ![1, 1]
  gather_S1024x8x4_S1024x1x1_S1024x1x4_2_1_0_0_1_2_114_wf : GatherDims.WF S1024x8x4 S1024x1x1 S1024x1x4 [2] [1] [0] [1] [0] 2 ![1, 1, 4]
  gather_S256x17x3_S1024x1_S1024x17x3_12_0_n_n_0_1_1173_wf : GatherDims.WF S256x17x3 S1024x1 S1024x17x3 [1, 2] [0] [] [0] [] 1 ![1, 17, 3]
  gather_S17408x3136_S17408x1x1_S17408x1_n_1_0_0_1_2_11_wf : GatherDims.WF S17408x3136 S17408x1x1 S17408x1 [] [1] [0] [1] [0] 2 ![1, 1]

variable [Facts₀]

def gather_S1024x8_S1024x1x1_S1024x1_n_1_0_0_1_2_11 : GatherDims S1024x8 S1024x1x1 S1024x1 where
  offsetDims := []
  collapsedSliceDims := [1]
  operandBatchingDims := [0]
  startIndicesBatchingDims := [0]
  startIndexMap := [1]
  indexVectorDim := 2
  sliceSizes := ![1, 1]
  wf := gather_S1024x8_S1024x1x1_S1024x1_n_1_0_0_1_2_11_wf
def gather_S1024x8x4_S1024x1x1_S1024x1x4_2_1_0_0_1_2_114 : GatherDims S1024x8x4 S1024x1x1 S1024x1x4 where
  offsetDims := [2]
  collapsedSliceDims := [1]
  operandBatchingDims := [0]
  startIndicesBatchingDims := [0]
  startIndexMap := [1]
  indexVectorDim := 2
  sliceSizes := ![1, 1, 4]
  wf := gather_S1024x8x4_S1024x1x1_S1024x1x4_2_1_0_0_1_2_114_wf
def gather_S256x17x3_S1024x1_S1024x17x3_12_0_n_n_0_1_1173 : GatherDims S256x17x3 S1024x1 S1024x17x3 where
  offsetDims := [1, 2]
  collapsedSliceDims := [0]
  operandBatchingDims := []
  startIndicesBatchingDims := []
  startIndexMap := [0]
  indexVectorDim := 1
  sliceSizes := ![1, 17, 3]
  wf := gather_S256x17x3_S1024x1_S1024x17x3_12_0_n_n_0_1_1173_wf
def gather_S17408x3136_S17408x1x1_S17408x1_n_1_0_0_1_2_11 : GatherDims S17408x3136 S17408x1x1 S17408x1 where
  offsetDims := []
  collapsedSliceDims := [1]
  operandBatchingDims := [0]
  startIndicesBatchingDims := [0]
  startIndexMap := [1]
  indexVectorDim := 2
  sliceSizes := ![1, 1]
  wf := gather_S17408x3136_S17408x1x1_S17408x1_n_1_0_0_1_2_11_wf

class Facts : Prop extends Facts₀ where

variable [Facts]
-- ==== Proof.KernelMainChain.lean ====
/-
  @main of `Kernel` is the chain of its items: the stretches of host operations before the region (each module-local
  function's inlined body a stretch of its own), the region, the stretch after it.
  @main is printed as three windows of statements. The last two are their items by one definitional unfolding each. The
  first window is too deep for that (60 statements, 122 host operations once its five calls are inlined), so it is cut in
  three: its first four items are followed by the rest of the window (`main_part0_rest1`: the window's statements after
  the call of @take_along_axis, the printed program's own), that rest's first four items by `main_part0_rest2` (the
  statements after the call of @take_along_axis_0), and that is its last five items. Each cut is about forty operations.
  The three join by `chainK_chainK`, and the windows join into @main's chain as chains of items do.
-/
import proofs.«117586_j82575041232910_1_alg».proof.Proof.KernelLaunch

set_option maxRecDepth 65536

noncomputable section

namespace Cert.Kernel.MainChain

open Cert.Kernel Cert.Kernel.GenP Cert.Kernel.Facts₀ Cert.Kernel.Facts
open Idealize.ShloMosaic Idealize.ShloMosaic.TcCoe
open Idealize.SL Idealize.SL.Sem

variable {F : FTy → Type} [FloatOps F]

/-- Window 0 of @main from its statement after the call of @take_along_axis on. -/
noncomputable def main_part0_rest1 : Dev nD → Prog (TpuEff nD τ sig (Elt F) (Pipeline.Sig Λ₀ (Fin 1) fun p => (pcfgs (F := F) p).Adm) .tc) PUnit := fun _ => do
  hlo rfl (StableHlo.reshape main_v4 main_v5 rfl shapeCasts_S1024x1_S1024) (fun _ => .ret ⟨⟩) -- %5 = stablehlo.reshape %4 : (tensor<1024x1xf32>) -> tensor<1024xf32>  @ kernel:62
  hlo rfl (StableHlo.unary main_v5 main_v6 (Host.negf : (⟨S1024, .f32⟩ : BufTy).Contents (Elt F) → (⟨S1024, .f32⟩ : BufTy).Contents (Elt F))) (fun _ => .ret ⟨⟩) -- %6 = stablehlo.negate %5 : tensor<1024xf32>  @ kernel:62
  hlo rfl (StableHlo.unary main_v1 main_v7 (uitofp .f32 : (⟨S1024, .i1⟩ : BufTy).Contents (Elt F) → (⟨S1024, .f32⟩ : BufTy).Contents (Elt F))) (fun _ => .ret ⟨⟩) -- %7 = stablehlo.convert %1 : (tensor<1024xi1>) -> tensor<1024xf32>  @ kernel:63
  hlo rfl (StableHlo.nullary main_cst (constant S_ .f32 0x00000000#32)) (fun _ => .ret ⟨⟩) -- %cst = stablehlo.constant dense<0.000000e+00> : tensor<f32>
  hlo rfl (StableHlo.binary main_v7 main_cst main_v8 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F))) (fun _ => .ret ⟨⟩) -- %8 = stablehlo.reduce(%7 init: %cst) applies stablehlo.add across dimensions = [0] : (tensor<1024xf32>, tensor<f32>) -> tensor<f32> {  @ kernel:63
  hlo rfl (StableHlo.nullary main_cst_0 (constant S_ .f32 0x3F800000#32)) (fun _ => .ret ⟨⟩) -- %cst_0 = stablehlo.constant dense<1.000000e+00> : tensor<f32>
  hlo rfl (StableHlo.binary main_v8 main_cst_0 main_v9 (maximumf : (⟨S_, .f32⟩ : BufTy).Contents (Elt F) → (⟨S_, .f32⟩ : BufTy).Contents (Elt F) → (⟨S_, .f32⟩ : BufTy).Contents (Elt F))) (fun _ => .ret ⟨⟩) -- %9 = stablehlo.maximum %8, %cst_0 : tensor<f32>  @ kernel:63
  hlo rfl (StableHlo.nullary main_cst_1 (constant S_ .f32 0x00000000#32)) (fun _ => .ret ⟨⟩) -- %cst_1 = stablehlo.constant dense<0.000000e+00> : tensor<f32>
  fn_where.body (.of main_v1) (.of main_v6) (.of main_cst_1) main_call2 -- %10 = func.call @_where(%1, %6, %cst_1) : (tensor<1024xi1>, tensor<1024xf32>, tensor<f32>) -> tensor<1024xf32>  @ kernel:64
  hlo rfl (StableHlo.nullary main_cst_2 (constant S_ .f32 0x00000000#32)) (fun _ => .ret ⟨⟩) -- %cst_2 = stablehlo.constant dense<0.000000e+00> : tensor<f32>
  hlo rfl (StableHlo.binary main_v10 main_cst_2 main_v11 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F))) (fun _ => .ret ⟨⟩) -- %11 = stablehlo.reduce(%10 init: %cst_2) applies stablehlo.add across dimensions = [0] : (tensor<1024xf32>, tensor<f32>) -> tensor<f32> {  @ kernel:64
  hlo rfl (StableHlo.binary main_v11 main_v9 main_v12 (Host.divf : (⟨S_, .f32⟩ : BufTy).Contents (Elt F) → (⟨S_, .f32⟩ : BufTy).Contents (Elt F) → (⟨S_, .f32⟩ : BufTy).Contents (Elt F))) (fun _ => .ret ⟨⟩) -- %12 = stablehlo.divide %11, %9 : tensor<f32>  @ kernel:64
  hlo rfl (StableHlo.nullary main_c_3 (constantI S_ 32 0#32)) (fun _ => .ret ⟨⟩) -- %c_3 = stablehlo.constant dense<0> : tensor<i32>
  hlo rfl (StableHlo.unary main_c_3 main_v13 (broadcastInDim S1024 ![] bcast_S_S1024 : (⟨S_, .i32⟩ : BufTy).Contents (Elt F) → (⟨S1024, .i32⟩ : BufTy).Contents (Elt F))) (fun _ => .ret ⟨⟩) -- %13 = stablehlo.broadcast_in_dim %c_3, dims = [] : (tensor<i32>) -> tensor<1024xi32>  @ kernel:137
  hlo rfl (StableHlo.binary main_arg6 main_v13 main_v14 (cmpi .sgt : (⟨S1024, .i32⟩ : BufTy).Contents (Elt F) → (⟨S1024, .i32⟩ : BufTy).Contents (Elt F) → (⟨S1024, .i1⟩ : BufTy).Contents (Elt F))) (fun _ => .ret ⟨⟩) -- %14 = stablehlo.compare GT, %arg6, %13, SIGNED : (tensor<1024xi32>, tensor<1024xi32>) -> tensor<1024xi1>  @ kernel:137
  hlo rfl (StableHlo.reshape main_arg1 main_v15 rfl shapeCasts_S1024x32_S1024x8x4) (fun _ => .ret ⟨⟩) -- %15 = stablehlo.reshape %arg1 : (tensor<1024x32xf32>) -> tensor<1024x8x4xf32>  @ kernel:138
  hlo rfl (StableHlo.unary main_arg6 main_v16 (broadcastInDim S1024x1x1 ![0] bcast_S1024_S1024x1x1_0 : (⟨S1024, .i32⟩ : BufTy).Contents (Elt F) → (⟨S1024x1x1, .i32⟩ : BufTy).Contents (Elt F))) (fun _ => .ret ⟨⟩) -- %16 = stablehlo.broadcast_in_dim %arg6, dims = [0] : (tensor<1024xi32>) -> tensor<1024x1x1xi32>  @ kernel:139
  fn_take_along_axis_0.body (.of main_v15) (.of main_v16) main_call3    -- %17 = func.call @take_along_axis_0(%15, %16) : (tensor<1024x8x4xf32>, tensor<1024x1x1xi32>) -> tensor<1024x1x4xf32>  @ kernel:139
  hlo rfl (StableHlo.reshape main_v17 main_v18 rfl shapeCasts_S1024x1x4_S1024x4) (fun _ => .ret ⟨⟩) -- %18 = stablehlo.reshape %17 : (tensor<1024x1x4xf32>) -> tensor<1024x4xf32>  @ kernel:139
  hlo rfl (StableHlo.binary main_v18 main_arg2 main_v19 (subf : (⟨S1024x4, .f32⟩ : BufTy).Contents (Elt F) → (⟨S1024x4, .f32⟩ : BufTy).Contents (Elt F) → (⟨S1024x4, .f32⟩ : BufTy).Contents (Elt F))) (fun _ => .ret ⟨⟩) -- %19 = stablehlo.subtract %18, %arg2 : tensor<1024x4xf32>  @ kernel:140
  hlo rfl (StableHlo.unary main_v19 main_v20 (Host.absf : (⟨S1024x4, .f32⟩ : BufTy).Contents (Elt F) → (⟨S1024x4, .f32⟩ : BufTy).Contents (Elt F))) (fun _ => .ret ⟨⟩) -- %20 = stablehlo.abs %19 : tensor<1024x4xf32>  @ kernel:141
  hlo rfl (StableHlo.nullary main_cst_4 (constant S_ .f32 0x3DE38E39#32)) (fun _ => .ret ⟨⟩) -- %cst_4 = stablehlo.constant dense<0.111111112> : tensor<f32>
  hlo rfl (StableHlo.unary main_cst_4 main_v21 (broadcastInDim S1024x4 ![] bcast_S_S1024x4 : (⟨S_, .f32⟩ : BufTy).Contents (Elt F) → (⟨S1024x4, .f32⟩ : BufTy).Contents (Elt F))) (fun _ => .ret ⟨⟩) -- %21 = stablehlo.broadcast_in_dim %cst_4, dims = [] : (tensor<f32>) -> tensor<1024x4xf32>  @ kernel:142
  hlo rfl (StableHlo.binary main_v20 main_v21 main_v22 (cmpf .olt : (⟨S1024x4, .f32⟩ : BufTy).Contents (Elt F) → (⟨S1024x4, .f32⟩ : BufTy).Contents (Elt F) → (⟨S1024x4, .i1⟩ : BufTy).Contents (Elt F))) (fun _ => .ret ⟨⟩) -- %22 = stablehlo.compare LT, %20, %21, FLOAT : (tensor<1024x4xf32>, tensor<1024x4xf32>) -> tensor<1024x4xi1>  @ kernel:142
  hlo rfl (StableHlo.nullary main_cst_5 (constant S_ .f32 0x3F000000#32)) (fun _ => .ret ⟨⟩) -- %cst_5 = stablehlo.constant dense<5.000000e-01> : tensor<f32>
  hlo rfl (StableHlo.unary main_cst_5 main_v23 (broadcastInDim S1024x4 ![] bcast_S_S1024x4 : (⟨S_, .f32⟩ : BufTy).Contents (Elt F) → (⟨S1024x4, .f32⟩ : BufTy).Contents (Elt F))) (fun _ => .ret ⟨⟩) -- %23 = stablehlo.broadcast_in_dim %cst_5, dims = [] : (tensor<f32>) -> tensor<1024x4xf32>  @ kernel:142
  hlo rfl (StableHlo.binary main_v23 main_v19 main_v24 (mulf : (⟨S1024x4, .f32⟩ : BufTy).Contents (Elt F) → (⟨S1024x4, .f32⟩ : BufTy).Contents (Elt F) → (⟨S1024x4, .f32⟩ : BufTy).Contents (Elt F))) (fun _ => .ret ⟨⟩) -- %24 = stablehlo.multiply %23, %19 : tensor<1024x4xf32>  @ kernel:142
  hlo rfl (StableHlo.binary main_v24 main_v19 main_v25 (mulf : (⟨S1024x4, .f32⟩ : BufTy).Contents (Elt F) → (⟨S1024x4, .f32⟩ : BufTy).Contents (Elt F) → (⟨S1024x4, .f32⟩ : BufTy).Contents (Elt F))) (fun _ => .ret ⟨⟩) -- %25 = stablehlo.multiply %24, %19 : tensor<1024x4xf32>  @ kernel:142
  hlo rfl (StableHlo.nullary main_cst_6 (constant S_ .f32 0x3DE38E39#32)) (fun _ => .ret ⟨⟩) -- %cst_6 = stablehlo.constant dense<0.111111112> : tensor<f32>
  hlo rfl (StableHlo.unary main_cst_6 main_v26 (broadcastInDim S1024x4 ![] bcast_S_S1024x4 : (⟨S_, .f32⟩ : BufTy).Contents (Elt F) → (⟨S1024x4, .f32⟩ : BufTy).Contents (Elt F))) (fun _ => .ret ⟨⟩) -- %26 = stablehlo.broadcast_in_dim %cst_6, dims = [] : (tensor<f32>) -> tensor<1024x4xf32>  @ kernel:142
  hlo rfl (StableHlo.binary main_v25 main_v26 main_v27 (Host.divf : (⟨S1024x4, .f32⟩ : BufTy).Contents (Elt F) → (⟨S1024x4, .f32⟩ : BufTy).Contents (Elt F) → (⟨S1024x4, .f32⟩ : BufTy).Contents (Elt F))) (fun _ => .ret ⟨⟩) -- %27 = stablehlo.divide %25, %26 : tensor<1024x4xf32>  @ kernel:142
  hlo rfl (StableHlo.nullary main_cst_7 (constant S_ .f32 0x3D638E39#32)) (fun _ => .ret ⟨⟩) -- %cst_7 = stablehlo.constant dense<0.055555556> : tensor<f32>
  hlo rfl (StableHlo.unary main_cst_7 main_v28 (broadcastInDim S1024x4 ![] bcast_S_S1024x4 : (⟨S_, .f32⟩ : BufTy).Contents (Elt F) → (⟨S1024x4, .f32⟩ : BufTy).Contents (Elt F))) (fun _ => .ret ⟨⟩) -- %28 = stablehlo.broadcast_in_dim %cst_7, dims = [] : (tensor<f32>) -> tensor<1024x4xf32>  @ kernel:142
  hlo rfl (StableHlo.binary main_v20 main_v28 main_v29 (subf : (⟨S1024x4, .f32⟩ : BufTy).Contents (Elt F) → (⟨S1024x4, .f32⟩ : BufTy).Contents (Elt F) → (⟨S1024x4, .f32⟩ : BufTy).Contents (Elt F))) (fun _ => .ret ⟨⟩) -- %29 = stablehlo.subtract %20, %28 : tensor<1024x4xf32>  @ kernel:142
  fn_where_1.body (.of main_v22) (.of main_v27) (.of main_v29) main_call4 -- %30 = func.call @_where_1(%22, %27, %29) : (tensor<1024x4xi1>, tensor<1024x4xf32>, tensor<1024x4xf32>) -> tensor<1024x4xf32>  @ kernel:142
  hlo rfl (StableHlo.unary main_v14 main_v31 (broadcastInDim S1024x1 ![0] bcast_S1024_S1024x1_0 : (⟨S1024, .i1⟩ : BufTy).Contents (Elt F) → (⟨S1024x1, .i1⟩ : BufTy).Contents (Elt F))) (fun _ => .ret ⟨⟩) -- %31 = stablehlo.broadcast_in_dim %14, dims = [0] : (tensor<1024xi1>) -> tensor<1024x1xi1>  @ kernel:143
  hlo rfl (StableHlo.nullary main_cst_8 (constant S_ .f32 0x00000000#32)) (fun _ => .ret ⟨⟩) -- %cst_8 = stablehlo.constant dense<0.000000e+00> : tensor<f32>
  fn_where_2.body (.of main_v31) (.of main_v30) (.of main_cst_8) main_call5 -- %32 = func.call @_where_2(%31, %30, %cst_8) : (tensor<1024x1xi1>, tensor<1024x4xf32>, tensor<f32>) -> tensor<1024x4xf32>  @ kernel:143
  hlo rfl (StableHlo.nullary main_cst_9 (constant S_ .f32 0x00000000#32)) (fun _ => .ret ⟨⟩) -- %cst_9 = stablehlo.constant dense<0.000000e+00> : tensor<f32>
  hlo rfl (StableHlo.binary main_v32 main_cst_9 main_v33 ((fun x v => Host.reduceAdd x v reducesTo_S1024x4_S_d0_1 h_S_) : (⟨S1024x4, .f32⟩ : BufTy).Contents (Elt F) → (⟨S_, .f32⟩ : BufTy).Contents (Elt F) → (⟨S_, .f32⟩ : BufTy).Contents (Elt F))) (fun _ => .ret ⟨⟩) -- %33 = stablehlo.reduce(%32 init: %cst_9) applies stablehlo.add across dimensions = [0, 1] : (tensor<1024x4xf32>, tensor<f32>) -> tensor<f32> {  @ kernel:143
  hlo rfl (StableHlo.nullary main_cst_10 (constant S_ .f32 0x44800000#32)) (fun _ => .ret ⟨⟩) -- %cst_10 = stablehlo.constant dense<1.024000e+03> : tensor<f32>
  hlo rfl (StableHlo.binary main_v33 main_cst_10 main_v34 (Host.divf : (⟨S_, .f32⟩ : BufTy).Contents (Elt F) → (⟨S_, .f32⟩ : BufTy).Contents (Elt F) → (⟨S_, .f32⟩ : BufTy).Contents (Elt F))) (fun _ => .ret ⟨⟩) -- %34 = stablehlo.divide %33, %cst_10 : tensor<f32>  @ kernel:143
  hlo rfl (StableHlo.nullary main_c_11 (constantI S_ 32 0#32)) (fun _ => .ret ⟨⟩) -- %c_11 = stablehlo.constant dense<0> : tensor<i32>
  hlo rfl (StableHlo.unary main_c_11 main_v35 (broadcastInDim S1024 ![] bcast_S_S1024 : (⟨S_, .i32⟩ : BufTy).Contents (Elt F) → (⟨S1024, .i32⟩ : BufTy).Contents (Elt F))) (fun _ => .ret ⟨⟩) -- %35 = stablehlo.broadcast_in_dim %c_11, dims = [] : (tensor<i32>) -> tensor<1024xi32>  @ kernel:147
  hlo rfl (StableHlo.binary main_arg7 main_v35 main_v36 (cmpi .slt : (⟨S1024, .i32⟩ : BufTy).Contents (Elt F) → (⟨S1024, .i32⟩ : BufTy).Contents (Elt F) → (⟨S1024, .i1⟩ : BufTy).Contents (Elt F))) (fun _ => .ret ⟨⟩) -- %36 = stablehlo.compare LT, %arg7, %35, SIGNED : (tensor<1024xi32>, tensor<1024xi32>) -> tensor<1024xi1>  @ kernel:147
  hlo rfl (StableHlo.nullary main_c_12 (constantI S_ 32 256#32)) (fun _ => .ret ⟨⟩) -- %c_12 = stablehlo.constant dense<256> : tensor<i32>
  hlo rfl (StableHlo.unary main_c_12 main_v37 (broadcastInDim S1024 ![] bcast_S_S1024 : (⟨S_, .i32⟩ : BufTy).Contents (Elt F) → (⟨S1024, .i32⟩ : BufTy).Contents (Elt F))) (fun _ => .ret ⟨⟩) -- %37 = stablehlo.broadcast_in_dim %c_12, dims = [] : (tensor<i32>) -> tensor<1024xi32>  @ kernel:147
  hlo rfl (StableHlo.binary main_arg7 main_v37 main_v38 (addi : (⟨S1024, .i32⟩ : BufTy).Contents (Elt F) → (⟨S1024, .i32⟩ : BufTy).Contents (Elt F) → (⟨S1024, .i32⟩ : BufTy).Contents (Elt F))) (fun _ => .ret ⟨⟩) -- %38 = stablehlo.add %arg7, %37 : tensor<1024xi32>  @ kernel:147
  hlo rfl (StableHlo.ternary main_v36 main_v38 main_arg7 main_v39 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))) (fun _ => .ret ⟨⟩) -- %39 = stablehlo.select %36, %38, %arg7 : tensor<1024xi1>, tensor<1024xi32>  @ kernel:147
  hlo rfl (StableHlo.unary main_v39 main_v40 (broadcastInDim S1024x1 ![0] bcast_S1024_S1024x1_0 : (⟨S1024, .i32⟩ : BufTy).Contents (Elt F) → (⟨S1024x1, .i32⟩ : BufTy).Contents (Elt F))) (fun _ => .ret ⟨⟩) -- %40 = stablehlo.broadcast_in_dim %39, dims = [0] : (tensor<1024xi32>) -> tensor<1024x1xi32>  @ kernel:147
  hlo rfl (StableHlo.binary main_arg4 main_v40 main_v41 ((fun x i => Host.gather gather_S256x17x3_S1024x1_S1024x17x3_12_0_n_n_0_1_1173 x i) : (⟨S256x17x3, .f32⟩ : BufTy).Contents (Elt F) → (⟨S1024x1, .i32⟩ : BufTy).Contents (Elt F) → (⟨S1024x17x3, .f32⟩ : BufTy).Contents (Elt F))) (fun _ => .ret ⟨⟩) -- %41 = "stablehlo.gather"(%arg4, %40) <{dimension_numbers = #stablehlo.gather<offset_dims = [1, 2], collapsed_slice_dims = [0], start_index_map = [0], index_vector_dim = 1>, indices_are_sorted = false, slice_sizes = array<i64: 1, 17, 3>}> : (tensor<256x17x3xf32>, tensor<1024x1xi32>) -> tensor<1024x17x3xf32>  @ kernel:147
  hlo rfl (StableHlo.unary main_arg3 main_v42 ((extractStridedSlice S1024x1 ![0, 0] · slices_S1024x4_S1024x1_0_0) : (⟨S1024x4, .f32⟩ : BufTy).Contents (Elt F) → (⟨S1024x1, .f32⟩ : BufTy).Contents (Elt F))) (fun _ => .ret ⟨⟩) -- %42 = stablehlo.slice %arg3 [0:1024, 0:1] : (tensor<1024x4xf32>) -> tensor<1024x1xf32>  @ kernel:148
  hlo rfl (StableHlo.unary main_arg3 main_v43 ((extractStridedSlice S1024x1 ![0, 1] · slices_S1024x4_S1024x1_0_1) : (⟨S1024x4, .f32⟩ : BufTy).Contents (Elt F) → (⟨S1024x1, .f32⟩ : BufTy).Contents (Elt F))) (fun _ => .ret ⟨⟩) -- %43 = stablehlo.slice %arg3 [0:1024, 1:2] : (tensor<1024x4xf32>) -> tensor<1024x1xf32>  @ kernel:148
  hlo rfl (StableHlo.unary main_arg3 main_v44 ((extractStridedSlice S1024x1 ![0, 2] · slices_S1024x4_S1024x1_0_2) : (⟨S1024x4, .f32⟩ : BufTy).Contents (Elt F) → (⟨S1024x1, .f32⟩ : BufTy).Contents (Elt F))) (fun _ => .ret ⟨⟩) -- %44 = stablehlo.slice %arg3 [0:1024, 2:3] : (tensor<1024x4xf32>) -> tensor<1024x1xf32>  @ kernel:149

/-- Window 0 of @main from its statement after the call of @take_along_axis_0 on. -/
noncomputable def main_part0_rest2 : Dev nD → Prog (TpuEff nD τ sig (Elt F) (Pipeline.Sig Λ₀ (Fin 1) fun p => (pcfgs (F := F) p).Adm) .tc) PUnit := fun _ => do
  hlo rfl (StableHlo.reshape main_v17 main_v18 rfl shapeCasts_S1024x1x4_S1024x4) (fun _ => .ret ⟨⟩) -- %18 = stablehlo.reshape %17 : (tensor<1024x1x4xf32>) -> tensor<1024x4xf32>  @ kernel:139
  hlo rfl (StableHlo.binary main_v18 main_arg2 main_v19 (subf : (⟨S1024x4, .f32⟩ : BufTy).Contents (Elt F) → (⟨S1024x4, .f32⟩ : BufTy).Contents (Elt F) → (⟨S1024x4, .f32⟩ : BufTy).Contents (Elt F))) (fun _ => .ret ⟨⟩) -- %19 = stablehlo.subtract %18, %arg2 : tensor<1024x4xf32>  @ kernel:140
  hlo rfl (StableHlo.unary main_v19 main_v20 (Host.absf : (⟨S1024x4, .f32⟩ : BufTy).Contents (Elt F) → (⟨S1024x4, .f32⟩ : BufTy).Contents (Elt F))) (fun _ => .ret ⟨⟩) -- %20 = stablehlo.abs %19 : tensor<1024x4xf32>  @ kernel:141
  hlo rfl (StableHlo.nullary main_cst_4 (constant S_ .f32 0x3DE38E39#32)) (fun _ => .ret ⟨⟩) -- %cst_4 = stablehlo.constant dense<0.111111112> : tensor<f32>
  hlo rfl (StableHlo.unary main_cst_4 main_v21 (broadcastInDim S1024x4 ![] bcast_S_S1024x4 : (⟨S_, .f32⟩ : BufTy).Contents (Elt F) → (⟨S1024x4, .f32⟩ : BufTy).Contents (Elt F))) (fun _ => .ret ⟨⟩) -- %21 = stablehlo.broadcast_in_dim %cst_4, dims = [] : (tensor<f32>) -> tensor<1024x4xf32>  @ kernel:142
  hlo rfl (StableHlo.binary main_v20 main_v21 main_v22 (cmpf .olt : (⟨S1024x4, .f32⟩ : BufTy).Contents (Elt F) → (⟨S1024x4, .f32⟩ : BufTy).Contents (Elt F) → (⟨S1024x4, .i1⟩ : BufTy).Contents (Elt F))) (fun _ => .ret ⟨⟩) -- %22 = stablehlo.compare LT, %20, %21, FLOAT : (tensor<1024x4xf32>, tensor<1024x4xf32>) -> tensor<1024x4xi1>  @ kernel:142
  hlo rfl (StableHlo.nullary main_cst_5 (constant S_ .f32 0x3F000000#32)) (fun _ => .ret ⟨⟩) -- %cst_5 = stablehlo.constant dense<5.000000e-01> : tensor<f32>
  hlo rfl (StableHlo.unary main_cst_5 main_v23 (broadcastInDim S1024x4 ![] bcast_S_S1024x4 : (⟨S_, .f32⟩ : BufTy).Contents (Elt F) → (⟨S1024x4, .f32⟩ : BufTy).Contents (Elt F))) (fun _ => .ret ⟨⟩) -- %23 = stablehlo.broadcast_in_dim %cst_5, dims = [] : (tensor<f32>) -> tensor<1024x4xf32>  @ kernel:142
  hlo rfl (StableHlo.binary main_v23 main_v19 main_v24 (mulf : (⟨S1024x4, .f32⟩ : BufTy).Contents (Elt F) → (⟨S1024x4, .f32⟩ : BufTy).Contents (Elt F) → (⟨S1024x4, .f32⟩ : BufTy).Contents (Elt F))) (fun _ => .ret ⟨⟩) -- %24 = stablehlo.multiply %23, %19 : tensor<1024x4xf32>  @ kernel:142
  hlo rfl (StableHlo.binary main_v24 main_v19 main_v25 (mulf : (⟨S1024x4, .f32⟩ : BufTy).Contents (Elt F) → (⟨S1024x4, .f32⟩ : BufTy).Contents (Elt F) → (⟨S1024x4, .f32⟩ : BufTy).Contents (Elt F))) (fun _ => .ret ⟨⟩) -- %25 = stablehlo.multiply %24, %19 : tensor<1024x4xf32>  @ kernel:142
  hlo rfl (StableHlo.nullary main_cst_6 (constant S_ .f32 0x3DE38E39#32)) (fun _ => .ret ⟨⟩) -- %cst_6 = stablehlo.constant dense<0.111111112> : tensor<f32>
  hlo rfl (StableHlo.unary main_cst_6 main_v26 (broadcastInDim S1024x4 ![] bcast_S_S1024x4 : (⟨S_, .f32⟩ : BufTy).Contents (Elt F) → (⟨S1024x4, .f32⟩ : BufTy).Contents (Elt F))) (fun _ => .ret ⟨⟩) -- %26 = stablehlo.broadcast_in_dim %cst_6, dims = [] : (tensor<f32>) -> tensor<1024x4xf32>  @ kernel:142
  hlo rfl (StableHlo.binary main_v25 main_v26 main_v27 (Host.divf : (⟨S1024x4, .f32⟩ : BufTy).Contents (Elt F) → (⟨S1024x4, .f32⟩ : BufTy).Contents (Elt F) → (⟨S1024x4, .f32⟩ : BufTy).Contents (Elt F))) (fun _ => .ret ⟨⟩) -- %27 = stablehlo.divide %25, %26 : tensor<1024x4xf32>  @ kernel:142
  hlo rfl (StableHlo.nullary main_cst_7 (constant S_ .f32 0x3D638E39#32)) (fun _ => .ret ⟨⟩) -- %cst_7 = stablehlo.constant dense<0.055555556> : tensor<f32>
  hlo rfl (StableHlo.unary main_cst_7 main_v28 (broadcastInDim S1024x4 ![] bcast_S_S1024x4 : (⟨S_, .f32⟩ : BufTy).Contents (Elt F) → (⟨S1024x4, .f32⟩ : BufTy).Contents (Elt F))) (fun _ => .ret ⟨⟩) -- %28 = stablehlo.broadcast_in_dim %cst_7, dims = [] : (tensor<f32>) -> tensor<1024x4xf32>  @ kernel:142
  hlo rfl (StableHlo.binary main_v20 main_v28 main_v29 (subf : (⟨S1024x4, .f32⟩ : BufTy).Contents (Elt F) → (⟨S1024x4, .f32⟩ : BufTy).Contents (Elt F) → (⟨S1024x4, .f32⟩ : BufTy).Contents (Elt F))) (fun _ => .ret ⟨⟩) -- %29 = stablehlo.subtract %20, %28 : tensor<1024x4xf32>  @ kernel:142
  fn_where_1.body (.of main_v22) (.of main_v27) (.of main_v29) main_call4 -- %30 = func.call @_where_1(%22, %27, %29) : (tensor<1024x4xi1>, tensor<1024x4xf32>, tensor<1024x4xf32>) -> tensor<1024x4xf32>  @ kernel:142
  hlo rfl (StableHlo.unary main_v14 main_v31 (broadcastInDim S1024x1 ![0] bcast_S1024_S1024x1_0 : (⟨S1024, .i1⟩ : BufTy).Contents (Elt F) → (⟨S1024x1, .i1⟩ : BufTy).Contents (Elt F))) (fun _ => .ret ⟨⟩) -- %31 = stablehlo.broadcast_in_dim %14, dims = [0] : (tensor<1024xi1>) -> tensor<1024x1xi1>  @ kernel:143
  hlo rfl (StableHlo.nullary main_cst_8 (constant S_ .f32 0x00000000#32)) (fun _ => .ret ⟨⟩) -- %cst_8 = stablehlo.constant dense<0.000000e+00> : tensor<f32>
  fn_where_2.body (.of main_v31) (.of main_v30) (.of main_cst_8) main_call5 -- %32 = func.call @_where_2(%31, %30, %cst_8) : (tensor<1024x1xi1>, tensor<1024x4xf32>, tensor<f32>) -> tensor<1024x4xf32>  @ kernel:143
  hlo rfl (StableHlo.nullary main_cst_9 (constant S_ .f32 0x00000000#32)) (fun _ => .ret ⟨⟩) -- %cst_9 = stablehlo.constant dense<0.000000e+00> : tensor<f32>
  hlo rfl (StableHlo.binary main_v32 main_cst_9 main_v33 ((fun x v => Host.reduceAdd x v reducesTo_S1024x4_S_d0_1 h_S_) : (⟨S1024x4, .f32⟩ : BufTy).Contents (Elt F) → (⟨S_, .f32⟩ : BufTy).Contents (Elt F) → (⟨S_, .f32⟩ : BufTy).Contents (Elt F))) (fun _ => .ret ⟨⟩) -- %33 = stablehlo.reduce(%32 init: %cst_9) applies stablehlo.add across dimensions = [0, 1] : (tensor<1024x4xf32>, tensor<f32>) -> tensor<f32> {  @ kernel:143
  hlo rfl (StableHlo.nullary main_cst_10 (constant S_ .f32 0x44800000#32)) (fun _ => .ret ⟨⟩) -- %cst_10 = stablehlo.constant dense<1.024000e+03> : tensor<f32>
  hlo rfl (StableHlo.binary main_v33 main_cst_10 main_v34 (Host.divf : (⟨S_, .f32⟩ : BufTy).Contents (Elt F) → (⟨S_, .f32⟩ : BufTy).Contents (Elt F) → (⟨S_, .f32⟩ : BufTy).Contents (Elt F))) (fun _ => .ret ⟨⟩) -- %34 = stablehlo.divide %33, %cst_10 : tensor<f32>  @ kernel:143
  hlo rfl (StableHlo.nullary main_c_11 (constantI S_ 32 0#32)) (fun _ => .ret ⟨⟩) -- %c_11 = stablehlo.constant dense<0> : tensor<i32>
  hlo rfl (StableHlo.unary main_c_11 main_v35 (broadcastInDim S1024 ![] bcast_S_S1024 : (⟨S_, .i32⟩ : BufTy).Contents (Elt F) → (⟨S1024, .i32⟩ : BufTy).Contents (Elt F))) (fun _ => .ret ⟨⟩) -- %35 = stablehlo.broadcast_in_dim %c_11, dims = [] : (tensor<i32>) -> tensor<1024xi32>  @ kernel:147
  hlo rfl (StableHlo.binary main_arg7 main_v35 main_v36 (cmpi .slt : (⟨S1024, .i32⟩ : BufTy).Contents (Elt F) → (⟨S1024, .i32⟩ : BufTy).Contents (Elt F) → (⟨S1024, .i1⟩ : BufTy).Contents (Elt F))) (fun _ => .ret ⟨⟩) -- %36 = stablehlo.compare LT, %arg7, %35, SIGNED : (tensor<1024xi32>, tensor<1024xi32>) -> tensor<1024xi1>  @ kernel:147
  hlo rfl (StableHlo.nullary main_c_12 (constantI S_ 32 256#32)) (fun _ => .ret ⟨⟩) -- %c_12 = stablehlo.constant dense<256> : tensor<i32>
  hlo rfl (StableHlo.unary main_c_12 main_v37 (broadcastInDim S1024 ![] bcast_S_S1024 : (⟨S_, .i32⟩ : BufTy).Contents (Elt F) → (⟨S1024, .i32⟩ : BufTy).Contents (Elt F))) (fun _ => .ret ⟨⟩) -- %37 = stablehlo.broadcast_in_dim %c_12, dims = [] : (tensor<i32>) -> tensor<1024xi32>  @ kernel:147
  hlo rfl (StableHlo.binary main_arg7 main_v37 main_v38 (addi : (⟨S1024, .i32⟩ : BufTy).Contents (Elt F) → (⟨S1024, .i32⟩ : BufTy).Contents (Elt F) → (⟨S1024, .i32⟩ : BufTy).Contents (Elt F))) (fun _ => .ret ⟨⟩) -- %38 = stablehlo.add %arg7, %37 : tensor<1024xi32>  @ kernel:147
  hlo rfl (StableHlo.ternary main_v36 main_v38 main_arg7 main_v39 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))) (fun _ => .ret ⟨⟩) -- %39 = stablehlo.select %36, %38, %arg7 : tensor<1024xi1>, tensor<1024xi32>  @ kernel:147
  hlo rfl (StableHlo.unary main_v39 main_v40 (broadcastInDim S1024x1 ![0] bcast_S1024_S1024x1_0 : (⟨S1024, .i32⟩ : BufTy).Contents (Elt F) → (⟨S1024x1, .i32⟩ : BufTy).Contents (Elt F))) (fun _ => .ret ⟨⟩) -- %40 = stablehlo.broadcast_in_dim %39, dims = [0] : (tensor<1024xi32>) -> tensor<1024x1xi32>  @ kernel:147
  hlo rfl (StableHlo.binary main_arg4 main_v40 main_v41 ((fun x i => Host.gather gather_S256x17x3_S1024x1_S1024x17x3_12_0_n_n_0_1_1173 x i) : (⟨S256x17x3, .f32⟩ : BufTy).Contents (Elt F) → (⟨S1024x1, .i32⟩ : BufTy).Contents (Elt F) → (⟨S1024x17x3, .f32⟩ : BufTy).Contents (Elt F))) (fun _ => .ret ⟨⟩) -- %41 = "stablehlo.gather"(%arg4, %40) <{dimension_numbers = #stablehlo.gather<offset_dims = [1, 2], collapsed_slice_dims = [0], start_index_map = [0], index_vector_dim = 1>, indices_are_sorted = false, slice_sizes = array<i64: 1, 17, 3>}> : (tensor<256x17x3xf32>, tensor<1024x1xi32>) -> tensor<1024x17x3xf32>  @ kernel:147
  hlo rfl (StableHlo.unary main_arg3 main_v42 ((extractStridedSlice S1024x1 ![0, 0] · slices_S1024x4_S1024x1_0_0) : (⟨S1024x4, .f32⟩ : BufTy).Contents (Elt F) → (⟨S1024x1, .f32⟩ : BufTy).Contents (Elt F))) (fun _ => .ret ⟨⟩) -- %42 = stablehlo.slice %arg3 [0:1024, 0:1] : (tensor<1024x4xf32>) -> tensor<1024x1xf32>  @ kernel:148
  hlo rfl (StableHlo.unary main_arg3 main_v43 ((extractStridedSlice S1024x1 ![0, 1] · slices_S1024x4_S1024x1_0_1) : (⟨S1024x4, .f32⟩ : BufTy).Contents (Elt F) → (⟨S1024x1, .f32⟩ : BufTy).Contents (Elt F))) (fun _ => .ret ⟨⟩) -- %43 = stablehlo.slice %arg3 [0:1024, 1:2] : (tensor<1024x4xf32>) -> tensor<1024x1xf32>  @ kernel:148
  hlo rfl (StableHlo.unary main_arg3 main_v44 ((extractStridedSlice S1024x1 ![0, 2] · slices_S1024x4_S1024x1_0_2) : (⟨S1024x4, .f32⟩ : BufTy).Contents (Elt F) → (⟨S1024x1, .f32⟩ : BufTy).Contents (Elt F))) (fun _ => .ret ⟨⟩) -- %44 = stablehlo.slice %arg3 [0:1024, 2:3] : (tensor<1024x4xf32>) -> tensor<1024x1xf32>  @ kernel:149

/-- Items ending in a chain of items are the chain of all of them. -/
theorem chainK_chainK {E : Type → Type} (xs ys : List (Prog E PUnit)) (q : Prog E PUnit) :
    Pipeline.chainK xs (Pipeline.chainK ys q) = Pipeline.chainK (xs ++ ys) q := by
  induction xs with
  | nil => rfl
  | cons x xs ih => simp only [Pipeline.chainK, List.cons_append, ih]

/-- Window 0's first four items, then the rest of the window. -/
theorem main_part0_chain_a (c : Dev nD) : main_part0 (F := F) c = (Pipeline.chainK
  [ StableHlo.seq main_part0_ops0,
    StableHlo.seq main_part0_ops1,
    StableHlo.seq main_part0_ops2,
    StableHlo.seq main_part0_ops3 ]
  (main_part0_rest1 (F := F) c) : Prog (TpuEff nD τ sig (Elt F) (Pipeline.Sig Λ₀ (Fin 1) fun p => (pcfgs (F := F) p).Adm) .tc) PUnit) := by
  chain_rfl
/-- The next four items, then the rest. -/
theorem main_part0_chain_b (c : Dev nD) : main_part0_rest1 (F := F) c = (Pipeline.chainK
  [ StableHlo.seq main_part0_ops4,
    StableHlo.seq main_part0_ops5,
    StableHlo.seq main_part0_ops6,
    StableHlo.seq main_part0_ops7 ]
  (main_part0_rest2 (F := F) c) : Prog (TpuEff nD τ sig (Elt F) (Pipeline.Sig Λ₀ (Fin 1) fun p => (pcfgs (F := F) p).Adm) .tc) PUnit) := by
  chain_rfl
/-- The last five items. -/
theorem main_part0_chain_c (c : Dev nD) : main_part0_rest2 (F := F) c = (Pipeline.chainK
  [ StableHlo.seq main_part0_ops8,
    StableHlo.seq main_part0_ops9,
    StableHlo.seq main_part0_ops10,
    StableHlo.seq main_part0_ops11 ]
  (StableHlo.seq main_part0_ops12) : Prog (TpuEff nD τ sig (Elt F) (Pipeline.Sig Λ₀ (Fin 1) fun p => (pcfgs (F := F) p).Adm) .tc) PUnit) := by
  chain_rfl

/-- Window 0 of @main is the chain of its thirteen items, ending in the last. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part0_ops9,
    StableHlo.seq main_part0_ops10,
    StableHlo.seq main_part0_ops11 ]
  (StableHlo.seq main_part0_ops12) : Prog (TpuEff nD τ sig (Elt F) (Pipeline.Sig Λ₀ (Fin 1) fun p => (pcfgs (F := F) p).Adm) .tc) PUnit) := by
  rw [main_part0_chain_a, main_part0_chain_b, main_part0_chain_c, chainK_chainK, chainK_chainK]
  rfl

/-- @main is the chain of its items: operation stretches and the region, in order. -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

end Cert.Kernel.MainChain

end
-- ==== Proof.KernelFrameKit.lean ====
/-
  The launch side of `Kernel`'s frame: what the region finds in each buffer (the host operations before it folded over
  the launch memory), @main as "host lines, the region, host lines", what the lines after the region may touch, that no
  host line writes an argument array, each input window's block at a grid point, the body's one branch condition decided
  over the grid (it holds at the first point only), and the frame claim's post read off a frame run's post.
  The kernel keeps two 1 × 1 accumulators across its 68 grid points (reset at the first, added to at every point, written
  back after the last); every argument array bypasses the region, so each ends as launched because no host line writes it.
-/
import proofs.«117586_j82575041232910_1_alg».proof.Proof.KernelMainChain
import proofs.«117586_j82575041232910_1_alg».proof.Proof.Gen.Kernel.Skeleton
import proofs.«117586_j82575041232910_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.Kernel.Frame

open Cert.Kernel Cert.Kernel.Gen Cert.Kernel.GenP Cert.Kernel.MainChain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev pfx : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s buffer contents when the region is entered: the host operations before it, folded over the launch memory. -/
abbrev V0 (c : Dev nD) : Valuation τ sig (Elt F) := StableHlo.after (List.flatten (pfx (F := F))) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it: it reduces to the region continued by
    the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pfx [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the frame post read at the eight argument
    arrays (none is a window's array: each is a bypassing buffer, as the lines after the region leave it) is the frame
    claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## The body's branch condition -/

/-- The condition of the body's one `scf.if` (the accumulators' reset), from the grid coordinate. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 68 = 0 :=
  (by decide +kernel : ∀ t : Fin grid0.N, cond0_0 (grid0.coords t) ↔ t.val % 68 = 0)

/-! ## The staging memrefs -/

/-- One staging buffer of each output window, through which its contents are stated. -/
abbrev VO0_3 : View sig .tc .vmem S1x1 .f32 := (Memref.whole cc0_stg3_0 : Memref sig .tc .vmem S1x1 .f32).view
abbrev VO0_4 : View sig .tc .vmem S1x1 .f32 := (Memref.whole cc0_stg4_0 : Memref sig .tc .vmem S1x1 .f32).view
/-- Each window's current staging memref at point `t`, as the pipeline passes it, and its wholeness. -/
abbrev ms0_0 (t : Fin cfg0.N) : Memref sig .tc .vmem S256x3136 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

end Cert.Kernel.Frame

end
-- ==== Proof.KernelRunA.lean ====
/-
  The kernel body of `Kernel` run whole at the FIRST grid point (the reset branch taken): on whole staging memrefs — the
  three inputs at their contents, the two accumulators at anything — it runs to the continuation holding the inputs as they
  were and each accumulator's buffer with the pieces the body stored into it (the zero block, then the first block's sum
  over it). The two piece lists are what the run finds.
-/
import proofs.«117586_j82575041232910_1_alg».proof.Proof.KernelFrameKit

set_option maxRecDepth 65536

noncomputable section

namespace Cert.Kernel.Frame

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first point: the pieces each accumulator ends with, and the run that leaves them. -/
noncomputable def kernelRun0_A (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S256x3136 .f32) (x1 : Vec F S256x1 .i32) (x2 : Vec F S256x1 .f32) :
    Σ' (L3 : List (View.Piece (Elt F) S1x1 .f32)) (L4 : List (View.Piece (Elt F) S1x1 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__kp_ce_kernel i arg1 harg1 arg2 harg2 arg3 harg3 arg4 harg4 arg5 harg5) K := by
  refine ⟨?_, ?_, fun E K => ?run⟩
  case run =>
    simp only [cc0__kp_ce_kernel_eq_skeleton]; unfold cc0__kp_ce_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.Kernel.Frame

end
-- ==== Proof.KernelRunB.lean ====
/-
  The kernel body of `Kernel` run whole at a LATER grid point (the reset branch not taken): on whole staging memrefs — the
  three inputs at their contents, the two accumulators at their running contents — it runs to the continuation holding the
  inputs as they were and each accumulator's buffer with the one piece the body stored into it (the running contents plus
  this block's sum). The two piece lists are what the run finds.
-/
import proofs.«117586_j82575041232910_1_alg».proof.Proof.KernelRunA

set_option maxRecDepth 65536

noncomputable section

namespace Cert.Kernel.Frame

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a later point: the pieces each accumulator ends with, and the run that leaves them. -/
noncomputable def kernelRun0_B (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S256x3136 .f32) (x1 : Vec F S256x1 .i32) (x2 : Vec F S256x1 .f32) (xo3 : Vec F S1x1 .f32) (xo4 : Vec F S1x1 .f32) :
    Σ' (L3 : List (View.Piece (Elt F) S1x1 .f32)) (L4 : List (View.Piece (Elt F) S1x1 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__kp_ce_kernel i arg1 harg1 arg2 harg2 arg3 harg3 arg4 harg4 arg5 harg5) K := by
  refine ⟨?_, ?_, fun E K => ?run⟩
  case run =>
    simp only [cc0__kp_ce_kernel_eq_skeleton]; unfold cc0__kp_ce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.Kernel.Frame

end
-- ==== Proof.KernelFrame.lean ====
/-
  The frame of `Kernel`: what the two accumulators' staging buffers hold after the body, case by case (the pieces a case's run
  found, read back) and point by point (the first point's reset-and-add, then each later point's add over what the point
  before left: the buffers are not written back until after the last point), the pipeline's proof data, the body obligation
  at a generic point, the run of @main around the region, and the frame claim at any float instance.
-/
import proofs.«117586_j82575041232910_1_alg».proof.Proof.KernelRunB

set_option maxRecDepth 65536

noncomputable section

namespace Cert.Kernel.Frame

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a case leaves in each accumulator's buffer -/

/-- The first point's pieces for the sum accumulator tile its 1 × 1 block, so they cover it. -/
theorem cover0_A_3 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S256x3136 .f32) (x1 : Vec F S256x1 .i32) (x2 : Vec F S256x1 .f32) (y : S1x1.Idx) :
    ∃ pc ∈ (kernelRun0_A c i arg1 harg1 arg2 harg2 arg3 harg3 arg4 harg4 arg5 harg5 hc0 x0 x1 x2).1, y ∈ pc.1.set :=
  View.cover_of_tiledL (kernelRun0_A c i arg1 harg1 arg2 harg2 arg3 harg3 arg4 harg4 arg5 harg5 hc0 x0 x1 x2).1 S1x1.size (by sl_kernel_rfl) y
/-- Likewise for the count accumulator. -/
theorem cover0_A_4 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S256x3136 .f32) (x1 : Vec F S256x1 .i32) (x2 : Vec F S256x1 .f32) (y : S1x1.Idx) :
    ∃ pc ∈ (kernelRun0_A c i arg1 harg1 arg2 harg2 arg3 harg3 arg4 harg4 arg5 harg5 hc0 x0 x1 x2).2.1, y ∈ pc.1.set :=
  View.cover_of_tiledL (kernelRun0_A c i arg1 harg1 arg2 harg2 arg3 harg3 arg4 harg4 arg5 harg5 hc0 x0 x1 x2).2.1 S1x1.size (by sl_kernel_rfl) y

/-- What the first point leaves in the sum accumulator's buffer: its pieces read back. -/
def out0_A_3 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S256x3136 .f32) (x1 : Vec F S256x1 .i32) (x2 : Vec F S256x1 .f32) : Vec F S1x1 .f32 :=
  VO0_3.read (Elt F) (VO0_3.writes (Elt F) VO0_3.junk (kernelRun0_A c i arg1 harg1 arg2 harg2 arg3 harg3 arg4 harg4 arg5 harg5 hc0 x0 x1 x2).1)
/-- And in the count accumulator's. -/
def out0_A_4 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S256x3136 .f32) (x1 : Vec F S256x1 .i32) (x2 : Vec F S256x1 .f32) : Vec F S1x1 .f32 :=
  VO0_4.read (Elt F) (VO0_4.writes (Elt F) VO0_4.junk (kernelRun0_A c i arg1 harg1 arg2 harg2 arg3 harg3 arg4 harg4 arg5 harg5 hc0 x0 x1 x2).2.1)

/-- A later point's piece for the sum accumulator is its whole block. -/
theorem cover0_B_3 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S256x3136 .f32) (x1 : Vec F S256x1 .i32) (x2 : Vec F S256x1 .f32) (xo3 : Vec F S1x1 .f32) (xo4 : Vec F S1x1 .f32) (y : S1x1.Idx) :
    ∃ pc ∈ (kernelRun0_B c i arg1 harg1 arg2 harg2 arg3 harg3 arg4 harg4 arg5 harg5 hc0 x0 x1 x2 xo3 xo4).1, y ∈ pc.1.set :=
  View.cover_of_tiledL (kernelRun0_B c i arg1 harg1 arg2 harg2 arg3 harg3 arg4 harg4 arg5 harg5 hc0 x0 x1 x2 xo3 xo4).1 S1x1.size (by sl_kernel_rfl) y
/-- Likewise for the count accumulator. -/
theorem cover0_B_4 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S256x3136 .f32) (x1 : Vec F S256x1 .i32) (x2 : Vec F S256x1 .f32) (xo3 : Vec F S1x1 .f32) (xo4 : Vec F S1x1 .f32) (y : S1x1.Idx) :
    ∃ pc ∈ (kernelRun0_B c i arg1 harg1 arg2 harg2 arg3 harg3 arg4 harg4 arg5 harg5 hc0 x0 x1 x2 xo3 xo4).2.1, y ∈ pc.1.set :=
  View.cover_of_tiledL (kernelRun0_B c i arg1 harg1 arg2 harg2 arg3 harg3 arg4 harg4 arg5 harg5 hc0 x0 x1 x2 xo3 xo4).2.1 S1x1.size (by sl_kernel_rfl) y

/-- What a later point leaves in the sum accumulator's buffer, from what it found there. -/
def out0_B_3 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S256x3136 .f32) (x1 : Vec F S256x1 .i32) (x2 : Vec F S256x1 .f32) (xo3 : Vec F S1x1 .f32) (xo4 : Vec F S1x1 .f32) : Vec F S1x1 .f32 :=
  VO0_3.read (Elt F) (VO0_3.writes (Elt F) VO0_3.junk (kernelRun0_B c i arg1 harg1 arg2 harg2 arg3 harg3 arg4 harg4 arg5 harg5 hc0 x0 x1 x2 xo3 xo4).1)
/-- And in the count accumulator's. -/
def out0_B_4 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S256x3136 .f32) (x1 : Vec F S256x1 .i32) (x2 : Vec F S256x1 .f32) (xo3 : Vec F S1x1 .f32) (xo4 : Vec F S1x1 .f32) : Vec F S1x1 .f32 :=
  VO0_4.read (Elt F) (VO0_4.writes (Elt F) VO0_4.junk (kernelRun0_B c i arg1 harg1 arg2 harg2 arg3 harg3 arg4 harg4 arg5 harg5 hc0 x0 x1 x2 xo3 xo4).2.1)

/-! ## What the accumulators hold after each point -/

/-- THE ACCUMULATION. What the two accumulators' staging buffers hold after the body at position `n` (sum, count): the
    first point's case at a point the reset holds at, else the later case over what position `n - 1` left. -/
def outsAt0 (c : Dev nD) : (n : ℕ) → n < cfg0.N → Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩),
              out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 68 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2)

/-- `outsAt0` at a point where the reset holds: the first case's contents. -/
theorem outsAt0_A (c : Dev nD) (t : Fin cfg0.N) (h0 : t.val % 68 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)) := by
  obtain ⟨n, hn⟩ := t
  cases n with
  | zero => exact rfl
  | succ n => exact (dif_pos h0).trans rfl

/-- `outsAt0` at a later point: the later case's contents, over what the point before left. -/
theorem outsAt0_B (c : Dev nD) (t : Fin cfg0.N) (h0 : ¬t.val % 68 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2,
      out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t` each
    input's buffer at its block and the accumulators' at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q _ := fullShare
  owed _ := 0

/-- The proof data's arrays are the region-entry contents (the definition projected: the fold over @main's host prefix is
    never unfolded to check it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point the sum accumulator's buffer holds what the body left at the point before: the point is not the first,
    and the buffer was not written back between (it is written back after the last point only). -/
theorem before0_3_B (c : Dev nD) (t : Fin cfg0.N) (h0 : ¬t.val % 68 = 0) (d) :
    (dats m 0 c).before 3 t d = (outsAt0 m c (t.val - 1) (Nat.lt_of_le_of_lt (Nat.sub_le _ _) t.isLt)).1 := by
  have hN : t.val < 68 := lt_of_lt_of_eq t.isLt (show cfg0.N = 68 from N_0)
  rw [Dat.before_out_kept _ 3 rfl t (by omega) (Bool.eq_false_iff.mpr fun h => by have := (flush0_3 _).mp h; dsimp only at this; omega)
    (fun _ => rfl) (fun _ _ => rfl)]
  dsimp only [dats]
/-- Likewise the count accumulator's. -/
theorem before0_4_B (c : Dev nD) (t : Fin cfg0.N) (h0 : ¬t.val % 68 = 0) (d) :
    (dats m 0 c).before 4 t d = (outsAt0 m c (t.val - 1) (Nat.lt_of_le_of_lt (Nat.sub_le _ _) t.isLt)).2 := by
  have hN : t.val < 68 := lt_of_lt_of_eq t.isLt (show cfg0.N = 68 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the closed form says which case the point is in; at a
    later point the accumulators hold what the point before left; so that case's run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 68 := lt_of_lt_of_eq t.isLt (show cfg0.N = 68 from N_0)
  by_cases h0 : t.val % 68 = 0
  · rw [outsAt0_A m c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [outsAt0_B m c t h0]
    dsimp only
    simp only [before0_3_B m c t h0, before0_4_B m c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the library computes from the proof data and every other unscoped buffer as the lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME of `Kernel`, at any float instance: it runs to the end, faults nowhere, and its eight argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Frame

end
-- ==== Proof.KernelIdealMainChain.lean ====
/-
  @main of `KernelIdeal` is the chain of its items: the stretches of host operations before the region (each module-local
  function's inlined body a stretch of its own), the region, the stretch after it.
  @main is printed as three windows of statements. The last two are their items by one definitional unfolding each. The
  first window is too deep for that (60 statements, 122 host operations once its five calls are inlined), so it is cut in
  three: its first four items are followed by the rest of the window (`main_part0_rest1`: the window's statements after
  the call of @take_along_axis, the printed program's own), that rest's first four items by `main_part0_rest2` (the
  statements after the call of @take_along_axis_0), and that is its last five items. Each cut is about forty operations.
  The three join by `chainK_chainK`, and the windows join into @main's chain as chains of items do.
-/
import proofs.«117586_j82575041232910_1_alg».proof.Proof.KernelIdealLaunch

set_option maxRecDepth 65536

noncomputable section

namespace Cert.KernelIdeal.MainChain

open Cert.KernelIdeal Cert.KernelIdeal.GenP Cert.KernelIdeal.Facts₀ Cert.KernelIdeal.Facts
open Idealize.ShloMosaic Idealize.ShloMosaic.TcCoe
open Idealize.SL Idealize.SL.Sem

variable {F : FTy → Type} [FloatOps F]

/-- Window 0 of @main from its statement after the call of @take_along_axis on. -/
noncomputable def main_part0_rest1 : Dev nD → Prog (TpuEff nD τ sig (Elt F) (Pipeline.Sig Λ₀ (Fin 1) fun p => (pcfgs (F := F) p).Adm) .tc) PUnit := fun _ => do
  hlo rfl (StableHlo.reshape main_v4 main_v5 rfl shapeCasts_S1024x1_S1024) (fun _ => .ret ⟨⟩) -- %5 = stablehlo.reshape %4 : (tensor<1024x1xf32>) -> tensor<1024xf32>  @ kernel:62
  hlo rfl (StableHlo.unary main_v5 main_v6 (Host.negf : (⟨S1024, .f32⟩ : BufTy).Contents (Elt F) → (⟨S1024, .f32⟩ : BufTy).Contents (Elt F))) (fun _ => .ret ⟨⟩) -- %6 = stablehlo.negate %5 : tensor<1024xf32>  @ kernel:62
  hlo rfl (StableHlo.unary main_v1 main_v7 (uitofp .f32 : (⟨S1024, .i1⟩ : BufTy).Contents (Elt F) → (⟨S1024, .f32⟩ : BufTy).Contents (Elt F))) (fun _ => .ret ⟨⟩) -- %7 = stablehlo.convert %1 : (tensor<1024xi1>) -> tensor<1024xf32>  @ kernel:63
  hlo rfl (StableHlo.nullary main_cst (constant S_ .f32 0x00000000#32)) (fun _ => .ret ⟨⟩) -- %cst = stablehlo.constant dense<0.000000e+00> : tensor<f32>
  hlo rfl (StableHlo.binary main_v7 main_cst main_v8 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F))) (fun _ => .ret ⟨⟩) -- %8 = stablehlo.reduce(%7 init: %cst) applies stablehlo.add across dimensions = [0] : (tensor<1024xf32>, tensor<f32>) -> tensor<f32> {  @ kernel:63
  hlo rfl (StableHlo.nullary main_cst_0 (constant S_ .f32 0x3F800000#32)) (fun _ => .ret ⟨⟩) -- %cst_0 = stablehlo.constant dense<1.000000e+00> : tensor<f32>
  hlo rfl (StableHlo.binary main_v8 main_cst_0 main_v9 (maximumf : (⟨S_, .f32⟩ : BufTy).Contents (Elt F) → (⟨S_, .f32⟩ : BufTy).Contents (Elt F) → (⟨S_, .f32⟩ : BufTy).Contents (Elt F))) (fun _ => .ret ⟨⟩) -- %9 = stablehlo.maximum %8, %cst_0 : tensor<f32>  @ kernel:63
  hlo rfl (StableHlo.nullary main_cst_1 (constant S_ .f32 0x00000000#32)) (fun _ => .ret ⟨⟩) -- %cst_1 = stablehlo.constant dense<0.000000e+00> : tensor<f32>
  fn_where.body (.of main_v1) (.of main_v6) (.of main_cst_1) main_call2 -- %10 = func.call @_where(%1, %6, %cst_1) : (tensor<1024xi1>, tensor<1024xf32>, tensor<f32>) -> tensor<1024xf32>  @ kernel:64
  hlo rfl (StableHlo.nullary main_cst_2 (constant S_ .f32 0x00000000#32)) (fun _ => .ret ⟨⟩) -- %cst_2 = stablehlo.constant dense<0.000000e+00> : tensor<f32>
  hlo rfl (StableHlo.binary main_v10 main_cst_2 main_v11 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F))) (fun _ => .ret ⟨⟩) -- %11 = stablehlo.reduce(%10 init: %cst_2) applies stablehlo.add across dimensions = [0] : (tensor<1024xf32>, tensor<f32>) -> tensor<f32> {  @ kernel:64
  hlo rfl (StableHlo.binary main_v11 main_v9 main_v12 (Host.divf : (⟨S_, .f32⟩ : BufTy).Contents (Elt F) → (⟨S_, .f32⟩ : BufTy).Contents (Elt F) → (⟨S_, .f32⟩ : BufTy).Contents (Elt F))) (fun _ => .ret ⟨⟩) -- %12 = stablehlo.divide %11, %9 : tensor<f32>  @ kernel:64
  hlo rfl (StableHlo.nullary main_c_3 (constantI S_ 32 0#32)) (fun _ => .ret ⟨⟩) -- %c_3 = stablehlo.constant dense<0> : tensor<i32>
  hlo rfl (StableHlo.unary main_c_3 main_v13 (broadcastInDim S1024 ![] bcast_S_S1024 : (⟨S_, .i32⟩ : BufTy).Contents (Elt F) → (⟨S1024, .i32⟩ : BufTy).Contents (Elt F))) (fun _ => .ret ⟨⟩) -- %13 = stablehlo.broadcast_in_dim %c_3, dims = [] : (tensor<i32>) -> tensor<1024xi32>  @ kernel:137
  hlo rfl (StableHlo.binary main_arg6 main_v13 main_v14 (cmpi .sgt : (⟨S1024, .i32⟩ : BufTy).Contents (Elt F) → (⟨S1024, .i32⟩ : BufTy).Contents (Elt F) → (⟨S1024, .i1⟩ : BufTy).Contents (Elt F))) (fun _ => .ret ⟨⟩) -- %14 = stablehlo.compare GT, %arg6, %13, SIGNED : (tensor<1024xi32>, tensor<1024xi32>) -> tensor<1024xi1>  @ kernel:137
  hlo rfl (StableHlo.reshape main_arg1 main_v15 rfl shapeCasts_S1024x32_S1024x8x4) (fun _ => .ret ⟨⟩) -- %15 = stablehlo.reshape %arg1 : (tensor<1024x32xf32>) -> tensor<1024x8x4xf32>  @ kernel:138
  hlo rfl (StableHlo.unary main_arg6 main_v16 (broadcastInDim S1024x1x1 ![0] bcast_S1024_S1024x1x1_0 : (⟨S1024, .i32⟩ : BufTy).Contents (Elt F) → (⟨S1024x1x1, .i32⟩ : BufTy).Contents (Elt F))) (fun _ => .ret ⟨⟩) -- %16 = stablehlo.broadcast_in_dim %arg6, dims = [0] : (tensor<1024xi32>) -> tensor<1024x1x1xi32>  @ kernel:139
  fn_take_along_axis_0.body (.of main_v15) (.of main_v16) main_call3    -- %17 = func.call @take_along_axis_0(%15, %16) : (tensor<1024x8x4xf32>, tensor<1024x1x1xi32>) -> tensor<1024x1x4xf32>  @ kernel:139
  hlo rfl (StableHlo.reshape main_v17 main_v18 rfl shapeCasts_S1024x1x4_S1024x4) (fun _ => .ret ⟨⟩) -- %18 = stablehlo.reshape %17 : (tensor<1024x1x4xf32>) -> tensor<1024x4xf32>  @ kernel:139
  hlo rfl (StableHlo.binary main_v18 main_arg2 main_v19 (subf : (⟨S1024x4, .f32⟩ : BufTy).Contents (Elt F) → (⟨S1024x4, .f32⟩ : BufTy).Contents (Elt F) → (⟨S1024x4, .f32⟩ : BufTy).Contents (Elt F))) (fun _ => .ret ⟨⟩) -- %19 = stablehlo.subtract %18, %arg2 : tensor<1024x4xf32>  @ kernel:140
  hlo rfl (StableHlo.unary main_v19 main_v20 (Host.absf : (⟨S1024x4, .f32⟩ : BufTy).Contents (Elt F) → (⟨S1024x4, .f32⟩ : BufTy).Contents (Elt F))) (fun _ => .ret ⟨⟩) -- %20 = stablehlo.abs %19 : tensor<1024x4xf32>  @ kernel:141
  hlo rfl (StableHlo.nullary main_cst_4 (constant S_ .f32 0x3DE38E39#32)) (fun _ => .ret ⟨⟩) -- %cst_4 = stablehlo.constant dense<0.111111112> : tensor<f32>
  hlo rfl (StableHlo.unary main_cst_4 main_v21 (broadcastInDim S1024x4 ![] bcast_S_S1024x4 : (⟨S_, .f32⟩ : BufTy).Contents (Elt F) → (⟨S1024x4, .f32⟩ : BufTy).Contents (Elt F))) (fun _ => .ret ⟨⟩) -- %21 = stablehlo.broadcast_in_dim %cst_4, dims = [] : (tensor<f32>) -> tensor<1024x4xf32>  @ kernel:142
  hlo rfl (StableHlo.binary main_v20 main_v21 main_v22 (cmpf .olt : (⟨S1024x4, .f32⟩ : BufTy).Contents (Elt F) → (⟨S1024x4, .f32⟩ : BufTy).Contents (Elt F) → (⟨S1024x4, .i1⟩ : BufTy).Contents (Elt F))) (fun _ => .ret ⟨⟩) -- %22 = stablehlo.compare LT, %20, %21, FLOAT : (tensor<1024x4xf32>, tensor<1024x4xf32>) -> tensor<1024x4xi1>  @ kernel:142
  hlo rfl (StableHlo.nullary main_cst_5 (constant S_ .f32 0x3F000000#32)) (fun _ => .ret ⟨⟩) -- %cst_5 = stablehlo.constant dense<5.000000e-01> : tensor<f32>
  hlo rfl (StableHlo.unary main_cst_5 main_v23 (broadcastInDim S1024x4 ![] bcast_S_S1024x4 : (⟨S_, .f32⟩ : BufTy).Contents (Elt F) → (⟨S1024x4, .f32⟩ : BufTy).Contents (Elt F))) (fun _ => .ret ⟨⟩) -- %23 = stablehlo.broadcast_in_dim %cst_5, dims = [] : (tensor<f32>) -> tensor<1024x4xf32>  @ kernel:142
  hlo rfl (StableHlo.binary main_v23 main_v19 main_v24 (mulf : (⟨S1024x4, .f32⟩ : BufTy).Contents (Elt F) → (⟨S1024x4, .f32⟩ : BufTy).Contents (Elt F) → (⟨S1024x4, .f32⟩ : BufTy).Contents (Elt F))) (fun _ => .ret ⟨⟩) -- %24 = stablehlo.multiply %23, %19 : tensor<1024x4xf32>  @ kernel:142
  hlo rfl (StableHlo.binary main_v24 main_v19 main_v25 (mulf : (⟨S1024x4, .f32⟩ : BufTy).Contents (Elt F) → (⟨S1024x4, .f32⟩ : BufTy).Contents (Elt F) → (⟨S1024x4, .f32⟩ : BufTy).Contents (Elt F))) (fun _ => .ret ⟨⟩) -- %25 = stablehlo.multiply %24, %19 : tensor<1024x4xf32>  @ kernel:142
  hlo rfl (StableHlo.nullary main_cst_6 (constant S_ .f32 0x3DE38E39#32)) (fun _ => .ret ⟨⟩) -- %cst_6 = stablehlo.constant dense<0.111111112> : tensor<f32>
  hlo rfl (StableHlo.unary main_cst_6 main_v26 (broadcastInDim S1024x4 ![] bcast_S_S1024x4 : (⟨S_, .f32⟩ : BufTy).Contents (Elt F) → (⟨S1024x4, .f32⟩ : BufTy).Contents (Elt F))) (fun _ => .ret ⟨⟩) -- %26 = stablehlo.broadcast_in_dim %cst_6, dims = [] : (tensor<f32>) -> tensor<1024x4xf32>  @ kernel:142
  hlo rfl (StableHlo.binary main_v25 main_v26 main_v27 (Host.divf : (⟨S1024x4, .f32⟩ : BufTy).Contents (Elt F) → (⟨S1024x4, .f32⟩ : BufTy).Contents (Elt F) → (⟨S1024x4, .f32⟩ : BufTy).Contents (Elt F))) (fun _ => .ret ⟨⟩) -- %27 = stablehlo.divide %25, %26 : tensor<1024x4xf32>  @ kernel:142
  hlo rfl (StableHlo.nullary main_cst_7 (constant S_ .f32 0x3D638E39#32)) (fun _ => .ret ⟨⟩) -- %cst_7 = stablehlo.constant dense<0.055555556> : tensor<f32>
  hlo rfl (StableHlo.unary main_cst_7 main_v28 (broadcastInDim S1024x4 ![] bcast_S_S1024x4 : (⟨S_, .f32⟩ : BufTy).Contents (Elt F) → (⟨S1024x4, .f32⟩ : BufTy).Contents (Elt F))) (fun _ => .ret ⟨⟩) -- %28 = stablehlo.broadcast_in_dim %cst_7, dims = [] : (tensor<f32>) -> tensor<1024x4xf32>  @ kernel:142
  hlo rfl (StableHlo.binary main_v20 main_v28 main_v29 (subf : (⟨S1024x4, .f32⟩ : BufTy).Contents (Elt F) → (⟨S1024x4, .f32⟩ : BufTy).Contents (Elt F) → (⟨S1024x4, .f32⟩ : BufTy).Contents (Elt F))) (fun _ => .ret ⟨⟩) -- %29 = stablehlo.subtract %20, %28 : tensor<1024x4xf32>  @ kernel:142
  fn_where_1.body (.of main_v22) (.of main_v27) (.of main_v29) main_call4 -- %30 = func.call @_where_1(%22, %27, %29) : (tensor<1024x4xi1>, tensor<1024x4xf32>, tensor<1024x4xf32>) -> tensor<1024x4xf32>  @ kernel:142
  hlo rfl (StableHlo.unary main_v14 main_v31 (broadcastInDim S1024x1 ![0] bcast_S1024_S1024x1_0 : (⟨S1024, .i1⟩ : BufTy).Contents (Elt F) → (⟨S1024x1, .i1⟩ : BufTy).Contents (Elt F))) (fun _ => .ret ⟨⟩) -- %31 = stablehlo.broadcast_in_dim %14, dims = [0] : (tensor<1024xi1>) -> tensor<1024x1xi1>  @ kernel:143
  hlo rfl (StableHlo.nullary main_cst_8 (constant S_ .f32 0x00000000#32)) (fun _ => .ret ⟨⟩) -- %cst_8 = stablehlo.constant dense<0.000000e+00> : tensor<f32>
  fn_where_2.body (.of main_v31) (.of main_v30) (.of main_cst_8) main_call5 -- %32 = func.call @_where_2(%31, %30, %cst_8) : (tensor<1024x1xi1>, tensor<1024x4xf32>, tensor<f32>) -> tensor<1024x4xf32>  @ kernel:143
  hlo rfl (StableHlo.nullary main_cst_9 (constant S_ .f32 0x00000000#32)) (fun _ => .ret ⟨⟩) -- %cst_9 = stablehlo.constant dense<0.000000e+00> : tensor<f32>
  hlo rfl (StableHlo.binary main_v32 main_cst_9 main_v33 ((fun x v => Host.reduceAdd x v reducesTo_S1024x4_S_d0_1 h_S_) : (⟨S1024x4, .f32⟩ : BufTy).Contents (Elt F) → (⟨S_, .f32⟩ : BufTy).Contents (Elt F) → (⟨S_, .f32⟩ : BufTy).Contents (Elt F))) (fun _ => .ret ⟨⟩) -- %33 = stablehlo.reduce(%32 init: %cst_9) applies stablehlo.add across dimensions = [0, 1] : (tensor<1024x4xf32>, tensor<f32>) -> tensor<f32> {  @ kernel:143
  hlo rfl (StableHlo.nullary main_cst_10 (constant S_ .f32 0x44800000#32)) (fun _ => .ret ⟨⟩) -- %cst_10 = stablehlo.constant dense<1.024000e+03> : tensor<f32>
  hlo rfl (StableHlo.binary main_v33 main_cst_10 main_v34 (Host.divf : (⟨S_, .f32⟩ : BufTy).Contents (Elt F) → (⟨S_, .f32⟩ : BufTy).Contents (Elt F) → (⟨S_, .f32⟩ : BufTy).Contents (Elt F))) (fun _ => .ret ⟨⟩) -- %34 = stablehlo.divide %33, %cst_10 : tensor<f32>  @ kernel:143
  hlo rfl (StableHlo.nullary main_c_11 (constantI S_ 32 0#32)) (fun _ => .ret ⟨⟩) -- %c_11 = stablehlo.constant dense<0> : tensor<i32>
  hlo rfl (StableHlo.unary main_c_11 main_v35 (broadcastInDim S1024 ![] bcast_S_S1024 : (⟨S_, .i32⟩ : BufTy).Contents (Elt F) → (⟨S1024, .i32⟩ : BufTy).Contents (Elt F))) (fun _ => .ret ⟨⟩) -- %35 = stablehlo.broadcast_in_dim %c_11, dims = [] : (tensor<i32>) -> tensor<1024xi32>  @ kernel:147
  hlo rfl (StableHlo.binary main_arg7 main_v35 main_v36 (cmpi .slt : (⟨S1024, .i32⟩ : BufTy).Contents (Elt F) → (⟨S1024, .i32⟩ : BufTy).Contents (Elt F) → (⟨S1024, .i1⟩ : BufTy).Contents (Elt F))) (fun _ => .ret ⟨⟩) -- %36 = stablehlo.compare LT, %arg7, %35, SIGNED : (tensor<1024xi32>, tensor<1024xi32>) -> tensor<1024xi1>  @ kernel:147
  hlo rfl (StableHlo.nullary main_c_12 (constantI S_ 32 256#32)) (fun _ => .ret ⟨⟩) -- %c_12 = stablehlo.constant dense<256> : tensor<i32>
  hlo rfl (StableHlo.unary main_c_12 main_v37 (broadcastInDim S1024 ![] bcast_S_S1024 : (⟨S_, .i32⟩ : BufTy).Contents (Elt F) → (⟨S1024, .i32⟩ : BufTy).Contents (Elt F))) (fun _ => .ret ⟨⟩) -- %37 = stablehlo.broadcast_in_dim %c_12, dims = [] : (tensor<i32>) -> tensor<1024xi32>  @ kernel:147
  hlo rfl (StableHlo.binary main_arg7 main_v37 main_v38 (addi : (⟨S1024, .i32⟩ : BufTy).Contents (Elt F) → (⟨S1024, .i32⟩ : BufTy).Contents (Elt F) → (⟨S1024, .i32⟩ : BufTy).Contents (Elt F))) (fun _ => .ret ⟨⟩) -- %38 = stablehlo.add %arg7, %37 : tensor<1024xi32>  @ kernel:147
  hlo rfl (StableHlo.ternary main_v36 main_v38 main_arg7 main_v39 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))) (fun _ => .ret ⟨⟩) -- %39 = stablehlo.select %36, %38, %arg7 : tensor<1024xi1>, tensor<1024xi32>  @ kernel:147
  hlo rfl (StableHlo.unary main_v39 main_v40 (broadcastInDim S1024x1 ![0] bcast_S1024_S1024x1_0 : (⟨S1024, .i32⟩ : BufTy).Contents (Elt F) → (⟨S1024x1, .i32⟩ : BufTy).Contents (Elt F))) (fun _ => .ret ⟨⟩) -- %40 = stablehlo.broadcast_in_dim %39, dims = [0] : (tensor<1024xi32>) -> tensor<1024x1xi32>  @ kernel:147
  hlo rfl (StableHlo.binary main_arg4 main_v40 main_v41 ((fun x i => Host.gather gather_S256x17x3_S1024x1_S1024x17x3_12_0_n_n_0_1_1173 x i) : (⟨S256x17x3, .f32⟩ : BufTy).Contents (Elt F) → (⟨S1024x1, .i32⟩ : BufTy).Contents (Elt F) → (⟨S1024x17x3, .f32⟩ : BufTy).Contents (Elt F))) (fun _ => .ret ⟨⟩) -- %41 = "stablehlo.gather"(%arg4, %40) <{dimension_numbers = #stablehlo.gather<offset_dims = [1, 2], collapsed_slice_dims = [0], start_index_map = [0], index_vector_dim = 1>, indices_are_sorted = false, slice_sizes = array<i64: 1, 17, 3>}> : (tensor<256x17x3xf32>, tensor<1024x1xi32>) -> tensor<1024x17x3xf32>  @ kernel:147
  hlo rfl (StableHlo.unary main_arg3 main_v42 ((extractStridedSlice S1024x1 ![0, 0] · slices_S1024x4_S1024x1_0_0) : (⟨S1024x4, .f32⟩ : BufTy).Contents (Elt F) → (⟨S1024x1, .f32⟩ : BufTy).Contents (Elt F))) (fun _ => .ret ⟨⟩) -- %42 = stablehlo.slice %arg3 [0:1024, 0:1] : (tensor<1024x4xf32>) -> tensor<1024x1xf32>  @ kernel:148
  hlo rfl (StableHlo.unary main_arg3 main_v43 ((extractStridedSlice S1024x1 ![0, 1] · slices_S1024x4_S1024x1_0_1) : (⟨S1024x4, .f32⟩ : BufTy).Contents (Elt F) → (⟨S1024x1, .f32⟩ : BufTy).Contents (Elt F))) (fun _ => .ret ⟨⟩) -- %43 = stablehlo.slice %arg3 [0:1024, 1:2] : (tensor<1024x4xf32>) -> tensor<1024x1xf32>  @ kernel:148
  hlo rfl (StableHlo.unary main_arg3 main_v44 ((extractStridedSlice S1024x1 ![0, 2] · slices_S1024x4_S1024x1_0_2) : (⟨S1024x4, .f32⟩ : BufTy).Contents (Elt F) → (⟨S1024x1, .f32⟩ : BufTy).Contents (Elt F))) (fun _ => .ret ⟨⟩) -- %44 = stablehlo.slice %arg3 [0:1024, 2:3] : (tensor<1024x4xf32>) -> tensor<1024x1xf32>  @ kernel:149

/-- Window 0 of @main from its statement after the call of @take_along_axis_0 on. -/
noncomputable def main_part0_rest2 : Dev nD → Prog (TpuEff nD τ sig (Elt F) (Pipeline.Sig Λ₀ (Fin 1) fun p => (pcfgs (F := F) p).Adm) .tc) PUnit := fun _ => do
  hlo rfl (StableHlo.reshape main_v17 main_v18 rfl shapeCasts_S1024x1x4_S1024x4) (fun _ => .ret ⟨⟩) -- %18 = stablehlo.reshape %17 : (tensor<1024x1x4xf32>) -> tensor<1024x4xf32>  @ kernel:139
  hlo rfl (StableHlo.binary main_v18 main_arg2 main_v19 (subf : (⟨S1024x4, .f32⟩ : BufTy).Contents (Elt F) → (⟨S1024x4, .f32⟩ : BufTy).Contents (Elt F) → (⟨S1024x4, .f32⟩ : BufTy).Contents (Elt F))) (fun _ => .ret ⟨⟩) -- %19 = stablehlo.subtract %18, %arg2 : tensor<1024x4xf32>  @ kernel:140
  hlo rfl (StableHlo.unary main_v19 main_v20 (Host.absf : (⟨S1024x4, .f32⟩ : BufTy).Contents (Elt F) → (⟨S1024x4, .f32⟩ : BufTy).Contents (Elt F))) (fun _ => .ret ⟨⟩) -- %20 = stablehlo.abs %19 : tensor<1024x4xf32>  @ kernel:141
  hlo rfl (StableHlo.nullary main_cst_4 (constant S_ .f32 0x3DE38E39#32)) (fun _ => .ret ⟨⟩) -- %cst_4 = stablehlo.constant dense<0.111111112> : tensor<f32>
  hlo rfl (StableHlo.unary main_cst_4 main_v21 (broadcastInDim S1024x4 ![] bcast_S_S1024x4 : (⟨S_, .f32⟩ : BufTy).Contents (Elt F) → (⟨S1024x4, .f32⟩ : BufTy).Contents (Elt F))) (fun _ => .ret ⟨⟩) -- %21 = stablehlo.broadcast_in_dim %cst_4, dims = [] : (tensor<f32>) -> tensor<1024x4xf32>  @ kernel:142
  hlo rfl (StableHlo.binary main_v20 main_v21 main_v22 (cmpf .olt : (⟨S1024x4, .f32⟩ : BufTy).Contents (Elt F) → (⟨S1024x4, .f32⟩ : BufTy).Contents (Elt F) → (⟨S1024x4, .i1⟩ : BufTy).Contents (Elt F))) (fun _ => .ret ⟨⟩) -- %22 = stablehlo.compare LT, %20, %21, FLOAT : (tensor<1024x4xf32>, tensor<1024x4xf32>) -> tensor<1024x4xi1>  @ kernel:142
  hlo rfl (StableHlo.nullary main_cst_5 (constant S_ .f32 0x3F000000#32)) (fun _ => .ret ⟨⟩) -- %cst_5 = stablehlo.constant dense<5.000000e-01> : tensor<f32>
  hlo rfl (StableHlo.unary main_cst_5 main_v23 (broadcastInDim S1024x4 ![] bcast_S_S1024x4 : (⟨S_, .f32⟩ : BufTy).Contents (Elt F) → (⟨S1024x4, .f32⟩ : BufTy).Contents (Elt F))) (fun _ => .ret ⟨⟩) -- %23 = stablehlo.broadcast_in_dim %cst_5, dims = [] : (tensor<f32>) -> tensor<1024x4xf32>  @ kernel:142
  hlo rfl (StableHlo.binary main_v23 main_v19 main_v24 (mulf : (⟨S1024x4, .f32⟩ : BufTy).Contents (Elt F) → (⟨S1024x4, .f32⟩ : BufTy).Contents (Elt F) → (⟨S1024x4, .f32⟩ : BufTy).Contents (Elt F))) (fun _ => .ret ⟨⟩) -- %24 = stablehlo.multiply %23, %19 : tensor<1024x4xf32>  @ kernel:142
  hlo rfl (StableHlo.binary main_v24 main_v19 main_v25 (mulf : (⟨S1024x4, .f32⟩ : BufTy).Contents (Elt F) → (⟨S1024x4, .f32⟩ : BufTy).Contents (Elt F) → (⟨S1024x4, .f32⟩ : BufTy).Contents (Elt F))) (fun _ => .ret ⟨⟩) -- %25 = stablehlo.multiply %24, %19 : tensor<1024x4xf32>  @ kernel:142
  hlo rfl (StableHlo.nullary main_cst_6 (constant S_ .f32 0x3DE38E39#32)) (fun _ => .ret ⟨⟩) -- %cst_6 = stablehlo.constant dense<0.111111112> : tensor<f32>
  hlo rfl (StableHlo.unary main_cst_6 main_v26 (broadcastInDim S1024x4 ![] bcast_S_S1024x4 : (⟨S_, .f32⟩ : BufTy).Contents (Elt F) → (⟨S1024x4, .f32⟩ : BufTy).Contents (Elt F))) (fun _ => .ret ⟨⟩) -- %26 = stablehlo.broadcast_in_dim %cst_6, dims = [] : (tensor<f32>) -> tensor<1024x4xf32>  @ kernel:142
  hlo rfl (StableHlo.binary main_v25 main_v26 main_v27 (Host.divf : (⟨S1024x4, .f32⟩ : BufTy).Contents (Elt F) → (⟨S1024x4, .f32⟩ : BufTy).Contents (Elt F) → (⟨S1024x4, .f32⟩ : BufTy).Contents (Elt F))) (fun _ => .ret ⟨⟩) -- %27 = stablehlo.divide %25, %26 : tensor<1024x4xf32>  @ kernel:142
  hlo rfl (StableHlo.nullary main_cst_7 (constant S_ .f32 0x3D638E39#32)) (fun _ => .ret ⟨⟩) -- %cst_7 = stablehlo.constant dense<0.055555556> : tensor<f32>
  hlo rfl (StableHlo.unary main_cst_7 main_v28 (broadcastInDim S1024x4 ![] bcast_S_S1024x4 : (⟨S_, .f32⟩ : BufTy).Contents (Elt F) → (⟨S1024x4, .f32⟩ : BufTy).Contents (Elt F))) (fun _ => .ret ⟨⟩) -- %28 = stablehlo.broadcast_in_dim %cst_7, dims = [] : (tensor<f32>) -> tensor<1024x4xf32>  @ kernel:142
  hlo rfl (StableHlo.binary main_v20 main_v28 main_v29 (subf : (⟨S1024x4, .f32⟩ : BufTy).Contents (Elt F) → (⟨S1024x4, .f32⟩ : BufTy).Contents (Elt F) → (⟨S1024x4, .f32⟩ : BufTy).Contents (Elt F))) (fun _ => .ret ⟨⟩) -- %29 = stablehlo.subtract %20, %28 : tensor<1024x4xf32>  @ kernel:142
  fn_where_1.body (.of main_v22) (.of main_v27) (.of main_v29) main_call4 -- %30 = func.call @_where_1(%22, %27, %29) : (tensor<1024x4xi1>, tensor<1024x4xf32>, tensor<1024x4xf32>) -> tensor<1024x4xf32>  @ kernel:142
  hlo rfl (StableHlo.unary main_v14 main_v31 (broadcastInDim S1024x1 ![0] bcast_S1024_S1024x1_0 : (⟨S1024, .i1⟩ : BufTy).Contents (Elt F) → (⟨S1024x1, .i1⟩ : BufTy).Contents (Elt F))) (fun _ => .ret ⟨⟩) -- %31 = stablehlo.broadcast_in_dim %14, dims = [0] : (tensor<1024xi1>) -> tensor<1024x1xi1>  @ kernel:143
  hlo rfl (StableHlo.nullary main_cst_8 (constant S_ .f32 0x00000000#32)) (fun _ => .ret ⟨⟩) -- %cst_8 = stablehlo.constant dense<0.000000e+00> : tensor<f32>
  fn_where_2.body (.of main_v31) (.of main_v30) (.of main_cst_8) main_call5 -- %32 = func.call @_where_2(%31, %30, %cst_8) : (tensor<1024x1xi1>, tensor<1024x4xf32>, tensor<f32>) -> tensor<1024x4xf32>  @ kernel:143
  hlo rfl (StableHlo.nullary main_cst_9 (constant S_ .f32 0x00000000#32)) (fun _ => .ret ⟨⟩) -- %cst_9 = stablehlo.constant dense<0.000000e+00> : tensor<f32>
  hlo rfl (StableHlo.binary main_v32 main_cst_9 main_v33 ((fun x v => Host.reduceAdd x v reducesTo_S1024x4_S_d0_1 h_S_) : (⟨S1024x4, .f32⟩ : BufTy).Contents (Elt F) → (⟨S_, .f32⟩ : BufTy).Contents (Elt F) → (⟨S_, .f32⟩ : BufTy).Contents (Elt F))) (fun _ => .ret ⟨⟩) -- %33 = stablehlo.reduce(%32 init: %cst_9) applies stablehlo.add across dimensions = [0, 1] : (tensor<1024x4xf32>, tensor<f32>) -> tensor<f32> {  @ kernel:143
  hlo rfl (StableHlo.nullary main_cst_10 (constant S_ .f32 0x44800000#32)) (fun _ => .ret ⟨⟩) -- %cst_10 = stablehlo.constant dense<1.024000e+03> : tensor<f32>
  hlo rfl (StableHlo.binary main_v33 main_cst_10 main_v34 (Host.divf : (⟨S_, .f32⟩ : BufTy).Contents (Elt F) → (⟨S_, .f32⟩ : BufTy).Contents (Elt F) → (⟨S_, .f32⟩ : BufTy).Contents (Elt F))) (fun _ => .ret ⟨⟩) -- %34 = stablehlo.divide %33, %cst_10 : tensor<f32>  @ kernel:143
  hlo rfl (StableHlo.nullary main_c_11 (constantI S_ 32 0#32)) (fun _ => .ret ⟨⟩) -- %c_11 = stablehlo.constant dense<0> : tensor<i32>
  hlo rfl (StableHlo.unary main_c_11 main_v35 (broadcastInDim S1024 ![] bcast_S_S1024 : (⟨S_, .i32⟩ : BufTy).Contents (Elt F) → (⟨S1024, .i32⟩ : BufTy).Contents (Elt F))) (fun _ => .ret ⟨⟩) -- %35 = stablehlo.broadcast_in_dim %c_11, dims = [] : (tensor<i32>) -> tensor<1024xi32>  @ kernel:147
  hlo rfl (StableHlo.binary main_arg7 main_v35 main_v36 (cmpi .slt : (⟨S1024, .i32⟩ : BufTy).Contents (Elt F) → (⟨S1024, .i32⟩ : BufTy).Contents (Elt F) → (⟨S1024, .i1⟩ : BufTy).Contents (Elt F))) (fun _ => .ret ⟨⟩) -- %36 = stablehlo.compare LT, %arg7, %35, SIGNED : (tensor<1024xi32>, tensor<1024xi32>) -> tensor<1024xi1>  @ kernel:147
  hlo rfl (StableHlo.nullary main_c_12 (constantI S_ 32 256#32)) (fun _ => .ret ⟨⟩) -- %c_12 = stablehlo.constant dense<256> : tensor<i32>
  hlo rfl (StableHlo.unary main_c_12 main_v37 (broadcastInDim S1024 ![] bcast_S_S1024 : (⟨S_, .i32⟩ : BufTy).Contents (Elt F) → (⟨S1024, .i32⟩ : BufTy).Contents (Elt F))) (fun _ => .ret ⟨⟩) -- %37 = stablehlo.broadcast_in_dim %c_12, dims = [] : (tensor<i32>) -> tensor<1024xi32>  @ kernel:147
  hlo rfl (StableHlo.binary main_arg7 main_v37 main_v38 (addi : (⟨S1024, .i32⟩ : BufTy).Contents (Elt F) → (⟨S1024, .i32⟩ : BufTy).Contents (Elt F) → (⟨S1024, .i32⟩ : BufTy).Contents (Elt F))) (fun _ => .ret ⟨⟩) -- %38 = stablehlo.add %arg7, %37 : tensor<1024xi32>  @ kernel:147
  hlo rfl (StableHlo.ternary main_v36 main_v38 main_arg7 main_v39 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))) (fun _ => .ret ⟨⟩) -- %39 = stablehlo.select %36, %38, %arg7 : tensor<1024xi1>, tensor<1024xi32>  @ kernel:147
  hlo rfl (StableHlo.unary main_v39 main_v40 (broadcastInDim S1024x1 ![0] bcast_S1024_S1024x1_0 : (⟨S1024, .i32⟩ : BufTy).Contents (Elt F) → (⟨S1024x1, .i32⟩ : BufTy).Contents (Elt F))) (fun _ => .ret ⟨⟩) -- %40 = stablehlo.broadcast_in_dim %39, dims = [0] : (tensor<1024xi32>) -> tensor<1024x1xi32>  @ kernel:147
  hlo rfl (StableHlo.binary main_arg4 main_v40 main_v41 ((fun x i => Host.gather gather_S256x17x3_S1024x1_S1024x17x3_12_0_n_n_0_1_1173 x i) : (⟨S256x17x3, .f32⟩ : BufTy).Contents (Elt F) → (⟨S1024x1, .i32⟩ : BufTy).Contents (Elt F) → (⟨S1024x17x3, .f32⟩ : BufTy).Contents (Elt F))) (fun _ => .ret ⟨⟩) -- %41 = "stablehlo.gather"(%arg4, %40) <{dimension_numbers = #stablehlo.gather<offset_dims = [1, 2], collapsed_slice_dims = [0], start_index_map = [0], index_vector_dim = 1>, indices_are_sorted = false, slice_sizes = array<i64: 1, 17, 3>}> : (tensor<256x17x3xf32>, tensor<1024x1xi32>) -> tensor<1024x17x3xf32>  @ kernel:147
  hlo rfl (StableHlo.unary main_arg3 main_v42 ((extractStridedSlice S1024x1 ![0, 0] · slices_S1024x4_S1024x1_0_0) : (⟨S1024x4, .f32⟩ : BufTy).Contents (Elt F) → (⟨S1024x1, .f32⟩ : BufTy).Contents (Elt F))) (fun _ => .ret ⟨⟩) -- %42 = stablehlo.slice %arg3 [0:1024, 0:1] : (tensor<1024x4xf32>) -> tensor<1024x1xf32>  @ kernel:148
  hlo rfl (StableHlo.unary main_arg3 main_v43 ((extractStridedSlice S1024x1 ![0, 1] · slices_S1024x4_S1024x1_0_1) : (⟨S1024x4, .f32⟩ : BufTy).Contents (Elt F) → (⟨S1024x1, .f32⟩ : BufTy).Contents (Elt F))) (fun _ => .ret ⟨⟩) -- %43 = stablehlo.slice %arg3 [0:1024, 1:2] : (tensor<1024x4xf32>) -> tensor<1024x1xf32>  @ kernel:148
  hlo rfl (StableHlo.unary main_arg3 main_v44 ((extractStridedSlice S1024x1 ![0, 2] · slices_S1024x4_S1024x1_0_2) : (⟨S1024x4, .f32⟩ : BufTy).Contents (Elt F) → (⟨S1024x1, .f32⟩ : BufTy).Contents (Elt F))) (fun _ => .ret ⟨⟩) -- %44 = stablehlo.slice %arg3 [0:1024, 2:3] : (tensor<1024x4xf32>) -> tensor<1024x1xf32>  @ kernel:149

/-- Items ending in a chain of items are the chain of all of them. -/
theorem chainK_chainK {E : Type → Type} (xs ys : List (Prog E PUnit)) (q : Prog E PUnit) :
    Pipeline.chainK xs (Pipeline.chainK ys q) = Pipeline.chainK (xs ++ ys) q := by
  induction xs with
  | nil => rfl
  | cons x xs ih => simp only [Pipeline.chainK, List.cons_append, ih]

/-- Window 0's first four items, then the rest of the window. -/
theorem main_part0_chain_a (c : Dev nD) : main_part0 (F := F) c = (Pipeline.chainK
  [ StableHlo.seq main_part0_ops0,
    StableHlo.seq main_part0_ops1,
    StableHlo.seq main_part0_ops2,
    StableHlo.seq main_part0_ops3 ]
  (main_part0_rest1 (F := F) c) : Prog (TpuEff nD τ sig (Elt F) (Pipeline.Sig Λ₀ (Fin 1) fun p => (pcfgs (F := F) p).Adm) .tc) PUnit) := by
  chain_rfl
/-- The next four items, then the rest. -/
theorem main_part0_chain_b (c : Dev nD) : main_part0_rest1 (F := F) c = (Pipeline.chainK
  [ StableHlo.seq main_part0_ops4,
    StableHlo.seq main_part0_ops5,
    StableHlo.seq main_part0_ops6,
    StableHlo.seq main_part0_ops7 ]
  (main_part0_rest2 (F := F) c) : Prog (TpuEff nD τ sig (Elt F) (Pipeline.Sig Λ₀ (Fin 1) fun p => (pcfgs (F := F) p).Adm) .tc) PUnit) := by
  chain_rfl
/-- The last five items. -/
theorem main_part0_chain_c (c : Dev nD) : main_part0_rest2 (F := F) c = (Pipeline.chainK
  [ StableHlo.seq main_part0_ops8,
    StableHlo.seq main_part0_ops9,
    StableHlo.seq main_part0_ops10,
    StableHlo.seq main_part0_ops11 ]
  (StableHlo.seq main_part0_ops12) : Prog (TpuEff nD τ sig (Elt F) (Pipeline.Sig Λ₀ (Fin 1) fun p => (pcfgs (F := F) p).Adm) .tc) PUnit) := by
  chain_rfl

/-- Window 0 of @main is the chain of its thirteen items, ending in the last. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part0_ops9,
    StableHlo.seq main_part0_ops10,
    StableHlo.seq main_part0_ops11 ]
  (StableHlo.seq main_part0_ops12) : Prog (TpuEff nD τ sig (Elt F) (Pipeline.Sig Λ₀ (Fin 1) fun p => (pcfgs (F := F) p).Adm) .tc) PUnit) := by
  rw [main_part0_chain_a, main_part0_chain_b, main_part0_chain_c, chainK_chainK, chainK_chainK]
  rfl

/-- @main is the chain of its items: operation stretches and the region, in order. -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

end Cert.KernelIdeal.MainChain

end
-- ==== Proof.KernelIdealFrameKit.lean ====
/-
  The launch side of `KernelIdeal`'s frame: what the region finds in each buffer (the host operations before it folded over
  the launch memory), @main as "host lines, the region, host lines", what the lines after the region may touch, that no
  host line writes an argument array, each input window's block at a grid point, the body's one branch condition decided
  over the grid (it holds at the first point only), and the frame claim's post read off a frame run's post.
  The kernel keeps two 1 × 1 accumulators across its 68 grid points (reset at the first, added to at every point, written
  back after the last); every argument array bypasses the region, so each ends as launched because no host line writes it.
-/
import proofs.«117586_j82575041232910_1_alg».proof.Proof.KernelIdealMainChain
import proofs.«117586_j82575041232910_1_alg».proof.Proof.Gen.KernelIdeal.Skeleton
import proofs.«117586_j82575041232910_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.KernelIdeal.Frame

open Cert.KernelIdeal Cert.KernelIdeal.Gen Cert.KernelIdeal.GenP Cert.KernelIdeal.MainChain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host operations before the region, in order. -/
abbrev pfx : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s buffer contents when the region is entered: the host operations before it, folded over the launch memory. -/
abbrev V0 (c : Dev nD) : Valuation τ sig (Elt F) := StableHlo.after (List.flatten (pfx (F := F))) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it: it reduces to the region continued by
    the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pfx [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg1`, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg2`, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg3`, and no window stages it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg4`, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg5`, and no window stages it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg6`, and no window stages it: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [pfx, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg7`, and no window stages it: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run to the frame post read at the eight argument
    arrays (none is a window's array: each is a bypassing buffer, as the lines after the region leave it) is the frame
    claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## The body's branch condition -/

/-- The condition of the body's one `scf.if` (the accumulators' reset), from the grid coordinate. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 68 = 0 :=
  (by decide +kernel : ∀ t : Fin grid0.N, cond0_0 (grid0.coords t) ↔ t.val % 68 = 0)

/-! ## The staging memrefs -/

/-- One staging buffer of each output window, through which its contents are stated. -/
abbrev VO0_3 : View sig .tc .vmem S1x1 .f32 := (Memref.whole cc0_stg3_0 : Memref sig .tc .vmem S1x1 .f32).view
abbrev VO0_4 : View sig .tc .vmem S1x1 .f32 := (Memref.whole cc0_stg4_0 : Memref sig .tc .vmem S1x1 .f32).view
/-- Each window's current staging memref at point `t`, as the pipeline passes it, and its wholeness. -/
abbrev ms0_0 (t : Fin cfg0.N) : Memref sig .tc .vmem S256x3136 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

end Cert.KernelIdeal.Frame

end
-- ==== Proof.KernelIdealRunA.lean ====
/-
  The kernel body of `KernelIdeal` run whole at the FIRST grid point (the reset branch taken): on whole staging memrefs — the
  three inputs at their contents, the two accumulators at anything — it runs to the continuation holding the inputs as they
  were and each accumulator's buffer with the pieces the body stored into it (the zero block, then the first block's sum
  over it). The two piece lists are what the run finds.
-/
import proofs.«117586_j82575041232910_1_alg».proof.Proof.KernelIdealFrameKit

set_option maxRecDepth 65536

noncomputable section

namespace Cert.KernelIdeal.Frame

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first point: the pieces each accumulator ends with, and the run that leaves them. -/
noncomputable def kernelRun0_A (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S256x3136 .f32) (x1 : Vec F S256x1 .i32) (x2 : Vec F S256x1 .f32) :
    Σ' (L3 : List (View.Piece (Elt F) S1x1 .f32)) (L4 : List (View.Piece (Elt F) S1x1 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__kp_ce_kernel i arg1 harg1 arg2 harg2 arg3 harg3 arg4 harg4 arg5 harg5) K := by
  refine ⟨?_, ?_, fun E K => ?run⟩
  case run =>
    simp only [cc0__kp_ce_kernel_eq_skeleton]; unfold cc0__kp_ce_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.KernelIdeal.Frame

end
-- ==== Proof.KernelIdealRunB.lean ====
/-
  The kernel body of `KernelIdeal` run whole at a LATER grid point (the reset branch not taken): on whole staging memrefs — the
  three inputs at their contents, the two accumulators at their running contents — it runs to the continuation holding the
  inputs as they were and each accumulator's buffer with the one piece the body stored into it (the running contents plus
  this block's sum). The two piece lists are what the run finds.
-/
import proofs.«117586_j82575041232910_1_alg».proof.Proof.KernelIdealRunA

set_option maxRecDepth 65536

noncomputable section

namespace Cert.KernelIdeal.Frame

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a later point: the pieces each accumulator ends with, and the run that leaves them. -/
noncomputable def kernelRun0_B (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S256x3136 .f32) (x1 : Vec F S256x1 .i32) (x2 : Vec F S256x1 .f32) (xo3 : Vec F S1x1 .f32) (xo4 : Vec F S1x1 .f32) :
    Σ' (L3 : List (View.Piece (Elt F) S1x1 .f32)) (L4 : List (View.Piece (Elt F) S1x1 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__kp_ce_kernel i arg1 harg1 arg2 harg2 arg3 harg3 arg4 harg4 arg5 harg5) K := by
  refine ⟨?_, ?_, fun E K => ?run⟩
  case run =>
    simp only [cc0__kp_ce_kernel_eq_skeleton]; unfold cc0__kp_ce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.KernelIdeal.Frame

end
-- ==== Proof.KernelIdealFrame.lean ====
/-
  The frame of `KernelIdeal`: what the two accumulators' staging buffers hold after the body, case by case (the pieces a case's run
  found, read back) and point by point (the first point's reset-and-add, then each later point's add over what the point
  before left: the buffers are not written back until after the last point), the pipeline's proof data, the body obligation
  at a generic point, the run of @main around the region, and the frame claim at any float instance.
-/
import proofs.«117586_j82575041232910_1_alg».proof.Proof.KernelIdealRunB

set_option maxRecDepth 65536

noncomputable section

namespace Cert.KernelIdeal.Frame

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a case leaves in each accumulator's buffer -/

/-- The first point's pieces for the sum accumulator tile its 1 × 1 block, so they cover it. -/
theorem cover0_A_3 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S256x3136 .f32) (x1 : Vec F S256x1 .i32) (x2 : Vec F S256x1 .f32) (y : S1x1.Idx) :
    ∃ pc ∈ (kernelRun0_A c i arg1 harg1 arg2 harg2 arg3 harg3 arg4 harg4 arg5 harg5 hc0 x0 x1 x2).1, y ∈ pc.1.set :=
  View.cover_of_tiledL (kernelRun0_A c i arg1 harg1 arg2 harg2 arg3 harg3 arg4 harg4 arg5 harg5 hc0 x0 x1 x2).1 S1x1.size (by sl_kernel_rfl) y
/-- Likewise for the count accumulator. -/
theorem cover0_A_4 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S256x3136 .f32) (x1 : Vec F S256x1 .i32) (x2 : Vec F S256x1 .f32) (y : S1x1.Idx) :
    ∃ pc ∈ (kernelRun0_A c i arg1 harg1 arg2 harg2 arg3 harg3 arg4 harg4 arg5 harg5 hc0 x0 x1 x2).2.1, y ∈ pc.1.set :=
  View.cover_of_tiledL (kernelRun0_A c i arg1 harg1 arg2 harg2 arg3 harg3 arg4 harg4 arg5 harg5 hc0 x0 x1 x2).2.1 S1x1.size (by sl_kernel_rfl) y

/-- What the first point leaves in the sum accumulator's buffer: its pieces read back. -/
def out0_A_3 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S256x3136 .f32) (x1 : Vec F S256x1 .i32) (x2 : Vec F S256x1 .f32) : Vec F S1x1 .f32 :=
  VO0_3.read (Elt F) (VO0_3.writes (Elt F) VO0_3.junk (kernelRun0_A c i arg1 harg1 arg2 harg2 arg3 harg3 arg4 harg4 arg5 harg5 hc0 x0 x1 x2).1)
/-- And in the count accumulator's. -/
def out0_A_4 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : cond0_0 i)
    (x0 : Vec F S256x3136 .f32) (x1 : Vec F S256x1 .i32) (x2 : Vec F S256x1 .f32) : Vec F S1x1 .f32 :=
  VO0_4.read (Elt F) (VO0_4.writes (Elt F) VO0_4.junk (kernelRun0_A c i arg1 harg1 arg2 harg2 arg3 harg3 arg4 harg4 arg5 harg5 hc0 x0 x1 x2).2.1)

/-- A later point's piece for the sum accumulator is its whole block. -/
theorem cover0_B_3 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S256x3136 .f32) (x1 : Vec F S256x1 .i32) (x2 : Vec F S256x1 .f32) (xo3 : Vec F S1x1 .f32) (xo4 : Vec F S1x1 .f32) (y : S1x1.Idx) :
    ∃ pc ∈ (kernelRun0_B c i arg1 harg1 arg2 harg2 arg3 harg3 arg4 harg4 arg5 harg5 hc0 x0 x1 x2 xo3 xo4).1, y ∈ pc.1.set :=
  View.cover_of_tiledL (kernelRun0_B c i arg1 harg1 arg2 harg2 arg3 harg3 arg4 harg4 arg5 harg5 hc0 x0 x1 x2 xo3 xo4).1 S1x1.size (by sl_kernel_rfl) y
/-- Likewise for the count accumulator. -/
theorem cover0_B_4 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S256x3136 .f32) (x1 : Vec F S256x1 .i32) (x2 : Vec F S256x1 .f32) (xo3 : Vec F S1x1 .f32) (xo4 : Vec F S1x1 .f32) (y : S1x1.Idx) :
    ∃ pc ∈ (kernelRun0_B c i arg1 harg1 arg2 harg2 arg3 harg3 arg4 harg4 arg5 harg5 hc0 x0 x1 x2 xo3 xo4).2.1, y ∈ pc.1.set :=
  View.cover_of_tiledL (kernelRun0_B c i arg1 harg1 arg2 harg2 arg3 harg3 arg4 harg4 arg5 harg5 hc0 x0 x1 x2 xo3 xo4).2.1 S1x1.size (by sl_kernel_rfl) y

/-- What a later point leaves in the sum accumulator's buffer, from what it found there. -/
def out0_B_3 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S256x3136 .f32) (x1 : Vec F S256x1 .i32) (x2 : Vec F S256x1 .f32) (xo3 : Vec F S1x1 .f32) (xo4 : Vec F S1x1 .f32) : Vec F S1x1 .f32 :=
  VO0_3.read (Elt F) (VO0_3.writes (Elt F) VO0_3.junk (kernelRun0_B c i arg1 harg1 arg2 harg2 arg3 harg3 arg4 harg4 arg5 harg5 hc0 x0 x1 x2 xo3 xo4).1)
/-- And in the count accumulator's. -/
def out0_B_4 (c : Dev nD) (i : grid0.Coords) (arg1 : Memref sig .tc .vmem S256x3136 .f32) (harg1 : arg1.IsWhole) (arg2 : Memref sig .tc .vmem S256x1 .i32) (harg2 : arg2.IsWhole) (arg3 : Memref sig .tc .vmem S256x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i)
    (x0 : Vec F S256x3136 .f32) (x1 : Vec F S256x1 .i32) (x2 : Vec F S256x1 .f32) (xo3 : Vec F S1x1 .f32) (xo4 : Vec F S1x1 .f32) : Vec F S1x1 .f32 :=
  VO0_4.read (Elt F) (VO0_4.writes (Elt F) VO0_4.junk (kernelRun0_B c i arg1 harg1 arg2 harg2 arg3 harg3 arg4 harg4 arg5 harg5 hc0 x0 x1 x2 xo3 xo4).2.1)

/-! ## What the accumulators hold after each point -/

/-- THE ACCUMULATION. What the two accumulators' staging buffers hold after the body at position `n` (sum, count): the
    first point's case at a point the reset holds at, else the later case over what position `n - 1` left. -/
def outsAt0 (c : Dev nD) : (n : ℕ) → n < cfg0.N → Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩),
              out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 68 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2)

/-- `outsAt0` at a point where the reset holds: the first case's contents. -/
theorem outsAt0_A (c : Dev nD) (t : Fin cfg0.N) (h0 : t.val % 68 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)) := by
  obtain ⟨n, hn⟩ := t
  cases n with
  | zero => exact rfl
  | succ n => exact (dif_pos h0).trans rfl

/-- `outsAt0` at a later point: the later case's contents, over what the point before left. -/
theorem outsAt0_B (c : Dev nD) (t : Fin cfg0.N) (h0 : ¬t.val % 68 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2,
      out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t` each
    input's buffer at its block and the accumulators' at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q _ := fullShare
  owed _ := 0

/-- The proof data's arrays are the region-entry contents (the definition projected: the fold over @main's host prefix is
    never unfolded to check it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point the sum accumulator's buffer holds what the body left at the point before: the point is not the first,
    and the buffer was not written back between (it is written back after the last point only). -/
theorem before0_3_B (c : Dev nD) (t : Fin cfg0.N) (h0 : ¬t.val % 68 = 0) (d) :
    (dats m 0 c).before 3 t d = (outsAt0 m c (t.val - 1) (Nat.lt_of_le_of_lt (Nat.sub_le _ _) t.isLt)).1 := by
  have hN : t.val < 68 := lt_of_lt_of_eq t.isLt (show cfg0.N = 68 from N_0)
  rw [Dat.before_out_kept _ 3 rfl t (by omega) (Bool.eq_false_iff.mpr fun h => by have := (flush0_3 _).mp h; dsimp only at this; omega)
    (fun _ => rfl) (fun _ _ => rfl)]
  dsimp only [dats]
/-- Likewise the count accumulator's. -/
theorem before0_4_B (c : Dev nD) (t : Fin cfg0.N) (h0 : ¬t.val % 68 = 0) (d) :
    (dats m 0 c).before 4 t d = (outsAt0 m c (t.val - 1) (Nat.lt_of_le_of_lt (Nat.sub_le _ _) t.isLt)).2 := by
  have hN : t.val < 68 := lt_of_lt_of_eq t.isLt (show cfg0.N = 68 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the closed form says which case the point is in; at a
    later point the accumulators hold what the point before left; so that case's run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 68 := lt_of_lt_of_eq t.isLt (show cfg0.N = 68 from N_0)
  by_cases h0 : t.val % 68 = 0
  · rw [outsAt0_A m c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [outsAt0_B m c t h0]
    dsimp only
    simp only [before0_3_B m c t h0, before0_4_B m c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the library computes from the proof data and every other unscoped buffer as the lines
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME of `KernelIdeal`, at any float instance: it runs to the end, faults nowhere, and its eight argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Frame

end
-- ==== Proof.RefRunHand.lean ====
/-
  The reference program's run, kept folded: @main is the sequence of its host operations (a called function's
  operations standing in its call's place), every weakly fair execution of it terminates with each buffer at the fold
  of the operations' results over the launch contents, and no operation writes an argument array, so the arguments end
  as they began.
-/
import proofs.«117586_j82575041232910_1_alg».proof.Proof.Gen.ReferenceIdeal
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's 248 operations, in order (a called function's operations stand in its call's place, spelt `TRef.…`). -/
abbrev ops : List (HloOp τ sig (Elt F)) :=
  [ nullary main_c (constantI S_ 32 7#32),
    unary main_c main_v0 (broadcastInDim S1024 ![] bcast_S_S1024 : (⟨S_, .i32⟩ : BufTy).Contents (Elt F) → (⟨S1024, .i32⟩ : BufTy).Contents (Elt F)),
    binary main_arg6 main_v0 main_v1 (cmpi .ne : (⟨S1024, .i32⟩ : BufTy).Contents (Elt F) → (⟨S1024, .i32⟩ : BufTy).Contents (Elt F) → (⟨S1024, .i1⟩ : BufTy).Contents (Elt F)),
    TRef.nullary (TRef.of (T := ⟨S_, .f32⟩) main_call0_cst) (constant S_ .f32 0xFF800000#32),
    TRef.binary (TRef.of (T := ⟨S1024x8, .f32⟩) main_arg0) (TRef.of (T := ⟨S_, .f32⟩) main_call0_cst) (TRef.of (T := ⟨S1024, .f32⟩) main_call0_v0) (fun x v => Host.reduce FloatOps.maximumf x v reducesTo_S1024x8_S1024_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1024, .f32⟩) main_call0_v1) (broadcastInDim S1024 ![] bcast_S_S1024),
    TRef.binary (TRef.of (T := ⟨S1024, .f32⟩) main_call0_v1) (TRef.of (T := ⟨S1024, .f32⟩) main_call0_v0) (TRef.of (T := ⟨S1024, .f32⟩) main_call0_v2) maximumf,
    TRef.unary (TRef.of (T := ⟨S1024, .f32⟩) main_call0_v2) (TRef.of (T := ⟨S1024x1, .f32⟩) main_call0_v3) (broadcastInDim S1024x1 ![0] bcast_S1024_S1024x1_0),
    TRef.unary (TRef.of (T := ⟨S1024x1, .f32⟩) main_call0_v3) (TRef.of (T := ⟨S1024x8, .f32⟩) main_call0_v4) (broadcastInDim S1024x8 ![0, 1] bcast_S1024x1_S1024x8_0_1),
    TRef.binary (TRef.of (T := ⟨S1024x8, .f32⟩) main_arg0) (TRef.of (T := ⟨S1024x8, .f32⟩) main_call0_v4) (TRef.of (T := ⟨S1024x8, .f32⟩) main_call0_v5) subf,
    TRef.unary (TRef.of (T := ⟨S1024x8, .f32⟩) main_call0_v5) (TRef.of (T := ⟨S1024x8, .f32⟩) main_call0_v6) Host.exp,
    TRef.nullary (TRef.of (T := ⟨S_, .f32⟩) main_call0_cst_1) (constant S_ .f32 0x00000000#32),
    TRef.binary (TRef.of (T := ⟨S1024x8, .f32⟩) main_call0_v6) (TRef.of (T := ⟨S_, .f32⟩) main_call0_cst_1) (TRef.of (T := ⟨S1024, .f32⟩) main_call0_v7) (fun x v => Host.reduceAdd x v reducesTo_S1024x8_S1024_d1 h_S_),
    TRef.unary (TRef.of (T := ⟨S1024, .f32⟩) main_call0_v7) (TRef.of (T := ⟨S1024x1, .f32⟩) main_call0_v8) (broadcastInDim S1024x1 ![0] bcast_S1024_S1024x1_0),
    TRef.unary (TRef.of (T := ⟨S1024x1, .f32⟩) main_call0_v8) (TRef.of (T := ⟨S1024x1, .f32⟩) main_call0_v9) Host.log,
    TRef.unary (TRef.of (T := ⟨S1024x1, .f32⟩) main_call0_v9) (TRef.of (T := ⟨S1024x8, .f32⟩) main_call0_v10) (broadcastInDim S1024x8 ![0, 1] bcast_S1024x1_S1024x8_0_1),
    TRef.binary (TRef.of (T := ⟨S1024x8, .f32⟩) main_call0_v5) (TRef.of (T := ⟨S1024x8, .f32⟩) main_call0_v10) (TRef.of (T := ⟨S1024x8, .f32⟩) main_v2) subf,
    unary main_arg6 main_v3 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S1024x1, .i32⟩) main_call1_v0) (broadcastInDim S1024x1 ![] bcast_S_S1024x1),
    TRef.binary (TRef.of (T := ⟨S1024x1, .i32⟩) main_v3) (TRef.of (T := ⟨S1024x1, .i32⟩) main_call1_v0) (TRef.of (T := ⟨S1024x1, .i1⟩) main_call1_v1) (cmpi .slt),
    TRef.nullary (TRef.of (T := ⟨S_, .i32⟩) main_call1_c_0) (constantI S_ 32 8#32),
    TRef.unary (TRef.of (T := ⟨S_, .i32⟩) main_call1_c_0) (TRef.of (T := ⟨S1024x1, .i32⟩) main_call1_v2) (broadcastInDim S1024x1 ![] bcast_S_S1024x1),
    TRef.binary (TRef.of (T := ⟨S1024x1, .i32⟩) main_v3) (TRef.of (T := ⟨S1024x1, .i32⟩) main_call1_v2) (TRef.of (T := ⟨S1024x1, .i32⟩) main_call1_v3) addi,
    TRef.ternary (TRef.of (T := ⟨S1024x1, .i1⟩) main_call1_v1) (TRef.of (T := ⟨S1024x1, .i32⟩) main_call1_v3) (TRef.of (T := ⟨S1024x1, .i32⟩) main_v3) (TRef.of (T := ⟨S1024x1, .i32⟩) main_call1_v4) select,
    TRef.reshape (TRef.of (T := ⟨S1024x1, .i32⟩) main_call1_v4) (TRef.of (T := ⟨S1024x1x1, .i32⟩) main_call1_v5) rfl shapeCasts_S1024x1_S1024x1x1,
    TRef.nullary (TRef.of (T := ⟨S1, .i32⟩) main_call1_c_1) (constantI S1 32 7#32),
    TRef.nullary (TRef.of (T := ⟨S_, .i32⟩) main_call1_c_2) (constantI S_ 32 0#32),
    TRef.unary (TRef.of (T := ⟨S_, .i32⟩) main_call1_c_2) (TRef.of (T := ⟨S1024x1x1, .i32⟩) main_call1_v6) (broadcastInDim S1024x1x1 ![] bcast_S_S1024x1x1),
    TRef.binary (TRef.of (T := ⟨S1024x1x1, .i32⟩) main_call1_v5) (TRef.of (T := ⟨S1024x1x1, .i32⟩) main_call1_v6) (TRef.of (T := ⟨S1024x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S1024x1x1, .i32⟩) main_call1_v9) (broadcastInDim S1024x1x1 ![0, 1, 2] bcast_S1x1x1_S1024x1x1_0_1_2),
    TRef.binary (TRef.of (T := ⟨S1024x1x1, .i32⟩) main_call1_v5) (TRef.of (T := ⟨S1024x1x1, .i32⟩) main_call1_v9) (TRef.of (T := ⟨S1024x1x1, .i1⟩) main_call1_v10) (cmpi .sle),
    TRef.binary (TRef.of (T := ⟨S1024x1x1, .i1⟩) main_call1_v7) (TRef.of (T := ⟨S1024x1x1, .i1⟩) main_call1_v10) (TRef.of (T := ⟨S1024x1x1, .i1⟩) main_call1_v11) andi,
    TRef.nullary (TRef.of (T := ⟨S_, .i1⟩) main_call1_c_3) (constantI S_ 1 1#1),
    TRef.binary (TRef.of (T := ⟨S1024x1x1, .i1⟩) main_call1_v11) (TRef.of (T := ⟨S_, .i1⟩) main_call1_c_3) (TRef.of (T := ⟨S1024x1, .i1⟩) main_call1_v12) (fun x v => Host.reduce IntOp.andi x v reducesTo_S1024x1x1_S1024x1_d2 h_S_),
    TRef.binary (TRef.of (T := ⟨S1024x8, .f32⟩) main_v2) (TRef.of (T := ⟨S1024x1x1, .i32⟩) main_call1_v5) (TRef.of (T := ⟨S1024x1, .f32⟩) main_call1_v13) (fun x i => Host.gather gather_S1024x8_S1024x1x1_S1024x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S1024x1, .f32⟩) main_call1_v14) (broadcastInDim S1024x1 ![] bcast_S_S1024x1),
    TRef.ternary (TRef.of (T := ⟨S1024x1, .i1⟩) main_call1_v12) (TRef.of (T := ⟨S1024x1, .f32⟩) main_call1_v13) (TRef.of (T := ⟨S1024x1, .f32⟩) main_call1_v14) (TRef.of (T := ⟨S1024x1, .f32⟩) main_v4) select,
    reshape main_v4 main_v5 rfl shapeCasts_S1024x1_S1024,
    unary main_v5 main_v6 (Host.negf : (⟨S1024, .f32⟩ : BufTy).Contents (Elt F) → (⟨S1024, .f32⟩ : BufTy).Contents (Elt F)),
    unary main_v1 main_v7 (uitofp .f32 : (⟨S1024, .i1⟩ : BufTy).Contents (Elt F) → (⟨S1024, .f32⟩ : BufTy).Contents (Elt F)),
    nullary main_cst (constant S_ .f32 0x00000000#32),
    binary main_v7 main_cst main_v8 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    nullary main_cst_0 (constant S_ .f32 0x3F800000#32),
    binary main_v8 main_cst_0 main_v9 (maximumf : (⟨S_, .f32⟩ : BufTy).Contents (Elt F) → (⟨S_, .f32⟩ : BufTy).Contents (Elt F) → (⟨S_, .f32⟩ : BufTy).Contents (Elt F)),
    nullary main_cst_1 (constant S_ .f32 0x00000000#32),
    TRef.unary (TRef.of (T := ⟨S_, .f32⟩) main_cst_1) (TRef.of (T := ⟨S_, .f32⟩) main_call2_v0) id,
    TRef.unary (TRef.of (T := ⟨S_, .f32⟩) main_call2_v0) (TRef.of (T := ⟨S1024, .f32⟩) main_call2_v1) (broadcastInDim S1024 ![] bcast_S_S1024),
    TRef.ternary (TRef.of (T := ⟨S1024, .i1⟩) main_v1) (TRef.of (T := ⟨S1024, .f32⟩) main_v6) (TRef.of (T := ⟨S1024, .f32⟩) main_call2_v1) (TRef.of (T := ⟨S1024, .f32⟩) main_v10) select,
    nullary main_cst_2 (constant S_ .f32 0x00000000#32),
    binary main_v10 main_cst_2 main_v11 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    binary main_v11 main_v9 main_v12 (Host.divf : (⟨S_, .f32⟩ : BufTy).Contents (Elt F) → (⟨S_, .f32⟩ : BufTy).Contents (Elt F) → (⟨S_, .f32⟩ : BufTy).Contents (Elt F)),
    nullary main_c_3 (constantI S_ 32 0#32),
    unary main_c_3 main_v13 (broadcastInDim S1024 ![] bcast_S_S1024 : (⟨S_, .i32⟩ : BufTy).Contents (Elt F) → (⟨S1024, .i32⟩ : BufTy).Contents (Elt F)),
    binary main_arg6 main_v13 main_v14 (cmpi .sgt : (⟨S1024, .i32⟩ : BufTy).Contents (Elt F) → (⟨S1024, .i32⟩ : BufTy).Contents (Elt F) → (⟨S1024, .i1⟩ : BufTy).Contents (Elt F)),
    reshape main_arg1 main_v15 rfl shapeCasts_S1024x32_S1024x8x4,
    unary main_arg6 main_v16 (broadcastInDim S1024x1x1 ![0] bcast_S1024_S1024x1x1_0 : (⟨S1024, .i32⟩ : BufTy).Contents (Elt F) → (⟨S1024x1x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S1024x1x1, .i32⟩) main_call3_v0) (broadcastInDim S1024x1x1 ![] bcast_S_S1024x1x1),
    TRef.binary (TRef.of (T := ⟨S1024x1x1, .i32⟩) main_v16) (TRef.of (T := ⟨S1024x1x1, .i32⟩) main_call3_v0) (TRef.of (T := ⟨S1024x1x1, .i1⟩) main_call3_v1) (cmpi .slt),
    TRef.nullary (TRef.of (T := ⟨S_, .i32⟩) main_call3_c_0) (constantI S_ 32 8#32),
    TRef.unary (TRef.of (T := ⟨S_, .i32⟩) main_call3_c_0) (TRef.of (T := ⟨S1024x1x1, .i32⟩) main_call3_v2) (broadcastInDim S1024x1x1 ![] bcast_S_S1024x1x1),
    TRef.binary (TRef.of (T := ⟨S1024x1x1, .i32⟩) main_v16) (TRef.of (T := ⟨S1024x1x1, .i32⟩) main_call3_v2) (TRef.of (T := ⟨S1024x1x1, .i32⟩) main_call3_v3) addi,
    TRef.ternary (TRef.of (T := ⟨S1024x1x1, .i1⟩) main_call3_v1) (TRef.of (T := ⟨S1024x1x1, .i32⟩) main_call3_v3) (TRef.of (T := ⟨S1024x1x1, .i32⟩) main_v16) (TRef.of (T := ⟨S1024x1x1, .i32⟩) main_call3_v4) select,
    TRef.nullary (TRef.of (T := ⟨S1, .i32⟩) main_call3_c_1) (constantI S1 32 7#32),
    TRef.nullary (TRef.of (T := ⟨S_, .i32⟩) main_call3_c_2) (constantI S_ 32 0#32),
    TRef.unary (TRef.of (T := ⟨S_, .i32⟩) main_call3_c_2) (TRef.of (T := ⟨S1024x1x1, .i32⟩) main_call3_v5) (broadcastInDim S1024x1x1 ![] bcast_S_S1024x1x1),
    TRef.binary (TRef.of (T := ⟨S1024x1x1, .i32⟩) main_call3_v4) (TRef.of (T := ⟨S1024x1x1, .i32⟩) main_call3_v5) (TRef.of (T := ⟨S1024x1x1, .i1⟩) main_call3_v6) (cmpi .sge),
    TRef.unary (TRef.of (T := ⟨S1, .i32⟩) main_call3_c_1) (TRef.of (T := ⟨S1x1x1, .i32⟩) main_call3_v7) (broadcastInDim S1x1x1 ![2] bcast_S1_S1x1x1_2),
    TRef.unary (TRef.of (T := ⟨S1x1x1, .i32⟩) main_call3_v7) (TRef.of (T := ⟨S1024x1x1, .i32⟩) main_call3_v8) (broadcastInDim S1024x1x1 ![0, 1, 2] bcast_S1x1x1_S1024x1x1_0_1_2),
    TRef.binary (TRef.of (T := ⟨S1024x1x1, .i32⟩) main_call3_v4) (TRef.of (T := ⟨S1024x1x1, .i32⟩) main_call3_v8) (TRef.of (T := ⟨S1024x1x1, .i1⟩) main_call3_v9) (cmpi .sle),
    TRef.binary (TRef.of (T := ⟨S1024x1x1, .i1⟩) main_call3_v6) (TRef.of (T := ⟨S1024x1x1, .i1⟩) main_call3_v9) (TRef.of (T := ⟨S1024x1x1, .i1⟩) main_call3_v10) andi,
    TRef.nullary (TRef.of (T := ⟨S_, .i1⟩) main_call3_c_3) (constantI S_ 1 1#1),
    TRef.binary (TRef.of (T := ⟨S1024x1x1, .i1⟩) main_call3_v10) (TRef.of (T := ⟨S_, .i1⟩) main_call3_c_3) (TRef.of (T := ⟨S1024x1, .i1⟩) main_call3_v11) (fun x v => Host.reduce IntOp.andi x v reducesTo_S1024x1x1_S1024x1_d2 h_S_),
    TRef.binary (TRef.of (T := ⟨S1024x8x4, .f32⟩) main_v15) (TRef.of (T := ⟨S1024x1x1, .i32⟩) main_call3_v4) (TRef.of (T := ⟨S1024x1x4, .f32⟩) main_call3_v12) (fun x i => Host.gather gather_S1024x8x4_S1024x1x1_S1024x1x4_2_1_0_0_1_2_114 x i),
    TRef.unary (TRef.of (T := ⟨S1024x1, .i1⟩) main_call3_v11) (TRef.of (T := ⟨S1024x1x4, .i1⟩) main_call3_v13) (broadcastInDim S1024x1x4 ![0, 1] bcast_S1024x1_S1024x1x4_0_1),
    TRef.nullary (TRef.of (T := ⟨S_, .f32⟩) main_call3_cst) (constant S_ .f32 0x7FC00000#32),
    TRef.unary (TRef.of (T := ⟨S_, .f32⟩) main_call3_cst) (TRef.of (T := ⟨S1024x1x4, .f32⟩) main_call3_v14) (broadcastInDim S1024x1x4 ![] bcast_S_S1024x1x4),
    TRef.ternary (TRef.of (T := ⟨S1024x1x4, .i1⟩) main_call3_v13) (TRef.of (T := ⟨S1024x1x4, .f32⟩) main_call3_v12) (TRef.of (T := ⟨S1024x1x4, .f32⟩) main_call3_v14) (TRef.of (T := ⟨S1024x1x4, .f32⟩) main_v17) select,
    reshape main_v17 main_v18 rfl shapeCasts_S1024x1x4_S1024x4,
    binary main_v18 main_arg2 main_v19 (subf : (⟨S1024x4, .f32⟩ : BufTy).Contents (Elt F) → (⟨S1024x4, .f32⟩ : BufTy).Contents (Elt F) → (⟨S1024x4, .f32⟩ : BufTy).Contents (Elt F)),
    unary main_v19 main_v20 (Host.absf : (⟨S1024x4, .f32⟩ : BufTy).Contents (Elt F) → (⟨S1024x4, .f32⟩ : BufTy).Contents (Elt F)),
    nullary main_cst_4 (constant S_ .f32 0x3DE38E39#32),
    unary main_cst_4 main_v21 (broadcastInDim S1024x4 ![] bcast_S_S1024x4 : (⟨S_, .f32⟩ : BufTy).Contents (Elt F) → (⟨S1024x4, .f32⟩ : BufTy).Contents (Elt F)),
    binary main_v20 main_v21 main_v22 (cmpf .olt : (⟨S1024x4, .f32⟩ : BufTy).Contents (Elt F) → (⟨S1024x4, .f32⟩ : BufTy).Contents (Elt F) → (⟨S1024x4, .i1⟩ : BufTy).Contents (Elt F)),
    nullary main_cst_5 (constant S_ .f32 0x3F000000#32),
    unary main_cst_5 main_v23 (broadcastInDim S1024x4 ![] bcast_S_S1024x4 : (⟨S_, .f32⟩ : BufTy).Contents (Elt F) → (⟨S1024x4, .f32⟩ : BufTy).Contents (Elt F)),
    binary main_v23 main_v19 main_v24 (mulf : (⟨S1024x4, .f32⟩ : BufTy).Contents (Elt F) → (⟨S1024x4, .f32⟩ : BufTy).Contents (Elt F) → (⟨S1024x4, .f32⟩ : BufTy).Contents (Elt F)),
    binary main_v24 main_v19 main_v25 (mulf : (⟨S1024x4, .f32⟩ : BufTy).Contents (Elt F) → (⟨S1024x4, .f32⟩ : BufTy).Contents (Elt F) → (⟨S1024x4, .f32⟩ : BufTy).Contents (Elt F)),
    nullary main_cst_6 (constant S_ .f32 0x3DE38E39#32),
    unary main_cst_6 main_v26 (broadcastInDim S1024x4 ![] bcast_S_S1024x4 : (⟨S_, .f32⟩ : BufTy).Contents (Elt F) → (⟨S1024x4, .f32⟩ : BufTy).Contents (Elt F)),
    binary main_v25 main_v26 main_v27 (Host.divf : (⟨S1024x4, .f32⟩ : BufTy).Contents (Elt F) → (⟨S1024x4, .f32⟩ : BufTy).Contents (Elt F) → (⟨S1024x4, .f32⟩ : BufTy).Contents (Elt F)),
    nullary main_cst_7 (constant S_ .f32 0x3D638E39#32),
    unary main_cst_7 main_v28 (broadcastInDim S1024x4 ![] bcast_S_S1024x4 : (⟨S_, .f32⟩ : BufTy).Contents (Elt F) → (⟨S1024x4, .f32⟩ : BufTy).Contents (Elt F)),
    binary main_v20 main_v28 main_v29 (subf : (⟨S1024x4, .f32⟩ : BufTy).Contents (Elt F) → (⟨S1024x4, .f32⟩ : BufTy).Contents (Elt F) → (⟨S1024x4, .f32⟩ : BufTy).Contents (Elt F)),
    TRef.ternary (TRef.of (T := ⟨S1024x4, .i1⟩) main_v22) (TRef.of (T := ⟨S1024x4, .f32⟩) main_v27) (TRef.of (T := ⟨S1024x4, .f32⟩) main_v29) (TRef.of (T := ⟨S1024x4, .f32⟩) main_v30) select,
    unary main_v14 main_v31 (broadcastInDim S1024x1 ![0] bcast_S1024_S1024x1_0 : (⟨S1024, .i1⟩ : BufTy).Contents (Elt F) → (⟨S1024x1, .i1⟩ : BufTy).Contents (Elt F)),
    nullary main_cst_8 (constant S_ .f32 0x00000000#32),
    TRef.unary (TRef.of (T := ⟨S_, .f32⟩) main_cst_8) (TRef.of (T := ⟨S_, .f32⟩) main_call5_v0) id,
    TRef.unary (TRef.of (T := ⟨S1024x1, .i1⟩) main_v31) (TRef.of (T := ⟨S1024x4, .i1⟩) main_call5_v1) (broadcastInDim S1024x4 ![0, 1] bcast_S1024x1_S1024x4_0_1),
    TRef.unary (TRef.of (T := ⟨S_, .f32⟩) main_call5_v0) (TRef.of (T := ⟨S1024x4, .f32⟩) main_call5_v2) (broadcastInDim S1024x4 ![] bcast_S_S1024x4),
    TRef.ternary (TRef.of (T := ⟨S1024x4, .i1⟩) main_call5_v1) (TRef.of (T := ⟨S1024x4, .f32⟩) main_v30) (TRef.of (T := ⟨S1024x4, .f32⟩) main_call5_v2) (TRef.of (T := ⟨S1024x4, .f32⟩) main_v32) select,
    nullary main_cst_9 (constant S_ .f32 0x00000000#32),
    binary main_v32 main_cst_9 main_v33 ((fun x v => Host.reduceAdd x v reducesTo_S1024x4_S_d0_1 h_S_) : (⟨S1024x4, .f32⟩ : BufTy).Contents (Elt F) → (⟨S_, .f32⟩ : BufTy).Contents (Elt F) → (⟨S_, .f32⟩ : BufTy).Contents (Elt F)),
    nullary main_cst_10 (constant S_ .f32 0x44800000#32),
    binary main_v33 main_cst_10 main_v34 (Host.divf : (⟨S_, .f32⟩ : BufTy).Contents (Elt F) → (⟨S_, .f32⟩ : BufTy).Contents (Elt F) → (⟨S_, .f32⟩ : BufTy).Contents (Elt F)),
    nullary main_c_11 (constantI S_ 32 0#32),
    unary main_c_11 main_v35 (broadcastInDim S1024 ![] bcast_S_S1024 : (⟨S_, .i32⟩ : BufTy).Contents (Elt F) → (⟨S1024, .i32⟩ : BufTy).Contents (Elt F)),
    binary main_arg7 main_v35 main_v36 (cmpi .slt : (⟨S1024, .i32⟩ : BufTy).Contents (Elt F) → (⟨S1024, .i32⟩ : BufTy).Contents (Elt F) → (⟨S1024, .i1⟩ : BufTy).Contents (Elt F)),
    nullary main_c_12 (constantI S_ 32 256#32),
    unary main_c_12 main_v37 (broadcastInDim S1024 ![] bcast_S_S1024 : (⟨S_, .i32⟩ : BufTy).Contents (Elt F) → (⟨S1024, .i32⟩ : BufTy).Contents (Elt F)),
    binary main_arg7 main_v37 main_v38 (addi : (⟨S1024, .i32⟩ : BufTy).Contents (Elt F) → (⟨S1024, .i32⟩ : BufTy).Contents (Elt F) → (⟨S1024, .i32⟩ : BufTy).Contents (Elt F)),
    ternary main_v36 main_v38 main_arg7 main_v39 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v39 main_v40 (broadcastInDim S1024x1 ![0] bcast_S1024_S1024x1_0 : (⟨S1024, .i32⟩ : BufTy).Contents (Elt F) → (⟨S1024x1, .i32⟩ : BufTy).Contents (Elt F)),
    binary main_arg4 main_v40 main_v41 ((fun x i => Host.gather gather_S256x17x3_S1024x1_S1024x17x3_12_0_n_n_0_1_1173 x i) : (⟨S256x17x3, .f32⟩ : BufTy).Contents (Elt F) → (⟨S1024x1, .i32⟩ : BufTy).Contents (Elt F) → (⟨S1024x17x3, .f32⟩ : BufTy).Contents (Elt F)),
    unary main_arg3 main_v42 ((extractStridedSlice S1024x1 ![0, 0] · slices_S1024x4_S1024x1_0_0) : (⟨S1024x4, .f32⟩ : BufTy).Contents (Elt F) → (⟨S1024x1, .f32⟩ : BufTy).Contents (Elt F)),
    unary main_arg3 main_v43 ((extractStridedSlice S1024x1 ![0, 1] · slices_S1024x4_S1024x1_0_1) : (⟨S1024x4, .f32⟩ : BufTy).Contents (Elt F) → (⟨S1024x1, .f32⟩ : BufTy).Contents (Elt F)),
    unary main_arg3 main_v44 ((extractStridedSlice S1024x1 ![0, 2] · slices_S1024x4_S1024x1_0_2) : (⟨S1024x4, .f32⟩ : BufTy).Contents (Elt F) → (⟨S1024x1, .f32⟩ : BufTy).Contents (Elt F)),
    unary main_arg3 main_v45 ((extractStridedSlice S1024x1 ![0, 0] · slices_S1024x4_S1024x1_0_0) : (⟨S1024x4, .f32⟩ : BufTy).Contents (Elt F) → (⟨S1024x1, .f32⟩ : BufTy).Contents (Elt F)),
    binary main_v44 main_v45 main_v46 (subf : (⟨S1024x1, .f32⟩ : BufTy).Contents (Elt F) → (⟨S1024x1, .f32⟩ : BufTy).Contents (Elt F) → (⟨S1024x1, .f32⟩ : BufTy).Contents (Elt F)),
    nullary main_cst_13 (constant S_ .f32 0x42600000#32),
    unary main_cst_13 main_v47 (broadcastInDim S1024x1 ![] bcast_S_S1024x1 : (⟨S_, .f32⟩ : BufTy).Contents (Elt F) → (⟨S1024x1, .f32⟩ : BufTy).Contents (Elt F)),
    binary main_v47 main_v46 main_v48 (Host.divf : (⟨S1024x1, .f32⟩ : BufTy).Contents (Elt F) → (⟨S1024x1, .f32⟩ : BufTy).Contents (Elt F) → (⟨S1024x1, .f32⟩ : BufTy).Contents (Elt F)),
    unary main_arg3 main_v49 ((extractStridedSlice S1024x1 ![0, 3] · slices_S1024x4_S1024x1_0_3) : (⟨S1024x4, .f32⟩ : BufTy).Contents (Elt F) → (⟨S1024x1, .f32⟩ : BufTy).Contents (Elt F)),
    unary main_arg3 main_v50 ((extractStridedSlice S1024x1 ![0, 1] · slices_S1024x4_S1024x1_0_1) : (⟨S1024x4, .f32⟩ : BufTy).Contents (Elt F) → (⟨S1024x1, .f32⟩ : BufTy).Contents (Elt F)),
    binary main_v49 main_v50 main_v51 (subf : (⟨S1024x1, .f32⟩ : BufTy).Contents (Elt F) → (⟨S1024x1, .f32⟩ : BufTy).Contents (Elt F) → (⟨S1024x1, .f32⟩ : BufTy).Contents (Elt F)),
    nullary main_cst_14 (constant S_ .f32 0x42600000#32),
    unary main_cst_14 main_v52 (broadcastInDim S1024x1 ![] bcast_S_S1024x1 : (⟨S_, .f32⟩ : BufTy).Contents (Elt F) → (⟨S1024x1, .f32⟩ : BufTy).Contents (Elt F)),
    binary main_v52 main_v51 main_v53 (Host.divf : (⟨S1024x1, .f32⟩ : BufTy).Contents (Elt F) → (⟨S1024x1, .f32⟩ : BufTy).Contents (Elt F) → (⟨S1024x1, .f32⟩ : BufTy).Contents (Elt F)),
    unary main_v41 main_v54 ((extractStridedSlice S1024x17x1 ![0, 0, 0] · slices_S1024x17x3_S1024x17x1_0_0_0) : (⟨S1024x17x3, .f32⟩ : BufTy).Contents (Elt F) → (⟨S1024x17x1, .f32⟩ : BufTy).Contents (Elt F)),
    reshape main_v54 main_v55 rfl shapeCasts_S1024x17x1_S1024x17,
    unary main_v41 main_v56 ((extractStridedSlice S1024x17x1 ![0, 0, 1] · slices_S1024x17x3_S1024x17x1_0_0_1) : (⟨S1024x17x3, .f32⟩ : BufTy).Contents (Elt F) → (⟨S1024x17x1, .f32⟩ : BufTy).Contents (Elt F)),
    reshape main_v56 main_v57 rfl shapeCasts_S1024x17x1_S1024x17,
    unary main_v41 main_v58 ((extractStridedSlice S1024x17x1 ![0, 0, 2] · slices_S1024x17x3_S1024x17x1_0_0_2) : (⟨S1024x17x3, .f32⟩ : BufTy).Contents (Elt F) → (⟨S1024x17x1, .f32⟩ : BufTy).Contents (Elt F)),
    reshape main_v58 main_v59 rfl shapeCasts_S1024x17x1_S1024x17,
    unary main_v42 main_v60 (broadcastInDim S1024x17 ![0, 1] bcast_S1024x1_S1024x17_0_1 : (⟨S1024x1, .f32⟩ : BufTy).Contents (Elt F) → (⟨S1024x17, .f32⟩ : BufTy).Contents (Elt F)),
    binary main_v55 main_v60 main_v61 (subf : (⟨S1024x17, .f32⟩ : BufTy).Contents (Elt F) → (⟨S1024x17, .f32⟩ : BufTy).Contents (Elt F) → (⟨S1024x17, .f32⟩ : BufTy).Contents (Elt F)),
    unary main_v48 main_v62 (broadcastInDim S1024x17 ![0, 1] bcast_S1024x1_S1024x17_0_1 : (⟨S1024x1, .f32⟩ : BufTy).Contents (Elt F) → (⟨S1024x17, .f32⟩ : BufTy).Contents (Elt F)),
    binary main_v61 main_v62 main_v63 (mulf : (⟨S1024x17, .f32⟩ : BufTy).Contents (Elt F) → (⟨S1024x17, .f32⟩ : BufTy).Contents (Elt F) → (⟨S1024x17, .f32⟩ : BufTy).Contents (Elt F)),
    unary main_v63 main_v64 (Host.floor : (⟨S1024x17, .f32⟩ : BufTy).Contents (Elt F) → (⟨S1024x17, .f32⟩ : BufTy).Contents (Elt F)),
    unary main_v64 main_v65 (fptosi 32 : (⟨S1024x17, .f32⟩ : BufTy).Contents (Elt F) → (⟨S1024x17, .i32⟩ : BufTy).Contents (Elt F)),
    unary main_v43 main_v66 (broadcastInDim S1024x17 ![0, 1] bcast_S1024x1_S1024x17_0_1 : (⟨S1024x1, .f32⟩ : BufTy).Contents (Elt F) → (⟨S1024x17, .f32⟩ : BufTy).Contents (Elt F)),
    binary main_v57 main_v66 main_v67 (subf : (⟨S1024x17, .f32⟩ : BufTy).Contents (Elt F) → (⟨S1024x17, .f32⟩ : BufTy).Contents (Elt F) → (⟨S1024x17, .f32⟩ : BufTy).Contents (Elt F)),
    unary main_v53 main_v68 (broadcastInDim S1024x17 ![0, 1] bcast_S1024x1_S1024x17_0_1 : (⟨S1024x1, .f32⟩ : BufTy).Contents (Elt F) → (⟨S1024x17, .f32⟩ : BufTy).Contents (Elt F)),
    binary main_v67 main_v68 main_v69 (mulf : (⟨S1024x17, .f32⟩ : BufTy).Contents (Elt F) → (⟨S1024x17, .f32⟩ : BufTy).Contents (Elt F) → (⟨S1024x17, .f32⟩ : BufTy).Contents (Elt F)),
    unary main_v69 main_v70 (Host.floor : (⟨S1024x17, .f32⟩ : BufTy).Contents (Elt F) → (⟨S1024x17, .f32⟩ : BufTy).Contents (Elt F)),
    unary main_v70 main_v71 (fptosi 32 : (⟨S1024x17, .f32⟩ : BufTy).Contents (Elt F) → (⟨S1024x17, .i32⟩ : BufTy).Contents (Elt F)),
    unary main_arg3 main_v72 ((extractStridedSlice S1024x1 ![0, 2] · slices_S1024x4_S1024x1_0_2) : (⟨S1024x4, .f32⟩ : BufTy).Contents (Elt F) → (⟨S1024x1, .f32⟩ : BufTy).Contents (Elt F)),
    unary main_v72 main_v73 (broadcastInDim S1024x17 ![0, 1] bcast_S1024x1_S1024x17_0_1 : (⟨S1024x1, .f32⟩ : BufTy).Contents (Elt F) → (⟨S1024x17, .f32⟩ : BufTy).Contents (Elt F)),
    binary main_v55 main_v73 main_v74 (cmpf .oeq : (⟨S1024x17, .f32⟩ : BufTy).Contents (Elt F) → (⟨S1024x17, .f32⟩ : BufTy).Contents (Elt F) → (⟨S1024x17, .i1⟩ : BufTy).Contents (Elt F)),
    nullary main_c_15 (constantI S_ 32 55#32),
    TRef.unary (TRef.of (T := ⟨S_, .i32⟩) main_c_15) (TRef.of (T := ⟨S_, .i32⟩) main_call6_v0) id,
    TRef.unary (TRef.of (T := ⟨S_, .i32⟩) main_call6_v0) (TRef.of (T := ⟨S1024x17, .i32⟩) main_call6_v1) (broadcastInDim S1024x17 ![] bcast_S_S1024x17),
    TRef.ternary (TRef.of (T := ⟨S1024x17, .i1⟩) main_v74) (TRef.of (T := ⟨S1024x17, .i32⟩) main_call6_v1) (TRef.of (T := ⟨S1024x17, .i32⟩) main_v65) (TRef.of (T := ⟨S1024x17, .i32⟩) main_v75) select,
    unary main_arg3 main_v76 ((extractStridedSlice S1024x1 ![0, 3] · slices_S1024x4_S1024x1_0_3) : (⟨S1024x4, .f32⟩ : BufTy).Contents (Elt F) → (⟨S1024x1, .f32⟩ : BufTy).Contents (Elt F)),
    unary main_v76 main_v77 (broadcastInDim S1024x17 ![0, 1] bcast_S1024x1_S1024x17_0_1 : (⟨S1024x1, .f32⟩ : BufTy).Contents (Elt F) → (⟨S1024x17, .f32⟩ : BufTy).Contents (Elt F)),
    binary main_v57 main_v77 main_v78 (cmpf .oeq : (⟨S1024x17, .f32⟩ : BufTy).Contents (Elt F) → (⟨S1024x17, .f32⟩ : BufTy).Contents (Elt F) → (⟨S1024x17, .i1⟩ : BufTy).Contents (Elt F)),
    nullary main_c_16 (constantI S_ 32 55#32),
    TRef.unary (TRef.of (T := ⟨S_, .i32⟩) main_c_16) (TRef.of (T := ⟨S_, .i32⟩) main_call7_v0) id,
    TRef.unary (TRef.of (T := ⟨S_, .i32⟩) main_call7_v0) (TRef.of (T := ⟨S1024x17, .i32⟩) main_call7_v1) (broadcastInDim S1024x17 ![] bcast_S_S1024x17),
    TRef.ternary (TRef.of (T := ⟨S1024x17, .i1⟩) main_v78) (TRef.of (T := ⟨S1024x17, .i32⟩) main_call7_v1) (TRef.of (T := ⟨S1024x17, .i32⟩) main_v71) (TRef.of (T := ⟨S1024x17, .i32⟩) main_v79) select,
    nullary main_c_17 (constantI S_ 32 0#32),
    unary main_c_17 main_v80 (broadcastInDim S1024x17 ![] bcast_S_S1024x17 : (⟨S_, .i32⟩ : BufTy).Contents (Elt F) → (⟨S1024x17, .i32⟩ : BufTy).Contents (Elt F)),
    binary main_v75 main_v80 main_v81 (cmpi .sge : (⟨S1024x17, .i32⟩ : BufTy).Contents (Elt F) → (⟨S1024x17, .i32⟩ : BufTy).Contents (Elt F) → (⟨S1024x17, .i1⟩ : BufTy).Contents (Elt F)),
    nullary main_c_18 (constantI S_ 32 0#32),
    unary main_c_18 main_v82 (broadcastInDim S1024x17 ![] bcast_S_S1024x17 : (⟨S_, .i32⟩ : BufTy).Contents (Elt F) → (⟨S1024x17, .i32⟩ : BufTy).Contents (Elt F)),
    binary main_v79 main_v82 main_v83 (cmpi .sge : (⟨S1024x17, .i32⟩ : BufTy).Contents (Elt F) → (⟨S1024x17, .i32⟩ : BufTy).Contents (Elt F) → (⟨S1024x17, .i1⟩ : BufTy).Contents (Elt F)),
    binary main_v81 main_v83 main_v84 (andi : (⟨S1024x17, .i1⟩ : BufTy).Contents (Elt F) → (⟨S1024x17, .i1⟩ : BufTy).Contents (Elt F) → (⟨S1024x17, .i1⟩ : BufTy).Contents (Elt F)),
    nullary main_c_19 (constantI S_ 32 56#32),
    unary main_c_19 main_v85 (broadcastInDim S1024x17 ![] bcast_S_S1024x17 : (⟨S_, .i32⟩ : BufTy).Contents (Elt F) → (⟨S1024x17, .i32⟩ : BufTy).Contents (Elt F)),
    binary main_v75 main_v85 main_v86 (cmpi .slt : (⟨S1024x17, .i32⟩ : BufTy).Contents (Elt F) → (⟨S1024x17, .i32⟩ : BufTy).Contents (Elt F) → (⟨S1024x17, .i1⟩ : BufTy).Contents (Elt F)),
    binary main_v84 main_v86 main_v87 (andi : (⟨S1024x17, .i1⟩ : BufTy).Contents (Elt F) → (⟨S1024x17, .i1⟩ : BufTy).Contents (Elt F) → (⟨S1024x17, .i1⟩ : BufTy).Contents (Elt F)),
    nullary main_c_20 (constantI S_ 32 56#32),
    unary main_c_20 main_v88 (broadcastInDim S1024x17 ![] bcast_S_S1024x17 : (⟨S_, .i32⟩ : BufTy).Contents (Elt F) → (⟨S1024x17, .i32⟩ : BufTy).Contents (Elt F)),
    binary main_v79 main_v88 main_v89 (cmpi .slt : (⟨S1024x17, .i32⟩ : BufTy).Contents (Elt F) → (⟨S1024x17, .i32⟩ : BufTy).Contents (Elt F) → (⟨S1024x17, .i1⟩ : BufTy).Contents (Elt F)),
    binary main_v87 main_v89 main_v90 (andi : (⟨S1024x17, .i1⟩ : BufTy).Contents (Elt F) → (⟨S1024x17, .i1⟩ : BufTy).Contents (Elt F) → (⟨S1024x17, .i1⟩ : BufTy).Contents (Elt F)),
    nullary main_cst_21 (constant S_ .f32 0x00000000#32),
    unary main_cst_21 main_v91 (broadcastInDim S1024x17 ![] bcast_S_S1024x17 : (⟨S_, .f32⟩ : BufTy).Contents (Elt F) → (⟨S1024x17, .f32⟩ : BufTy).Contents (Elt F)),
    binary main_v59 main_v91 main_v92 (cmpf .ogt : (⟨S1024x17, .f32⟩ : BufTy).Contents (Elt F) → (⟨S1024x17, .f32⟩ : BufTy).Contents (Elt F) → (⟨S1024x17, .i1⟩ : BufTy).Contents (Elt F)),
    binary main_v90 main_v92 main_v93 (andi : (⟨S1024x17, .i1⟩ : BufTy).Contents (Elt F) → (⟨S1024x17, .i1⟩ : BufTy).Contents (Elt F) → (⟨S1024x17, .i1⟩ : BufTy).Contents (Elt F)),
    nullary main_c_22 (constantI S_ 32 56#32),
    unary main_c_22 main_v94 (broadcastInDim S1024x17 ![] bcast_S_S1024x17 : (⟨S_, .i32⟩ : BufTy).Contents (Elt F) → (⟨S1024x17, .i32⟩ : BufTy).Contents (Elt F)),
    binary main_v79 main_v94 main_v95 (muli : (⟨S1024x17, .i32⟩ : BufTy).Contents (Elt F) → (⟨S1024x17, .i32⟩ : BufTy).Contents (Elt F) → (⟨S1024x17, .i32⟩ : BufTy).Contents (Elt F)),
    binary main_v95 main_v75 main_v96 (addi : (⟨S1024x17, .i32⟩ : BufTy).Contents (Elt F) → (⟨S1024x17, .i32⟩ : BufTy).Contents (Elt F) → (⟨S1024x17, .i32⟩ : BufTy).Contents (Elt F)),
    unary main_v93 main_v97 ((extui 32 · natLt_1_32) : (⟨S1024x17, .i1⟩ : BufTy).Contents (Elt F) → (⟨S1024x17, .i32⟩ : BufTy).Contents (Elt F)),
    binary main_v96 main_v97 main_v98 (muli : (⟨S1024x17, .i32⟩ : BufTy).Contents (Elt F) → (⟨S1024x17, .i32⟩ : BufTy).Contents (Elt F) → (⟨S1024x17, .i32⟩ : BufTy).Contents (Elt F)),
    reshape main_arg5 main_v99 rfl shapeCasts_S1024x17x56x56_S17408x3136,
    reshape main_v98 main_v100 rfl shapeCasts_S1024x17_S17408,
    reshape main_v93 main_v101 rfl shapeCasts_S1024x17_S17408,
    TRef.nullary (TRef.of (T := ⟨S_, .f32⟩) main_call8_cst) (constant S_ .f32 0xFF800000#32),
    TRef.binary (TRef.of (T := ⟨S17408x3136, .f32⟩) main_v99) (TRef.of (T := ⟨S_, .f32⟩) main_call8_cst) (TRef.of (T := ⟨S17408, .f32⟩) main_call8_v0) (fun x v => Host.reduce FloatOps.maximumf x v reducesTo_S17408x3136_S17408_d1 h_S_),
    TRef.nullary (TRef.of (T := ⟨S_, .f32⟩) main_call8_cst_0) (constant S_ .f32 0xFF800000#32),
    TRef.unary (TRef.of (T := ⟨S_, .f32⟩) main_call8_cst_0) (TRef.of (T := ⟨S17408, .f32⟩) main_call8_v1) (broadcastInDim S17408 ![] bcast_S_S17408),
    TRef.binary (TRef.of (T := ⟨S17408, .f32⟩) main_call8_v1) (TRef.of (T := ⟨S17408, .f32⟩) main_call8_v0) (TRef.of (T := ⟨S17408, .f32⟩) main_call8_v2) maximumf,
    TRef.unary (TRef.of (T := ⟨S17408, .f32⟩) main_call8_v2) (TRef.of (T := ⟨S17408x1, .f32⟩) main_call8_v3) (broadcastInDim S17408x1 ![0] bcast_S17408_S17408x1_0),
    TRef.unary (TRef.of (T := ⟨S17408x1, .f32⟩) main_call8_v3) (TRef.of (T := ⟨S17408x3136, .f32⟩) main_call8_v4) (broadcastInDim S17408x3136 ![0, 1] bcast_S17408x1_S17408x3136_0_1),
    TRef.binary (TRef.of (T := ⟨S17408x3136, .f32⟩) main_v99) (TRef.of (T := ⟨S17408x3136, .f32⟩) main_call8_v4) (TRef.of (T := ⟨S17408x3136, .f32⟩) main_call8_v5) subf,
    TRef.unary (TRef.of (T := ⟨S17408x3136, .f32⟩) main_call8_v5) (TRef.of (T := ⟨S17408x3136, .f32⟩) main_call8_v6) Host.exp,
    TRef.nullary (TRef.of (T := ⟨S_, .f32⟩) main_call8_cst_1) (constant S_ .f32 0x00000000#32),
    TRef.binary (TRef.of (T := ⟨S17408x3136, .f32⟩) main_call8_v6) (TRef.of (T := ⟨S_, .f32⟩) main_call8_cst_1) (TRef.of (T := ⟨S17408, .f32⟩) main_call8_v7) (fun x v => Host.reduceAdd x v reducesTo_S17408x3136_S17408_d1 h_S_),
    TRef.unary (TRef.of (T := ⟨S17408, .f32⟩) main_call8_v7) (TRef.of (T := ⟨S17408x1, .f32⟩) main_call8_v8) (broadcastInDim S17408x1 ![0] bcast_S17408_S17408x1_0),
    TRef.unary (TRef.of (T := ⟨S17408x1, .f32⟩) main_call8_v8) (TRef.of (T := ⟨S17408x1, .f32⟩) main_call8_v9) Host.log,
    TRef.unary (TRef.of (T := ⟨S17408x1, .f32⟩) main_call8_v9) (TRef.of (T := ⟨S17408x3136, .f32⟩) main_call8_v10) (broadcastInDim S17408x3136 ![0, 1] bcast_S17408x1_S17408x3136_0_1),
    TRef.binary (TRef.of (T := ⟨S17408x3136, .f32⟩) main_call8_v5) (TRef.of (T := ⟨S17408x3136, .f32⟩) main_call8_v10) (TRef.of (T := ⟨S17408x3136, .f32⟩) main_v102) subf,
    unary main_v100 main_v103 (broadcastInDim S17408x1 ![0] bcast_S17408_S17408x1_0 : (⟨S17408, .i32⟩ : BufTy).Contents (Elt F) → (⟨S17408x1, .i32⟩ : BufTy).Contents (Elt F)),
    TRef.nullary (TRef.of (T := ⟨S_, .i32⟩) main_call9_c) (constantI S_ 32 0#32),
    TRef.unary (TRef.of (T := ⟨S_, .i32⟩) main_call9_c) (TRef.of (T := ⟨S17408x1, .i32⟩) main_call9_v0) (broadcastInDim S17408x1 ![] bcast_S_S17408x1),
    TRef.binary (TRef.of (T := ⟨S17408x1, .i32⟩) main_v103) (TRef.of (T := ⟨S17408x1, .i32⟩) main_call9_v0) (TRef.of (T := ⟨S17408x1, .i1⟩) main_call9_v1) (cmpi .slt),
    TRef.nullary (TRef.of (T := ⟨S_, .i32⟩) main_call9_c_0) (constantI S_ 32 3136#32),
    TRef.unary (TRef.of (T := ⟨S_, .i32⟩) main_call9_c_0) (TRef.of (T := ⟨S17408x1, .i32⟩) main_call9_v2) (broadcastInDim S17408x1 ![] bcast_S_S17408x1),
    TRef.binary (TRef.of (T := ⟨S17408x1, .i32⟩) main_v103) (TRef.of (T := ⟨S17408x1, .i32⟩) main_call9_v2) (TRef.of (T := ⟨S17408x1, .i32⟩) main_call9_v3) addi,
    TRef.ternary (TRef.of (T := ⟨S17408x1, .i1⟩) main_call9_v1) (TRef.of (T := ⟨S17408x1, .i32⟩) main_call9_v3) (TRef.of (T := ⟨S17408x1, .i32⟩) main_v103) (TRef.of (T := ⟨S17408x1, .i32⟩) main_call9_v4) select,
    TRef.reshape (TRef.of (T := ⟨S17408x1, .i32⟩) main_call9_v4) (TRef.of (T := ⟨S17408x1x1, .i32⟩) main_call9_v5) rfl shapeCasts_S17408x1_S17408x1x1,
    TRef.nullary (TRef.of (T := ⟨S1, .i32⟩) main_call9_c_1) (constantI S1 32 3135#32),
    TRef.nullary (TRef.of (T := ⟨S_, .i32⟩) main_call9_c_2) (constantI S_ 32 0#32),
    TRef.unary (TRef.of (T := ⟨S_, .i32⟩) main_call9_c_2) (TRef.of (T := ⟨S17408x1x1, .i32⟩) main_call9_v6) (broadcastInDim S17408x1x1 ![] bcast_S_S17408x1x1),
    TRef.binary (TRef.of (T := ⟨S17408x1x1, .i32⟩) main_call9_v5) (TRef.of (T := ⟨S17408x1x1, .i32⟩) main_call9_v6) (TRef.of (T := ⟨S17408x1x1, .i1⟩) main_call9_v7) (cmpi .sge),
    TRef.unary (TRef.of (T := ⟨S1, .i32⟩) main_call9_c_1) (TRef.of (T := ⟨S1x1x1, .i32⟩) main_call9_v8) (broadcastInDim S1x1x1 ![2] bcast_S1_S1x1x1_2),
    TRef.unary (TRef.of (T := ⟨S1x1x1, .i32⟩) main_call9_v8) (TRef.of (T := ⟨S17408x1x1, .i32⟩) main_call9_v9) (broadcastInDim S17408x1x1 ![0, 1, 2] bcast_S1x1x1_S17408x1x1_0_1_2),
    TRef.binary (TRef.of (T := ⟨S17408x1x1, .i32⟩) main_call9_v5) (TRef.of (T := ⟨S17408x1x1, .i32⟩) main_call9_v9) (TRef.of (T := ⟨S17408x1x1, .i1⟩) main_call9_v10) (cmpi .sle),
    TRef.binary (TRef.of (T := ⟨S17408x1x1, .i1⟩) main_call9_v7) (TRef.of (T := ⟨S17408x1x1, .i1⟩) main_call9_v10) (TRef.of (T := ⟨S17408x1x1, .i1⟩) main_call9_v11) andi,
    TRef.nullary (TRef.of (T := ⟨S_, .i1⟩) main_call9_c_3) (constantI S_ 1 1#1),
    TRef.binary (TRef.of (T := ⟨S17408x1x1, .i1⟩) main_call9_v11) (TRef.of (T := ⟨S_, .i1⟩) main_call9_c_3) (TRef.of (T := ⟨S17408x1, .i1⟩) main_call9_v12) (fun x v => Host.reduce IntOp.andi x v reducesTo_S17408x1x1_S17408x1_d2 h_S_),
    TRef.binary (TRef.of (T := ⟨S17408x3136, .f32⟩) main_v102) (TRef.of (T := ⟨S17408x1x1, .i32⟩) main_call9_v5) (TRef.of (T := ⟨S17408x1, .f32⟩) main_call9_v13) (fun x i => Host.gather gather_S17408x3136_S17408x1x1_S17408x1_n_1_0_0_1_2_11 x i),
    TRef.nullary (TRef.of (T := ⟨S_, .f32⟩) main_call9_cst) (constant S_ .f32 0x7FC00000#32),
    TRef.unary (TRef.of (T := ⟨S_, .f32⟩) main_call9_cst) (TRef.of (T := ⟨S17408x1, .f32⟩) main_call9_v14) (broadcastInDim S17408x1 ![] bcast_S_S17408x1),
    TRef.ternary (TRef.of (T := ⟨S17408x1, .i1⟩) main_call9_v12) (TRef.of (T := ⟨S17408x1, .f32⟩) main_call9_v13) (TRef.of (T := ⟨S17408x1, .f32⟩) main_call9_v14) (TRef.of (T := ⟨S17408x1, .f32⟩) main_v104) select,
    reshape main_v104 main_v105 rfl shapeCasts_S17408x1_S17408,
    unary main_v105 main_v106 (Host.negf : (⟨S17408, .f32⟩ : BufTy).Contents (Elt F) → (⟨S17408, .f32⟩ : BufTy).Contents (Elt F)),
    unary main_v101 main_v107 (uitofp .f32 : (⟨S17408, .i1⟩ : BufTy).Contents (Elt F) → (⟨S17408, .f32⟩ : BufTy).Contents (Elt F)),
    nullary main_cst_23 (constant S_ .f32 0x00000000#32),
    binary main_v107 main_cst_23 main_v108 ((fun x v => Host.reduceAdd x v reducesTo_S17408_S_d0 h_S_) : (⟨S17408, .f32⟩ : BufTy).Contents (Elt F) → (⟨S_, .f32⟩ : BufTy).Contents (Elt F) → (⟨S_, .f32⟩ : BufTy).Contents (Elt F)),
    nullary main_cst_24 (constant S_ .f32 0x3F800000#32),
    binary main_v108 main_cst_24 main_v109 (maximumf : (⟨S_, .f32⟩ : BufTy).Contents (Elt F) → (⟨S_, .f32⟩ : BufTy).Contents (Elt F) → (⟨S_, .f32⟩ : BufTy).Contents (Elt F)),
    nullary main_cst_25 (constant S_ .f32 0x00000000#32),
    TRef.unary (TRef.of (T := ⟨S_, .f32⟩) main_cst_25) (TRef.of (T := ⟨S_, .f32⟩) main_call10_v0) id,
    TRef.unary (TRef.of (T := ⟨S_, .f32⟩) main_call10_v0) (TRef.of (T := ⟨S17408, .f32⟩) main_call10_v1) (broadcastInDim S17408 ![] bcast_S_S17408),
    TRef.ternary (TRef.of (T := ⟨S17408, .i1⟩) main_v101) (TRef.of (T := ⟨S17408, .f32⟩) main_v106) (TRef.of (T := ⟨S17408, .f32⟩) main_call10_v1) (TRef.of (T := ⟨S17408, .f32⟩) main_v110) select,
    nullary main_cst_26 (constant S_ .f32 0x00000000#32),
    binary main_v110 main_cst_26 main_v111 ((fun x v => Host.reduceAdd x v reducesTo_S17408_S_d0 h_S_) : (⟨S17408, .f32⟩ : BufTy).Contents (Elt F) → (⟨S_, .f32⟩ : BufTy).Contents (Elt F) → (⟨S_, .f32⟩ : BufTy).Contents (Elt F)),
    binary main_v111 main_v109 main_v112 (Host.divf : (⟨S_, .f32⟩ : BufTy).Contents (Elt F) → (⟨S_, .f32⟩ : BufTy).Contents (Elt F) → (⟨S_, .f32⟩ : BufTy).Contents (Elt F)),
    unary main_v12 main_v113 (broadcastInDim S1 ![] bcast_S_S1 : (⟨S_, .f32⟩ : BufTy).Contents (Elt F) → (⟨S1, .f32⟩ : BufTy).Contents (Elt F)),
    unary main_v34 main_v114 (broadcastInDim S1 ![] bcast_S_S1 : (⟨S_, .f32⟩ : BufTy).Contents (Elt F) → (⟨S1, .f32⟩ : BufTy).Contents (Elt F)),
    unary main_v112 main_v115 (broadcastInDim S1 ![] bcast_S_S1 : (⟨S_, .f32⟩ : BufTy).Contents (Elt F) → (⟨S1, .f32⟩ : BufTy).Contents (Elt F)),
    nary ![main_v113, main_v114, main_v115] main_v116 (fun u => concatenate S3 0 [⟨S1, u 0⟩, ⟨S1, u 1⟩, ⟨S1, u 2⟩] concatenates_S1_S1_S1_S3_d0) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., nullary_bufs_sub .., binary_bufs_sub .., nullary_bufs_sub .., binary_bufs_sub .., nullary_bufs_sub .., unary_bufs_sub .., unary_bufs_sub .., ternary_bufs_sub .., nullary_bufs_sub .., binary_bufs_sub .., binary_bufs_sub .., nullary_bufs_sub .., unary_bufs_sub .., binary_bufs_sub .., reshape_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., unary_bufs_sub .., ternary_bufs_sub .., nullary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., binary_bufs_sub .., unary_bufs_sub .., binary_bufs_sub .., unary_bufs_sub .., unary_bufs_sub .., unary_bufs_sub .., binary_bufs_sub .., unary_bufs_sub .., binary_bufs_sub .., unary_bufs_sub .., unary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., reshape_bufs_sub .., reshape_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., nullary_bufs_sub .., binary_bufs_sub .., nullary_bufs_sub .., binary_bufs_sub .., nullary_bufs_sub .., unary_bufs_sub .., unary_bufs_sub .., ternary_bufs_sub .., nullary_bufs_sub .., binary_bufs_sub .., binary_bufs_sub .., unary_bufs_sub .., unary_bufs_sub .., unary_bufs_sub .., nary_bufs_sub ..⟩

/-- Every weakly fair execution of @main terminates, each TensorCore buffer at the fold of the operations' results over
    its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => ops_sub) m ρ

set_option maxRecDepth 8192 in
set_option maxHeartbeats 4000000 in
theorem after_arg0 (V : Valuation τ sig (Elt F)) : after (ops (F := F)) V (Proc.devRef .tc main_arg0) = V (Proc.devRef .tc main_arg0) := by
  after_results_simp <;> rfl
set_option maxRecDepth 8192 in
set_option maxHeartbeats 4000000 in
theorem after_arg1 (V : Valuation τ sig (Elt F)) : after (ops (F := F)) V (Proc.devRef .tc main_arg1) = V (Proc.devRef .tc main_arg1) := by
  after_results_simp <;> rfl
set_option maxRecDepth 8192 in
set_option maxHeartbeats 4000000 in
theorem after_arg2 (V : Valuation τ sig (Elt F)) : after (ops (F := F)) V (Proc.devRef .tc main_arg2) = V (Proc.devRef .tc main_arg2) := by
  after_results_simp <;> rfl
set_option maxRecDepth 8192 in
set_option maxHeartbeats 4000000 in
theorem after_arg3 (V : Valuation τ sig (Elt F)) : after (ops (F := F)) V (Proc.devRef .tc main_arg3) = V (Proc.devRef .tc main_arg3) := by
  after_results_simp <;> rfl
set_option maxRecDepth 8192 in
set_option maxHeartbeats 4000000 in
theorem after_arg4 (V : Valuation τ sig (Elt F)) : after (ops (F := F)) V (Proc.devRef .tc main_arg4) = V (Proc.devRef .tc main_arg4) := by
  after_results_simp <;> rfl
set_option maxRecDepth 8192 in
set_option maxHeartbeats 4000000 in
theorem after_arg5 (V : Valuation τ sig (Elt F)) : after (ops (F := F)) V (Proc.devRef .tc main_arg5) = V (Proc.devRef .tc main_arg5) := by
  after_results_simp <;> rfl
set_option maxRecDepth 8192 in
set_option maxHeartbeats 4000000 in
theorem after_arg6 (V : Valuation τ sig (Elt F)) : after (ops (F := F)) V (Proc.devRef .tc main_arg6) = V (Proc.devRef .tc main_arg6) := by
  after_results_simp <;> rfl
set_option maxRecDepth 8192 in
set_option maxHeartbeats 4000000 in
theorem after_arg7 (V : Valuation τ sig (Elt F)) : after (ops (F := F)) V (Proc.devRef .tc main_arg7) = V (Proc.devRef .tc main_arg7) := by
  after_results_simp <;> rfl

/-- Every weakly fair execution of @main terminates with the argument arrays unchanged. -/
theorem frame_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c main_arg0).trans (after_arg0 _), (h c main_arg1).trans (after_arg1 _), (h c main_arg2).trans (after_arg2 _),
     (h c main_arg3).trans (after_arg3 _), (h c main_arg4).trans (after_arg4 _), (h c main_arg5).trans (after_arg5 _),
     (h c main_arg6).trans (after_arg6 _), (h c main_arg7).trans (after_arg7 _)⟩)
    (run_fold m ρ)

end Cert.ReferenceIdeal.RunHand

end
-- ==== Proof.KernelIdealAccum.lean ====
/-
  What the kernel's two accumulators hold, point by point, in terms of the body's arithmetic.
  At the first grid point the body stores a zero block into each accumulator, reads it back, and stores the block's sum
  over it; at a later point it stores the running contents plus the block's sum. Read back, a case's pieces are therefore
  the skeleton's payloads: `k0_pay5` of the three input blocks over what the sum accumulator held (the zero payload
  `k0_pay2` at the first point) and `k0_pay1` of the validity block over what the count accumulator held (`k0_pay3` at
  the first point). By induction on the point, the accumulators after point `n` are these payloads iterated from the
  first point. Generic in the float instance.
-/
import proofs.«117586_j82575041232910_1_alg».proof.Proof.KernelIdealFrame
import Idealize.ShloMosaic.Lib.Pipeline.Value
import Idealize.ShloMosaic.Lib.StableHlo.Run
import Idealize.ShloMosaic.Lib.Tactic

set_option maxRecDepth 65536

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.GenP Cert.KernelIdeal.Frame

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- A later point leaves in the sum accumulator the running contents plus the block's sum: its one store's payload. -/
theorem out_B_3 (c : Dev nD) (i : grid0.Coords) (a1 : Memref sig .tc .vmem S256x3136 .f32) (h1 : a1.IsWhole) (a2 : Memref sig .tc .vmem S256x1 .i32) (h2 : a2.IsWhole) (a3 : Memref sig .tc .vmem S256x1 .f32) (h3 : a3.IsWhole) (a4 : Memref sig .tc .vmem S1x1 .f32) (h4 : a4.IsWhole) (a5 : Memref sig .tc .vmem S1x1 .f32) (h5 : a5.IsWhole) (hc : ¬cond0_0 i) (x0 : Vec F S256x3136 .f32) (x1 : Vec F S256x1 .i32) (x2 : Vec F S256x1 .f32) (xo3 xo4 : Vec F S1x1 .f32) :
    out0_B_3 c i a1 h1 a2 h2 a3 h3 a4 h4 a5 h5 hc x0 x1 x2 xo3 xo4 = k0_pay5 x0 x1 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  sl_unfold_words
  rw [View.canon_unit_zero hz]
  simp only [View.readAt_eq_ld, h1.read_unread, h2.read_unread, h3.read_unread, h4.read_unread, h5.read_unread, View.ld_unit_zero (S := S256x3136) hz, View.ld_unit_zero (S := S256x1) hz, View.ld_unit_zero (S := S1x1) hz]

/-- And in the count accumulator the running count plus the block's number of valid rows. -/
theorem out_B_4 (c : Dev nD) (i : grid0.Coords) (a1 : Memref sig .tc .vmem S256x3136 .f32) (h1 : a1.IsWhole) (a2 : Memref sig .tc .vmem S256x1 .i32) (h2 : a2.IsWhole) (a3 : Memref sig .tc .vmem S256x1 .f32) (h3 : a3.IsWhole) (a4 : Memref sig .tc .vmem S1x1 .f32) (h4 : a4.IsWhole) (a5 : Memref sig .tc .vmem S1x1 .f32) (h5 : a5.IsWhole) (hc : ¬cond0_0 i) (x0 : Vec F S256x3136 .f32) (x1 : Vec F S256x1 .i32) (x2 : Vec F S256x1 .f32) (xo3 xo4 : Vec F S1x1 .f32) :
    out0_B_4 c i a1 h1 a2 h2 a3 h3 a4 h4 a5 h5 hc x0 x1 x2 xo3 xo4 = k0_pay1 (k0_pay4 x2) (k0_pay6 xo4) := by
  unfold out0_B_4
  rw [View.read_writes_eq_canon _ _ _ (cover0_B_4 c i a1 h1 a2 h2 a3 h3 a4 h4 a5 h5 hc x0 x1 x2 xo3 xo4)]
  unfold kernelRun0_B
  dsimp only
  sl_unfold_words
  rw [View.canon_unit_zero hz]
  simp only [View.readAt_eq_ld, h1.read_unread, h2.read_unread, h3.read_unread, h4.read_unread, h5.read_unread, View.ld_unit_zero (S := S256x3136) hz, View.ld_unit_zero (S := S256x1) hz, View.ld_unit_zero (S := S1x1) hz]

/-- The first point leaves in the sum accumulator the block's sum over the zero block it stored and read back. -/
theorem out_A_3 (c : Dev nD) (i : grid0.Coords) (a1 : Memref sig .tc .vmem S256x3136 .f32) (h1 : a1.IsWhole) (a2 : Memref sig .tc .vmem S256x1 .i32) (h2 : a2.IsWhole) (a3 : Memref sig .tc .vmem S256x1 .f32) (h3 : a3.IsWhole) (a4 : Memref sig .tc .vmem S1x1 .f32) (h4 : a4.IsWhole) (a5 : Memref sig .tc .vmem S1x1 .f32) (h5 : a5.IsWhole) (hc : cond0_0 i) (x0 : Vec F S256x3136 .f32) (x1 : Vec F S256x1 .i32) (x2 : Vec F S256x1 .f32) :
    out0_A_3 c i a1 h1 a2 h2 a3 h3 a4 h4 a5 h5 hc x0 x1 x2 = k0_pay5 x0 x1 x2 (k0_pay2 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, View.ld_unit_zero (S := S256x3136) hz, View.ld_unit_zero (S := S256x1) hz, View.ld_unit_zero (S := S1x1) hz]

/-- And in the count accumulator the block's number of valid rows over the zero block. -/
theorem out_A_4 (c : Dev nD) (i : grid0.Coords) (a1 : Memref sig .tc .vmem S256x3136 .f32) (h1 : a1.IsWhole) (a2 : Memref sig .tc .vmem S256x1 .i32) (h2 : a2.IsWhole) (a3 : Memref sig .tc .vmem S256x1 .f32) (h3 : a3.IsWhole) (a4 : Memref sig .tc .vmem S1x1 .f32) (h4 : a4.IsWhole) (a5 : Memref sig .tc .vmem S1x1 .f32) (h5 : a5.IsWhole) (hc : cond0_0 i) (x0 : Vec F S256x3136 .f32) (x1 : Vec F S256x1 .i32) (x2 : Vec F S256x1 .f32) :
    out0_A_4 c i a1 h1 a2 h2 a3 h3 a4 h4 a5 h5 hc x0 x1 x2 = k0_pay1 (k0_pay4 x2) (k0_pay6 (k0_pay3 (F := F))) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, View.ld_unit_zero (S := S256x3136) hz, View.ld_unit_zero (S := S256x1) hz, View.ld_unit_zero (S := S1x1) hz]

/-- The two accumulators after point `n` (sum, count): the payloads iterated from the first point. -/
def accs (c : Dev nD) : (n : ℕ) → n < cfg0.N → Vec F S1x1 .f32 × Vec F S1x1 .f32
  | 0, h => (k0_pay5 (iblk m c 0 ⟨0, h⟩) (iblk m c 1 ⟨0, h⟩) (iblk m c 2 ⟨0, h⟩) (k0_pay2 (F := F)),
             k0_pay1 (k0_pay4 (iblk m c 2 ⟨0, h⟩)) (k0_pay6 (k0_pay3 (F := F))))
  | n + 1, h => (k0_pay5 (iblk m c 0 ⟨n + 1, h⟩) (iblk m c 1 ⟨n + 1, h⟩) (iblk m c 2 ⟨n + 1, h⟩) (accs c n (Nat.lt_of_succ_lt h)).1,
                 k0_pay1 (k0_pay4 (iblk m c 2 ⟨n + 1, h⟩)) (k0_pay6 (accs c n (Nat.lt_of_succ_lt h)).2))

/-- What the accumulators' staging buffers hold after point `n` is that iteration — by induction on the point. -/
theorem outsAt_eq (c : Dev nD) : ∀ (n : ℕ) (h : n < cfg0.N), outsAt0 m c n h = accs m c n h
  | 0, h => by
    rw [outsAt0_A m c ⟨0, h⟩ rfl, out_A_3, out_A_4]
    rfl
  | n + 1, h => by
    have hN : cfg0.N = 68 := N_0
    have hB : ¬(⟨n + 1, h⟩ : Fin cfg0.N).val % 68 = 0 := by dsimp only; omega
    rw [outsAt0_B m c ⟨n + 1, h⟩ hB, out_B_3, out_B_4]
    show (k0_pay5 _ _ _ (outsAt0 m c n _).1, k0_pay1 _ (k0_pay6 (outsAt0 m c n _).2)) = _
    rw [outsAt_eq c n]
    rfl

end Cert.KernelIdeal.Accum

end
-- ==== Proof.KernelIdealFinal.lean ====
/-
  The kernel program's result array.
  Each accumulator's 1 × 1 array is written back once, after the last grid point (point 67), and that block is the whole
  array: so after the run the sum array holds the sum accumulator after point 67 and the count array the count accumulator
  after point 67. The host lines after the region then reshape both to scalars, divide the sum by the larger of the count
  and one, and stack that quotient after the two losses the host lines before the region computed (which bypass the
  region): the result array is the three-element concatenation of those three scalars.
-/
import proofs.«117586_j82575041232910_1_alg».proof.Proof.KernelIdealAccum

set_option maxRecDepth 65536

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.GenP Cert.KernelIdeal.Frame

variable {F : FTy → Type} [FloatOps F]
variable (m : (ℓ : Loc nD τ sig) → Buf (Elt F) ℓ) (ρ : Dev nD → PrngReg)

/-- The last grid point. -/
abbrev tLast : Fin cfg0.N := ⟨67, by rw [show cfg0.N = 68 from N_0]; decide⟩

/-- The sum accumulator after the last point, as contents of the sum array (its one block is the array). -/
abbrev sumArr (c : Dev nD) : Buf (Elt F) ((c : Thread nD τ).loc main_v103_0) := (accs m c 67 (tLast).isLt).1
/-- The count accumulator after the last point, as contents of the count array. -/
abbrev cntArr (c : Dev nD) : Buf (Elt F) ((c : Thread nD τ).loc main_v103_1) := (accs m c 67 (tLast).isLt).2

/-- The one write-back of the sum accumulator, at the last point, writes `sumArr`: block (0, 0) of a 1 × 1 array read
    through zero offsets is the array. -/
theorem flushed_eq3 (c : Dev nD) (t : Fin cfg0.N) (hf : (cfg0.win 3).flush t = true) :
    (dats m 0 c).flushed 3 t = ((cfg0.win 3).blk t).view.read (Elt F) (sumArr m c) := by
  have hN : cfg0.N = 68 := N_0
  have h67 : t.val = 67 := by have := (flush0_3 t).mp hf; have := t.isLt; omega
  obtain rfl : t = tLast := Fin.ext h67
  show (cfg0.win 3).cut (grid0.coords tLast) ((dats m 0 c).after 3 tLast) = _
  rw [after0_3, outsAt_eq]
  have hz' : (fun a => win0_3.index tLast a * main_v103_0.ty.shape.size a) = fun _ => 0 := funext fun a => by fin_cases a <;> decide
  exact (Memref.read_access_unit_zero (Elt F) main_v103_0 hz' (fun a => by rw [congrFun hz' a]; simp) (sumArr m c)).symm

/-- Likewise the count accumulator's. -/
theorem flushed_eq4 (c : Dev nD) (t : Fin cfg0.N) (hf : (cfg0.win 4).flush t = true) :
    (dats m 0 c).flushed 4 t = ((cfg0.win 4).blk t).view.read (Elt F) (cntArr m c) := by
  have hN : cfg0.N = 68 := N_0
  have h67 : t.val = 67 := by have := (flush0_4 t).mp hf; have := t.isLt; omega
  obtain rfl : t = tLast := Fin.ext h67
  show (cfg0.win 4).cut (grid0.coords tLast) ((dats m 0 c).after 4 tLast) = _
  rw [after0_4, outsAt_eq]
  have hz' : (fun a => win0_4.index tLast a * main_v103_1.ty.shape.size a) = fun _ => 0 := funext fun a => by fin_cases a <;> decide
  exact (Memref.read_access_unit_zero (Elt F) main_v103_1 hz' (fun a => by rw [congrFun hz' a]; simp) (cntArr m c)).symm

/-- So the sum array ends holding the sum accumulator after the last point: that point's block covers it. -/
theorem final3 (c : Dev nD) : (dats m 0 c).arrAt 3 cfg0.N = sumArr m c :=
  (dats m 0 c).arrAt_eq_of_cover 3 (sumArr m c) (flushed_eq3 m c) fun i =>
    ⟨tLast, (flush0_3 tLast).mpr rfl, by
      show i ∈ ((View.whole main_v103_0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- And the count array the count accumulator after the last point. -/
theorem final4 (c : Dev nD) : (dats m 0 c).arrAt 4 cfg0.N = cntArr m c :=
  (dats m 0 c).arrAt_eq_of_cover 4 (cntArr m c) (flushed_eq4 m c) fun i =>
    ⟨tLast, (flush0_4 tLast).mpr rfl, by
      show i ∈ ((View.whole main_v103_1).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-! ## The result array -/

/-- The host lines after the region, as one function of what they read: the two losses that bypass the region (scalars)
    and the two accumulator arrays — reshape both arrays to scalars, divide the sum by the larger of the count and one,
    and stack the quotient after the two losses. -/
def stackLosses (s1 s2 : (⟨S_, .f32⟩ : BufTy).Contents (Elt F)) (sumA cntA : (⟨S1x1, .f32⟩ : BufTy).Contents (Elt F)) :
    (⟨S3, .f32⟩ : BufTy).Contents (Elt F) :=
  concatenate S3 0 [⟨S1, broadcastInDim S1 ![] bcast_S_S1 s1⟩, ⟨S1, broadcastInDim S1 ![] bcast_S_S1 s2⟩,
    ⟨S1, broadcastInDim S1 ![] bcast_S_S1 (Host.divf (shapeCast S_ sumA shapeCasts_S1x1_S_)
      (maximumf (shapeCast S_ cntA shapeCasts_S1x1_S_) (constant S_ .f32 0x3F800000#32)))⟩] concatenates_S1_S1_S1_S3_d0

/-- A line appended to some lines: its result over theirs. -/
theorem after_snoc (ops : List (HloOp τ sig (Elt F))) (op : HloOp τ sig (Elt F)) (W : Valuation τ sig (Elt F)) :
    StableHlo.after (ops ++ [op]) W = op.result (StableHlo.after ops W) := by
  induction ops generalizing W with
  | nil => rfl
  | cons o os ih => simp only [List.cons_append, StableHlo.after_cons, ih]

/-- The lines after the region but the last: the two reshapes, the constant one, the maximum, the quotient, and the three
    broadcasts to one-element arrays. -/
abbrev tail8 : List (HloOp τ sig (Elt F)) :=
  [ StableHlo.reshape main_v103_0 main_v104 rfl shapeCasts_S1x1_S_,
    StableHlo.reshape main_v103_1 main_v105 rfl shapeCasts_S1x1_S_,
    StableHlo.nullary main_cst_23 (constant S_ .f32 0x3F800000#32),
    StableHlo.binary main_v105 main_cst_23 main_v106 (maximumf : (⟨S_, .f32⟩ : BufTy).Contents (Elt F) → (⟨S_, .f32⟩ : BufTy).Contents (Elt F) → (⟨S_, .f32⟩ : BufTy).Contents (Elt F)),
    StableHlo.binary main_v104 main_v106 main_v107 (Host.divf : (⟨S_, .f32⟩ : BufTy).Contents (Elt F) → (⟨S_, .f32⟩ : BufTy).Contents (Elt F) → (⟨S_, .f32⟩ : BufTy).Contents (Elt F)),
    StableHlo.unary main_v12 main_v108 (broadcastInDim S1 ![] bcast_S_S1 : (⟨S_, .f32⟩ : BufTy).Contents (Elt F) → (⟨S1, .f32⟩ : BufTy).Contents (Elt F)),
    StableHlo.unary main_v34 main_v109 (broadcastInDim S1 ![] bcast_S_S1 : (⟨S_, .f32⟩ : BufTy).Contents (Elt F) → (⟨S1, .f32⟩ : BufTy).Contents (Elt F)),
    StableHlo.unary main_v107 main_v110 (broadcastInDim S1 ![] bcast_S_S1 : (⟨S_, .f32⟩ : BufTy).Contents (Elt F) → (⟨S1, .f32⟩ : BufTy).Contents (Elt F)) ]
/-- The last line: the concatenation of the three one-element arrays. -/
abbrev stackOp : HloOp τ sig (Elt F) :=
  StableHlo.nary ![main_v108, main_v109, main_v110] main_v111 (fun u => concatenate S3 0 [⟨S1, u 0⟩, ⟨S1, u 1⟩, ⟨S1, u 2⟩] concatenates_S1_S1_S1_S3_d0)

/-- What the lines after the region leave in the result array: `stackLosses` of the two bypassing losses as the region
    found them and the two arrays as the region left them. -/
theorem result_eq (c : Dev nD) :
    Pipeline.afterTail₀ cfgs (dats m) 0 (V0 m) [hostOps1] c main_v111
      = stackLosses (V m c main_v12) (V m c main_v34) (sumArr m c) (cntArr m c) := by
  unfold Pipeline.afterTail₀
  show StableHlo.after hostOps1 _ (Proc.devRef .tc main_v111) = _
  have e12 : Pipeline.withArrays (cfgs 0).spec c (V0 m c) (fun w => (dats m 0 c).arrAt w (cfgs 0).N) (Proc.devRef .tc main_v12) = V m c main_v12 :=
    Pipeline.withArrays_of_ne _ c (V0 m c) _ main_v12 (by exact (by decide : ∀ w, Pipeline.arrRef spec0 w ≠ main_v12))
  have e34 : Pipeline.withArrays (cfgs 0).spec c (V0 m c) (fun w => (dats m 0 c).arrAt w (cfgs 0).N) (Proc.devRef .tc main_v34) = V m c main_v34 :=
    Pipeline.withArrays_of_ne _ c (V0 m c) _ main_v34 (by exact (by decide : ∀ w, Pipeline.arrRef spec0 w ≠ main_v34))
  have e3 : Pipeline.withArrays (cfgs 0).spec c (V0 m c) (fun w => (dats m 0 c).arrAt w (cfgs 0).N) (Proc.devRef .tc main_v103_0) = sumArr m c :=
    (Pipeline.withArrays_arr spec0 launch0.win.arr_inj c _ _ 3).trans (final3 m c)
  have e4 : Pipeline.withArrays (cfgs 0).spec c (V0 m c) (fun w => (dats m 0 c).arrAt w (cfgs 0).N) (Proc.devRef .tc main_v103_1) = cntArr m c :=
    (Pipeline.withArrays_arr spec0 launch0.win.arr_inj c _ _ 4).trans (final4 m c)
  generalize Pipeline.withArrays (cfgs 0).spec c (V0 m c) (fun w => (dats m 0 c).arrAt w (cfgs 0).N) = W at e12 e34 e3 e4 ⊢
  have a108 : StableHlo.after (tail8 (F := F)) W (Proc.devRef .tc main_v108)
      = broadcastInDim S1 ![] bcast_S_S1 (W (Proc.devRef .tc main_v12)) := by
    dsimp only [tail8]; after_results <;> rfl
  have a109 : StableHlo.after (tail8 (F := F)) W (Proc.devRef .tc main_v109)
      = broadcastInDim S1 ![] bcast_S_S1 (W (Proc.devRef .tc main_v34)) := by
    dsimp only [tail8]; after_results <;> rfl
  have a110 : StableHlo.after (tail8 (F := F)) W (Proc.devRef .tc main_v110)
      = broadcastInDim S1 ![] bcast_S_S1 (Host.divf (shapeCast S_ (W (Proc.devRef .tc main_v103_0)) shapeCasts_S1x1_S_)
          (maximumf (shapeCast S_ (W (Proc.devRef .tc main_v103_1)) shapeCasts_S1x1_S_) (constant S_ .f32 0x3F800000#32))) := by
    dsimp only [tail8]; after_results <;> rfl
  rw [show (hostOps1 : List (HloOp τ sig (Elt F))) = tail8 ++ [stackOp] from rfl, after_snoc]
  refine (StableHlo.nary_result' _ _ _ _ _).trans ?_
  show concatenate S3 0 [⟨S1, StableHlo.after (tail8 (F := F)) W (Proc.devRef .tc main_v108)⟩,
      ⟨S1, StableHlo.after (tail8 (F := F)) W (Proc.devRef .tc main_v109)⟩,
      ⟨S1, StableHlo.after (tail8 (F := F)) W (Proc.devRef .tc main_v110)⟩] concatenates_S1_S1_S1_S3_d0 = _
  rw [a108, a109, a110, e12, e34, e3, e4]
  rfl

/-- THE KERNEL PROGRAM'S RUN, READ: every weakly fair execution terminates with the result array at `stackLosses` of the
    region-entry losses and the final accumulators, and the eight argument arrays as launched. -/
theorem run_value : θ_run defs (onTc (τ := τ) (main (F := F))) ⟨m, fun _ => 0, ρ⟩ (fun r => ∀ c : Dev nD,
      r.2.mem ((c.tc : Thread nD τ).loc main_v111) = stackLosses (V m c main_v12) (V m c main_v34) (sumArr m c) (cntArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v111 (Pipeline.mem_restRefs_of main_v111 (by decide) (by decide))).trans (result_eq m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩)
    (run_main m ρ)

end Cert.KernelIdeal.Accum

end
-- ==== Proof.KernelIdealBlocks.lean ====
/-
  The three input windows' blocks of the keypoint-loss kernel read at an index: at grid point `t` the block of the
  logits, of the target words and of the validity column is rows `256 t, …, 256 t + 255` of its array, all columns.
-/
import proofs.«117586_j82575041232910_1_alg».proof.Proof.KernelIdealFrame
import Idealize.ShloMosaic.Lib.ValueIdx

noncomputable section

namespace Cert.KernelIdeal.Blocks

open Cert.KernelIdeal Cert.KernelIdeal.Gen Cert.KernelIdeal.GenP Cert.KernelIdeal.Frame
open Idealize.ShloMosaic Idealize.ShloMosaic.TcCoe Idealize.ShloMosaic.ValueIdx

variable {F : FTy → Type} [FloatOps F]
variable (m : (ℓ : Loc nD τ sig) → Buf (Elt F) ℓ)

/-- Each input window's block index at point `t` is `(t, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N, _)

/-- A row of a block is a row of the array. -/
theorem row_lt (t : Fin cfg0.N) (r : Fin 256) : t.val * 256 + r.val < 17408 := by
  have hN : t.val < 68 := lt_of_lt_of_eq t.isLt (show cfg0.N = 68 from N_0)
  have := r.isLt
  omega

/-- The logits block at point `t`, entry (r, k), is the logits array at (256 t + r, k). -/
theorem iblk0_apply (c : Dev nD) (t : Fin cfg0.N) (r : Fin 256) (k : Fin 3136) :
    (iblk m c 0 t : Vec F S256x3136 .f32) (ix2 r k)
      = (V m c main_v99 : S17408x3136.Idx → Elt F .f32) (ix2 (⟨t.val * 256 + r.val, row_lt t r⟩ : Fin 17408) k) := by
  have hi := (idx_facts t).1
  unfold iblk
  rw [View.read_apply]
  show V m c main_v99 _ = V m c main_v99 _
  refine congrArg (V m c main_v99) (funext fun a => Fin.ext ?_)
  match a with
  | ⟨0, _⟩ => show win0_0.index t 0 * 256 + 1 * r.val = t.val * 256 + r.val; rw [hi.1]; omega
  | ⟨1, _⟩ => show win0_0.index t 1 * 3136 + 1 * k.val = k.val; rw [hi.2]; omega

/-- The target-word block at point `t`, row r, is the target-word column at row 256 t + r. -/
theorem iblk1_apply (c : Dev nD) (t : Fin cfg0.N) (r : Fin 256) :
    (iblk m c 1 t : Vec F S256x1 .i32) (ix2 r (0 : Fin 1))
      = (V m c main_v100 : S17408x1.Idx → Elt F .i32) (ix2 (⟨t.val * 256 + r.val, row_lt t r⟩ : Fin 17408) (0 : Fin 1)) := by
  have hi := (idx_facts t).2.1
  unfold iblk
  rw [View.read_apply]
  show V m c main_v100 _ = V m c main_v100 _
  refine congrArg (V m c main_v100) (funext fun a => Fin.ext ?_)
  match a with
  | ⟨0, _⟩ => show win0_1.index t 0 * 256 + 1 * r.val = t.val * 256 + r.val; rw [hi.1]; omega
  | ⟨1, _⟩ => show win0_1.index t 1 * 1 + 1 * 0 = 0; rw [hi.2]

/-- The validity block at point `t`, row r, is the validity column at row 256 t + r. -/
theorem iblk2_apply (c : Dev nD) (t : Fin cfg0.N) (r : Fin 256) :
    (iblk m c 2 t : Vec F S256x1 .f32) (ix2 r (0 : Fin 1))
      = (V m c main_v102 : S17408x1.Idx → Elt F .f32) (ix2 (⟨t.val * 256 + r.val, row_lt t r⟩ : Fin 17408) (0 : Fin 1)) := by
  have hi := (idx_facts t).2.2
  unfold iblk
  rw [View.read_apply]
  show V m c main_v102 _ = V m c main_v102 _
  refine congrArg (V m c main_v102) (funext fun a => Fin.ext ?_)
  match a with
  | ⟨0, _⟩ => show win0_2.index t 0 * 256 + 1 * r.val = t.val * 256 + r.val; rw [hi.1]; omega
  | ⟨1, _⟩ => show win0_2.index t 1 * 1 + 1 * 0 = 0; rw [hi.2]

end Cert.KernelIdeal.Blocks

end
-- ==== Proof.Pay1.lean ====
/-
  The small payloads of the keypoint-loss kernel read at their one index, at the exact instance.

  The count output's payload adds to what the 1 × 1 block held the sum of a 256 × 1 column (a reduction over the rows,
  then a cast of the one result to 1 × 1); the two zero payloads are the number 0; the two remaining payloads are casts of
  a shape to itself.
-/
import proofs.«117586_j82575041232910_1_alg».proof.Proof.Gen.KernelIdeal.Skeleton
import Idealize.ShloMosaic.PureOps.Ideal.Laws
import Idealize.ShloMosaic.Lib.ValueLayout

noncomputable section

namespace Cert.KernelIdeal.PayValue

open Idealize.ShloMosaic Idealize.ShloMosaic.ValueIdx
open Cert.KernelIdeal Cert.KernelIdeal.Gen

/-- The sum over the rows of a 256 × 1 column, as the kernel's reduction over axis 0 computes it. -/
theorem colSum_apply (v : FVec Ideal S256x1 .f32) (h : S256x1.Reduces [0] S1) (hφ : FKind.Formats .f32)
    (hacc : (0x00000000#32 : BitVec 32) = 0x00000000#32) (u : Fin 1) :
    multiReduction (F := Ideal) .add [0] S1 v 0x00000000#32 h hφ hacc (ix1 u)
      = ∑ r : Fin 256, v (ix2 r (0 : Fin 1)) := by
  obtain rfl : u = 0 := Subsingleton.elim _ _
  refine (Ideal.multiReduction_add_single v 0x00000000#32 h hφ hacc (ix1 (0 : Fin 1))).trans ?_
  refine Finset.sum_congr rfl fun k _ => congrArg v ?_
  funext a
  refine Fin.ext ?_
  match a with
  | ⟨0, _⟩ => rfl
  | ⟨1, _⟩ => rfl

/-- A one-entry vector cast to 1 × 1 reads its entry. -/
theorem cast_1_1x1_apply {α : Type} (x : S1.Idx → α) (h : S1.ShapeCasts S1x1) :
    shapeCast S1x1 x h (ix2 (0 : Fin 1) (0 : Fin 1)) = x (ix1 (0 : Fin 1)) :=
  shapeCast_a_1a_apply x h 0 0

/-- The count output's payload: what the block held plus the sum of the column. -/
theorem pay1_eq (v27 : FVec Ideal S256x1 .f32) (v36 : FVec Ideal S1x1 .f32) :
    k0_pay1 (F := Ideal) v27 v36 (ix2 (0 : Fin 1) (0 : Fin 1))
      = v36 (ix2 (0 : Fin 1) (0 : Fin 1)) + ∑ r : Fin 256, v27 (ix2 r (0 : Fin 1)) := by
  unfold k0_pay1
  rw [addf_apply, cast_1_1x1_apply, colSum_apply]

theorem pay4_eq (v26 : Vec Ideal S256x1 .f32) : k0_pay4 (F := Ideal) v26 = v26 := by
  unfold k0_pay4
  exact shapeCast_self _ _

theorem pay6_eq (v35 : Vec Ideal S1x1 .f32) : k0_pay6 (F := Ideal) v35 = v35 := by
  unfold k0_pay6
  exact shapeCast_self _ _

theorem pay2_eq (j : S1x1.Idx) : k0_pay2 (F := Ideal) j = 0 := by
  unfold k0_pay2
  exact Ideal.ofBits_zero_f32

theorem pay3_eq (j : S1x1.Idx) : k0_pay3 (F := Ideal) j = 0 := by
  unfold k0_pay3
  exact Ideal.ofBits_zero_f32

end Cert.KernelIdeal.PayValue

end
-- ==== Proof.PayRow.lean ====
/-
  The non-pointwise operations of the keypoint-loss kernel's row computation, each read at an index given by its
  coordinates, at the exact instance: a column of per-row values cast from [256] to [256, 1] and broadcast along the
  lanes to [256, 3136]; a row's sum over the 3136 lanes; a row's maximum over the lanes, which from the accumulator -∞
  is the supremum of the row's entries.
-/
import proofs.«117586_j82575041232910_1_alg».proof.Proof.Gen.KernelIdeal.Skeleton
import Idealize.ShloMosaic.PureOps.Ideal.Laws
import Idealize.ShloMosaic.Lib.ValueLayout

noncomputable section

namespace Cert.KernelIdeal.PayValue

open Idealize.ShloMosaic Idealize.ShloMosaic.ValueIdx
open Cert.KernelIdeal Cert.KernelIdeal.Gen

/-- An [a] array cast to [a, 1] reads, at (r, u), the operand at r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row's sum over the lanes, as the kernel's reduction over axis 1 computes it. -/
theorem laneSum_apply (v : FVec Ideal S256x3136 .f32) (h : S256x3136.Reduces [1] S256) (hφ : FKind.Formats .f32)
    (hacc : (0x00000000#32 : BitVec 32) = 0x00000000#32) (r : Fin 256) :
    multiReduction (F := Ideal) .add [1] S256 v 0x00000000#32 h hφ hacc (ix1 r)
      = ∑ k : Fin 3136, v (ix2 r k) := by
  refine (Ideal.multiReduction_add_single v 0x00000000#32 h hφ hacc (ix1 r)).trans ?_
  refine Finset.sum_congr rfl fun k _ => congrArg v ?_
  funext a
  refine Fin.ext ?_
  match a with
  | ⟨0, _⟩ => rfl
  | ⟨1, _⟩ => rfl

/-- The word 0xFF800000 is -∞, the least extended real. -/
theorem ofBits_neg_inf : (FloatOps.ofBits (F := Ideal) .f32 0xFF800000#32 : EReal) = ⊥ := by
  simp [Ideal.ofBits, Ideal.ieee]

/-- A row's maximum over the lanes from -∞ is the supremum of its entries. -/
theorem laneMax_apply (v : FVec Ideal S256x3136 .f32) (h : S256x3136.Reduces [1] S256) (hφ : FKind.Formats .f32)
    (hacc : (0xFF800000#32 : BitVec 32) = 0xFF800000#32) (r : Fin 256) :
    multiReduction (F := Ideal) .maximumf [1] S256 v 0xFF800000#32 h hφ hacc (ix1 r)
      = Finset.univ.sup (fun k : Fin 3136 => v (ix2 r k)) := by
  refine (Ideal.multiReduction_maximumf_single v 0xFF800000#32 h hφ hacc (ix1 r)).trans ?_
  have hf : (v ∘ h.lift (ix1 r) : Fin 3136 → EReal) = fun k : Fin 3136 => v (ix2 r k) := by
    funext k
    refine congrArg v ?_
    funext a
    refine Fin.ext ?_
    match a with
    | ⟨0, _⟩ => rfl
    | ⟨1, _⟩ => rfl
  exact (congrArg₂ (fun (b : EReal) (f : Fin 3136 → EReal) => Finset.fold max b f (Finset.univ : Finset (Fin 3136)))
    ofBits_neg_inf hf).trans rfl

end Cert.KernelIdeal.PayValue

end
-- ==== Proof.LossSpec.lean ====
/-
  The keypoint heat-map loss as ONE function on the extended reals, stated over plain index types.

  A row `x : Fin 3136 → EReal` is one keypoint's 56 × 56 heat map flattened. Its log-softmax at bin `k` is
  `(x k - M) - log (∑ j, exp (x j - M))` with `M` the row's largest entry. A row contributes the negated log-softmax at
  its target bin, times its validity (0 or 1, an `i1` read as a number); the loss is the sum of the contributions
  divided by the number of valid rows, the divisor at least 1. The target bin of a row is carried as a 32-bit word
  and read modulo 3136 (the words that occur are below 3136, where this is the word itself).
-/
import Idealize.ShloMosaic.PureOps.Ideal

noncomputable section

namespace Cert.KpLoss

open Idealize.ShloMosaic

/-- The largest entry of a row (the bottom element for an empty maximum; a row is never empty). -/
def rowMax (x : Fin 3136 → EReal) : EReal := Finset.univ.sup x

/-- The log-softmax of row `x` at bin `k`. -/
def rowLogp (x : Fin 3136 → EReal) (k : Fin 3136) : EReal :=
  (x k - rowMax x) - Ideal.log (∑ j : Fin 3136, Ideal.exp (x j - rowMax x))

/-- A target word as a bin. -/
def binOf (w : BitVec 32) : Fin 3136 := ⟨w.toNat % 3136, Nat.mod_lt _ (by norm_num)⟩

/-- A validity bit as a number. -/
def validf (v : BitVec 1) : EReal := ((v.toNat : ℝ) : EReal)

/-- One row's contribution: minus its log-softmax at the target bin, times its validity. -/
def rowTerm (x : Fin 3136 → EReal) (w : BitVec 32) (v : BitVec 1) : EReal :=
  (-(rowLogp x (binOf w))) * validf v

/-- The sum of the rows' contributions. -/
def kpSum (X : Fin 17408 → Fin 3136 → EReal) (lin : Fin 17408 → BitVec 32) (vd : Fin 17408 → BitVec 1) : EReal :=
  ∑ r : Fin 17408, rowTerm (X r) (lin r) (vd r)

/-- The number of valid rows. -/
def kpCnt (vd : Fin 17408 → BitVec 1) : EReal := ∑ r : Fin 17408, validf (vd r)

/-- The loss: the sum over the count, the count at least one. -/
def kpLoss (X : Fin 17408 → Fin 3136 → EReal) (lin : Fin 17408 → BitVec 32) (vd : Fin 17408 → BitVec 1) : EReal :=
  Ideal.div (kpSum X lin vd) (max (kpCnt vd) 1)

end Cert.KpLoss

end
-- ==== Proof.PayMask.lean ====
/-
  A one-hot masked sum is the entry at the hot index.

  The kernel selects, lane by lane, the row's value where the lane's number (as a 32-bit word) equals the row's target
  word, and 0 elsewhere, and sums over the 3136 lanes. When the target word is below 3136 exactly one lane is selected,
  the lane whose number is the word, so the sum is the row's value there.
-/
import proofs.«117586_j82575041232910_1_alg».proof.Proof.LossSpec
import Idealize.ShloMosaic.Lib.Affine

noncomputable section

namespace Cert.KpLoss

open Idealize.ShloMosaic

/-- Lane `k`'s number, as a word, is the target word exactly when `k` is the target's bin. -/
theorem ofNat_eq_iff_binOf (k : Fin 3136) (w : BitVec 32) (hw : w.toNat < 3136) :
    BitVec.ofNat 32 k.val = w ↔ k = binOf w := by
  have hk := k.isLt
  constructor
  · intro h
    have h2 : (BitVec.ofNat 32 k.val).toNat = w.toNat := congrArg BitVec.toNat h
    rw [BitVec.toNat_ofNat] at h2
    refine Fin.ext ?_
    show k.val = w.toNat % 3136
    omega
  · intro h
    have h2 : k.val = w.toNat % 3136 := congrArg Fin.val h
    refine BitVec.eq_of_toNat_eq ?_
    rw [BitVec.toNat_ofNat]
    omega

/-- The masked sum over the lanes is the value at the target's bin. -/
theorem maskedSum_eq (L : Fin 3136 → EReal) (w : BitVec 32) (hw : w.toNat < 3136) :
    ∑ k : Fin 3136, Scalar.select (IntOp.cmpi .eq (BitVec.ofNat 32 k.val) w) (L k) (0 : EReal) = L (binOf w) := by
  have hk : ∀ k : Fin 3136, Scalar.select (IntOp.cmpi .eq (BitVec.ofNat 32 k.val) w) (L k) (0 : EReal)
      = if k = binOf w then L k else 0 := by
    intro k
    unfold Scalar.select
    by_cases hkw : k = binOf w
    · rw [if_pos hkw]
      exact if_pos (IntOp.cmpi_eq.mpr ((ofNat_eq_iff_binOf k w hw).mpr hkw))
    · rw [if_neg hkw]
      exact if_neg fun h => hkw ((ofNat_eq_iff_binOf k w hw).mp (IntOp.cmpi_eq.mp h))
  rw [Finset.sum_congr rfl fun k _ => hk k, Finset.sum_ite_eq' Finset.univ (binOf w) L, if_pos (Finset.mem_univ _)]

end Cert.KpLoss

end
-- ==== Proof.Pay5.lean ====
/-
  The sum output's payload of the keypoint-loss kernel at its one index, at the exact instance: what the 1 × 1 block held
  plus, summed over the block's 256 rows, minus the row's log-softmax at its target bin times the row's validity.

  Per row the kernel subtracts the lane maximum, exponentiates, sums over the lanes, takes the logarithm and subtracts it:
  the row's log-softmax at every lane. It then keeps the lane whose number is the target word (a one-hot mask) and sums
  over the lanes: the log-softmax at the target bin. `0 - a` is `-a`.
-/
import proofs.«117586_j82575041232910_1_alg».proof.Proof.Pay1
import proofs.«117586_j82575041232910_1_alg».proof.Proof.PayRow
import proofs.«117586_j82575041232910_1_alg».proof.Proof.PayMask

noncomputable section

namespace Cert.KernelIdeal.PayValue

open Idealize.ShloMosaic Idealize.ShloMosaic.ValueIdx
open Cert.KernelIdeal Cert.KernelIdeal.Gen

/-- An exponential at an index is the exponential of the element. -/
theorem exp_apply {s : Shape} (x : FVec Ideal s .f32) (i : s.Idx) : exp x i = Ideal.exp (x i) := rfl
/-- A logarithm at an index is the logarithm of the element. -/
theorem log_apply {s : Shape} (x : FVec Ideal s .f32) (i : s.Idx) : log x i = Ideal.log (x i) := rfl
/-- An integer comparison at an index compares the elements. -/
theorem cmpi_apply {s : Shape} {w : ℕ} (p : CmpIPredicate) (x y : IVec s w) (i : s.Idx) :
    cmpi p x y i = IntOp.cmpi p (x i) (y i) := rfl
/-- The lane number of entry (r, k) is k. -/
theorem iota_lane_apply (h : S256x3136.Iotas .tc 32 [1]) (r : Fin 256) (k : Fin 3136) :
    iota .tc S256x3136 32 [1] h (ix2 r k) = BitVec.ofNat 32 k.val :=
  iota_single_apply .tc S256x3136 32 1 h (ix2 r k)
/-- The zero word as a scalar is the number 0. -/
theorem scalar_zero : (Scalar.ofBits (F := Ideal) .f32 0x00000000#32 : EReal) = 0 := Ideal.ofBits_zero_f32

/-- The sum output's payload: what the block held plus the rows' contributions. -/
theorem pay5_eq (v3 : Vec Ideal S256x3136 .f32) (v15 : Vec Ideal S256x1 .i32) (v26 : Vec Ideal S256x1 .f32)
    (v29 : Vec Ideal S1x1 .f32) (h15 : ∀ r : Fin 256, (v15 (ix2 r (0 : Fin 1)) : BitVec 32).toNat < 3136) :
    k0_pay5 (F := Ideal) v3 v15 v26 v29 (ix2 (0 : Fin 1) (0 : Fin 1))
      = v29 (ix2 (0 : Fin 1) (0 : Fin 1)) + ∑ r : Fin 256,
          (-(Cert.KpLoss.rowLogp (fun k => v3 (ix2 r k)) (Cert.KpLoss.binOf (v15 (ix2 r (0 : Fin 1))))))
            * v26 (ix2 r (0 : Fin 1)) := by
  unfold k0_pay5
  rw [addf_apply, shapeCast_self, cast_1_1x1_apply, colSum_apply]
  refine congrArg (v29 (ix2 (0 : Fin 1) (0 : Fin 1)) + ·) (Finset.sum_congr rfl fun r _ => ?_)
  rw [mulf_apply, pay4_eq, subf_apply, broadcast_apply, scalar_zero, shapeCast_a_a1_apply, laneSum_apply]
  simp only [select_apply, cmpi_apply, iota_lane_apply, broadcastTo_a1_ab_apply, subf_apply, broadcast_apply, log_apply,
    exp_apply, shapeCast_a_a1_apply, shapeCast_self, scalar_zero]
  rw [laneSum_apply]
  simp only [exp_apply, subf_apply, broadcastTo_a1_ab_apply, shapeCast_a_a1_apply]
  rw [laneMax_apply, zero_sub]
  refine congrArg (fun t => -t * v26 (ix2 r (0 : Fin 1))) ?_
  refine Eq.trans (Finset.sum_congr rfl fun k _ => ?_)
    (Cert.KpLoss.maskedSum_eq (Cert.KpLoss.rowLogp (fun k => v3 (ix2 r k))) (v15 (ix2 r (0 : Fin 1))) (h15 r))
  rw [iota_lane_apply]
  simp only [Cert.KpLoss.rowLogp, Cert.KpLoss.rowMax]

end Cert.KernelIdeal.PayValue

end
-- ==== Proof.LossAlgebra.lean ====
/-
  Two facts about sums on the extended reals, free of any program.

  * A value that starts at `0 + s 0` and grows by `s (n + 1)` at each step is, after step `n`, the sum of
    `s 0, …, s n`.
  * A sum over 17408 = 68 · 256 rows is the sum over 68 blocks of the sums over the 256 rows of a block: row
    `t * 256 + r` is row `r` of block `t`, and every row is met exactly once (division with remainder by 256).

  Both hold in any additive commutative monoid; they are stated on the extended reals, where they are used.
-/
import Idealize.ShloMosaic.PureOps.Ideal

namespace Cert.KpLoss

/-- An accumulator that starts at `0 + s 0` and adds `s (n + 1)` at step `n + 1` holds the partial sums of `s`. -/
theorem acc_sum (out s : ℕ → EReal) (h0 : out 0 = 0 + s 0)
    (hs : ∀ n, out (n + 1) = out n + s (n + 1)) :
    ∀ n, out n = ∑ t ∈ Finset.range (n + 1), s t := by
  intro n
  induction n with
  | zero => rw [h0, zero_add, Finset.sum_range_one]
  | succ n ih => rw [hs, ih, Finset.sum_range_succ s (n + 1)]

/-- Row `t * 256 + r` of 17408 rows, as row `r` of block `t`: division with remainder by 256. -/
def blockRow : Fin 68 × Fin 256 ≃ Fin 17408 where
  toFun p := ⟨p.1.val * 256 + p.2.val, by have := p.1.isLt; have := p.2.isLt; omega⟩
  invFun j := (⟨j.val / 256, by have := j.isLt; omega⟩, ⟨j.val % 256, Nat.mod_lt _ (by norm_num)⟩)
  left_inv p := by
    have h1 := p.1.isLt
    have h2 := p.2.isLt
    refine Prod.ext (Fin.ext ?_) (Fin.ext ?_)
    · show (p.1.val * 256 + p.2.val) / 256 = p.1.val
      omega
    · show (p.1.val * 256 + p.2.val) % 256 = p.2.val
      omega
  right_inv j := by
    refine Fin.ext ?_
    show j.val / 256 * 256 + j.val % 256 = j.val
    omega

theorem blockRow_val (t : Fin 68) (r : Fin 256) : (blockRow (t, r)).val = t.val * 256 + r.val := rfl

/-- The sum over all rows, block by block (blocks indexed by `Fin 68`). -/
theorem sum_blocks_fin (g : Fin 17408 → EReal) :
    ∑ t : Fin 68, ∑ r : Fin 256, g (blockRow (t, r)) = ∑ j : Fin 17408, g j := by
  rw [← Fintype.sum_prod_type (f := fun p : Fin 68 × Fin 256 => g (blockRow p))]
  exact Equiv.sum_comp blockRow g

/-- The sum over all rows, block by block (blocks counted `0, …, 67`; the bound on the row is always met). -/
theorem sum_blocks (g : Fin 17408 → EReal) :
    ∑ t ∈ Finset.range 68, ∑ r : Fin 256,
        (if h : t * 256 + r.val < 17408 then g ⟨t * 256 + r.val, h⟩ else 0)
      = ∑ j : Fin 17408, g j := by
  rw [Finset.sum_range (f := fun t : ℕ => ∑ r : Fin 256,
        (if h : t * 256 + r.val < 17408 then g ⟨t * 256 + r.val, h⟩ else 0)), ← sum_blocks_fin g]
  refine Finset.sum_congr rfl fun t _ => Finset.sum_congr rfl fun r _ => ?_
  have h : t.val * 256 + r.val < 17408 := by have := t.isLt; have := r.isLt; omega
  rw [dif_pos h]
  rfl

end Cert.KpLoss
-- ==== Proof.KernelIdealLoss.lean ====
/-
  The keypoint-loss kernel's two accumulators after the last grid point, as sums over all 17408 rows.

  After point `n` the sum accumulator holds the sum over the points `0, …, n` of each point's block sum: the first
  point adds its block sum to the zero block, every later point to what the accumulator held. A point's block sum is the
  sum over the block's 256 rows of the row's contribution (minus the row's log-softmax at its target bin, times its
  validity), and row `r` of point `t`'s block is row `256 t + r` of the arrays. The 68 points' blocks are all the
  rows, each once. The count accumulator likewise sums the validity column.
-/
import proofs.«117586_j82575041232910_1_alg».proof.Proof.KernelIdealAccum
import proofs.«117586_j82575041232910_1_alg».proof.Proof.KernelIdealBlocks
import proofs.«117586_j82575041232910_1_alg».proof.Proof.Pay5
import proofs.«117586_j82575041232910_1_alg».proof.Proof.LossAlgebra

noncomputable section

namespace Cert.KernelIdeal.Loss

open Cert.KernelIdeal Cert.KernelIdeal.Gen Cert.KernelIdeal.GenP Cert.KernelIdeal.Frame Cert.KernelIdeal.Accum
open Cert.KernelIdeal.Blocks Cert.KernelIdeal.PayValue
open Idealize.ShloMosaic Idealize.ShloMosaic.TcCoe Idealize.ShloMosaic.ValueIdx

variable (m : (ℓ : Loc nD τ sig) → Buf (Elt Ideal) ℓ)

/-- The logits array at (row, bin). -/
def X (c : Dev nD) (j : Fin 17408) (k : Fin 3136) : EReal :=
  (V m c main_v99 : S17408x3136.Idx → Elt Ideal .f32) (ix2 j k)
/-- The target-word column at a row. -/
def L (c : Dev nD) (j : Fin 17408) : BitVec 32 :=
  (V m c main_v100 : S17408x1.Idx → Elt Ideal .i32) (ix2 j (0 : Fin 1))
/-- The validity column at a row. -/
def Vf (c : Dev nD) (j : Fin 17408) : EReal :=
  (V m c main_v102 : S17408x1.Idx → Elt Ideal .f32) (ix2 j (0 : Fin 1))

/-- A row's contribution to the sum. -/
def rowT (c : Dev nD) (j : Fin 17408) : EReal :=
  (-(Cert.KpLoss.rowLogp (fun k => X m c j k) (Cert.KpLoss.binOf (L m c j)))) * Vf m c j

/-- Point `t`'s block sum (zero past the grid). -/
def blockSum (c : Dev nD) (t : ℕ) : EReal :=
  if ht : t < cfg0.N then ∑ r : Fin 256, rowT m c ⟨t * 256 + r.val, row_lt ⟨t, ht⟩ r⟩ else 0

/-- Point `t`'s block count (zero past the grid). -/
def blockCnt (c : Dev nD) (t : ℕ) : EReal :=
  if ht : t < cfg0.N then ∑ r : Fin 256, Vf m c ⟨t * 256 + r.val, row_lt ⟨t, ht⟩ r⟩ else 0

/-- The sum payload at point `t`: what the accumulator held plus the point's block sum. -/
theorem pay5_block (c : Dev nD) (hL : ∀ j : Fin 17408, (L m c j).toNat < 3136) (t : Fin cfg0.N)
    (v29 : Vec Ideal S1x1 .f32) :
    k0_pay5 (F := Ideal) (iblk m c 0 t) (iblk m c 1 t) (iblk m c 2 t) v29 (ix2 (0 : Fin 1) (0 : Fin 1))
      = v29 (ix2 (0 : Fin 1) (0 : Fin 1))
        + ∑ r : Fin 256, rowT m c ⟨t.val * 256 + r.val, row_lt t r⟩ := by
  have h15 : ∀ r : Fin 256, ((iblk m c 1 t : Vec Ideal S256x1 .i32) (ix2 r (0 : Fin 1)) : BitVec 32).toNat < 3136 := by
    intro r
    rw [iblk1_apply m c t r]
    exact hL _
  refine (pay5_eq (iblk m c 0 t) (iblk m c 1 t) (iblk m c 2 t) v29 h15).trans ?_
  refine congrArg (v29 (ix2 (0 : Fin 1) (0 : Fin 1)) + ·) (Finset.sum_congr rfl fun r _ => ?_)
  have h0 : (fun k : Fin 3136 => (iblk m c 0 t : Vec Ideal S256x3136 .f32) (ix2 r k))
      = fun k : Fin 3136 => X m c ⟨t.val * 256 + r.val, row_lt t r⟩ k := funext fun k => iblk0_apply m c t r k
  rw [h0, iblk1_apply m c t r, iblk2_apply m c t r]
  rfl

/-- The count payload at point `t`: what the accumulator held plus the point's block count. -/
theorem pay1_block (c : Dev nD) (t : Fin cfg0.N) (v35 : Vec Ideal S1x1 .f32) :
    k0_pay1 (F := Ideal) (k0_pay4 (iblk m c 2 t)) (k0_pay6 v35) (ix2 (0 : Fin 1) (0 : Fin 1))
      = v35 (ix2 (0 : Fin 1) (0 : Fin 1)) + ∑ r : Fin 256, Vf m c ⟨t.val * 256 + r.val, row_lt t r⟩ := by
  refine (pay1_eq _ _).trans ?_
  rw [pay6_eq v35, pay4_eq (iblk m c 2 t)]
  refine congrArg (v35 (ix2 (0 : Fin 1) (0 : Fin 1)) + ·) (Finset.sum_congr rfl fun r _ => ?_)
  rw [iblk2_apply m c t r]
  rfl

/-- The sum accumulator after point `n`: the block sums of the points up to `n`. -/
theorem sum_acc (c : Dev nD) (hL : ∀ j : Fin 17408, (L m c j).toNat < 3136) :
    ∀ (n : ℕ) (h : n < cfg0.N), (accs (F := Ideal) m c n h).1 (ix2 (0 : Fin 1) (0 : Fin 1))
      = ∑ t ∈ Finset.range (n + 1), blockSum m c t
  | 0, h => by
    show k0_pay5 (F := Ideal) (iblk m c 0 ⟨0, h⟩) (iblk m c 1 ⟨0, h⟩) (iblk m c 2 ⟨0, h⟩) (k0_pay2 (F := Ideal))
      (ix2 (0 : Fin 1) (0 : Fin 1)) = _
    rw [pay5_block m c hL ⟨0, h⟩, pay2_eq, zero_add, Finset.sum_range_one]
    unfold blockSum
    rw [dif_pos h]
  | n + 1, h => by
    show k0_pay5 (F := Ideal) (iblk m c 0 ⟨n + 1, h⟩) (iblk m c 1 ⟨n + 1, h⟩) (iblk m c 2 ⟨n + 1, h⟩)
      (accs (F := Ideal) m c n (Nat.lt_of_succ_lt h)).1 (ix2 (0 : Fin 1) (0 : Fin 1)) = _
    rw [pay5_block m c hL ⟨n + 1, h⟩, sum_acc c hL n (Nat.lt_of_succ_lt h), Finset.sum_range_succ _ (n + 1)]
    refine congrArg (_ + ·) ?_
    unfold blockSum
    rw [dif_pos h]

/-- The count accumulator after point `n`: the block counts of the points up to `n`. -/
theorem cnt_acc (c : Dev nD) :
    ∀ (n : ℕ) (h : n < cfg0.N), (accs (F := Ideal) m c n h).2 (ix2 (0 : Fin 1) (0 : Fin 1))
      = ∑ t ∈ Finset.range (n + 1), blockCnt m c t
  | 0, h => by
    show k0_pay1 (F := Ideal) (k0_pay4 (iblk m c 2 ⟨0, h⟩)) (k0_pay6 (k0_pay3 (F := Ideal)))
      (ix2 (0 : Fin 1) (0 : Fin 1)) = _
    rw [pay1_block m c ⟨0, h⟩, pay3_eq, zero_add, Finset.sum_range_one]
    unfold blockCnt
    rw [dif_pos h]
  | n + 1, h => by
    show k0_pay1 (F := Ideal) (k0_pay4 (iblk m c 2 ⟨n + 1, h⟩))
      (k0_pay6 (accs (F := Ideal) m c n (Nat.lt_of_succ_lt h)).2) (ix2 (0 : Fin 1) (0 : Fin 1)) = _
    rw [pay1_block m c ⟨n + 1, h⟩, cnt_acc c n (Nat.lt_of_succ_lt h), Finset.sum_range_succ _ (n + 1)]
    refine congrArg (_ + ·) ?_
    unfold blockCnt
    rw [dif_pos h]

/-- The 68 points' blocks are all the rows, each once. -/
theorem blocks_all (c : Dev nD) (g : Fin 17408 → EReal) (B : ℕ → EReal)
    (hB : ∀ (t : ℕ) (ht : t < cfg0.N), B t = ∑ r : Fin 256, g ⟨t * 256 + r.val, row_lt ⟨t, ht⟩ r⟩) :
    ∑ t ∈ Finset.range (67 + 1), B t = ∑ j : Fin 17408, g j := by
  have e : ∑ t ∈ Finset.range (67 + 1), B t = ∑ t : Fin 68, B t.val := Finset.sum_range B
  rw [e, ← Cert.KpLoss.sum_blocks_fin g]
  refine Finset.sum_congr rfl fun t _ => ?_
  have ht : t.val < cfg0.N := by rw [show cfg0.N = 68 from N_0]; exact t.isLt
  rw [hB t.val ht]
  exact Finset.sum_congr rfl fun r _ => congrArg g (Fin.ext rfl)

/-- The sum accumulator after the last point is the sum of all rows' contributions. -/
theorem sum_eq (c : Dev nD) (hL : ∀ j : Fin 17408, (L m c j).toNat < 3136) (h67 : 67 < cfg0.N) :
    (accs (F := Ideal) m c 67 h67).1 (ix2 (0 : Fin 1) (0 : Fin 1))
      = ∑ j : Fin 17408, (-(Cert.KpLoss.rowLogp (fun k => X m c j k) (Cert.KpLoss.binOf (L m c j)))) * Vf m c j := by
  rw [sum_acc m c hL 67 h67]
  exact blocks_all c (rowT m c) (blockSum m c) fun t ht => by unfold blockSum; rw [dif_pos ht]

/-- The count accumulator after the last point is the sum of the validity column. -/
theorem cnt_eq (c : Dev nD) (h67 : 67 < cfg0.N) :
    (accs (F := Ideal) m c 67 h67).2 (ix2 (0 : Fin 1) (0 : Fin 1)) = ∑ j : Fin 17408, Vf m c j := by
  rw [cnt_acc m c 67 h67]
  exact blocks_all c (Vf m c) (blockCnt m c) fun t ht => by unfold blockCnt; rw [dif_pos ht]

end Cert.KernelIdeal.Loss

end
-- ==== Proof.RefLemmas.lean ====
/-
  Facts about words and extended reals that the reference's keypoint loss rests on, stated over variables: the target
  bin word is below 3136; a bin word below 3136 passes the index normalisation and the range test unchanged; a
  maximum-reduce along the columns from minus infinity is the row's supremum; a sum over a rank-1 index set is the
  sum over its coordinate; a select on a validity bit between a value and zero is the value times the bit.
-/
import proofs.«117586_j82575041232910_1_alg».proof.Proof.LossSpec
import Idealize.ShloMosaic.PureOps.Ideal.Laws
import Idealize.ShloMosaic.PureOps.Reduce
import Idealize.ShloMosaic.Lib.ValueIdx
import Idealize.ShloMosaic.Lib.IdealHost

noncomputable section

namespace Cert.ReferenceIdeal.RefValue

open Idealize.ShloMosaic Idealize.ShloMosaic.ValueIdx

/-! ## Words -/

/-- A one-bit conjunction that is one has both conjuncts one. -/
theorem andi_eq_one {a b : BitVec 1} (h : IntOp.andi a b = 1#1) : a = 1#1 ∧ b = 1#1 := by
  rcases BitVec.eq_zero_or_eq_one a with ha | ha <;> rcases BitVec.eq_zero_or_eq_one b with hb | hb <;>
    subst ha <;> subst hb <;> first | exact ⟨rfl, rfl⟩ | exact absurd h (by decide)

/-- A signed "at least zero" and a signed "below 56" confine a word's natural value below 56. -/
theorem toNat_lt_56 {x : BitVec 32} (h0 : IntOp.cmpi .sge x 0#32 = 1#1) (h1 : IntOp.cmpi .slt x 56#32 = 1#1) :
    x.toNat < 56 := by
  have h0' : (0#32).sle x = true := by
    cases h : (0#32).sle x
    · exfalso; revert h0; simp only [IntOp.cmpi, h]; decide
    · rfl
  have h1' : x.slt 56#32 = true := by
    cases h : x.slt 56#32
    · exfalso; revert h1; simp only [IntOp.cmpi, h]; decide
    · rfl
  rw [BitVec.sle, decide_eq_true_eq] at h0'
  rw [BitVec.slt, decide_eq_true_eq] at h1'
  have hx := x.isLt
  have e0 : (0#32 : BitVec 32).toInt = 0 := by decide
  have e56 : (56#32 : BitVec 32).toInt = 56 := by decide
  rw [e0] at h0'; rw [e56] at h1'
  have hc := BitVec.toInt_eq_toNat_cond x
  split at hc <;> omega

/-- The flattened bin word (y·56 + x) · zext(valid), where valid is the conjunction of 0 ≤ x, 0 ≤ y, x < 56, y < 56
    (signed) and one more bit, is below 3136 = 56² as a natural number: if valid is 0 the word is 0, and if it is 1
    then x and y are below 56, so y·56 + x ≤ 55·56 + 55 without wrapping. -/
theorem lin_word_lt (x y : BitVec 32) (p : BitVec 1) :
    (IntOp.muli (IntOp.addi (IntOp.muli y 56#32) x)
      ((IntOp.andi (IntOp.andi (IntOp.andi (IntOp.andi (IntOp.cmpi .sge x 0#32) (IntOp.cmpi .sge y 0#32))
        (IntOp.cmpi .slt x 56#32)) (IntOp.cmpi .slt y 56#32)) p).setWidth 32)).toNat < 3136 := by
  generalize hv : IntOp.andi (IntOp.andi (IntOp.andi (IntOp.andi (IntOp.cmpi .sge x 0#32) (IntOp.cmpi .sge y 0#32))
        (IntOp.cmpi .slt x 56#32)) (IntOp.cmpi .slt y 56#32)) p = v
  rcases BitVec.eq_zero_or_eq_one v with h | h
  · subst h
    have : (IntOp.muli (IntOp.addi (IntOp.muli y 56#32) x) ((0#1 : BitVec 1).setWidth 32)) = 0#32 := by
      show (y * 56#32 + x) * ((0#1 : BitVec 1).setWidth 32) = 0#32
      have : ((0#1 : BitVec 1).setWidth 32) = 0#32 := by decide
      rw [this, BitVec.mul_zero]
    rw [this]; decide
  · subst h
    obtain ⟨h4, _⟩ := andi_eq_one hv
    obtain ⟨h3, hy1⟩ := andi_eq_one h4
    obtain ⟨h2, hx1⟩ := andi_eq_one h3
    obtain ⟨hx0, hy0⟩ := andi_eq_one h2
    have hx := toNat_lt_56 hx0 hx1
    have hy := toNat_lt_56 hy0 hy1
    have e : (IntOp.muli (IntOp.addi (IntOp.muli y 56#32) x) ((1#1 : BitVec 1).setWidth 32)) = y * 56#32 + x := by
      show (y * 56#32 + x) * ((1#1 : BitVec 1).setWidth 32) = _
      have : ((1#1 : BitVec 1).setWidth 32) = 1#32 := by decide
      rw [this, BitVec.mul_one]
    rw [e, BitVec.toNat_add, BitVec.toNat_mul]
    have : (56#32 : BitVec 32).toNat = 56 := by decide
    rw [this, Nat.mod_eq_of_lt (show y.toNat * 56 < 2 ^ 32 by omega),
      Nat.mod_eq_of_lt (show y.toNat * 56 + x.toNat < 2 ^ 32 by omega)]
    omega

/-- A word below 3136 is not negative as a signed integer … -/
theorem toInt_of_lt {w : BitVec 32} (h : w.toNat < 3136) : w.toInt = (w.toNat : Int) := by
  have hc := BitVec.toInt_eq_toNat_cond w
  split at hc <;> omega

/-- … so the signed "below zero" test fails on it, … -/
theorem slt_zero_of_lt {w : BitVec 32} (h : w.toNat < 3136) : IntOp.cmpi .slt w 0#32 = 0#1 := by
  have e0 : (0#32 : BitVec 32).toInt = 0 := by decide
  have : w.slt 0#32 = false := by
    rw [BitVec.slt, decide_eq_false_iff_not, toInt_of_lt h, e0]; omega
  simp only [IntOp.cmpi, this]; decide

/-- … the signed "at least zero" test holds, … -/
theorem sge_zero_of_lt {w : BitVec 32} (h : w.toNat < 3136) : IntOp.cmpi .sge w 0#32 = 1#1 := by
  have e0 : (0#32 : BitVec 32).toInt = 0 := by decide
  have : (0#32).sle w = true := by
    rw [BitVec.sle, decide_eq_true_eq, toInt_of_lt h, e0]; omega
  simp only [IntOp.cmpi, this]; decide

/-- … and so does the signed "at most 3135" test. -/
theorem sle_3135_of_lt {w : BitVec 32} (h : w.toNat < 3136) : IntOp.cmpi .sle w 3135#32 = 1#1 := by
  have e : (3135#32 : BitVec 32).toInt = 3135 := by decide
  have : w.sle 3135#32 = true := by
    rw [BitVec.sle, decide_eq_true_eq, toInt_of_lt h, e]; omega
  simp only [IntOp.cmpi, this]; decide

/-- The start index a gather clamps into [0, 3135] is, for a word below 3136, the word's bin. -/
theorem clamp_eq_binOf {w : BitVec 32} (h : w.toNat < 3136) :
    min w.toInt.toNat 3135 = (Cert.KpLoss.binOf w).val := by
  show min w.toInt.toNat 3135 = w.toNat % 3136
  rw [toInt_of_lt h, Int.toNat_natCast, Nat.mod_eq_of_lt h]; omega

/-! ## Extended reals -/

/-- The pattern of minus infinity is the bottom element. -/
theorem ofBits_neg_inf : Ideal.ofBits .f32 0xFF800000#32 = (⊥ : EReal) := by simp [Ideal.ofBits, Ideal.ieee]

/-- A select on a validity bit between a value and zero is the value times the bit read as a number. -/
theorem select_valid (v : BitVec 1) (a : EReal) : Scalar.select v a 0 = a * Cert.KpLoss.validf v := by
  rcases BitVec.eq_zero_or_eq_one v with h | h
  · subst h
    rw [select_zero]
    show (0 : EReal) = a * (((0 : ℕ) : ℝ) : EReal)
    rw [Nat.cast_zero, EReal.coe_zero, mul_zero]
  · subst h
    rw [select_one]
    show a = a * (((1 : ℕ) : ℝ) : EReal)
    rw [Nat.cast_one, EReal.coe_one, mul_one]

/-! ## Index sets -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- A row index with column `k` put back is (r, k). -/
theorem lift_row (h : (⟨2, ![17408, 3136]⟩ : Shape).Reduces [1] (⟨1, ![17408]⟩ : Shape)) (r : Fin 17408)
    (k : Fin ((⟨2, ![17408, 3136]⟩ : Shape).size 1)) : h.lift (ix1 r) k = ix2 r (⟨k.val, k.isLt⟩ : Fin 3136) := by
  funext c; apply Fin.ext
  fin_cases c <;> rfl

/-- From minus infinity, a reduce with a maximum body along the columns is, at row `r`, the supremum of the row. -/
theorem reduce_max_row (x : FVec Ideal ⟨2, ![17408, 3136]⟩ .f32) (init : FVec Ideal ⟨0, ![]⟩ .f32)
    (h' : (⟨2, ![17408, 3136]⟩ : Shape).ReducesTo [1] (⟨1, ![17408]⟩ : Shape)) (hu : 0 < (⟨0, ![]⟩ : Shape).numel)
    (hinit : init (Shape.Idx.first hu) = (⊥ : EReal)) (r : Fin 17408) :
    Host.reduce FloatOps.maximumf x init h' hu (ix1 r) = Finset.univ.sup fun k : Fin 3136 => x (ix2 r k) := by
  have h : (⟨2, ![17408, 3136]⟩ : Shape).Reduces [1] (⟨1, ![17408]⟩ : Shape) := by decide
  rw [Host.reduce_eq_fold_single FloatOps.maximumf x _ h' h hu, hinit]
  have hf : (x ∘ h.lift (ix1 r)) = fun k : Fin 3136 => x (ix2 r k) := funext fun k => congrArg x (lift_row h r k)
  exact congrArg (fun f => Finset.fold max (⊥ : EReal) f (Finset.univ : Finset (Fin 3136))) hf

end Cert.ReferenceIdeal.RefValue

end
-- ==== Proof.RefLin.lean ====
/-
  The target bin words of the reference: lin = (y·56 + x) · zext(valid) with valid = (0 ≤ x) ∧ (0 ≤ y) ∧ (x < 56) ∧
  (y < 56) ∧ p (signed compares), as the program's operations on arrays x, y : [1024, 17] of words and p of bits.
  Every word of lin reshaped to [17408] is below 3136.
-/
import proofs.«117586_j82575041232910_1_alg».proof.Proof.RefLemmas
import proofs.«117586_j82575041232910_1_alg».proof.Proof.Gen.ReferenceIdeal
import Idealize.ShloMosaic.Lib.Pipeline.Value

noncomputable section

namespace Cert.ReferenceIdeal.RefValue

open Cert.ReferenceIdeal Cert.ReferenceIdeal.Gen Idealize.ShloMosaic Idealize.ShloMosaic.ValueIdx

/-- The validity bits: both coordinates in [0, 56) as signed words, and `p`. -/
def validOf (x y : IVec S1024x17 32) (p : IVec S1024x17 1) :
    IVec S1024x17 1 :=
  andi (andi (andi (andi
      (cmpi .sge x (broadcastInDim S1024x17 ![] bcast_S_S1024x17 (constantI S_ 32 0#32)))
      (cmpi .sge y (broadcastInDim S1024x17 ![] bcast_S_S1024x17 (constantI S_ 32 0#32))))
      (cmpi .slt x (broadcastInDim S1024x17 ![] bcast_S_S1024x17 (constantI S_ 32 56#32))))
      (cmpi .slt y (broadcastInDim S1024x17 ![] bcast_S_S1024x17 (constantI S_ 32 56#32))))
    p

/-- The bin words: (y·56 + x) times the validity bit widened. -/
def linOf (x y : IVec S1024x17 32) (p : IVec S1024x17 1) :
    IVec S1024x17 32 :=
  muli (addi (muli y (broadcastInDim S1024x17 ![] bcast_S_S1024x17 (constantI S_ 32 56#32))) x)
    (extui 32 (validOf x y p) natLt_1_32)

/-- A broadcast scalar word reads its value everywhere. -/
theorem bconst_apply (c : BitVec 32) (i : S1024x17.Idx) :
    broadcastInDim S1024x17 ![] bcast_S_S1024x17 (constantI S_ 32 c) i = c :=
  broadcastInDim_apply _ bcast_S_S1024x17 (constantI S_ 32 c) i ix0 (fun a => a.elim0)

theorem linOf_apply (x y : IVec S1024x17 32) (p : IVec S1024x17 1)
    (i : S1024x17.Idx) :
    linOf x y p i = IntOp.muli (IntOp.addi (IntOp.muli (y i) 56#32) (x i))
      ((IntOp.andi (IntOp.andi (IntOp.andi (IntOp.andi (IntOp.cmpi .sge (x i) 0#32) (IntOp.cmpi .sge (y i) 0#32))
        (IntOp.cmpi .slt (x i) 56#32)) (IntOp.cmpi .slt (y i) 56#32)) (p i)).setWidth 32) := by
  show IntOp.muli (IntOp.addi (IntOp.muli (y i) (broadcastInDim S1024x17 ![] bcast_S_S1024x17 (constantI S_ 32 56#32) i)) (x i))
      ((IntOp.andi (IntOp.andi (IntOp.andi (IntOp.andi
        (IntOp.cmpi .sge (x i) (broadcastInDim S1024x17 ![] bcast_S_S1024x17 (constantI S_ 32 0#32) i))
        (IntOp.cmpi .sge (y i) (broadcastInDim S1024x17 ![] bcast_S_S1024x17 (constantI S_ 32 0#32) i)))
        (IntOp.cmpi .slt (x i) (broadcastInDim S1024x17 ![] bcast_S_S1024x17 (constantI S_ 32 56#32) i)))
        (IntOp.cmpi .slt (y i) (broadcastInDim S1024x17 ![] bcast_S_S1024x17 (constantI S_ 32 56#32) i))) (p i)).setWidth 32) = _
  rw [bconst_apply, bconst_apply]

/-- Every bin word, in the order of the reshape to [17408], is below 3136. -/
theorem linOf_range (x y : IVec S1024x17 32) (p : IVec S1024x17 1)
    (r : Fin 17408) : (shapeCast S17408 (linOf x y p) shapeCasts_S1024x17_S17408 (ix1 r)).toNat < 3136 := by
  have hr := r.isLt
  rw [shapeCast_apply (linOf x y p) shapeCasts_S1024x17_S17408 (ix1 r)
    (ix2 (⟨r.val / 17, by omega⟩ : Fin 1024) (⟨r.val % 17, by omega⟩ : Fin 17))
    (by rewrite [Shape.rowMajor_val_two, Shape.rowMajor_val_one]; show r.val / 17 * 17 + r.val % 17 = r.val; omega),
    linOf_apply]
  exact lin_word_lt _ _ _

end Cert.ReferenceIdeal.RefValue

end
-- ==== Proof.PrefixSame.lean ====
/-
  The two programs compute the same values before they part ways.
  Up to the bin words and the validity bits of the key points, the kernel program's host lines and the reference's are the
  same operations on the same argument arrays. So what the kernel's region finds in the buffers of the classification loss,
  the box loss, the reshaped heat maps, the bin words and the validity bits is what the reference's first 164 operations
  leave in the corresponding buffers, from memories that agree on the arguments: each side's buffer is its operations'
  composed term of the arguments, and the two terms are one.
-/
import proofs.«117586_j82575041232910_1_alg».proof.Proof.KernelIdealFrameKit
import proofs.«117586_j82575041232910_1_alg».proof.Proof.RefRunHand
import proofs.«117586_j82575041232910_1_alg».proof.Proof.RefLin
import Idealize.ShloMosaic.PureOps.Ideal

set_option maxRecDepth 65536
set_option maxHeartbeats 8000000

noncomputable section

open Idealize.ShloMosaic Idealize.ShloMosaic.TcCoe Idealize.SL.Sem

namespace Cert.Bridge

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The classification loss: one term of the class logits and the labels. -/
theorem same_v12 (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.KernelIdeal.Frame.V m c Cert.KernelIdeal.main_v12 = (StableHlo.after ((Cert.ReferenceIdeal.RunHand.ops (F := Ideal)).take 164) (StableHlo.launchContents m' c) (Proc.devRef .tc Cert.ReferenceIdeal.main_v12)) := by
  dsimp only [Cert.KernelIdeal.Frame.V, Cert.KernelIdeal.Frame.V0, Cert.KernelIdeal.Frame.pfx, StableHlo.launchContents]
  simp only [Cert.KernelIdeal.GenP.hostOps0, Cert.KernelIdeal.GenP.hostOps0_1, Cert.KernelIdeal.GenP.hostOps0_2, Cert.KernelIdeal.GenP.hostOps0_3, Cert.KernelIdeal.GenP.hostOps0_4, Cert.KernelIdeal.GenP.hostOps0_5, Cert.KernelIdeal.GenP.hostOps0_6, Cert.KernelIdeal.GenP.hostOps0_7, Cert.KernelIdeal.GenP.hostOps0_8, Cert.KernelIdeal.GenP.hostOps0_9, Cert.KernelIdeal.GenP.hostOps0_10, Cert.KernelIdeal.GenP.hostOps0_11, Cert.KernelIdeal.GenP.hostOps0_12, Cert.KernelIdeal.GenP.hostOps0_13, Cert.KernelIdeal.GenP.hostOps0_14, Cert.KernelIdeal.GenP.hostOps0_15, Cert.KernelIdeal.GenP.hostOps0_16, List.flatten_cons, List.flatten_nil, List.append_nil, List.cons_append, List.nil_append,
    Cert.ReferenceIdeal.RunHand.ops, List.take_succ_cons, List.take_zero]
  after_results_simp
  simp only [show m' (c, Proc.devRef .tc Cert.ReferenceIdeal.main_arg0) = m (c, Proc.devRef .tc Cert.KernelIdeal.main_arg0) from h0, show m' (c, Proc.devRef .tc Cert.ReferenceIdeal.main_arg6) = m (c, Proc.devRef .tc Cert.KernelIdeal.main_arg6) from h6]
  rfl

/-- The box loss: one term of the box regression, its targets and the labels. -/
theorem same_v34 (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.KernelIdeal.Frame.V m c Cert.KernelIdeal.main_v34 = (StableHlo.after ((Cert.ReferenceIdeal.RunHand.ops (F := Ideal)).take 164) (StableHlo.launchContents m' c) (Proc.devRef .tc Cert.ReferenceIdeal.main_v34)) := by
  dsimp only [Cert.KernelIdeal.Frame.V, Cert.KernelIdeal.Frame.V0, Cert.KernelIdeal.Frame.pfx, StableHlo.launchContents]
  simp only [Cert.KernelIdeal.GenP.hostOps0, Cert.KernelIdeal.GenP.hostOps0_1, Cert.KernelIdeal.GenP.hostOps0_2, Cert.KernelIdeal.GenP.hostOps0_3, Cert.KernelIdeal.GenP.hostOps0_4, Cert.KernelIdeal.GenP.hostOps0_5, Cert.KernelIdeal.GenP.hostOps0_6, Cert.KernelIdeal.GenP.hostOps0_7, Cert.KernelIdeal.GenP.hostOps0_8, Cert.KernelIdeal.GenP.hostOps0_9, Cert.KernelIdeal.GenP.hostOps0_10, Cert.KernelIdeal.GenP.hostOps0_11, Cert.KernelIdeal.GenP.hostOps0_12, Cert.KernelIdeal.GenP.hostOps0_13, Cert.KernelIdeal.GenP.hostOps0_14, Cert.KernelIdeal.GenP.hostOps0_15, Cert.KernelIdeal.GenP.hostOps0_16, List.flatten_cons, List.flatten_nil, List.append_nil, List.cons_append, List.nil_append,
    Cert.ReferenceIdeal.RunHand.ops, List.take_succ_cons, List.take_zero]
  after_results_simp
  simp only [show m' (c, Proc.devRef .tc Cert.ReferenceIdeal.main_arg1) = m (c, Proc.devRef .tc Cert.KernelIdeal.main_arg1) from h1, show m' (c, Proc.devRef .tc Cert.ReferenceIdeal.main_arg2) = m (c, Proc.devRef .tc Cert.KernelIdeal.main_arg2) from h2, show m' (c, Proc.devRef .tc Cert.ReferenceIdeal.main_arg6) = m (c, Proc.devRef .tc Cert.KernelIdeal.main_arg6) from h6]
  rfl

/-- The heat maps, one row per key point: the same reshape of the same argument. -/
theorem same_v99 (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.KernelIdeal.Frame.V m c Cert.KernelIdeal.main_v99
      = shapeCast Cert.KernelIdeal.S17408x3136 (StableHlo.after ((Cert.ReferenceIdeal.RunHand.ops (F := Ideal)).take 164) (StableHlo.launchContents m' c) (Proc.devRef .tc Cert.ReferenceIdeal.main_arg5)) Cert.KernelIdeal.Facts₀.shapeCasts_S1024x17x56x56_S17408x3136 := by
  dsimp only [Cert.KernelIdeal.Frame.V, Cert.KernelIdeal.Frame.V0, Cert.KernelIdeal.Frame.pfx, StableHlo.launchContents]
  simp only [Cert.KernelIdeal.GenP.hostOps0, Cert.KernelIdeal.GenP.hostOps0_1, Cert.KernelIdeal.GenP.hostOps0_2, Cert.KernelIdeal.GenP.hostOps0_3, Cert.KernelIdeal.GenP.hostOps0_4, Cert.KernelIdeal.GenP.hostOps0_5, Cert.KernelIdeal.GenP.hostOps0_6, Cert.KernelIdeal.GenP.hostOps0_7, Cert.KernelIdeal.GenP.hostOps0_8, Cert.KernelIdeal.GenP.hostOps0_9, Cert.KernelIdeal.GenP.hostOps0_10, Cert.KernelIdeal.GenP.hostOps0_11, Cert.KernelIdeal.GenP.hostOps0_12, Cert.KernelIdeal.GenP.hostOps0_13, Cert.KernelIdeal.GenP.hostOps0_14, Cert.KernelIdeal.GenP.hostOps0_15, Cert.KernelIdeal.GenP.hostOps0_16, List.flatten_cons, List.flatten_nil, List.append_nil, List.cons_append, List.nil_append,
    Cert.ReferenceIdeal.RunHand.ops, List.take_succ_cons, List.take_zero]
  after_results_simp
  simp only [show m' (c, Proc.devRef .tc Cert.ReferenceIdeal.main_arg5) = m (c, Proc.devRef .tc Cert.KernelIdeal.main_arg5) from h5]
  rfl

/-- The bin words, one per key point: the same words, laid out as a column. -/
theorem same_v100 (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.KernelIdeal.Frame.V m c Cert.KernelIdeal.main_v100
      = shapeCast Cert.KernelIdeal.S17408x1 (Cert.ReferenceIdeal.RefValue.linOf (StableHlo.after ((Cert.ReferenceIdeal.RunHand.ops (F := Ideal)).take 164) (StableHlo.launchContents m' c) (Proc.devRef .tc Cert.ReferenceIdeal.main_v75)) (StableHlo.after ((Cert.ReferenceIdeal.RunHand.ops (F := Ideal)).take 164) (StableHlo.launchContents m' c) (Proc.devRef .tc Cert.ReferenceIdeal.main_v79)) (cmpf .ogt (StableHlo.after ((Cert.ReferenceIdeal.RunHand.ops (F := Ideal)).take 164) (StableHlo.launchContents m' c) (Proc.devRef .tc Cert.ReferenceIdeal.main_v59)) (broadcastInDim Cert.ReferenceIdeal.S1024x17 ![] Cert.ReferenceIdeal.Facts₀.bcast_S_S1024x17 (constant (F := Ideal) Cert.ReferenceIdeal.S_ .f32 0x00000000#32))))
          Cert.KernelIdeal.Facts₀.shapeCasts_S1024x17_S17408x1 := by
  unfold Cert.ReferenceIdeal.RefValue.linOf Cert.ReferenceIdeal.RefValue.validOf
  dsimp only [Cert.KernelIdeal.Frame.V, Cert.KernelIdeal.Frame.V0, Cert.KernelIdeal.Frame.pfx, StableHlo.launchContents]
  simp only [Cert.KernelIdeal.GenP.hostOps0, Cert.KernelIdeal.GenP.hostOps0_1, Cert.KernelIdeal.GenP.hostOps0_2, Cert.KernelIdeal.GenP.hostOps0_3, Cert.KernelIdeal.GenP.hostOps0_4, Cert.KernelIdeal.GenP.hostOps0_5, Cert.KernelIdeal.GenP.hostOps0_6, Cert.KernelIdeal.GenP.hostOps0_7, Cert.KernelIdeal.GenP.hostOps0_8, Cert.KernelIdeal.GenP.hostOps0_9, Cert.KernelIdeal.GenP.hostOps0_10, Cert.KernelIdeal.GenP.hostOps0_11, Cert.KernelIdeal.GenP.hostOps0_12, Cert.KernelIdeal.GenP.hostOps0_13, Cert.KernelIdeal.GenP.hostOps0_14, Cert.KernelIdeal.GenP.hostOps0_15, Cert.KernelIdeal.GenP.hostOps0_16, List.flatten_cons, List.flatten_nil, List.append_nil, List.cons_append, List.nil_append,
    Cert.ReferenceIdeal.RunHand.ops, List.take_succ_cons, List.take_zero]
  after_results_simp
  simp only [show m' (c, Proc.devRef .tc Cert.ReferenceIdeal.main_arg3) = m (c, Proc.devRef .tc Cert.KernelIdeal.main_arg3) from h3, show m' (c, Proc.devRef .tc Cert.ReferenceIdeal.main_arg4) = m (c, Proc.devRef .tc Cert.KernelIdeal.main_arg4) from h4, show m' (c, Proc.devRef .tc Cert.ReferenceIdeal.main_arg7) = m (c, Proc.devRef .tc Cert.KernelIdeal.main_arg7) from h7]
  rfl

/-- The validity bits, one per key point, as numbers: the same bits, laid out as a column and read unsigned. -/
theorem same_v102 (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.KernelIdeal.Frame.V m c Cert.KernelIdeal.main_v102
      = uitofp (F := Ideal) .f32 (shapeCast Cert.KernelIdeal.S17408x1 (Cert.ReferenceIdeal.RefValue.validOf (StableHlo.after ((Cert.ReferenceIdeal.RunHand.ops (F := Ideal)).take 164) (StableHlo.launchContents m' c) (Proc.devRef .tc Cert.ReferenceIdeal.main_v75)) (StableHlo.after ((Cert.ReferenceIdeal.RunHand.ops (F := Ideal)).take 164) (StableHlo.launchContents m' c) (Proc.devRef .tc Cert.ReferenceIdeal.main_v79)) (cmpf .ogt (StableHlo.after ((Cert.ReferenceIdeal.RunHand.ops (F := Ideal)).take 164) (StableHlo.launchContents m' c) (Proc.devRef .tc Cert.ReferenceIdeal.main_v59)) (broadcastInDim Cert.ReferenceIdeal.S1024x17 ![] Cert.ReferenceIdeal.Facts₀.bcast_S_S1024x17 (constant (F := Ideal) Cert.ReferenceIdeal.S_ .f32 0x00000000#32))))
          Cert.KernelIdeal.Facts₀.shapeCasts_S1024x17_S17408x1) := by
  unfold Cert.ReferenceIdeal.RefValue.validOf
  dsimp only [Cert.KernelIdeal.Frame.V, Cert.KernelIdeal.Frame.V0, Cert.KernelIdeal.Frame.pfx, StableHlo.launchContents]
  simp only [Cert.KernelIdeal.GenP.hostOps0, Cert.KernelIdeal.GenP.hostOps0_1, Cert.KernelIdeal.GenP.hostOps0_2, Cert.KernelIdeal.GenP.hostOps0_3, Cert.KernelIdeal.GenP.hostOps0_4, Cert.KernelIdeal.GenP.hostOps0_5, Cert.KernelIdeal.GenP.hostOps0_6, Cert.KernelIdeal.GenP.hostOps0_7, Cert.KernelIdeal.GenP.hostOps0_8, Cert.KernelIdeal.GenP.hostOps0_9, Cert.KernelIdeal.GenP.hostOps0_10, Cert.KernelIdeal.GenP.hostOps0_11, Cert.KernelIdeal.GenP.hostOps0_12, Cert.KernelIdeal.GenP.hostOps0_13, Cert.KernelIdeal.GenP.hostOps0_14, Cert.KernelIdeal.GenP.hostOps0_15, Cert.KernelIdeal.GenP.hostOps0_16, List.flatten_cons, List.flatten_nil, List.append_nil, List.cons_append, List.nil_append,
    Cert.ReferenceIdeal.RunHand.ops, List.take_succ_cons, List.take_zero]
  after_results_simp
  simp only [show m' (c, Proc.devRef .tc Cert.ReferenceIdeal.main_arg3) = m (c, Proc.devRef .tc Cert.KernelIdeal.main_arg3) from h3, show m' (c, Proc.devRef .tc Cert.ReferenceIdeal.main_arg4) = m (c, Proc.devRef .tc Cert.KernelIdeal.main_arg4) from h4, show m' (c, Proc.devRef .tc Cert.ReferenceIdeal.main_arg7) = m (c, Proc.devRef .tc Cert.KernelIdeal.main_arg7) from h7]
  rfl

end Cert.Bridge

end
-- ==== Proof.RefLogp.lean ====
/-
  The reference's log-softmax of the rows of X : [17408, 3136], built from the program's own operations in named
  stages, each read at an index: the row maximum is the row's supremum, and the log-softmax at (r, k) is the
  specification's.
-/
import proofs.«117586_j82575041232910_1_alg».proof.Proof.RefLemmas
import proofs.«117586_j82575041232910_1_alg».proof.Proof.Gen.ReferenceIdeal
import Idealize.ShloMosaic.Lib.Pipeline.Value

noncomputable section

namespace Cert.ReferenceIdeal.RefValue

open Cert.ReferenceIdeal Cert.ReferenceIdeal.Gen Idealize.ShloMosaic Idealize.ShloMosaic.ValueIdx Cert.KpLoss

/-! ## Host operations read at an index -/

theorem hostLog_apply {s : Shape} (a : FVec Ideal s .f32) (i : s.Idx) : Host.log a i = Ideal.log (a i) := rfl
theorem hostExp_apply {s : Shape} (a : FVec Ideal s .f32) (i : s.Idx) : Host.exp a i = Ideal.exp (a i) := rfl
theorem hostNegf_apply {s : Shape} (a : FVec Ideal s .f32) (i : s.Idx) : Host.negf a i = -(a i) := rfl
theorem hostDivf_apply {s : Shape} (a b : FVec Ideal s .f32) (i : s.Idx) : Host.divf a b i = Ideal.div (a i) (b i) := rfl
theorem cmpi_apply {s : Shape} {w : Nat} (p : CmpIPredicate) (a b : IVec s w) (i : s.Idx) :
    cmpi p a b i = IntOp.cmpi p (a i) (b i) := rfl
theorem andi_apply {s : Shape} {w : Nat} (a b : IVec s w) (i : s.Idx) : andi a b i = IntOp.andi (a i) (b i) := rfl
theorem constantI_apply {s : Shape} {w : Nat} (c : BitVec w) (i : s.Idx) : constantI s w c i = c := rfl

/-! ## The log-softmax of the rows -/

/-- The row maxima: the maximum of minus infinity and the maximum-reduce along the columns. -/
def rowMaxV (X : FVec Ideal S17408x3136 .f32) : FVec Ideal S17408 .f32 :=
  maximumf (broadcastInDim S17408 ![] bcast_S_S17408 (constant (F := Ideal) S_ .f32 0xFF800000#32))
    (Host.reduce (FloatOps.maximumf (F := Ideal) (φ := .f32)) X (constant (F := Ideal) S_ .f32 0xFF800000#32)
      reducesTo_S17408x3136_S17408_d1 h_S_)

theorem rowMaxV_at (X : FVec Ideal S17408x3136 .f32) (r : Fin 17408) :
    rowMaxV X (ix1 r) = rowMax fun k => X (ix2 r k) := by
  unfold rowMaxV
  rw [maximumf_apply,
    reduce_max_row X (constant (F := Ideal) S_ .f32 0xFF800000#32) reducesTo_S17408x3136_S17408_d1 h_S_ ofBits_neg_inf r,
    broadcastInDim_apply _ bcast_S_S17408 _ (ix1 r) ix0 (fun a => a.elim0), constant_apply, ofBits_neg_inf]
  unfold rowMax
  exact max_bot_left _

/-- The rows shifted by their maxima. -/
def shiftV (X : FVec Ideal S17408x3136 .f32) : FVec Ideal S17408x3136 .f32 :=
  subf X (broadcastInDim S17408x3136 ![0, 1] bcast_S17408x1_S17408x3136_0_1
    (broadcastInDim S17408x1 ![0] bcast_S17408_S17408x1_0 (rowMaxV X)))

/-- A column vector [17408, 1] broadcast along the columns, read at (r, k), is its element (r, 0). -/
theorem bcast_col_apply {α : Type} (y : S17408x1.Idx → α) (r : Fin 17408) (k : Fin 3136) :
    broadcastInDim S17408x3136 ![0, 1] bcast_S17408x1_S17408x3136_0_1 y (ix2 r k) = y (ix2 r (0 : Fin 1)) :=
  broadcastInDim_apply _ bcast_S17408x1_S17408x3136_0_1 y (ix2 r k) (ix2 r (0 : Fin 1)) (fun a => match a with
    | ⟨0, _⟩ => by show r.val = if (17408 : Nat) = 1 then 0 else r.val; rw [if_neg (by decide)]
    | ⟨1, _⟩ => by show 0 = if (1 : Nat) = 1 then 0 else k.val; rw [if_pos rfl])

/-- A vector [17408] as a column [17408, 1], read at (r, 0), is its element r. -/
theorem bcast_row_apply {α : Type} (y : S17408.Idx → α) (r : Fin 17408) :
    broadcastInDim S17408x1 ![0] bcast_S17408_S17408x1_0 y (ix2 r (0 : Fin 1)) = y (ix1 r) :=
  broadcastInDim_apply _ bcast_S17408_S17408x1_0 y (ix2 r (0 : Fin 1)) (ix1 r) (fun a => match a with
    | ⟨0, _⟩ => by show r.val = if (17408 : Nat) = 1 then 0 else r.val; rw [if_neg (by decide)])

theorem shiftV_at (X : FVec Ideal S17408x3136 .f32) (r : Fin 17408) (k : Fin 3136) :
    shiftV X (ix2 r k) = X (ix2 r k) - rowMax fun k => X (ix2 r k) := by
  unfold shiftV
  rw [subf_apply, bcast_col_apply, bcast_row_apply, rowMaxV_at]

/-- A float sum along the columns from zero is, at row `r`, the sum of the row. -/
theorem reduceAdd_row (y : FVec Ideal S17408x3136 .f32) (r : Fin 17408) :
    Host.reduceAdd y (constant (F := Ideal) S_ .f32 0x00000000#32) reducesTo_S17408x3136_S17408_d1 h_S_ (ix1 r)
      = ∑ k : Fin 3136, y (ix2 r k) := by
  simp only [Host.reduceAdd, Ideal.hostReduceAdd_def]
  rw [Ideal.hostReduceAdd_single reducesTo_S17408x3136_S17408_d1 (by decide), constant_apply, Ideal.ofBits_zero_f32, zero_add]
  exact Finset.sum_congr rfl fun k _ => congrArg y (lift_row _ r k)

/-- The log-softmax of the rows. -/
def logpV (X : FVec Ideal S17408x3136 .f32) : FVec Ideal S17408x3136 .f32 :=
  subf (shiftV X) (broadcastInDim S17408x3136 ![0, 1] bcast_S17408x1_S17408x3136_0_1
    (Host.log (broadcastInDim S17408x1 ![0] bcast_S17408_S17408x1_0
      (Host.reduceAdd (Host.exp (shiftV X)) (constant (F := Ideal) S_ .f32 0x00000000#32) reducesTo_S17408x3136_S17408_d1 h_S_))))

theorem logpV_at (X : FVec Ideal S17408x3136 .f32) (r : Fin 17408) (k : Fin 3136) :
    logpV X (ix2 r k) = rowLogp (fun k => X (ix2 r k)) k := by
  unfold logpV
  rw [subf_apply, bcast_col_apply, hostLog_apply, bcast_row_apply, reduceAdd_row, shiftV_at]
  unfold rowLogp
  refine congrArg (fun s => (X (ix2 r k) - rowMax fun k => X (ix2 r k)) - Ideal.log s) (Finset.sum_congr rfl fun j _ => ?_)
  rw [hostExp_apply, shiftV_at]

end Cert.ReferenceIdeal.RefValue

end
-- ==== Proof.RefGatherAt.lean ====
/-
  The reference's row-wise gather (one start index per row, the row axis a batching axis, the column axis collapsed)
  read at a result index, and its range test's reduce with an `and` body along a unit axis; both over variables.
-/
import proofs.«117586_j82575041232910_1_alg».proof.Proof.Gen.ReferenceIdeal
import Idealize.ShloMosaic.PureOps.Reduce
import Idealize.ShloMosaic.Lib.ValueIdx

noncomputable section

namespace Cert.ReferenceIdeal.RefValue

open Cert.ReferenceIdeal Cert.ReferenceIdeal.Gen Idealize.ShloMosaic Idealize.ShloMosaic.ValueIdx

/-- The gather read at (r, 0): the operand's row `r` at the start index of row `r`, read signed and clamped into
    [0, 3135]. On the row axis (batching) the operand coordinate is the result's row; on the column axis (collapsed, the
    one the start index addresses) it is the clamped start index. -/
theorem gather_row_apply {α : Type} (x : S17408x3136.Idx → α) (idx : IVec S17408x1x1 32) (r : Fin 17408) :
    Host.gather gather_S17408x3136_S17408x1x1_S17408x1_n_1_0_0_1_2_11 x idx (ix2 r (0 : Fin 1))
      = x (ix2 r ⟨min (idx (ix3 r (0 : Fin 1) (0 : Fin 1))).toInt.toNat 3135, by omega⟩) := by
  unfold Host.gather
  congr 1
  funext a
  refine Fin.ext ?_
  show gather_S17408x3136_S17408x1x1_S17408x1_n_1_0_0_1_2_11.start (ix2 r (0 : Fin 1)) idx a
    + gather_S17408x3136_S17408x1x1_S17408x1_n_1_0_0_1_2_11.batchCoord (ix2 r (0 : Fin 1)) a
    + gather_S17408x3136_S17408x1x1_S17408x1_n_1_0_0_1_2_11.offCoord (ix2 r (0 : Fin 1)) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    rw [GatherDims.batchCoord_eq_zero _ _ _
        (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin S17408x3136.rank)
      ∈ gather_S17408x3136_S17408x1x1_S17408x1_n_1_0_0_1_2_11.startIndexMap from List.mem_singleton.mpr rfl)]
    have hsi : gather_S17408x3136_S17408x1x1_S17408x1_n_1_0_0_1_2_11.siIdx (ix2 r (0 : Fin 1))
        ⟨List.idxOf (⟨1, by decide⟩ : Fin S17408x3136.rank) gather_S17408x3136_S17408x1x1_S17408x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-- A reduce with an `and` body along a unit axis, from 1, is the operand's element. -/
theorem reduce_and_unit (x : IVec S17408x1x1 1) (init : IVec S_ 1)
    (h' : S17408x1x1.ReducesTo [2] S17408x1) (hu : 0 < S_.numel)
    (hinit : init (Shape.Idx.first hu) = 1#1) (r : Fin 17408) :
    Host.reduce IntOp.andi x init h' hu (ix2 r (0 : Fin 1)) = x (ix3 r (0 : Fin 1) (0 : Fin 1)) := by
  have h : S17408x1x1.Reduces [2] S17408x1 := by decide
  rw [Host.reduce_eq_fold_single IntOp.andi x _ h' h hu, hinit]
  show Finset.fold IntOp.andi 1#1 (fun k : Fin 1 => x (h.lift (ix2 r (0 : Fin 1)) k)) (Finset.univ : Finset (Fin 1)) = _
  rw [Finset.univ_unique, Finset.fold_singleton]
  have : h.lift (ix2 r (0 : Fin 1)) (default : Fin 1) = ix3 r (0 : Fin 1) (0 : Fin 1) := by
    funext c; apply Fin.ext
    fin_cases c <;> rfl
  show IntOp.andi (x (h.lift (ix2 r (0 : Fin 1)) (default : Fin 1))) 1#1 = _
  rw [this]
  show x _ &&& 1#1 = _
  rcases BitVec.eq_zero_or_eq_one (x (ix3 r (0 : Fin 1) (0 : Fin 1))) with e | e <;> rw [e] <;> decide

end Cert.ReferenceIdeal.RefValue

end
-- ==== Proof.RefTake.lean ====
/-
  The reference's take-along-axis over variables: a target word below 3136 passes the index normalisation and the
  range test, and the gather then reads the row's log-softmax at that bin.
-/
import proofs.«117586_j82575041232910_1_alg».proof.Proof.RefLogp
import proofs.«117586_j82575041232910_1_alg».proof.Proof.RefGatherAt

noncomputable section

namespace Cert.ReferenceIdeal.RefValue

open Cert.ReferenceIdeal Cert.ReferenceIdeal.Gen Idealize.ShloMosaic Idealize.ShloMosaic.ValueIdx Cert.KpLoss

/-! ## The entry of each row at its target bin -/

/-- The start indices: the target words with a negative word moved up by 3136, as a [17408, 1, 1] array. -/
def idxV (l : IVec S17408 32) : IVec S17408x1x1 32 :=
  shapeCast _ (select
      (cmpi .slt (broadcastInDim S17408x1 ![0] bcast_S17408_S17408x1_0 l) (broadcastInDim S17408x1 ![] bcast_S_S17408x1 (constantI S_ 32 0#32)))
      (addi (broadcastInDim S17408x1 ![0] bcast_S17408_S17408x1_0 l) (broadcastInDim S17408x1 ![] bcast_S_S17408x1 (constantI S_ 32 3136#32)))
      (broadcastInDim S17408x1 ![0] bcast_S17408_S17408x1_0 l))
    shapeCasts_S17408x1_S17408x1x1

theorem idxV_at (l : IVec S17408 32) (r : Fin 17408) (h : (l (ix1 r)).toNat < 3136) :
    idxV l (ix3 r (0 : Fin 1) (0 : Fin 1)) = l (ix1 r) := by
  unfold idxV
  rw [shapeCast_apply _ shapeCasts_S17408x1_S17408x1x1 (ix3 r (0 : Fin 1) (0 : Fin 1)) (ix2 r (0 : Fin 1))
    (by rewrite [Shape.rowMajor_val_two, Shape.rowMajor_val_three]; show r.val * 1 + 0 = (r.val * 1 + 0) * 1 + 0; omega),
    select_apply, cmpi_apply, bcast_row_apply,
    broadcastInDim_apply _ bcast_S_S17408x1 (constantI S_ 32 0#32) (ix2 r (0 : Fin 1)) ix0 (fun a => a.elim0),
    constantI_apply, slt_zero_of_lt h, select_zero]

/-- The range test of the start indices: 0 ≤ index ≤ 3135, reduced by `and` along the unit axis. -/
def inbV (l : IVec S17408 32) : IVec S17408x1 1 :=
  Host.reduce IntOp.andi
    (andi (cmpi .sge (idxV l) (broadcastInDim S17408x1x1 ![] bcast_S_S17408x1x1 (constantI S_ 32 0#32)))
      (cmpi .sle (idxV l) (broadcastInDim S17408x1x1 ![0, 1, 2] bcast_S1x1x1_S17408x1x1_0_1_2
        (broadcastInDim S1x1x1 ![2] bcast_S1_S1x1x1_2 (constantI S1 32 3135#32)))))
    (constantI S_ 1 1#1) reducesTo_S17408x1x1_S17408x1_d2 h_S_

theorem inbV_at (l : IVec S17408 32) (r : Fin 17408) (h : (l (ix1 r)).toNat < 3136) :
    inbV l (ix2 r (0 : Fin 1)) = 1#1 := by
  unfold inbV
  rw [reduce_and_unit _ (constantI S_ 1 1#1) reducesTo_S17408x1x1_S17408x1_d2 h_S_ rfl r,
    andi_apply, cmpi_apply, cmpi_apply, idxV_at l r h,
    broadcastInDim_apply _ bcast_S_S17408x1x1 (constantI S_ 32 0#32) (ix3 r (0 : Fin 1) (0 : Fin 1)) ix0 (fun a => a.elim0),
    broadcastInDim_apply _ bcast_S1x1x1_S17408x1x1_0_1_2 _ (ix3 r (0 : Fin 1) (0 : Fin 1))
      (ix3 (0 : Fin 1) (0 : Fin 1) (0 : Fin 1)) (fun a => match a with
        | ⟨0, _⟩ => by show 0 = if (1 : Nat) = 1 then 0 else r.val; rw [if_pos rfl]
        | ⟨1, _⟩ => by show 0 = if (1 : Nat) = 1 then 0 else 0; rw [if_pos rfl]
        | ⟨2, _⟩ => by show 0 = if (1 : Nat) = 1 then 0 else 0; rw [if_pos rfl]),
    broadcastInDim_apply _ bcast_S1_S1x1x1_2 (constantI S1 32 3135#32) (ix3 (0 : Fin 1) (0 : Fin 1) (0 : Fin 1))
      (ix1 (0 : Fin 1)) (fun a => match a with
        | ⟨0, _⟩ => by show 0 = if (1 : Nat) = 1 then 0 else 0; rw [if_pos rfl]),
    constantI_apply, constantI_apply, sge_zero_of_lt h, sle_3135_of_lt h]
  decide

/-- Each row of Y at its start index (the not-a-number pattern where the range test fails), as a vector. -/
def takeOf (Y : FVec Ideal S17408x3136 .f32) (l : IVec S17408 32) : FVec Ideal S17408 .f32 :=
  shapeCast _ (select (inbV l)
      (Host.gather gather_S17408x3136_S17408x1x1_S17408x1_n_1_0_0_1_2_11 Y (idxV l))
      (broadcastInDim S17408x1 ![] bcast_S_S17408x1 (constant (F := Ideal) S_ .f32 0x7FC00000#32)))
    shapeCasts_S17408x1_S17408

/-- Each row's log-softmax at its start index. -/
def takeV (X : FVec Ideal S17408x3136 .f32) (l : IVec S17408 32) : FVec Ideal S17408 .f32 := takeOf (logpV X) l

theorem takeV_at (X : FVec Ideal S17408x3136 .f32) (l : IVec S17408 32)
    (r : Fin 17408) (h : (l (ix1 r)).toNat < 3136) :
    takeV X l (ix1 r) = rowLogp (fun k => X (ix2 r k)) (binOf (l (ix1 r))) := by
  unfold takeV takeOf
  rw [shapeCast_apply _ shapeCasts_S17408x1_S17408 (ix1 r) (ix2 r (0 : Fin 1))
    (by rewrite [Shape.rowMajor_val_two, Shape.rowMajor_val_one]; show r.val * 1 + 0 = r.val; omega),
    select_apply, inbV_at l r h, select_one, gather_row_apply]
  have e : ∀ p : min (idxV l (ix3 r (0 : Fin 1) (0 : Fin 1))).toInt.toNat 3135 < 3136,
      (⟨min (idxV l (ix3 r (0 : Fin 1) (0 : Fin 1))).toInt.toNat 3135, p⟩ : Fin 3136) = binOf (l (ix1 r)) := fun p =>
    Fin.ext (by
      show min (idxV l (ix3 r (0 : Fin 1) (0 : Fin 1))).toInt.toNat 3135 = _
      rw [idxV_at l r h]; exact clamp_eq_binOf h)
  rw [e, logpV_at]

end Cert.ReferenceIdeal.RefValue

end
-- ==== Proof.RefStages.lean ====
/-
  The reference's keypoint loss as a function of the reshaped logits X : [17408, 3136], the reshaped target words
  l : [17408] and the reshaped validity bits v : [17408]: the masked sum and the count are the specification's sums,
  so the loss is the specification's when every target word is below 3136.
-/
import proofs.«117586_j82575041232910_1_alg».proof.Proof.RefTake

noncomputable section

namespace Cert.ReferenceIdeal.RefValue

open Cert.ReferenceIdeal Cert.ReferenceIdeal.Gen Idealize.ShloMosaic Idealize.ShloMosaic.ValueIdx Cert.KpLoss

/-! ## The masked sum, the count, the loss -/

/-- The sum over the rows of minus the entry t where the row is valid, zero elsewhere. -/
def sumOf (t : FVec Ideal S17408 .f32) (v : IVec S17408 1) : FVec Ideal S_ .f32 :=
  Host.reduceAdd (select v (Host.negf t)
      (broadcastInDim S17408 ![] bcast_S_S17408 (id (constant (F := Ideal) S_ .f32 0x00000000#32))))
    (constant (F := Ideal) S_ .f32 0x00000000#32) reducesTo_S17408_S_d0 h_S_

/-- The sum over the rows of minus the taken entry where the row is valid, zero elsewhere. -/
def sumV (X : FVec Ideal S17408x3136 .f32) (l : IVec S17408 32) (v : IVec S17408 1) : FVec Ideal S_ .f32 :=
  sumOf (takeV X l) v

/-- The number of valid rows, at least one. -/
def cntV (v : IVec S17408 1) : FVec Ideal S_ .f32 :=
  maximumf (Host.reduceAdd (uitofp (F := Ideal) .f32 v) (constant (F := Ideal) S_ .f32 0x00000000#32) reducesTo_S17408_S_d0 h_S_)
    (constant (F := Ideal) S_ .f32 0x3F800000#32)

/-- The loss from the taken entries and the validity bits. -/
def kpOf (t : FVec Ideal S17408 .f32) (v : IVec S17408 1) : FVec Ideal S_ .f32 :=
  Host.divf (sumOf t v) (cntV v)

/-- The keypoint loss. -/
def kpV (X : FVec Ideal S17408x3136 .f32) (l : IVec S17408 32) (v : IVec S17408 1) : FVec Ideal S_ .f32 :=
  kpOf (takeV X l) v

/-- A float sum of a vector over its one axis, from zero, is the sum of its elements. -/
theorem reduceAdd_all (y : FVec Ideal S17408 .f32) (i : S_.Idx) :
    Host.reduceAdd y (constant (F := Ideal) S_ .f32 0x00000000#32) reducesTo_S17408_S_d0 h_S_ i = ∑ r : Fin 17408, y (ix1 r) := by
  simp only [Host.reduceAdd, Ideal.hostReduceAdd_def]
  rw [Ideal.hostReduceAdd_total reducesTo_S17408_S_d0 (fun b => b.elim0), constant_apply, Ideal.ofBits_zero_f32, zero_add,
    sum_idx1]

theorem sumV_at (X : FVec Ideal S17408x3136 .f32) (l : IVec S17408 32) (v : IVec S17408 1)
    (h : ∀ r : Fin 17408, (l (ix1 r)).toNat < 3136) (i : S_.Idx) :
    sumV X l v i = kpSum (fun r k => X (ix2 r k)) (fun r => l (ix1 r)) (fun r => v (ix1 r)) := by
  unfold sumV sumOf
  rw [reduceAdd_all]
  unfold kpSum
  refine Finset.sum_congr rfl fun r _ => ?_
  rw [select_apply, hostNegf_apply, broadcastInDim_apply _ bcast_S_S17408 _ (ix1 r) ix0 (fun a => a.elim0), id_eq,
    constant_apply, Ideal.ofBits_zero_f32, select_valid, takeV_at X l r (h r)]
  rfl

theorem cntV_at (v : IVec S17408 1) (i : S_.Idx) :
    cntV v i = max (kpCnt fun r => v (ix1 r)) 1 := by
  unfold cntV
  rw [maximumf_apply, reduceAdd_all, constant_apply, Ideal.ofBits_one_f32]
  unfold kpCnt
  exact congrArg (fun s : EReal => max s 1) (Finset.sum_congr rfl fun r _ => rfl)

/-- The reference's keypoint loss is the specification's, when every target word is below 3136. -/
theorem kpV_at (X : FVec Ideal S17408x3136 .f32) (l : IVec S17408 32) (v : IVec S17408 1)
    (h : ∀ r : Fin 17408, (l (ix1 r)).toNat < 3136) (i : S_.Idx) :
    kpV X l v i = kpLoss (fun r k => X (ix2 r k)) (fun r => l (ix1 r)) (fun r => v (ix1 r)) := by
  unfold kpV kpOf
  rw [hostDivf_apply, show sumOf (takeV X l) v = sumV X l v from rfl, sumV_at X l v h, cntV_at]
  rfl

end Cert.ReferenceIdeal.RefValue

end
-- ==== Proof.RefTakeStretch.lean ====
/-
  The reference's take-along-axis, read off its 24 operations in three steps: the start indices (the bin words with a
  negative word moved up by 3136, as a [17408, 1, 1] array), their range test reduced along the unit axis, and the gather
  of the log-softmax rows at the start indices with the not-a-number pattern where the test fails, flattened.
-/
import proofs.«117586_j82575041232910_1_alg».proof.Proof.RefRunHand
import proofs.«117586_j82575041232910_1_alg».proof.Proof.RefTake

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]
/-- The start indices: nine operations. -/
abbrev opsTakeA : List (HloOp τ sig (Elt F)) :=
  [
    unary main_v100 main_v103 (broadcastInDim S17408x1 ![0] bcast_S17408_S17408x1_0 : (⟨S17408, .i32⟩ : BufTy).Contents (Elt F) → (⟨S17408x1, .i32⟩ : BufTy).Contents (Elt F)),
    TRef.nullary (TRef.of (T := ⟨S_, .i32⟩) main_call9_c) (constantI S_ 32 0#32),
    TRef.unary (TRef.of (T := ⟨S_, .i32⟩) main_call9_c) (TRef.of (T := ⟨S17408x1, .i32⟩) main_call9_v0) (broadcastInDim S17408x1 ![] bcast_S_S17408x1),
    TRef.binary (TRef.of (T := ⟨S17408x1, .i32⟩) main_v103) (TRef.of (T := ⟨S17408x1, .i32⟩) main_call9_v0) (TRef.of (T := ⟨S17408x1, .i1⟩) main_call9_v1) (cmpi .slt),
    TRef.nullary (TRef.of (T := ⟨S_, .i32⟩) main_call9_c_0) (constantI S_ 32 3136#32),
    TRef.unary (TRef.of (T := ⟨S_, .i32⟩) main_call9_c_0) (TRef.of (T := ⟨S17408x1, .i32⟩) main_call9_v2) (broadcastInDim S17408x1 ![] bcast_S_S17408x1),
    TRef.binary (TRef.of (T := ⟨S17408x1, .i32⟩) main_v103) (TRef.of (T := ⟨S17408x1, .i32⟩) main_call9_v2) (TRef.of (T := ⟨S17408x1, .i32⟩) main_call9_v3) addi,
    TRef.ternary (TRef.of (T := ⟨S17408x1, .i1⟩) main_call9_v1) (TRef.of (T := ⟨S17408x1, .i32⟩) main_call9_v3) (TRef.of (T := ⟨S17408x1, .i32⟩) main_v103) (TRef.of (T := ⟨S17408x1, .i32⟩) main_call9_v4) select,
    TRef.reshape (TRef.of (T := ⟨S17408x1, .i32⟩) main_call9_v4) (TRef.of (T := ⟨S17408x1x1, .i32⟩) main_call9_v5) rfl shapeCasts_S17408x1_S17408x1x1 ]

/-- The range test of the start indices: ten operations. -/
abbrev opsTakeB : List (HloOp τ sig (Elt F)) :=
  [
    TRef.nullary (TRef.of (T := ⟨S1, .i32⟩) main_call9_c_1) (constantI S1 32 3135#32),
    TRef.nullary (TRef.of (T := ⟨S_, .i32⟩) main_call9_c_2) (constantI S_ 32 0#32),
    TRef.unary (TRef.of (T := ⟨S_, .i32⟩) main_call9_c_2) (TRef.of (T := ⟨S17408x1x1, .i32⟩) main_call9_v6) (broadcastInDim S17408x1x1 ![] bcast_S_S17408x1x1),
    TRef.binary (TRef.of (T := ⟨S17408x1x1, .i32⟩) main_call9_v5) (TRef.of (T := ⟨S17408x1x1, .i32⟩) main_call9_v6) (TRef.of (T := ⟨S17408x1x1, .i1⟩) main_call9_v7) (cmpi .sge),
    TRef.unary (TRef.of (T := ⟨S1, .i32⟩) main_call9_c_1) (TRef.of (T := ⟨S1x1x1, .i32⟩) main_call9_v8) (broadcastInDim S1x1x1 ![2] bcast_S1_S1x1x1_2),
    TRef.unary (TRef.of (T := ⟨S1x1x1, .i32⟩) main_call9_v8) (TRef.of (T := ⟨S17408x1x1, .i32⟩) main_call9_v9) (broadcastInDim S17408x1x1 ![0, 1, 2] bcast_S1x1x1_S17408x1x1_0_1_2),
    TRef.binary (TRef.of (T := ⟨S17408x1x1, .i32⟩) main_call9_v5) (TRef.of (T := ⟨S17408x1x1, .i32⟩) main_call9_v9) (TRef.of (T := ⟨S17408x1x1, .i1⟩) main_call9_v10) (cmpi .sle),
    TRef.binary (TRef.of (T := ⟨S17408x1x1, .i1⟩) main_call9_v7) (TRef.of (T := ⟨S17408x1x1, .i1⟩) main_call9_v10) (TRef.of (T := ⟨S17408x1x1, .i1⟩) main_call9_v11) andi,
    TRef.nullary (TRef.of (T := ⟨S_, .i1⟩) main_call9_c_3) (constantI S_ 1 1#1),
    TRef.binary (TRef.of (T := ⟨S17408x1x1, .i1⟩) main_call9_v11) (TRef.of (T := ⟨S_, .i1⟩) main_call9_c_3) (TRef.of (T := ⟨S17408x1, .i1⟩) main_call9_v12) (fun x v => Host.reduce IntOp.andi x v reducesTo_S17408x1x1_S17408x1_d2 h_S_) ]

/-- The gather, the selection and the flattening: five operations. -/
abbrev opsTakeC : List (HloOp τ sig (Elt F)) :=
  [
    TRef.binary (TRef.of (T := ⟨S17408x3136, .f32⟩) main_v102) (TRef.of (T := ⟨S17408x1x1, .i32⟩) main_call9_v5) (TRef.of (T := ⟨S17408x1, .f32⟩) main_call9_v13) (fun x i => Host.gather gather_S17408x3136_S17408x1x1_S17408x1_n_1_0_0_1_2_11 x i),
    TRef.nullary (TRef.of (T := ⟨S_, .f32⟩) main_call9_cst) (constant S_ .f32 0x7FC00000#32),
    TRef.unary (TRef.of (T := ⟨S_, .f32⟩) main_call9_cst) (TRef.of (T := ⟨S17408x1, .f32⟩) main_call9_v14) (broadcastInDim S17408x1 ![] bcast_S_S17408x1),
    TRef.ternary (TRef.of (T := ⟨S17408x1, .i1⟩) main_call9_v12) (TRef.of (T := ⟨S17408x1, .f32⟩) main_call9_v13) (TRef.of (T := ⟨S17408x1, .f32⟩) main_call9_v14) (TRef.of (T := ⟨S17408x1, .f32⟩) main_v104) select,
    reshape main_v104 main_v105 rfl shapeCasts_S17408x1_S17408 ]

/-- The take-along-axis: the program's 24 operations, in order. -/
abbrev opsTakeAll : List (HloOp τ sig (Elt F)) :=
  [
    unary main_v100 main_v103 (broadcastInDim S17408x1 ![0] bcast_S17408_S17408x1_0 : (⟨S17408, .i32⟩ : BufTy).Contents (Elt F) → (⟨S17408x1, .i32⟩ : BufTy).Contents (Elt F)),
    TRef.nullary (TRef.of (T := ⟨S_, .i32⟩) main_call9_c) (constantI S_ 32 0#32),
    TRef.unary (TRef.of (T := ⟨S_, .i32⟩) main_call9_c) (TRef.of (T := ⟨S17408x1, .i32⟩) main_call9_v0) (broadcastInDim S17408x1 ![] bcast_S_S17408x1),
    TRef.binary (TRef.of (T := ⟨S17408x1, .i32⟩) main_v103) (TRef.of (T := ⟨S17408x1, .i32⟩) main_call9_v0) (TRef.of (T := ⟨S17408x1, .i1⟩) main_call9_v1) (cmpi .slt),
    TRef.nullary (TRef.of (T := ⟨S_, .i32⟩) main_call9_c_0) (constantI S_ 32 3136#32),
    TRef.unary (TRef.of (T := ⟨S_, .i32⟩) main_call9_c_0) (TRef.of (T := ⟨S17408x1, .i32⟩) main_call9_v2) (broadcastInDim S17408x1 ![] bcast_S_S17408x1),
    TRef.binary (TRef.of (T := ⟨S17408x1, .i32⟩) main_v103) (TRef.of (T := ⟨S17408x1, .i32⟩) main_call9_v2) (TRef.of (T := ⟨S17408x1, .i32⟩) main_call9_v3) addi,
    TRef.ternary (TRef.of (T := ⟨S17408x1, .i1⟩) main_call9_v1) (TRef.of (T := ⟨S17408x1, .i32⟩) main_call9_v3) (TRef.of (T := ⟨S17408x1, .i32⟩) main_v103) (TRef.of (T := ⟨S17408x1, .i32⟩) main_call9_v4) select,
    TRef.reshape (TRef.of (T := ⟨S17408x1, .i32⟩) main_call9_v4) (TRef.of (T := ⟨S17408x1x1, .i32⟩) main_call9_v5) rfl shapeCasts_S17408x1_S17408x1x1,
    TRef.nullary (TRef.of (T := ⟨S1, .i32⟩) main_call9_c_1) (constantI S1 32 3135#32),
    TRef.nullary (TRef.of (T := ⟨S_, .i32⟩) main_call9_c_2) (constantI S_ 32 0#32),
    TRef.unary (TRef.of (T := ⟨S_, .i32⟩) main_call9_c_2) (TRef.of (T := ⟨S17408x1x1, .i32⟩) main_call9_v6) (broadcastInDim S17408x1x1 ![] bcast_S_S17408x1x1),
    TRef.binary (TRef.of (T := ⟨S17408x1x1, .i32⟩) main_call9_v5) (TRef.of (T := ⟨S17408x1x1, .i32⟩) main_call9_v6) (TRef.of (T := ⟨S17408x1x1, .i1⟩) main_call9_v7) (cmpi .sge),
    TRef.unary (TRef.of (T := ⟨S1, .i32⟩) main_call9_c_1) (TRef.of (T := ⟨S1x1x1, .i32⟩) main_call9_v8) (broadcastInDim S1x1x1 ![2] bcast_S1_S1x1x1_2),
    TRef.unary (TRef.of (T := ⟨S1x1x1, .i32⟩) main_call9_v8) (TRef.of (T := ⟨S17408x1x1, .i32⟩) main_call9_v9) (broadcastInDim S17408x1x1 ![0, 1, 2] bcast_S1x1x1_S17408x1x1_0_1_2),
    TRef.binary (TRef.of (T := ⟨S17408x1x1, .i32⟩) main_call9_v5) (TRef.of (T := ⟨S17408x1x1, .i32⟩) main_call9_v9) (TRef.of (T := ⟨S17408x1x1, .i1⟩) main_call9_v10) (cmpi .sle),
    TRef.binary (TRef.of (T := ⟨S17408x1x1, .i1⟩) main_call9_v7) (TRef.of (T := ⟨S17408x1x1, .i1⟩) main_call9_v10) (TRef.of (T := ⟨S17408x1x1, .i1⟩) main_call9_v11) andi,
    TRef.nullary (TRef.of (T := ⟨S_, .i1⟩) main_call9_c_3) (constantI S_ 1 1#1),
    TRef.binary (TRef.of (T := ⟨S17408x1x1, .i1⟩) main_call9_v11) (TRef.of (T := ⟨S_, .i1⟩) main_call9_c_3) (TRef.of (T := ⟨S17408x1, .i1⟩) main_call9_v12) (fun x v => Host.reduce IntOp.andi x v reducesTo_S17408x1x1_S17408x1_d2 h_S_),
    TRef.binary (TRef.of (T := ⟨S17408x3136, .f32⟩) main_v102) (TRef.of (T := ⟨S17408x1x1, .i32⟩) main_call9_v5) (TRef.of (T := ⟨S17408x1, .f32⟩) main_call9_v13) (fun x i => Host.gather gather_S17408x3136_S17408x1x1_S17408x1_n_1_0_0_1_2_11 x i),
    TRef.nullary (TRef.of (T := ⟨S_, .f32⟩) main_call9_cst) (constant S_ .f32 0x7FC00000#32),
    TRef.unary (TRef.of (T := ⟨S_, .f32⟩) main_call9_cst) (TRef.of (T := ⟨S17408x1, .f32⟩) main_call9_v14) (broadcastInDim S17408x1 ![] bcast_S_S17408x1),
    TRef.ternary (TRef.of (T := ⟨S17408x1, .i1⟩) main_call9_v12) (TRef.of (T := ⟨S17408x1, .f32⟩) main_call9_v13) (TRef.of (T := ⟨S17408x1, .f32⟩) main_call9_v14) (TRef.of (T := ⟨S17408x1, .f32⟩) main_v104) select,
    reshape main_v104 main_v105 rfl shapeCasts_S17408x1_S17408 ]

set_option maxRecDepth 8192 in
set_option maxHeartbeats 4000000 in
/-- The first nine operations leave the start indices. -/
theorem takeA_v5 (W : Valuation τ sig (Elt Ideal)) :
    after (opsTakeA (F := Ideal)) W (Proc.devRef .tc main_call9_v5) = idxV (W (Proc.devRef .tc main_v100)) := by
  after_results_simp <;> (try simp only [cast_eq]) <;> rfl

set_option maxRecDepth 8192 in
set_option maxHeartbeats 4000000 in
/-- They do not write the log-softmax. -/
theorem takeA_keeps_v102 (W : Valuation τ sig (Elt Ideal)) :
    after (opsTakeA (F := Ideal)) W (Proc.devRef .tc main_v102) = W (Proc.devRef .tc main_v102) := by
  after_results_simp <;> (try simp only [cast_eq]) <;> rfl

/-- The range test of a [17408, 1, 1] array of start indices: 0 ≤ index ≤ 3135, reduced by `and` along the unit axis. -/
def inbOf (i : IVec S17408x1x1 32) : IVec S17408x1 1 :=
  Host.reduce IntOp.andi
    (andi (cmpi .sge i (broadcastInDim S17408x1x1 ![] bcast_S_S17408x1x1 (constantI S_ 32 0#32)))
      (cmpi .sle i (broadcastInDim S17408x1x1 ![0, 1, 2] bcast_S1x1x1_S17408x1x1_0_1_2
        (broadcastInDim S1x1x1 ![2] bcast_S1_S1x1x1_2 (constantI S1 32 3135#32)))))
    (constantI S_ 1 1#1) reducesTo_S17408x1x1_S17408x1_d2 h_S_

set_option maxRecDepth 8192 in
set_option maxHeartbeats 4000000 in
/-- The next ten operations leave the range test of the start indices. -/
theorem takeB_v12 (W : Valuation τ sig (Elt Ideal)) :
    after (opsTakeB (F := Ideal)) W (Proc.devRef .tc main_call9_v12) = inbOf (W (Proc.devRef .tc main_call9_v5)) := by
  after_results_simp <;> (try simp only [cast_eq]) <;> rfl

set_option maxRecDepth 8192 in
set_option maxHeartbeats 4000000 in
/-- They do not write the start indices. -/
theorem takeB_keeps_v5 (W : Valuation τ sig (Elt Ideal)) :
    after (opsTakeB (F := Ideal)) W (Proc.devRef .tc main_call9_v5) = W (Proc.devRef .tc main_call9_v5) := by
  after_results_simp <;> (try simp only [cast_eq]) <;> rfl

set_option maxRecDepth 8192 in
set_option maxHeartbeats 4000000 in
/-- They do not write the log-softmax. -/
theorem takeB_keeps_v102 (W : Valuation τ sig (Elt Ideal)) :
    after (opsTakeB (F := Ideal)) W (Proc.devRef .tc main_v102) = W (Proc.devRef .tc main_v102) := by
  after_results_simp <;> (try simp only [cast_eq]) <;> rfl

set_option maxRecDepth 8192 in
set_option maxHeartbeats 4000000 in
/-- The last five operations: the gathered rows, selected by the range test, flattened. -/
theorem takeC_v105 (W : Valuation τ sig (Elt Ideal)) :
    after (opsTakeC (F := Ideal)) W (Proc.devRef .tc main_v105)
      = shapeCast S17408 (select (W (Proc.devRef .tc main_call9_v12))
          (Host.gather gather_S17408x3136_S17408x1x1_S17408x1_n_1_0_0_1_2_11 (W (Proc.devRef .tc main_v102)) (W (Proc.devRef .tc main_call9_v5)))
          (broadcastInDim S17408x1 ![] bcast_S_S17408x1 (constant (F := Ideal) S_ .f32 0x7FC00000#32)))
        shapeCasts_S17408x1_S17408 := by
  after_results_simp <;> (try simp only [cast_eq]) <;> rfl

/-- Running two lines one after the other folds the second over what the first leaves. -/
theorem after_append_take (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The 24 operations are the three steps in order. -/
theorem opsTakeAll_split :
    opsTakeAll (F := Ideal) = opsTakeA (F := Ideal) ++ (opsTakeB (F := Ideal) ++ opsTakeC (F := Ideal)) := rfl

/-- The range test of the bin words' start indices is the range test of that array. -/
theorem inbV_eq (l : IVec S17408 32) : inbV l = inbOf (idxV l) := rfl

/-- The log-softmax rows at the bin words: the 24 operations leave the taken entries. -/
theorem take_v105' (W : Valuation τ sig (Elt Ideal)) :
    after (opsTakeAll (F := Ideal)) W (Proc.devRef .tc main_v105)
      = takeOf (W (Proc.devRef .tc main_v102)) (W (Proc.devRef .tc main_v100)) := by
  rw [opsTakeAll_split, after_append_take, after_append_take, takeC_v105, takeB_v12, takeB_keeps_v102, takeB_keeps_v5,
    takeA_keeps_v102, takeA_v5]
  unfold takeOf
  rw [inbV_eq]

set_option maxRecDepth 8192 in
/-- They are operations 207 to 230 of the program's line. -/
theorem opsTakeAll_eq_ops :
    opsTakeAll (F := Ideal) = ((RunHand.ops (F := Ideal)).drop 207).take 24 := rfl

end Cert.ReferenceIdeal.RefValue

end
-- ==== Proof.RefTail.lean ====
/-
  The reference's result without composing the whole program. @main's operations are a prefix, then the 25 operations
  that make the validity bits and the bin words from the coordinate words, then short stretches — the three reshapes,
  the row maxima, the shift, the log-sum-exp, the take-along-axis, the masked mean with the broadcasts — then the
  concatenation. Over ANY contents W left by the prefix, the result array is the three losses as functions of six of
  W's buffers: the classification loss, the box loss, and the keypoint loss of the reshaped logits, bin words and
  validity bits. What the take-along-axis stretch leaves is proved in its own module and cited here.
-/
import proofs.«117586_j82575041232910_1_alg».proof.Proof.RefRunHand
import proofs.«117586_j82575041232910_1_alg».proof.Proof.RefStages
import proofs.«117586_j82575041232910_1_alg».proof.Proof.RefLin
import proofs.«117586_j82575041232910_1_alg».proof.Proof.RefTakeStretch

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The operations from the coordinate words to the bin words. -/
abbrev opsMid : List (HloOp τ sig (Elt F)) :=
  [
    nullary main_c_17 (constantI S_ 32 0#32),
    unary main_c_17 main_v80 (broadcastInDim S1024x17 ![] bcast_S_S1024x17 : (⟨S_, .i32⟩ : BufTy).Contents (Elt F) → (⟨S1024x17, .i32⟩ : BufTy).Contents (Elt F)),
    binary main_v75 main_v80 main_v81 (cmpi .sge : (⟨S1024x17, .i32⟩ : BufTy).Contents (Elt F) → (⟨S1024x17, .i32⟩ : BufTy).Contents (Elt F) → (⟨S1024x17, .i1⟩ : BufTy).Contents (Elt F)),
    nullary main_c_18 (constantI S_ 32 0#32),
    unary main_c_18 main_v82 (broadcastInDim S1024x17 ![] bcast_S_S1024x17 : (⟨S_, .i32⟩ : BufTy).Contents (Elt F) → (⟨S1024x17, .i32⟩ : BufTy).Contents (Elt F)),
    binary main_v79 main_v82 main_v83 (cmpi .sge : (⟨S1024x17, .i32⟩ : BufTy).Contents (Elt F) → (⟨S1024x17, .i32⟩ : BufTy).Contents (Elt F) → (⟨S1024x17, .i1⟩ : BufTy).Contents (Elt F)),
    binary main_v81 main_v83 main_v84 (andi : (⟨S1024x17, .i1⟩ : BufTy).Contents (Elt F) → (⟨S1024x17, .i1⟩ : BufTy).Contents (Elt F) → (⟨S1024x17, .i1⟩ : BufTy).Contents (Elt F)),
    nullary main_c_19 (constantI S_ 32 56#32),
    unary main_c_19 main_v85 (broadcastInDim S1024x17 ![] bcast_S_S1024x17 : (⟨S_, .i32⟩ : BufTy).Contents (Elt F) → (⟨S1024x17, .i32⟩ : BufTy).Contents (Elt F)),
    binary main_v75 main_v85 main_v86 (cmpi .slt : (⟨S1024x17, .i32⟩ : BufTy).Contents (Elt F) → (⟨S1024x17, .i32⟩ : BufTy).Contents (Elt F) → (⟨S1024x17, .i1⟩ : BufTy).Contents (Elt F)),
    binary main_v84 main_v86 main_v87 (andi : (⟨S1024x17, .i1⟩ : BufTy).Contents (Elt F) → (⟨S1024x17, .i1⟩ : BufTy).Contents (Elt F) → (⟨S1024x17, .i1⟩ : BufTy).Contents (Elt F)),
    nullary main_c_20 (constantI S_ 32 56#32),
    unary main_c_20 main_v88 (broadcastInDim S1024x17 ![] bcast_S_S1024x17 : (⟨S_, .i32⟩ : BufTy).Contents (Elt F) → (⟨S1024x17, .i32⟩ : BufTy).Contents (Elt F)),
    binary main_v79 main_v88 main_v89 (cmpi .slt : (⟨S1024x17, .i32⟩ : BufTy).Contents (Elt F) → (⟨S1024x17, .i32⟩ : BufTy).Contents (Elt F) → (⟨S1024x17, .i1⟩ : BufTy).Contents (Elt F)),
    binary main_v87 main_v89 main_v90 (andi : (⟨S1024x17, .i1⟩ : BufTy).Contents (Elt F) → (⟨S1024x17, .i1⟩ : BufTy).Contents (Elt F) → (⟨S1024x17, .i1⟩ : BufTy).Contents (Elt F)),
    nullary main_cst_21 (constant S_ .f32 0x00000000#32),
    unary main_cst_21 main_v91 (broadcastInDim S1024x17 ![] bcast_S_S1024x17 : (⟨S_, .f32⟩ : BufTy).Contents (Elt F) → (⟨S1024x17, .f32⟩ : BufTy).Contents (Elt F)),
    binary main_v59 main_v91 main_v92 (cmpf .ogt : (⟨S1024x17, .f32⟩ : BufTy).Contents (Elt F) → (⟨S1024x17, .f32⟩ : BufTy).Contents (Elt F) → (⟨S1024x17, .i1⟩ : BufTy).Contents (Elt F)),
    binary main_v90 main_v92 main_v93 (andi : (⟨S1024x17, .i1⟩ : BufTy).Contents (Elt F) → (⟨S1024x17, .i1⟩ : BufTy).Contents (Elt F) → (⟨S1024x17, .i1⟩ : BufTy).Contents (Elt F)),
    nullary main_c_22 (constantI S_ 32 56#32),
    unary main_c_22 main_v94 (broadcastInDim S1024x17 ![] bcast_S_S1024x17 : (⟨S_, .i32⟩ : BufTy).Contents (Elt F) → (⟨S1024x17, .i32⟩ : BufTy).Contents (Elt F)),
    binary main_v79 main_v94 main_v95 (muli : (⟨S1024x17, .i32⟩ : BufTy).Contents (Elt F) → (⟨S1024x17, .i32⟩ : BufTy).Contents (Elt F) → (⟨S1024x17, .i32⟩ : BufTy).Contents (Elt F)),
    binary main_v95 main_v75 main_v96 (addi : (⟨S1024x17, .i32⟩ : BufTy).Contents (Elt F) → (⟨S1024x17, .i32⟩ : BufTy).Contents (Elt F) → (⟨S1024x17, .i32⟩ : BufTy).Contents (Elt F)),
    unary main_v93 main_v97 ((extui 32 · natLt_1_32) : (⟨S1024x17, .i1⟩ : BufTy).Contents (Elt F) → (⟨S1024x17, .i32⟩ : BufTy).Contents (Elt F)),
    binary main_v96 main_v97 main_v98 (muli : (⟨S1024x17, .i32⟩ : BufTy).Contents (Elt F) → (⟨S1024x17, .i32⟩ : BufTy).Contents (Elt F) → (⟨S1024x17, .i32⟩ : BufTy).Contents (Elt F)) ]

/-- The reshapes of the logits, bin words and validity bits. -/
abbrev opsResh : List (HloOp τ sig (Elt F)) :=
  [
    reshape main_arg5 main_v99 rfl shapeCasts_S1024x17x56x56_S17408x3136,
    reshape main_v98 main_v100 rfl shapeCasts_S1024x17_S17408,
    reshape main_v93 main_v101 rfl shapeCasts_S1024x17_S17408 ]

/-- The maximum-reduce along the columns. -/
abbrev opsMax0 : List (HloOp τ sig (Elt F)) :=
  [
    TRef.nullary (TRef.of (T := ⟨S_, .f32⟩) main_call8_cst) (constant S_ .f32 0xFF800000#32),
    TRef.binary (TRef.of (T := ⟨S17408x3136, .f32⟩) main_v99) (TRef.of (T := ⟨S_, .f32⟩) main_call8_cst) (TRef.of (T := ⟨S17408, .f32⟩) main_call8_v0) (fun x v => Host.reduce FloatOps.maximumf x v reducesTo_S17408x3136_S17408_d1 h_S_) ]

/-- The row maxima: the maximum with minus infinity. -/
abbrev opsMax1 : List (HloOp τ sig (Elt F)) :=
  [
    TRef.nullary (TRef.of (T := ⟨S_, .f32⟩) main_call8_cst_0) (constant S_ .f32 0xFF800000#32),
    TRef.unary (TRef.of (T := ⟨S_, .f32⟩) main_call8_cst_0) (TRef.of (T := ⟨S17408, .f32⟩) main_call8_v1) (broadcastInDim S17408 ![] bcast_S_S17408),
    TRef.binary (TRef.of (T := ⟨S17408, .f32⟩) main_call8_v1) (TRef.of (T := ⟨S17408, .f32⟩) main_call8_v0) (TRef.of (T := ⟨S17408, .f32⟩) main_call8_v2) maximumf ]

/-- The rows shifted by their maxima. -/
abbrev opsShift : List (HloOp τ sig (Elt F)) :=
  [
    TRef.unary (TRef.of (T := ⟨S17408, .f32⟩) main_call8_v2) (TRef.of (T := ⟨S17408x1, .f32⟩) main_call8_v3) (broadcastInDim S17408x1 ![0] bcast_S17408_S17408x1_0),
    TRef.unary (TRef.of (T := ⟨S17408x1, .f32⟩) main_call8_v3) (TRef.of (T := ⟨S17408x3136, .f32⟩) main_call8_v4) (broadcastInDim S17408x3136 ![0, 1] bcast_S17408x1_S17408x3136_0_1),
    TRef.binary (TRef.of (T := ⟨S17408x3136, .f32⟩) main_v99) (TRef.of (T := ⟨S17408x3136, .f32⟩) main_call8_v4) (TRef.of (T := ⟨S17408x3136, .f32⟩) main_call8_v5) subf ]

/-- The log of the sum of the exponentials, subtracted. -/
abbrev opsLse : List (HloOp τ sig (Elt F)) :=
  [
    TRef.unary (TRef.of (T := ⟨S17408x3136, .f32⟩) main_call8_v5) (TRef.of (T := ⟨S17408x3136, .f32⟩) main_call8_v6) Host.exp,
    TRef.nullary (TRef.of (T := ⟨S_, .f32⟩) main_call8_cst_1) (constant S_ .f32 0x00000000#32),
    TRef.binary (TRef.of (T := ⟨S17408x3136, .f32⟩) main_call8_v6) (TRef.of (T := ⟨S_, .f32⟩) main_call8_cst_1) (TRef.of (T := ⟨S17408, .f32⟩) main_call8_v7) (fun x v => Host.reduceAdd x v reducesTo_S17408x3136_S17408_d1 h_S_),
    TRef.unary (TRef.of (T := ⟨S17408, .f32⟩) main_call8_v7) (TRef.of (T := ⟨S17408x1, .f32⟩) main_call8_v8) (broadcastInDim S17408x1 ![0] bcast_S17408_S17408x1_0),
    TRef.unary (TRef.of (T := ⟨S17408x1, .f32⟩) main_call8_v8) (TRef.of (T := ⟨S17408x1, .f32⟩) main_call8_v9) Host.log,
    TRef.unary (TRef.of (T := ⟨S17408x1, .f32⟩) main_call8_v9) (TRef.of (T := ⟨S17408x3136, .f32⟩) main_call8_v10) (broadcastInDim S17408x3136 ![0, 1] bcast_S17408x1_S17408x3136_0_1),
    TRef.binary (TRef.of (T := ⟨S17408x3136, .f32⟩) main_call8_v5) (TRef.of (T := ⟨S17408x3136, .f32⟩) main_call8_v10) (TRef.of (T := ⟨S17408x3136, .f32⟩) main_v102) subf ]

/-- The take-along-axis. -/
abbrev opsTake : List (HloOp τ sig (Elt F)) :=
  [
    unary main_v100 main_v103 (broadcastInDim S17408x1 ![0] bcast_S17408_S17408x1_0 : (⟨S17408, .i32⟩ : BufTy).Contents (Elt F) → (⟨S17408x1, .i32⟩ : BufTy).Contents (Elt F)),
    TRef.nullary (TRef.of (T := ⟨S_, .i32⟩) main_call9_c) (constantI S_ 32 0#32),
    TRef.unary (TRef.of (T := ⟨S_, .i32⟩) main_call9_c) (TRef.of (T := ⟨S17408x1, .i32⟩) main_call9_v0) (broadcastInDim S17408x1 ![] bcast_S_S17408x1),
    TRef.binary (TRef.of (T := ⟨S17408x1, .i32⟩) main_v103) (TRef.of (T := ⟨S17408x1, .i32⟩) main_call9_v0) (TRef.of (T := ⟨S17408x1, .i1⟩) main_call9_v1) (cmpi .slt),
    TRef.nullary (TRef.of (T := ⟨S_, .i32⟩) main_call9_c_0) (constantI S_ 32 3136#32),
    TRef.unary (TRef.of (T := ⟨S_, .i32⟩) main_call9_c_0) (TRef.of (T := ⟨S17408x1, .i32⟩) main_call9_v2) (broadcastInDim S17408x1 ![] bcast_S_S17408x1),
    TRef.binary (TRef.of (T := ⟨S17408x1, .i32⟩) main_v103) (TRef.of (T := ⟨S17408x1, .i32⟩) main_call9_v2) (TRef.of (T := ⟨S17408x1, .i32⟩) main_call9_v3) addi,
    TRef.ternary (TRef.of (T := ⟨S17408x1, .i1⟩) main_call9_v1) (TRef.of (T := ⟨S17408x1, .i32⟩) main_call9_v3) (TRef.of (T := ⟨S17408x1, .i32⟩) main_v103) (TRef.of (T := ⟨S17408x1, .i32⟩) main_call9_v4) select,
    TRef.reshape (TRef.of (T := ⟨S17408x1, .i32⟩) main_call9_v4) (TRef.of (T := ⟨S17408x1x1, .i32⟩) main_call9_v5) rfl shapeCasts_S17408x1_S17408x1x1,
    TRef.nullary (TRef.of (T := ⟨S1, .i32⟩) main_call9_c_1) (constantI S1 32 3135#32),
    TRef.nullary (TRef.of (T := ⟨S_, .i32⟩) main_call9_c_2) (constantI S_ 32 0#32),
    TRef.unary (TRef.of (T := ⟨S_, .i32⟩) main_call9_c_2) (TRef.of (T := ⟨S17408x1x1, .i32⟩) main_call9_v6) (broadcastInDim S17408x1x1 ![] bcast_S_S17408x1x1),
    TRef.binary (TRef.of (T := ⟨S17408x1x1, .i32⟩) main_call9_v5) (TRef.of (T := ⟨S17408x1x1, .i32⟩) main_call9_v6) (TRef.of (T := ⟨S17408x1x1, .i1⟩) main_call9_v7) (cmpi .sge),
    TRef.unary (TRef.of (T := ⟨S1, .i32⟩) main_call9_c_1) (TRef.of (T := ⟨S1x1x1, .i32⟩) main_call9_v8) (broadcastInDim S1x1x1 ![2] bcast_S1_S1x1x1_2),
    TRef.unary (TRef.of (T := ⟨S1x1x1, .i32⟩) main_call9_v8) (TRef.of (T := ⟨S17408x1x1, .i32⟩) main_call9_v9) (broadcastInDim S17408x1x1 ![0, 1, 2] bcast_S1x1x1_S17408x1x1_0_1_2),
    TRef.binary (TRef.of (T := ⟨S17408x1x1, .i32⟩) main_call9_v5) (TRef.of (T := ⟨S17408x1x1, .i32⟩) main_call9_v9) (TRef.of (T := ⟨S17408x1x1, .i1⟩) main_call9_v10) (cmpi .sle),
    TRef.binary (TRef.of (T := ⟨S17408x1x1, .i1⟩) main_call9_v7) (TRef.of (T := ⟨S17408x1x1, .i1⟩) main_call9_v10) (TRef.of (T := ⟨S17408x1x1, .i1⟩) main_call9_v11) andi,
    TRef.nullary (TRef.of (T := ⟨S_, .i1⟩) main_call9_c_3) (constantI S_ 1 1#1),
    TRef.binary (TRef.of (T := ⟨S17408x1x1, .i1⟩) main_call9_v11) (TRef.of (T := ⟨S_, .i1⟩) main_call9_c_3) (TRef.of (T := ⟨S17408x1, .i1⟩) main_call9_v12) (fun x v => Host.reduce IntOp.andi x v reducesTo_S17408x1x1_S17408x1_d2 h_S_),
    TRef.binary (TRef.of (T := ⟨S17408x3136, .f32⟩) main_v102) (TRef.of (T := ⟨S17408x1x1, .i32⟩) main_call9_v5) (TRef.of (T := ⟨S17408x1, .f32⟩) main_call9_v13) (fun x i => Host.gather gather_S17408x3136_S17408x1x1_S17408x1_n_1_0_0_1_2_11 x i),
    TRef.nullary (TRef.of (T := ⟨S_, .f32⟩) main_call9_cst) (constant S_ .f32 0x7FC00000#32),
    TRef.unary (TRef.of (T := ⟨S_, .f32⟩) main_call9_cst) (TRef.of (T := ⟨S17408x1, .f32⟩) main_call9_v14) (broadcastInDim S17408x1 ![] bcast_S_S17408x1),
    TRef.ternary (TRef.of (T := ⟨S17408x1, .i1⟩) main_call9_v12) (TRef.of (T := ⟨S17408x1, .f32⟩) main_call9_v13) (TRef.of (T := ⟨S17408x1, .f32⟩) main_call9_v14) (TRef.of (T := ⟨S17408x1, .f32⟩) main_v104) select,
    reshape main_v104 main_v105 rfl shapeCasts_S17408x1_S17408 ]

/-- The masked mean and the broadcasts of the three scalar losses. -/
abbrev opsMean : List (HloOp τ sig (Elt F)) :=
  [
    unary main_v105 main_v106 (Host.negf : (⟨S17408, .f32⟩ : BufTy).Contents (Elt F) → (⟨S17408, .f32⟩ : BufTy).Contents (Elt F)),
    unary main_v101 main_v107 (uitofp .f32 : (⟨S17408, .i1⟩ : BufTy).Contents (Elt F) → (⟨S17408, .f32⟩ : BufTy).Contents (Elt F)),
    nullary main_cst_23 (constant S_ .f32 0x00000000#32),
    binary main_v107 main_cst_23 main_v108 ((fun x v => Host.reduceAdd x v reducesTo_S17408_S_d0 h_S_) : (⟨S17408, .f32⟩ : BufTy).Contents (Elt F) → (⟨S_, .f32⟩ : BufTy).Contents (Elt F) → (⟨S_, .f32⟩ : BufTy).Contents (Elt F)),
    nullary main_cst_24 (constant S_ .f32 0x3F800000#32),
    binary main_v108 main_cst_24 main_v109 (maximumf : (⟨S_, .f32⟩ : BufTy).Contents (Elt F) → (⟨S_, .f32⟩ : BufTy).Contents (Elt F) → (⟨S_, .f32⟩ : BufTy).Contents (Elt F)),
    nullary main_cst_25 (constant S_ .f32 0x00000000#32),
    TRef.unary (TRef.of (T := ⟨S_, .f32⟩) main_cst_25) (TRef.of (T := ⟨S_, .f32⟩) main_call10_v0) id,
    TRef.unary (TRef.of (T := ⟨S_, .f32⟩) main_call10_v0) (TRef.of (T := ⟨S17408, .f32⟩) main_call10_v1) (broadcastInDim S17408 ![] bcast_S_S17408),
    TRef.ternary (TRef.of (T := ⟨S17408, .i1⟩) main_v101) (TRef.of (T := ⟨S17408, .f32⟩) main_v106) (TRef.of (T := ⟨S17408, .f32⟩) main_call10_v1) (TRef.of (T := ⟨S17408, .f32⟩) main_v110) select,
    nullary main_cst_26 (constant S_ .f32 0x00000000#32),
    binary main_v110 main_cst_26 main_v111 ((fun x v => Host.reduceAdd x v reducesTo_S17408_S_d0 h_S_) : (⟨S17408, .f32⟩ : BufTy).Contents (Elt F) → (⟨S_, .f32⟩ : BufTy).Contents (Elt F) → (⟨S_, .f32⟩ : BufTy).Contents (Elt F)),
    binary main_v111 main_v109 main_v112 (Host.divf : (⟨S_, .f32⟩ : BufTy).Contents (Elt F) → (⟨S_, .f32⟩ : BufTy).Contents (Elt F) → (⟨S_, .f32⟩ : BufTy).Contents (Elt F)),
    unary main_v12 main_v113 (broadcastInDim S1 ![] bcast_S_S1 : (⟨S_, .f32⟩ : BufTy).Contents (Elt F) → (⟨S1, .f32⟩ : BufTy).Contents (Elt F)),
    unary main_v34 main_v114 (broadcastInDim S1 ![] bcast_S_S1 : (⟨S_, .f32⟩ : BufTy).Contents (Elt F) → (⟨S1, .f32⟩ : BufTy).Contents (Elt F)),
    unary main_v112 main_v115 (broadcastInDim S1 ![] bcast_S_S1 : (⟨S_, .f32⟩ : BufTy).Contents (Elt F) → (⟨S1, .f32⟩ : BufTy).Contents (Elt F)) ]

/-- The last operation: the concatenation of the three one-element arrays. -/
abbrev opLast : HloOp τ sig (Elt F) :=
  nary ![main_v113, main_v114, main_v115] main_v116 (fun u => concatenate S3 0 [⟨S1, u 0⟩, ⟨S1, u 1⟩, ⟨S1, u 2⟩] concatenates_S1_S1_S1_S3_d0)

/-- The operations before those. -/
abbrev opsPre : List (HloOp τ sig (Elt Ideal)) := (RunHand.ops (F := Ideal)).take 164

/-- The operations from the bin words on. -/
abbrev opsRest : List (HloOp τ sig (Elt Ideal)) :=
  opsMid (F := Ideal) ++ (opsResh (F := Ideal) ++ (opsMax0 (F := Ideal) ++ (opsMax1 (F := Ideal) ++ (opsShift (F := Ideal) ++ (opsLse (F := Ideal)
    ++ (opsTake (F := Ideal) ++ (opsMean (F := Ideal) ++ [opLast (F := Ideal)])))))))

set_option maxRecDepth 8192 in
theorem ops_split : RunHand.ops (F := Ideal) = opsPre ++ opsRest :=
  (List.take_append_drop 164 (RunHand.ops (F := Ideal))).symm

/-- Running two lines one after the other folds the second over what the first leaves. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The three scalars as the result array: each broadcast to one element, then joined. -/
def assemble (s1 s2 s3 : FVec Ideal S_ .f32) : FVec Ideal S3 .f32 :=
  concatenate S3 0 [⟨S1, broadcastInDim S1 ![] bcast_S_S1 s1⟩, ⟨S1, broadcastInDim S1 ![] bcast_S_S1 s2⟩,
    ⟨S1, broadcastInDim S1 ![] bcast_S_S1 s3⟩] concatenates_S1_S1_S1_S3_d0

/-! ## The concatenation -/

theorem last_result (W : Valuation τ sig (Elt Ideal)) :
    after [opLast (F := Ideal)] W (Proc.devRef .tc main_v116)
      = concatenate S3 0 [⟨S1, W (Proc.devRef .tc main_v113)⟩, ⟨S1, W (Proc.devRef .tc main_v114)⟩,
          ⟨S1, W (Proc.devRef .tc main_v115)⟩] concatenates_S1_S1_S1_S3_d0 := by
  simp only [after_cons, after_nil]
  rw [nary_result]
  rfl

/-! ## The masked mean -/

set_option maxRecDepth 8192 in
set_option maxHeartbeats 4000000 in
/-- The classification loss, broadcast. -/
theorem mean_v113 (W : Valuation τ sig (Elt Ideal)) :
    after (opsMean (F := Ideal)) W (Proc.devRef .tc main_v113) = broadcastInDim S1 ![] bcast_S_S1 (W (Proc.devRef .tc main_v12)) := by
  after_results_simp <;> rfl

set_option maxRecDepth 8192 in
set_option maxHeartbeats 4000000 in
/-- The box loss, broadcast. -/
theorem mean_v114 (W : Valuation τ sig (Elt Ideal)) :
    after (opsMean (F := Ideal)) W (Proc.devRef .tc main_v114) = broadcastInDim S1 ![] bcast_S_S1 (W (Proc.devRef .tc main_v34)) := by
  after_results_simp <;> rfl

set_option maxRecDepth 8192 in
set_option maxHeartbeats 4000000 in
/-- The keypoint loss of the taken entries and the validity bits, broadcast. -/
theorem mean_v115 (W : Valuation τ sig (Elt Ideal)) :
    after (opsMean (F := Ideal)) W (Proc.devRef .tc main_v115) = broadcastInDim S1 ![] bcast_S_S1 (kpOf (W (Proc.devRef .tc main_v105)) (W (Proc.devRef .tc main_v101))) := by
  after_results_simp <;> rfl

/-! ## The take-along-axis keeps what the mean reads -/

set_option maxRecDepth 8192 in
set_option maxHeartbeats 4000000 in
/-- This stretch does not write %v101. -/
theorem take_keeps_main_v101 (W : Valuation τ sig (Elt Ideal)) :
    after (opsTake (F := Ideal)) W (Proc.devRef .tc main_v101) = W (Proc.devRef .tc main_v101) := by
  after_results_simp <;> rfl

set_option maxRecDepth 8192 in
set_option maxHeartbeats 4000000 in
/-- This stretch does not write %v12. -/
theorem take_keeps_main_v12 (W : Valuation τ sig (Elt Ideal)) :
    after (opsTake (F := Ideal)) W (Proc.devRef .tc main_v12) = W (Proc.devRef .tc main_v12) := by
  after_results_simp <;> rfl

set_option maxRecDepth 8192 in
set_option maxHeartbeats 4000000 in
/-- This stretch does not write %v34. -/
theorem take_keeps_main_v34 (W : Valuation τ sig (Elt Ideal)) :
    after (opsTake (F := Ideal)) W (Proc.devRef .tc main_v34) = W (Proc.devRef .tc main_v34) := by
  after_results_simp <;> rfl

/-! ## The log-sum-exp -/

set_option maxRecDepth 8192 in
set_option maxHeartbeats 4000000 in
/-- The shifted rows minus the log of the sum of their exponentials. -/
theorem lse_v102 (W : Valuation τ sig (Elt Ideal)) :
    after (opsLse (F := Ideal)) W (Proc.devRef .tc main_v102) = subf (W (Proc.devRef .tc main_call8_v5)) (broadcastInDim S17408x3136 ![0, 1] bcast_S17408x1_S17408x3136_0_1
        (Host.log (broadcastInDim S17408x1 ![0] bcast_S17408_S17408x1_0
          (Host.reduceAdd (Host.exp (W (Proc.devRef .tc main_call8_v5))) (constant (F := Ideal) S_ .f32 0x00000000#32) reducesTo_S17408x3136_S17408_d1 h_S_)))) := by
  after_results_simp <;> rfl

set_option maxRecDepth 8192 in
set_option maxHeartbeats 4000000 in
/-- This stretch does not write %v100. -/
theorem lse_keeps_main_v100 (W : Valuation τ sig (Elt Ideal)) :
    after (opsLse (F := Ideal)) W (Proc.devRef .tc main_v100) = W (Proc.devRef .tc main_v100) := by
  after_results_simp <;> rfl

set_option maxRecDepth 8192 in
set_option maxHeartbeats 4000000 in
/-- This stretch does not write %v101. -/
theorem lse_keeps_main_v101 (W : Valuation τ sig (Elt Ideal)) :
    after (opsLse (F := Ideal)) W (Proc.devRef .tc main_v101) = W (Proc.devRef .tc main_v101) := by
  after_results_simp <;> rfl

set_option maxRecDepth 8192 in
set_option maxHeartbeats 4000000 in
/-- This stretch does not write %v12. -/
theorem lse_keeps_main_v12 (W : Valuation τ sig (Elt Ideal)) :
    after (opsLse (F := Ideal)) W (Proc.devRef .tc main_v12) = W (Proc.devRef .tc main_v12) := by
  after_results_simp <;> rfl

set_option maxRecDepth 8192 in
set_option maxHeartbeats 4000000 in
/-- This stretch does not write %v34. -/
theorem lse_keeps_main_v34 (W : Valuation τ sig (Elt Ideal)) :
    after (opsLse (F := Ideal)) W (Proc.devRef .tc main_v34) = W (Proc.devRef .tc main_v34) := by
  after_results_simp <;> rfl

/-! ## The shift -/

set_option maxRecDepth 8192 in
set_option maxHeartbeats 4000000 in
/-- The rows minus their maxima. -/
theorem shift_v5 (W : Valuation τ sig (Elt Ideal)) :
    after (opsShift (F := Ideal)) W (Proc.devRef .tc main_call8_v5) = (subf (W (Proc.devRef .tc main_v99)) (broadcastInDim S17408x3136 ![0, 1] bcast_S17408x1_S17408x3136_0_1 (broadcastInDim S17408x1 ![0] bcast_S17408_S17408x1_0 (W (Proc.devRef .tc main_call8_v2)))) : FVec Ideal S17408x3136 .f32) := by
  after_results_simp <;> rfl

set_option maxRecDepth 8192 in
set_option maxHeartbeats 4000000 in
/-- This stretch does not write %v100. -/
theorem shift_keeps_main_v100 (W : Valuation τ sig (Elt Ideal)) :
    after (opsShift (F := Ideal)) W (Proc.devRef .tc main_v100) = W (Proc.devRef .tc main_v100) := by
  after_results_simp <;> rfl

set_option maxRecDepth 8192 in
set_option maxHeartbeats 4000000 in
/-- This stretch does not write %v101. -/
theorem shift_keeps_main_v101 (W : Valuation τ sig (Elt Ideal)) :
    after (opsShift (F := Ideal)) W (Proc.devRef .tc main_v101) = W (Proc.devRef .tc main_v101) := by
  after_results_simp <;> rfl

set_option maxRecDepth 8192 in
set_option maxHeartbeats 4000000 in
/-- This stretch does not write %v12. -/
theorem shift_keeps_main_v12 (W : Valuation τ sig (Elt Ideal)) :
    after (opsShift (F := Ideal)) W (Proc.devRef .tc main_v12) = W (Proc.devRef .tc main_v12) := by
  after_results_simp <;> rfl

set_option maxRecDepth 8192 in
set_option maxHeartbeats 4000000 in
/-- This stretch does not write %v34. -/
theorem shift_keeps_main_v34 (W : Valuation τ sig (Elt Ideal)) :
    after (opsShift (F := Ideal)) W (Proc.devRef .tc main_v34) = W (Proc.devRef .tc main_v34) := by
  after_results_simp <;> rfl

/-! ## The row maxima -/

set_option maxRecDepth 8192 in
set_option maxHeartbeats 4000000 in
/-- The maximum with minus infinity. -/
theorem max_v2 (W : Valuation τ sig (Elt Ideal)) :
    after (opsMax1 (F := Ideal)) W (Proc.devRef .tc main_call8_v2) = maximumf (broadcastInDim S17408 ![] bcast_S_S17408 (constant (F := Ideal) S_ .f32 0xFF800000#32)) (W (Proc.devRef .tc main_call8_v0)) := by
  after_results_simp <;> rfl

set_option maxRecDepth 8192 in
set_option maxHeartbeats 4000000 in
/-- This stretch does not write %v99. -/
theorem max1_keeps_main_v99 (W : Valuation τ sig (Elt Ideal)) :
    after (opsMax1 (F := Ideal)) W (Proc.devRef .tc main_v99) = W (Proc.devRef .tc main_v99) := by
  after_results_simp <;> rfl

set_option maxRecDepth 8192 in
set_option maxHeartbeats 4000000 in
/-- This stretch does not write %v100. -/
theorem max1_keeps_main_v100 (W : Valuation τ sig (Elt Ideal)) :
    after (opsMax1 (F := Ideal)) W (Proc.devRef .tc main_v100) = W (Proc.devRef .tc main_v100) := by
  after_results_simp <;> rfl

set_option maxRecDepth 8192 in
set_option maxHeartbeats 4000000 in
/-- This stretch does not write %v101. -/
theorem max1_keeps_main_v101 (W : Valuation τ sig (Elt Ideal)) :
    after (opsMax1 (F := Ideal)) W (Proc.devRef .tc main_v101) = W (Proc.devRef .tc main_v101) := by
  after_results_simp <;> rfl

set_option maxRecDepth 8192 in
set_option maxHeartbeats 4000000 in
/-- This stretch does not write %v12. -/
theorem max1_keeps_main_v12 (W : Valuation τ sig (Elt Ideal)) :
    after (opsMax1 (F := Ideal)) W (Proc.devRef .tc main_v12) = W (Proc.devRef .tc main_v12) := by
  after_results_simp <;> rfl

set_option maxRecDepth 8192 in
set_option maxHeartbeats 4000000 in
/-- This stretch does not write %v34. -/
theorem max1_keeps_main_v34 (W : Valuation τ sig (Elt Ideal)) :
    after (opsMax1 (F := Ideal)) W (Proc.devRef .tc main_v34) = W (Proc.devRef .tc main_v34) := by
  after_results_simp <;> rfl

set_option maxRecDepth 8192 in
set_option maxHeartbeats 4000000 in
/-- The maximum-reduce along the columns. -/
theorem max_v0 (W : Valuation τ sig (Elt Ideal)) :
    after (opsMax0 (F := Ideal)) W (Proc.devRef .tc main_call8_v0) = Host.reduce (FloatOps.maximumf (F := Ideal) (φ := .f32)) (W (Proc.devRef .tc main_v99)) (constant (F := Ideal) S_ .f32 0xFF800000#32) reducesTo_S17408x3136_S17408_d1 h_S_ := by
  after_results_simp <;> (try simp only [cast_eq]) <;> rfl

set_option maxRecDepth 8192 in
set_option maxHeartbeats 4000000 in
/-- This stretch does not write %v99. -/
theorem max0_keeps_main_v99 (W : Valuation τ sig (Elt Ideal)) :
    after (opsMax0 (F := Ideal)) W (Proc.devRef .tc main_v99) = W (Proc.devRef .tc main_v99) := by
  after_results_simp <;> rfl

set_option maxRecDepth 8192 in
set_option maxHeartbeats 4000000 in
/-- This stretch does not write %v100. -/
theorem max0_keeps_main_v100 (W : Valuation τ sig (Elt Ideal)) :
    after (opsMax0 (F := Ideal)) W (Proc.devRef .tc main_v100) = W (Proc.devRef .tc main_v100) := by
  after_results_simp <;> rfl

set_option maxRecDepth 8192 in
set_option maxHeartbeats 4000000 in
/-- This stretch does not write %v101. -/
theorem max0_keeps_main_v101 (W : Valuation τ sig (Elt Ideal)) :
    after (opsMax0 (F := Ideal)) W (Proc.devRef .tc main_v101) = W (Proc.devRef .tc main_v101) := by
  after_results_simp <;> rfl

set_option maxRecDepth 8192 in
set_option maxHeartbeats 4000000 in
/-- This stretch does not write %v12. -/
theorem max0_keeps_main_v12 (W : Valuation τ sig (Elt Ideal)) :
    after (opsMax0 (F := Ideal)) W (Proc.devRef .tc main_v12) = W (Proc.devRef .tc main_v12) := by
  after_results_simp <;> rfl

set_option maxRecDepth 8192 in
set_option maxHeartbeats 4000000 in
/-- This stretch does not write %v34. -/
theorem max0_keeps_main_v34 (W : Valuation τ sig (Elt Ideal)) :
    after (opsMax0 (F := Ideal)) W (Proc.devRef .tc main_v34) = W (Proc.devRef .tc main_v34) := by
  after_results_simp <;> rfl

/-! ## The reshapes -/

set_option maxRecDepth 8192 in
set_option maxHeartbeats 4000000 in
/-- The reshaped logits. -/
theorem resh_v99 (W : Valuation τ sig (Elt Ideal)) :
    after (opsResh (F := Ideal)) W (Proc.devRef .tc main_v99) = shapeCast S17408x3136 (W (Proc.devRef .tc main_arg5)) shapeCasts_S1024x17x56x56_S17408x3136 := by
  after_results_simp <;> rfl

set_option maxRecDepth 8192 in
set_option maxHeartbeats 4000000 in
/-- The reshaped bin words. -/
theorem resh_v100 (W : Valuation τ sig (Elt Ideal)) :
    after (opsResh (F := Ideal)) W (Proc.devRef .tc main_v100) = shapeCast S17408 (W (Proc.devRef .tc main_v98)) shapeCasts_S1024x17_S17408 := by
  after_results_simp <;> rfl

set_option maxRecDepth 8192 in
set_option maxHeartbeats 4000000 in
/-- The reshaped validity bits. -/
theorem resh_v101 (W : Valuation τ sig (Elt Ideal)) :
    after (opsResh (F := Ideal)) W (Proc.devRef .tc main_v101) = shapeCast S17408 (W (Proc.devRef .tc main_v93)) shapeCasts_S1024x17_S17408 := by
  after_results_simp <;> rfl

set_option maxRecDepth 8192 in
set_option maxHeartbeats 4000000 in
/-- This stretch does not write %v12. -/
theorem resh_keeps_main_v12 (W : Valuation τ sig (Elt Ideal)) :
    after (opsResh (F := Ideal)) W (Proc.devRef .tc main_v12) = W (Proc.devRef .tc main_v12) := by
  after_results_simp <;> rfl

set_option maxRecDepth 8192 in
set_option maxHeartbeats 4000000 in
/-- This stretch does not write %v34. -/
theorem resh_keeps_main_v34 (W : Valuation τ sig (Elt Ideal)) :
    after (opsResh (F := Ideal)) W (Proc.devRef .tc main_v34) = W (Proc.devRef .tc main_v34) := by
  after_results_simp <;> rfl

/-! ## The validity bits and the bin words -/

/-- The "visible" bits: the visibility column compared with zero. -/
def visOf (vis : FVec Ideal S1024x17 .f32) : IVec S1024x17 1 :=
  cmpf .ogt vis (broadcastInDim S1024x17 ![] bcast_S_S1024x17 (constant (F := Ideal) S_ .f32 0x00000000#32))

set_option maxRecDepth 8192 in
set_option maxHeartbeats 4000000 in
/-- The validity bits of the coordinate words and the visible bits. -/
theorem mid_v93 (W : Valuation τ sig (Elt Ideal)) :
    after (opsMid (F := Ideal)) W (Proc.devRef .tc main_v93) = validOf (W (Proc.devRef .tc main_v75)) (W (Proc.devRef .tc main_v79)) (visOf (W (Proc.devRef .tc main_v59))) := by
  after_results_simp <;> rfl

set_option maxRecDepth 8192 in
set_option maxHeartbeats 4000000 in
/-- The bin words. -/
theorem mid_v98 (W : Valuation τ sig (Elt Ideal)) :
    after (opsMid (F := Ideal)) W (Proc.devRef .tc main_v98) = linOf (W (Proc.devRef .tc main_v75)) (W (Proc.devRef .tc main_v79)) (visOf (W (Proc.devRef .tc main_v59))) := by
  after_results_simp <;> rfl

set_option maxRecDepth 8192 in
set_option maxHeartbeats 4000000 in
/-- This stretch does not write %arg5. -/
theorem mid_keeps_main_arg5 (W : Valuation τ sig (Elt Ideal)) :
    after (opsMid (F := Ideal)) W (Proc.devRef .tc main_arg5) = W (Proc.devRef .tc main_arg5) := by
  after_results_simp <;> rfl

set_option maxRecDepth 8192 in
set_option maxHeartbeats 4000000 in
/-- This stretch does not write %v12. -/
theorem mid_keeps_main_v12 (W : Valuation τ sig (Elt Ideal)) :
    after (opsMid (F := Ideal)) W (Proc.devRef .tc main_v12) = W (Proc.devRef .tc main_v12) := by
  after_results_simp <;> rfl

set_option maxRecDepth 8192 in
set_option maxHeartbeats 4000000 in
/-- This stretch does not write %v34. -/
theorem mid_keeps_main_v34 (W : Valuation τ sig (Elt Ideal)) :
    after (opsMid (F := Ideal)) W (Proc.devRef .tc main_v34) = W (Proc.devRef .tc main_v34) := by
  after_results_simp <;> rfl

/-! ## The whole line -/

/-- What the take-along-axis stretch leaves: each row of the log-softmax at its bin word. -/
def TakeStretch : Prop :=
  ∀ W : Valuation τ sig (Elt Ideal), after (opsTake (F := Ideal)) W (Proc.devRef .tc main_v105)
    = takeOf (W (Proc.devRef .tc main_v102)) (W (Proc.devRef .tc main_v100))

/-- The take-along-axis stretch, from its own module (the same list of operations). -/
theorem takeStretch : TakeStretch := fun W => take_v105' W

/-- The row maxima from their two stretches. -/
theorem rowMaxV_eq (X : FVec Ideal S17408x3136 .f32) :
    maximumf (broadcastInDim S17408 ![] bcast_S_S17408 (constant (F := Ideal) S_ .f32 0xFF800000#32))
      (Host.reduce (FloatOps.maximumf (F := Ideal) (φ := .f32)) X (constant (F := Ideal) S_ .f32 0xFF800000#32) reducesTo_S17408x3136_S17408_d1 h_S_)
      = rowMaxV X := rfl

/-- The log-softmax from its three stretches. -/
theorem logpV_eq (X : FVec Ideal S17408x3136 .f32) :
    subf (subf X (broadcastInDim S17408x3136 ![0, 1] bcast_S17408x1_S17408x3136_0_1 (broadcastInDim S17408x1 ![0] bcast_S17408_S17408x1_0 (rowMaxV X)))) (broadcastInDim S17408x3136 ![0, 1] bcast_S17408x1_S17408x3136_0_1
        (Host.log (broadcastInDim S17408x1 ![0] bcast_S17408_S17408x1_0
          (Host.reduceAdd (Host.exp (subf X (broadcastInDim S17408x3136 ![0, 1] bcast_S17408x1_S17408x3136_0_1 (broadcastInDim S17408x1 ![0] bcast_S17408_S17408x1_0 (rowMaxV X))))) (constant (F := Ideal) S_ .f32 0x00000000#32) reducesTo_S17408x3136_S17408_d1 h_S_))))
      = logpV X := rfl

/-- The result array after the whole line, from any contents V, in terms of what the prefix leaves. -/
theorem result_fold (hT : TakeStretch) (V : Valuation τ sig (Elt Ideal)) :
    after (RunHand.ops (F := Ideal)) V (Proc.devRef .tc main_v116)
      = assemble (after opsPre V (Proc.devRef .tc main_v12)) (after opsPre V (Proc.devRef .tc main_v34))
          (kpV (shapeCast _ (after opsPre V (Proc.devRef .tc main_arg5)) shapeCasts_S1024x17x56x56_S17408x3136)
            (shapeCast _ (linOf (after opsPre V (Proc.devRef .tc main_v75)) (after opsPre V (Proc.devRef .tc main_v79))
              (visOf (after opsPre V (Proc.devRef .tc main_v59)))) shapeCasts_S1024x17_S17408)
            (shapeCast _ (validOf (after opsPre V (Proc.devRef .tc main_v75)) (after opsPre V (Proc.devRef .tc main_v79))
              (visOf (after opsPre V (Proc.devRef .tc main_v59)))) shapeCasts_S1024x17_S17408)) := by
  rw [ops_split, after_append]
  generalize after opsPre V = W
  unfold opsRest
  rw [after_append, after_append, after_append, after_append, after_append, after_append, after_append, after_append]
  rw [last_result, mean_v113, mean_v114, mean_v115, take_keeps_main_v12, take_keeps_main_v34, hT, take_keeps_main_v101,
    lse_keeps_main_v12, lse_keeps_main_v34, lse_v102, lse_keeps_main_v100, lse_keeps_main_v101,
    shift_keeps_main_v12, shift_keeps_main_v34, shift_v5, shift_keeps_main_v100, shift_keeps_main_v101,
    max1_keeps_main_v12, max1_keeps_main_v34, max1_keeps_main_v99, max_v2, max1_keeps_main_v100, max1_keeps_main_v101,
    max0_keeps_main_v12, max0_keeps_main_v34, max0_keeps_main_v99, max_v0, max0_keeps_main_v100, max0_keeps_main_v101,
    resh_keeps_main_v12, resh_keeps_main_v34, resh_v99, resh_v100, resh_v101,
    mid_keeps_main_v12, mid_keeps_main_v34, mid_keeps_main_arg5, mid_v98, mid_v93, rowMaxV_eq, logpV_eq]
  rfl

/-- The result array after the whole line: the classification loss and the box loss the prefix leaves, and the
    specification's keypoint loss of the reshaped logits, bin words and validity bits. -/
theorem result_spec (hT : TakeStretch) (V : Valuation τ sig (Elt Ideal)) :
    after (RunHand.ops (F := Ideal)) V (Proc.devRef .tc main_v116)
      = assemble (after opsPre V (Proc.devRef .tc main_v12)) (after opsPre V (Proc.devRef .tc main_v34))
          (fun _ => Cert.KpLoss.kpLoss
            (fun r k => shapeCast S17408x3136 (after opsPre V (Proc.devRef .tc main_arg5)) shapeCasts_S1024x17x56x56_S17408x3136 (ix2 r k))
            (fun r => shapeCast S17408 (linOf (after opsPre V (Proc.devRef .tc main_v75)) (after opsPre V (Proc.devRef .tc main_v79))
              (visOf (after opsPre V (Proc.devRef .tc main_v59)))) shapeCasts_S1024x17_S17408 (ix1 r))
            (fun r => shapeCast S17408 (validOf (after opsPre V (Proc.devRef .tc main_v75)) (after opsPre V (Proc.devRef .tc main_v79))
              (visOf (after opsPre V (Proc.devRef .tc main_v59)))) shapeCasts_S1024x17_S17408 (ix1 r))) := by
  rw [result_fold hT]
  refine congrArg (assemble _ _) (funext fun i => ?_)
  exact kpV_at _ _ _ (linOf_range _ _ _) i

/-- The reference's result array after the whole line, from any contents V. -/
theorem ref_result (V : Valuation τ sig (Elt Ideal)) :
    after (RunHand.ops (F := Ideal)) V (Proc.devRef .tc main_v116)
      = assemble (after opsPre V (Proc.devRef .tc main_v12)) (after opsPre V (Proc.devRef .tc main_v34))
          (fun _ => Cert.KpLoss.kpLoss
            (fun r k => shapeCast S17408x3136 (after opsPre V (Proc.devRef .tc main_arg5)) shapeCasts_S1024x17x56x56_S17408x3136 (ix2 r k))
            (fun r => shapeCast S17408 (linOf (after opsPre V (Proc.devRef .tc main_v75)) (after opsPre V (Proc.devRef .tc main_v79))
              (visOf (after opsPre V (Proc.devRef .tc main_v59)))) shapeCasts_S1024x17_S17408 (ix1 r))
            (fun r => shapeCast S17408 (validOf (after opsPre V (Proc.devRef .tc main_v75)) (after opsPre V (Proc.devRef .tc main_v79))
              (visOf (after opsPre V (Proc.devRef .tc main_v59)))) shapeCasts_S1024x17_S17408 (ix1 r))) :=
  result_spec takeStretch V

end Cert.ReferenceIdeal.RefValue

end
-- ==== Proof.ColCast.lean ====
/-
  Three small readings used on both programs' sides, over literal shapes.

  * A 1024 × 17 array cast to a 17408 × 1 column and to a flat 17408-vector holds the same entries: entry `j` of either
    is the array at row `j / 17`, column `j % 17` (the row-major position is `j` in all three shapes).
  * A validity bit converted to a float, read unsigned, is the bit as a number.
  * A 1 × 1 array cast to a scalar reads its one entry.
-/
import proofs.«117586_j82575041232910_1_alg».proof.Proof.LossSpec
import Idealize.ShloMosaic.Lib.Pipeline.Value
import Idealize.ShloMosaic.Lib.ValueIdx
import Idealize.ShloMosaic.Lib.ValueLayout

noncomputable section

namespace Cert.KpLoss

open Idealize.ShloMosaic Idealize.ShloMosaic.ValueIdx

/-- Entry `j` of the column cast and of the flat cast of a 1024 × 17 array are the same entry of the array. -/
theorem col_eq_flat {α : Type} (y : (⟨2, ![1024, 17]⟩ : Shape).Idx → α)
    (h : (⟨2, ![1024, 17]⟩ : Shape).ShapeCasts ⟨2, ![17408, 1]⟩)
    (h' : (⟨2, ![1024, 17]⟩ : Shape).ShapeCasts ⟨1, ![17408]⟩) (j : Fin 17408) :
    shapeCast ⟨2, ![17408, 1]⟩ y h (ix2 j (0 : Fin 1)) = shapeCast ⟨1, ![17408]⟩ y h' (ix1 j) := by
  have hj := j.isLt
  have e1 := shapeCast_apply y h (ix2 j (0 : Fin 1))
    (ix2 (⟨j.val / 17, by omega⟩ : Fin 1024) (⟨j.val % 17, Nat.mod_lt _ (by norm_num)⟩ : Fin 17)) (by
      rw [Shape.rowMajor_val_two, Shape.rowMajor_val_two]
      show j.val / 17 * 17 + j.val % 17 = j.val * 1 + 0
      omega)
  have e2 := shapeCast_apply y h' (ix1 j)
    (ix2 (⟨j.val / 17, by omega⟩ : Fin 1024) (⟨j.val % 17, Nat.mod_lt _ (by norm_num)⟩ : Fin 17)) (by
      rw [Shape.rowMajor_val_two, Shape.rowMajor_val_one]
      show j.val / 17 * 17 + j.val % 17 = j.val
      omega)
  rw [e1, e2]

/-- A bit converted to a float, read unsigned, is the bit as a number. -/
theorem uitofp_bit (b : BitVec 1) : (FloatOps.uitofp (F := Ideal) .f32 b : EReal) = validf b := rfl

/-- The same on a vector, read at an index. -/
theorem uitofp_validf {S : Shape} (v : IVec S 1) (i : S.Idx) : uitofp (F := Ideal) .f32 v i = validf (v i) := rfl

/-- A 1 × 1 array cast to a scalar reads its one entry. -/
theorem cast_1x1_scalar {α : Type} (x : (⟨2, ![1, 1]⟩ : Shape).Idx → α)
    (h : (⟨2, ![1, 1]⟩ : Shape).ShapeCasts ⟨0, ![]⟩) (i : (⟨0, ![]⟩ : Shape).Idx) :
    shapeCast ⟨0, ![]⟩ x h i = x (ix2 (0 : Fin 1) (0 : Fin 1)) := by
  unfold shapeCast
  refine congrArg x (funext fun a => Fin.ext ?_)
  have h1 : ∀ k : (⟨2, ![1, 1]⟩ : Shape).Idx, (k a).val = 0 := by
    intro k
    match a with
    | ⟨0, _⟩ => exact Nat.lt_one_iff.mp (k _).isLt
    | ⟨1, _⟩ => exact Nat.lt_one_iff.mp (k _).isLt
  rw [h1, h1]

end Cert.KpLoss

end
-- ==== Proof.LossBridge.lean ====
/-
  The two idealized programs return the same three losses.
  The kernel program's result array is the two losses its host lines compute before the region, followed by the quotient
  of the sum accumulator by the larger of the count accumulator and one; the reference's is the same two losses followed
  by the specification's keypoint loss of the reshaped heat maps, the bin words and the validity bits. The first two agree
  because the two programs' host lines are the same operations on the same arguments. For the third: the kernel's sum
  accumulator is the sum over all 17408 rows of minus the row's log-softmax at its bin times the row's validity read as a
  number, and its count accumulator the sum of the validities — the block sums of the 68 grid points regrouped —, and the
  rows, bins and validities the region finds are the reference's, laid out as columns. Every bin word is below 3136 (a
  valid row's coordinates are in [0, 56), an invalid row's word is zero), which is what makes the kernel's one-hot masked
  sum the entry the reference gathers.
-/
import proofs.«117586_j82575041232910_1_alg».proof.Defs
import proofs.«117586_j82575041232910_1_alg».proof.Proof.KernelIdealFinal
import proofs.«117586_j82575041232910_1_alg».proof.Proof.KernelIdealLoss
import proofs.«117586_j82575041232910_1_alg».proof.Proof.PrefixSame
import proofs.«117586_j82575041232910_1_alg».proof.Proof.RefTail
import proofs.«117586_j82575041232910_1_alg».proof.Proof.ColCast
import proofs.«117586_j82575041232910_1_alg».proof.Proof.Gen.Pre_finite_inputs

set_option maxRecDepth 65536

noncomputable section

open Idealize.ShloMosaic Idealize.ShloMosaic.TcCoe Idealize.SL.Sem
open Cert.KpLoss

namespace Cert.Bridge

/-- Three scalars stacked into a three-element array, over literal shapes (so that both programs' spellings are it). -/
def stack3 (hb : (⟨0, ![]⟩ : Shape).BroadcastsInDim ⟨1, ![1]⟩ (![] : Fin 0 → Fin (⟨1, ![1]⟩ : Shape).rank))
    (hc : Shape.Concatenates [(⟨1, ![1]⟩ : Shape), ⟨1, ![1]⟩, ⟨1, ![1]⟩] ⟨1, ![3]⟩ 0)
    (a b q : (⟨0, ![]⟩ : Shape).Idx → EReal) : (⟨1, ![3]⟩ : Shape).Idx → EReal :=
  concatenate ⟨1, ![3]⟩ 0 [⟨⟨1, ![1]⟩, broadcastInDim ⟨1, ![1]⟩ ![] hb a⟩, ⟨⟨1, ![1]⟩, broadcastInDim ⟨1, ![1]⟩ ![] hb b⟩,
    ⟨⟨1, ![1]⟩, broadcastInDim ⟨1, ![1]⟩ ![] hb q⟩] hc

theorem stack3_congr (hb) (hc) {a a' b b' q q' : (⟨0, ![]⟩ : Shape).Idx → EReal} (ha : a = a') (hb' : b = b') (hq : q = q') :
    stack3 hb hc a b q = stack3 hb hc a' b' q' := by subst ha hb' hq; rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- A host quotient, a maximum and a scalar constant, read at an index. -/
theorem hostDivf_at {s : Shape} (a b : FVec Ideal s .f32) (i : s.Idx) : Host.divf a b i = Ideal.div (a i) (b i) := rfl
theorem maximumf_at {s : Shape} (a b : FVec Ideal s .f32) (i : s.Idx) : maximumf a b i = max (a i) (b i) := rfl
theorem constant_at {s : Shape} (w : BitVec 32) (i : s.Idx) : constant (F := Ideal) s .f32 w i = Ideal.ofBits .f32 w := rfl

/-- The heat-map rows the region finds are the reference's. -/
theorem rows_same (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (j : Fin 17408) (k : Fin 3136) :
    Cert.KernelIdeal.Loss.X m c j k = (fun r k => shapeCast Cert.ReferenceIdeal.S17408x3136 (StableHlo.after Cert.ReferenceIdeal.RefValue.opsPre (StableHlo.launchContents m' c) (Proc.devRef .tc Cert.ReferenceIdeal.main_arg5)) Cert.ReferenceIdeal.Facts₀.shapeCasts_S1024x17x56x56_S17408x3136 (ValueIdx.ix2 r k)) j k := by
  unfold Cert.KernelIdeal.Loss.X
  rw [same_v99 m m' c h5]

/-- The bin words the region finds are the reference's. -/
theorem bins_same (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (j : Fin 17408) :
    Cert.KernelIdeal.Loss.L m c j = (fun r => shapeCast Cert.ReferenceIdeal.S17408 (Cert.ReferenceIdeal.RefValue.linOf (StableHlo.after Cert.ReferenceIdeal.RefValue.opsPre (StableHlo.launchContents m' c) (Proc.devRef .tc Cert.ReferenceIdeal.main_v75)) (StableHlo.after Cert.ReferenceIdeal.RefValue.opsPre (StableHlo.launchContents m' c) (Proc.devRef .tc Cert.ReferenceIdeal.main_v79)) (Cert.ReferenceIdeal.RefValue.visOf (StableHlo.after Cert.ReferenceIdeal.RefValue.opsPre (StableHlo.launchContents m' c) (Proc.devRef .tc Cert.ReferenceIdeal.main_v59)))) Cert.ReferenceIdeal.Facts₀.shapeCasts_S1024x17_S17408 (ValueIdx.ix1 r)) j := by
  unfold Cert.KernelIdeal.Loss.L
  rw [same_v100 m m' c h3 h4 h7]
  exact col_eq_flat _ _ _ j

/-- The validities the region finds, as numbers, are the reference's validity bits read as numbers. -/
theorem valid_same (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (j : Fin 17408) :
    Cert.KernelIdeal.Loss.Vf m c j = validf ((fun r => shapeCast Cert.ReferenceIdeal.S17408 (Cert.ReferenceIdeal.RefValue.validOf (StableHlo.after Cert.ReferenceIdeal.RefValue.opsPre (StableHlo.launchContents m' c) (Proc.devRef .tc Cert.ReferenceIdeal.main_v75)) (StableHlo.after Cert.ReferenceIdeal.RefValue.opsPre (StableHlo.launchContents m' c) (Proc.devRef .tc Cert.ReferenceIdeal.main_v79)) (Cert.ReferenceIdeal.RefValue.visOf (StableHlo.after Cert.ReferenceIdeal.RefValue.opsPre (StableHlo.launchContents m' c) (Proc.devRef .tc Cert.ReferenceIdeal.main_v59)))) Cert.ReferenceIdeal.Facts₀.shapeCasts_S1024x17_S17408 (ValueIdx.ix1 r)) j) := by
  unfold Cert.KernelIdeal.Loss.Vf
  rw [same_v102 m m' c h3 h4 h7, uitofp_validf]
  exact congrArg validf (col_eq_flat _ _ _ j)

/-- The kernel's sums over all rows are the specification's sums of the reference's rows, bin words and validity bits. -/
theorem sums_same (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h67 : 67 < Cert.KernelIdeal.cfg0.N) :
    Ideal.div ((Cert.KernelIdeal.Accum.accs (F := Ideal) m c 67 h67).1 (ValueIdx.ix2 (0 : Fin 1) (0 : Fin 1)))
        (max ((Cert.KernelIdeal.Accum.accs (F := Ideal) m c 67 h67).2 (ValueIdx.ix2 (0 : Fin 1) (0 : Fin 1))) 1)
      = kpLoss (fun r k => shapeCast Cert.ReferenceIdeal.S17408x3136 (StableHlo.after Cert.ReferenceIdeal.RefValue.opsPre (StableHlo.launchContents m' c) (Proc.devRef .tc Cert.ReferenceIdeal.main_arg5)) Cert.ReferenceIdeal.Facts₀.shapeCasts_S1024x17x56x56_S17408x3136 (ValueIdx.ix2 r k))
          (fun r => shapeCast Cert.ReferenceIdeal.S17408 (Cert.ReferenceIdeal.RefValue.linOf (StableHlo.after Cert.ReferenceIdeal.RefValue.opsPre (StableHlo.launchContents m' c) (Proc.devRef .tc Cert.ReferenceIdeal.main_v75)) (StableHlo.after Cert.ReferenceIdeal.RefValue.opsPre (StableHlo.launchContents m' c) (Proc.devRef .tc Cert.ReferenceIdeal.main_v79)) (Cert.ReferenceIdeal.RefValue.visOf (StableHlo.after Cert.ReferenceIdeal.RefValue.opsPre (StableHlo.launchContents m' c) (Proc.devRef .tc Cert.ReferenceIdeal.main_v59)))) Cert.ReferenceIdeal.Facts₀.shapeCasts_S1024x17_S17408 (ValueIdx.ix1 r))
          (fun r => shapeCast Cert.ReferenceIdeal.S17408 (Cert.ReferenceIdeal.RefValue.validOf (StableHlo.after Cert.ReferenceIdeal.RefValue.opsPre (StableHlo.launchContents m' c) (Proc.devRef .tc Cert.ReferenceIdeal.main_v75)) (StableHlo.after Cert.ReferenceIdeal.RefValue.opsPre (StableHlo.launchContents m' c) (Proc.devRef .tc Cert.ReferenceIdeal.main_v79)) (Cert.ReferenceIdeal.RefValue.visOf (StableHlo.after Cert.ReferenceIdeal.RefValue.opsPre (StableHlo.launchContents m' c) (Proc.devRef .tc Cert.ReferenceIdeal.main_v59)))) Cert.ReferenceIdeal.Facts₀.shapeCasts_S1024x17_S17408 (ValueIdx.ix1 r)) := by
  have hL : ∀ j, (Cert.KernelIdeal.Loss.L m c j).toNat < 3136 := fun j => by
    rw [bins_same m m' c h3 h4 h7 j]; exact Cert.ReferenceIdeal.RefValue.linOf_range _ _ _ j
  rw [Cert.KernelIdeal.Loss.sum_eq m c hL h67, Cert.KernelIdeal.Loss.cnt_eq m c h67]
  unfold kpLoss kpSum kpCnt rowTerm
  simp only [rows_same m m' c h5, bins_same m m' c h3 h4 h7, valid_same m m' c h3 h4 h7]

/-- The kernel's quotient of its two accumulators is the specification's keypoint loss of the reference's rows, bin words
    and validity bits. -/
theorem kp_same (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (i : Cert.KernelIdeal.S_.Idx) :
    (Host.divf (shapeCast Cert.KernelIdeal.S_ (Cert.KernelIdeal.Accum.sumArr m c) Cert.KernelIdeal.Facts₀.shapeCasts_S1x1_S_)
        (maximumf (shapeCast Cert.KernelIdeal.S_ (Cert.KernelIdeal.Accum.cntArr m c) Cert.KernelIdeal.Facts₀.shapeCasts_S1x1_S_) (constant (F := Ideal) Cert.KernelIdeal.S_ .f32 0x3F800000#32))) i
      = kpLoss (fun r k => shapeCast Cert.ReferenceIdeal.S17408x3136 (StableHlo.after Cert.ReferenceIdeal.RefValue.opsPre (StableHlo.launchContents m' c) (Proc.devRef .tc Cert.ReferenceIdeal.main_arg5)) Cert.ReferenceIdeal.Facts₀.shapeCasts_S1024x17x56x56_S17408x3136 (ValueIdx.ix2 r k))
          (fun r => shapeCast Cert.ReferenceIdeal.S17408 (Cert.ReferenceIdeal.RefValue.linOf (StableHlo.after Cert.ReferenceIdeal.RefValue.opsPre (StableHlo.launchContents m' c) (Proc.devRef .tc Cert.ReferenceIdeal.main_v75)) (StableHlo.after Cert.ReferenceIdeal.RefValue.opsPre (StableHlo.launchContents m' c) (Proc.devRef .tc Cert.ReferenceIdeal.main_v79)) (Cert.ReferenceIdeal.RefValue.visOf (StableHlo.after Cert.ReferenceIdeal.RefValue.opsPre (StableHlo.launchContents m' c) (Proc.devRef .tc Cert.ReferenceIdeal.main_v59)))) Cert.ReferenceIdeal.Facts₀.shapeCasts_S1024x17_S17408 (ValueIdx.ix1 r))
          (fun r => shapeCast Cert.ReferenceIdeal.S17408 (Cert.ReferenceIdeal.RefValue.validOf (StableHlo.after Cert.ReferenceIdeal.RefValue.opsPre (StableHlo.launchContents m' c) (Proc.devRef .tc Cert.ReferenceIdeal.main_v75)) (StableHlo.after Cert.ReferenceIdeal.RefValue.opsPre (StableHlo.launchContents m' c) (Proc.devRef .tc Cert.ReferenceIdeal.main_v79)) (Cert.ReferenceIdeal.RefValue.visOf (StableHlo.after Cert.ReferenceIdeal.RefValue.opsPre (StableHlo.launchContents m' c) (Proc.devRef .tc Cert.ReferenceIdeal.main_v59)))) Cert.ReferenceIdeal.Facts₀.shapeCasts_S1024x17_S17408 (ValueIdx.ix1 r)) := by
  have hs : shapeCast Cert.KernelIdeal.S_ (Cert.KernelIdeal.Accum.sumArr m c) Cert.KernelIdeal.Facts₀.shapeCasts_S1x1_S_ i
      = (Cert.KernelIdeal.Accum.sumArr m c) (ValueIdx.ix2 (0 : Fin 1) (0 : Fin 1)) := cast_1x1_scalar _ _ i
  have hc : shapeCast Cert.KernelIdeal.S_ (Cert.KernelIdeal.Accum.cntArr m c) Cert.KernelIdeal.Facts₀.shapeCasts_S1x1_S_ i
      = (Cert.KernelIdeal.Accum.cntArr m c) (ValueIdx.ix2 (0 : Fin 1) (0 : Fin 1)) := cast_1x1_scalar _ _ i
  rw [hostDivf_at, maximumf_at, constant_at, Ideal.ofBits_one_f32, hs, hc]
  exact sums_same m m' c h3 h4 h5 h7 _

/-- The two result arrays are one. -/
theorem result_same
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.KernelIdeal.Accum.stackLosses (Cert.KernelIdeal.Frame.V m c Cert.KernelIdeal.main_v12) (Cert.KernelIdeal.Frame.V m c Cert.KernelIdeal.main_v34) (Cert.KernelIdeal.Accum.sumArr m c) (Cert.KernelIdeal.Accum.cntArr m c)
      = Cert.ReferenceIdeal.RefValue.assemble (StableHlo.after Cert.ReferenceIdeal.RefValue.opsPre (StableHlo.launchContents m' c) (Proc.devRef .tc Cert.ReferenceIdeal.main_v12)) (StableHlo.after Cert.ReferenceIdeal.RefValue.opsPre (StableHlo.launchContents m' c) (Proc.devRef .tc Cert.ReferenceIdeal.main_v34))
          (fun _ => kpLoss (fun r k => shapeCast Cert.ReferenceIdeal.S17408x3136 (StableHlo.after Cert.ReferenceIdeal.RefValue.opsPre (StableHlo.launchContents m' c) (Proc.devRef .tc Cert.ReferenceIdeal.main_arg5)) Cert.ReferenceIdeal.Facts₀.shapeCasts_S1024x17x56x56_S17408x3136 (ValueIdx.ix2 r k))
            (fun r => shapeCast Cert.ReferenceIdeal.S17408 (Cert.ReferenceIdeal.RefValue.linOf (StableHlo.after Cert.ReferenceIdeal.RefValue.opsPre (StableHlo.launchContents m' c) (Proc.devRef .tc Cert.ReferenceIdeal.main_v75)) (StableHlo.after Cert.ReferenceIdeal.RefValue.opsPre (StableHlo.launchContents m' c) (Proc.devRef .tc Cert.ReferenceIdeal.main_v79)) (Cert.ReferenceIdeal.RefValue.visOf (StableHlo.after Cert.ReferenceIdeal.RefValue.opsPre (StableHlo.launchContents m' c) (Proc.devRef .tc Cert.ReferenceIdeal.main_v59)))) Cert.ReferenceIdeal.Facts₀.shapeCasts_S1024x17_S17408 (ValueIdx.ix1 r))
            (fun r => shapeCast Cert.ReferenceIdeal.S17408 (Cert.ReferenceIdeal.RefValue.validOf (StableHlo.after Cert.ReferenceIdeal.RefValue.opsPre (StableHlo.launchContents m' c) (Proc.devRef .tc Cert.ReferenceIdeal.main_v75)) (StableHlo.after Cert.ReferenceIdeal.RefValue.opsPre (StableHlo.launchContents m' c) (Proc.devRef .tc Cert.ReferenceIdeal.main_v79)) (Cert.ReferenceIdeal.RefValue.visOf (StableHlo.after Cert.ReferenceIdeal.RefValue.opsPre (StableHlo.launchContents m' c) (Proc.devRef .tc Cert.ReferenceIdeal.main_v59)))) Cert.ReferenceIdeal.Facts₀.shapeCasts_S1024x17_S17408 (ValueIdx.ix1 r))) :=
  (show Cert.KernelIdeal.Accum.stackLosses (Cert.KernelIdeal.Frame.V m c Cert.KernelIdeal.main_v12) (Cert.KernelIdeal.Frame.V m c Cert.KernelIdeal.main_v34) (Cert.KernelIdeal.Accum.sumArr m c) (Cert.KernelIdeal.Accum.cntArr m c) = stack3 Cert.KernelIdeal.Facts₀.bcast_S_S1 Cert.KernelIdeal.Facts₀.concatenates_S1_S1_S1_S3_d0 _ _ _ from rfl).trans
    ((stack3_congr _ _ (same_v12 m m' c h0 h6) (same_v34 m m' c h1 h2 h6) (funext fun i => kp_same m m' c h3 h4 h5 h7 i)).trans rfl)

/-- THE ALGEBRAIC CLAIM: from memories agreeing on the arguments both idealized programs run to the end with the same
    result array, element by element, and unchanged arguments. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Accum.stackLosses (Cert.KernelIdeal.Frame.V m c Cert.KernelIdeal.main_v12) (Cert.KernelIdeal.Frame.V m c Cert.KernelIdeal.main_v34) (Cert.KernelIdeal.Accum.sumArr m c) (Cert.KernelIdeal.Accum.cntArr m c),
    Cert.KernelIdeal.Accum.run_value (F := Ideal) m ρ, ?_⟩
  refine (θ_run Cert.ReferenceIdeal.defs _ _).mono (fun r h c => ?_) (Cert.ReferenceIdeal.RunHand.run_fold (F := Ideal) m' ρ')
  obtain ⟨h0, h1, h2, h3, h4, h5, h6, h7⟩ := hagree c
  refine ⟨?_, (h c Cert.ReferenceIdeal.main_arg0).trans (Cert.ReferenceIdeal.RunHand.after_arg0 _),
    (h c Cert.ReferenceIdeal.main_arg1).trans (Cert.ReferenceIdeal.RunHand.after_arg1 _),
    (h c Cert.ReferenceIdeal.main_arg2).trans (Cert.ReferenceIdeal.RunHand.after_arg2 _),
    (h c Cert.ReferenceIdeal.main_arg3).trans (Cert.ReferenceIdeal.RunHand.after_arg3 _),
    (h c Cert.ReferenceIdeal.main_arg4).trans (Cert.ReferenceIdeal.RunHand.after_arg4 _),
    (h c Cert.ReferenceIdeal.main_arg5).trans (Cert.ReferenceIdeal.RunHand.after_arg5 _),
    (h c Cert.ReferenceIdeal.main_arg6).trans (Cert.ReferenceIdeal.RunHand.after_arg6 _),
    (h c Cert.ReferenceIdeal.main_arg7).trans (Cert.ReferenceIdeal.RunHand.after_arg7 _)⟩
  rw [h c Cert.ReferenceIdeal.main_v116, Cert.ReferenceIdeal.RefValue.ref_result]
  exact (result_same m m' c h0 h1 h2 h3 h4 h5 h6 h7).symm

end Cert.Bridge

end
-- ==== Proof.lean ====
/-
  The certificate of the RoI-heads losses kernel against its jnp reference: three frames, the (empty) idealization
  ledger, and the equality of the two idealized programs' results on the extended reals.

  The kernel program computes the classification loss and the box loss with host operations, and the keypoint loss with
  one pallas_call over 68 blocks of 256 heat-map rows: per row the log-softmax (row maximum, exponentials, their sum, its
  logarithm), the entry at the row's target bin picked by a one-hot mask and a lane sum, negated, times the row's validity;
  the block's sum is added into a 1 × 1 accumulator carried across the grid (zeroed at the first point), the validities
  into a second one; after the region the sum is divided by the larger of the count and one. The reference computes the
  log-softmax of the whole 17408 × 3136 array, gathers each row's entry at its bin, negates, selects zero for invalid rows,
  sums once, and divides by the same count.

  Frames: each kernel program's frame is the launch of its one region around host lines (the body run whole in its two
  cases, the accumulators followed point by point), the reference's its operations' run; no operation writes an argument.
  Value: the accumulators after the last point are the sums over all rows (the 68 × 256 double sum regrouped); the host
  lines the two programs share give the same values from the same arguments; every bin word is below 3136, so the masked
  sum is the gathered entry; 0 - a = -a and a · 1 = a, a · 0 = 0 on the extended reals. The precondition is not used.
-/
import proofs.«117586_j82575041232910_1_alg».proof.Defs
import proofs.«117586_j82575041232910_1_alg».proof.Proof.KernelFrame
import proofs.«117586_j82575041232910_1_alg».proof.Proof.KernelIdealFrame
import proofs.«117586_j82575041232910_1_alg».proof.Proof.RefRunHand
import proofs.«117586_j82575041232910_1_alg».proof.Proof.LossBridge
import proofs.«117586_j82575041232910_1_alg».proof.Proof.Gen.Kernel
import proofs.«117586_j82575041232910_1_alg».proof.Proof.Gen.KernelIdeal
import proofs.«117586_j82575041232910_1_alg».proof.Proof.Gen.ReferenceIdeal
import proofs.«117586_j82575041232910_1_alg».proof.Proof.Gen.Pre_finite_inputs

noncomputable section

namespace Cert.Proof

open Idealize.ShloMosaic Idealize.SL.Sem

/-- The word-level kernel program runs to the end, faults nowhere, and leaves its arguments as launched. -/
theorem frame_k : Cert.frame_Kernel (hKernel := Cert.Kernel.Gen.facts) (hPre_finite_inputs := Cert.Pre_finite_inputs.Gen.facts) :=
  fun m ρ _ => Cert.Kernel.Frame.frame (F := Bits) m ρ
/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Frame.frame (F := Ideal) m ρ
/-- And the idealized reference. -/
theorem frame_ri : Cert.frame_ReferenceIdeal (hReferenceIdeal := Cert.ReferenceIdeal.Gen.facts) (hPre_finite_inputs := Cert.Pre_finite_inputs.Gen.facts) :=
  fun m ρ _ => Cert.ReferenceIdeal.RunHand.frame_run (F := Ideal) m ρ
/-- The ideal pass rewrote no operation: the idealization is the program's own text read on the extended reals. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Bridge.algebraic⟩

end Cert.Proof

end
